-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S128x1 .f32) (main_arg20 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg19
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S256 .f32) (main_arg16 : FVec F S256 .f32) (main_arg17 : FVec F S256x128 .f32) (main_arg18 : FVec F S128 .f32) (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x256 .f32) (main_arg13 : FVec F S128x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S64x128 .f32) (main_arg9 : FVec F S128 .f32) (main_arg10 : FVec F S128 .f32) (main_arg11 : FVec F S128 .f32) (main_arg12 : FVec F S128x256 .f32) (main_arg13 : FVec F S128x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S64 .f32) (main_arg6 : FVec F S64 .f32) (main_arg7 : FVec F S64x128 .f32) (main_arg8 : FVec F S64x128 .f32) (main_arg9 : FVec F S128 .f32) (main_arg10 : FVec F S128 .f32) (main_arg11 : FVec F S128 .f32) (main_arg12 : FVec F S128x256 .f32) (main_arg13 : FVec F S128x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x6 .f32) (main_arg1 : IVec S2x1600000 32) (main_arg2 : FVec F S6x64 .f32) (main_arg3 : FVec F S6x64 .f32) (main_arg4 : FVec F S64 .f32) (main_arg5 : FVec F S64 .f32) (main_arg6 : FVec F S64 .f32) (main_arg7 : FVec F S64x128 .f32) (main_arg8 : FVec F S64x128 .f32) (main_arg9 : FVec F S128 .f32) (main_arg10 : FVec F S128 .f32) (main_arg11 : FVec F S128 .f32) (main_arg12 : FVec F S128x256 .f32) (main_arg13 : FVec F S128x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S6x64 .f32 := Host.absf main_arg3
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1x64 : Shape := ⟨2, ![1, 64]⟩
abbrev S100000x64 : Shape := ⟨2, ![100000, 64]⟩
abbrev S2000x6 : Shape := ⟨2, ![2000, 6]⟩
abbrev S2000x64 : Shape := ⟨2, ![2000, 64]⟩
abbrev S1600000x64 : Shape := ⟨2, ![1600000, 64]⟩
abbrev S1x128 : Shape := ⟨2, ![1, 128]⟩
abbrev S100000x128 : Shape := ⟨2, ![100000, 128]⟩
abbrev S2000x128 : Shape := ⟨2, ![2000, 128]⟩
abbrev S1600000x128 : Shape := ⟨2, ![1600000, 128]⟩
abbrev S1x256 : Shape := ⟨2, ![1, 256]⟩
abbrev S100000x256 : Shape := ⟨2, ![100000, 256]⟩
abbrev S2000x256 : Shape := ⟨2, ![2000, 256]⟩
abbrev S1x1 : Shape := ⟨2, ![1, 1]⟩
abbrev S100000x1 : Shape := ⟨2, ![100000, 1]⟩
abbrev S2000x1 : Shape := ⟨2, ![2000, 1]⟩
abbrev S100000 : Shape := ⟨1, ![100000]⟩

abbrev nBuf : Space → Nat
  | .hbm => 113
  | .vmem => 65
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S6x64, .f32⟩
  | .hbm, ⟨3, _⟩ => ⟨S6x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x256, .f32⟩
  | .hbm, ⟨13, _⟩ => ⟨S128x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x6, .f32⟩
  | .hbm, ⟨34, _⟩ => ⟨S_, .f32⟩
  | .hbm, ⟨35, _⟩ => ⟨S100000x6, .f32⟩
  | .hbm, ⟨36, _⟩ => ⟨S1600000x1, .i32⟩
  | .hbm, ⟨37, _⟩ => ⟨S100000x6, .f32⟩
  | .hbm, ⟨38, _⟩ => ⟨S1x64, .f32⟩
  | .hbm, ⟨39, _⟩ => ⟨S100000x64, .f32⟩
  | .hbm, ⟨40, _⟩ => ⟨S1x64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S_, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S1x128, .f32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S1x256, .f32⟩
  | .hbm, ⟨95, _⟩ => ⟨S100000x256, .f32⟩
  | .hbm, ⟨96, _⟩ => ⟨S1x256, .f32⟩
  | .hbm, ⟨97, _⟩ => ⟨S1x256, .f32⟩
  | .hbm, ⟨98, _⟩ => ⟨S_, .f32⟩
  | .hbm, ⟨99, _⟩ => ⟨S1x256, .f32⟩
  | .hbm, ⟨100, _⟩ => ⟨S1x256, .f32⟩
  | .hbm, ⟨101, _⟩ => ⟨S_, .f32⟩
  | .hbm, ⟨102, _⟩ => ⟨S1x256, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S100000x256, .f32⟩
  | .hbm, ⟨109, _⟩ => ⟨S1x128, .f32⟩
  | .hbm, ⟨110, _⟩ => ⟨S1x1, .f32⟩
  | .hbm, ⟨111, _⟩ => ⟨S100000x1, .f32⟩
  | .hbm, ⟨112, _⟩ => ⟨S100000, .f32⟩
  | .local _ .vmem, ⟨0, _⟩ => ⟨S2000x6, .f32⟩
  | .local _ .vmem, ⟨1, _⟩ => ⟨S2000x6, .f32⟩
  | .local _ .vmem, ⟨2, _⟩ => ⟨S2000x6, .f32⟩
  | .local _ .vmem, ⟨3, _⟩ => ⟨S2000x6, .f32⟩
  | .local _ .vmem, ⟨4, _⟩ => ⟨S6x64, .f32⟩
  | .local _ .vmem, ⟨5, _⟩ => ⟨S6x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S1x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S64x128, .f32⟩
  | .local _ .vmem, ⟨24, _⟩ => ⟨S64x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x256, .f32⟩
  | .local _ .vmem, ⟨43, _⟩ => ⟨S128x256, .f32⟩
  | .local _ .vmem, ⟨44, _⟩ => ⟨S1x256, .f32⟩
  | .local _ .vmem, ⟨45, _⟩ => ⟨S2000x256, .f32⟩
  | .local _ .vmem, ⟨46, _⟩ => ⟨S2000x256, .f32⟩
  | .local _ .vmem, ⟨47, _⟩ => ⟨S1x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S256x128, .f32⟩
  | .local _ .vmem, ⟨60, _⟩ => ⟨S1x128, .f32⟩
  | .local _ .vmem, ⟨61, _⟩ => ⟨S128x1, .f32⟩
  | .local _ .vmem, ⟨62, _⟩ => ⟨S1x1, .f32⟩
  | .local _ .vmem, ⟨63, _⟩ => ⟨S2000x1, .f32⟩
  | .local _ .vmem, ⟨64, _⟩ => ⟨S2000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_v15_2 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36_0 : Ref sig .tc := ⟨.hbm, 67, rfl⟩
abbrev main_v36_1 : Ref sig .tc := ⟨.hbm, 68, rfl⟩
abbrev main_v36_2 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_8 : Ref sig .tc := ⟨.hbm, 81, rfl⟩
abbrev main_v46 : Ref sig .tc := ⟨.hbm, 82, rfl⟩
abbrev main_v47 : Ref sig .tc := ⟨.hbm, 83, rfl⟩
abbrev main_c_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_10 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57_0 : Ref sig .tc := ⟨.hbm, 95, rfl⟩
abbrev main_v57_1 : Ref sig .tc := ⟨.hbm, 96, rfl⟩
abbrev main_v57_2 : Ref sig .tc := ⟨.hbm, 97, rfl⟩
abbrev main_cst_11 : Ref sig .tc := ⟨.hbm, 98, rfl⟩
abbrev main_v58 : Ref sig .tc := ⟨.hbm, 99, rfl⟩
abbrev main_v59 : Ref sig .tc := ⟨.hbm, 100, rfl⟩
abbrev main_cst_12 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg5_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  shapeCasts_S64_S1x64 : S64.ShapeCasts S1x64
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  bcast_S_S1x64 : S_.BroadcastsInDim S1x64 (![] : Fin 0 → Fin S1x64.rank)
  shapeCasts_S2000x64_S2000x64 : S2000x64.ShapeCasts S2000x64
  bcast_S_S100000x64 : S_.BroadcastsInDim S100000x64 (![] : Fin 0 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  bcast_S_S1x128 : S_.BroadcastsInDim S1x128 (![] : Fin 0 → Fin S1x128.rank)
  shapeCasts_S2000x128_S2000x128 : S2000x128.ShapeCasts S2000x128
  bcast_S_S100000x128 : S_.BroadcastsInDim S100000x128 (![] : Fin 0 → Fin S100000x128.rank)
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S1x256 : S_.BroadcastsInDim S1x256 (![] : Fin 0 → Fin S1x256.rank)
  shapeCasts_S2000x256_S2000x256 : S2000x256.ShapeCasts S2000x256
  shapeCasts_S1_S1x1 : S1.ShapeCasts S1x1
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S2000x6_S6x64_S2000x64_1_0_0_1_n_n_wf : DotDims.WF S2000x6 S6x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S100000x6.size a
  hwx0_1 : ∀ i : grid0.Coords, EltTy.bits .f32 = 32 ∨ (Rect.block (s := S100000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x64.size a ≤ S6x64.size a
  hwx0_3 : ∀ i : grid0.Coords, EltTy.bits .f32 = 32 ∨ (Rect.block (s := S6x64) S6x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S100000x256.size a
  hwx4_5 : ∀ i : grid4.Coords, EltTy.bits .f32 = 32 ∨ (Rect.block (s := S100000x256) S2000x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x256.size a
  hwx5_5 : ∀ i : grid5.Coords, EltTy.bits .f32 = 32 ∨ (Rect.block (s := S100000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S100000x1.size a
  hwx6_5 : ∀ i : grid6.Coords, EltTy.bits .f32 = 32 ∨ (Rect.block (s := S100000x1) S2000x1.size (cc6_transform_5 i) (hinb6_5 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S2000x6_S6x64_S2000x64_1_0_0_1_n_n : DotDims S2000x6 S6x64 S2000x64 where
  lhsContracting := [1]
  rhsContracting := [0]
  lhsNonContracting := [0]
  rhsNonContracting := [1]
  lhsBatch := []
  rhsBatch := []
  wf := dot_S2000x6_S6x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v13) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v36_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v57_1) S1x256.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v57_2) S1x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v57_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v66) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v68) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v69) S2000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x256 : Shape := ⟨2, ![100000, 256]⟩
abbrev S1x256 : Shape := ⟨2, ![1, 256]⟩
abbrev S100000x1 : Shape := ⟨2, ![100000, 1]⟩
abbrev S1x1 : Shape := ⟨2, ![1, 1]⟩
abbrev S100000 : Shape := ⟨1, ![100000]⟩

abbrev nBuf : Space → Nat
  | .hbm => 235
  | .vmem => 0
  | .smem => 0
  | _ => 0

abbrev hbmTy0_0 (i : Nat) : BufTy := match i % 128 with
  | 0 => ⟨S100000x6, .f32⟩
  | 1 => ⟨S2x1600000, .i32⟩
  | 2 => ⟨S6x64, .f32⟩
  | 3 => ⟨S6x64, .f32⟩
  | 4 => ⟨S64, .f32⟩
  | 5 => ⟨S64, .f32⟩
  | 6 => ⟨S64, .f32⟩
  | 7 => ⟨S64x128, .f32⟩
  | 8 => ⟨S64x128, .f32⟩
  | 9 => ⟨S128, .f32⟩
  | 10 => ⟨S128, .f32⟩
  | 11 => ⟨S128, .f32⟩
  | 12 => ⟨S128x256, .f32⟩
  | 13 => ⟨S128x256, .f32⟩
  | 14 => ⟨S256, .f32⟩
  | 15 => ⟨S256, .f32⟩
  | 16 => ⟨S256, .f32⟩
  | 17 => ⟨S256x128, .f32⟩
  | 18 => ⟨S128, .f32⟩
  | 19 => ⟨S128x1, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x6, .f32⟩
  | 34 => ⟨S_, .f32⟩
  | 35 => ⟨S100000x6, .f32⟩
  | 36 => ⟨S1600000x1, .i32⟩
  | 37 => ⟨S100000x6, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S_, .f32⟩
  | 47 => ⟨S64, .f32⟩
  | 48 => ⟨S64, .f32⟩
  | 49 => ⟨S_, .i32⟩
  | 50 => ⟨S_, .f32⟩
  | 51 => ⟨S64, .f32⟩
  | 52 => ⟨S1x64, .f32⟩
  | 53 => ⟨S_, .f32⟩
  | 54 => ⟨S1x64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S_, .f32⟩
  | 61 => ⟨S_, .f32⟩
  | 62 => ⟨S_, .f32⟩
  | 63 => ⟨S64, .f32⟩
  | 64 => ⟨S64, .f32⟩
  | 65 => ⟨S64, .f32⟩
  | 66 => ⟨S_, .f32⟩
  | 67 => ⟨S_, .i1⟩
  | 68 => ⟨S_, .f32⟩
  | 69 => ⟨S_, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S_, .f32⟩
  | 76 => ⟨S64, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S_, .f32⟩
  | 127 => ⟨S_, .f32⟩
  | _ => ⟨S100000x6, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x256, .f32⟩
  | 43 => ⟨S100000x256, .f32⟩
  | 44 => ⟨S100000x256, .f32⟩
  | 45 => ⟨S1x256, .f32⟩
  | 46 => ⟨S100000x256, .f32⟩
  | 47 => ⟨S100000x256, .f32⟩
  | 48 => ⟨S_, .f32⟩
  | 49 => ⟨S256, .f32⟩
  | 50 => ⟨S_, .f32⟩
  | 51 => ⟨S256, .f32⟩
  | 52 => ⟨S256, .f32⟩
  | 53 => ⟨S_, .i32⟩
  | 54 => ⟨S_, .f32⟩
  | 55 => ⟨S256, .f32⟩
  | 56 => ⟨S1x256, .f32⟩
  | 57 => ⟨S_, .f32⟩
  | 58 => ⟨S1x256, .f32⟩
  | 59 => ⟨S1x256, .f32⟩
  | 60 => ⟨S100000x256, .f32⟩
  | 61 => ⟨S100000x256, .f32⟩
  | 62 => ⟨S100000x256, .f32⟩
  | 63 => ⟨S_, .f32⟩
  | 64 => ⟨S_, .f32⟩
  | 65 => ⟨S_, .f32⟩
  | 66 => ⟨S_, .f32⟩
  | 67 => ⟨S256, .f32⟩
  | 68 => ⟨S256, .f32⟩
  | 69 => ⟨S256, .f32⟩
  | 70 => ⟨S_, .f32⟩
  | 71 => ⟨S_, .i1⟩
  | 72 => ⟨S_, .f32⟩
  | 73 => ⟨S_, .f32⟩
  | 74 => ⟨S256, .f32⟩
  | 75 => ⟨S256, .f32⟩
  | 76 => ⟨S1x256, .f32⟩
  | 77 => ⟨S100000x256, .f32⟩
  | 78 => ⟨S100000x256, .f32⟩
  | 79 => ⟨S_, .f32⟩
  | 80 => ⟨S256, .f32⟩
  | 81 => ⟨S256, .f32⟩
  | 82 => ⟨S256, .f32⟩
  | 83 => ⟨S1x256, .f32⟩
  | 84 => ⟨S100000x256, .f32⟩
  | 85 => ⟨S100000x256, .f32⟩
  | 86 => ⟨S1x256, .f32⟩
  | 87 => ⟨S100000x256, .f32⟩
  | 88 => ⟨S100000x256, .f32⟩
  | 89 => ⟨S1x256, .f32⟩
  | 90 => ⟨S100000x256, .f32⟩
  | 91 => ⟨S100000x256, .f32⟩
  | 92 => ⟨S_, .f32⟩
  | 93 => ⟨S100000x256, .f32⟩
  | 94 => ⟨S100000x256, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x1, .f32⟩
  | 103 => ⟨S1x1, .f32⟩
  | 104 => ⟨S100000x1, .f32⟩
  | 105 => ⟨S100000x1, .f32⟩
  | 106 => ⟨S100000, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_4 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_call1_cst : Ref sig .tc := ⟨.hbm, 88, rfl⟩
abbrev main_call1_v0 : Ref sig .tc := ⟨.hbm, 89, rfl⟩
abbrev main_v39 : Ref sig .tc := ⟨.hbm, 90, rfl⟩
abbrev main_c_5 : Ref sig .tc := ⟨.hbm, 91, rfl⟩
abbrev main_v40 : Ref sig .tc := ⟨.hbm, 92, rfl⟩
abbrev main_v41 : Ref sig .tc := ⟨.hbm, 93, rfl⟩
abbrev main_c_6 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_7 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_8 : Ref sig .tc := ⟨.hbm, 110, rfl⟩
abbrev main_v56 : Ref sig .tc := ⟨.hbm, 111, rfl⟩
abbrev main_cst_9 : Ref sig .tc := ⟨.hbm, 112, rfl⟩
abbrev main_v57 : Ref sig .tc := ⟨.hbm, 113, rfl⟩
abbrev main_v58 : Ref sig .tc := ⟨.hbm, 114, rfl⟩
abbrev main_c_10 : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_cst_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_cst_1 : Ref sig .tc := ⟨.hbm, 126, rfl⟩
abbrev main_call2_v8 : Ref sig .tc := ⟨.hbm, 127, rfl⟩
abbrev main_call2_cst_2 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_cst_3 : Ref sig .tc := ⟨.hbm, 132, rfl⟩
abbrev main_call2_v12 : Ref sig .tc := ⟨.hbm, 133, rfl⟩
abbrev main_call2_cst_4 : Ref sig .tc := ⟨.hbm, 134, rfl⟩
abbrev main_call2_call0_v0 : Ref sig .tc := ⟨.hbm, 135, rfl⟩
abbrev main_call2_call0_v1 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_cst_11 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_call3_cst : Ref sig .tc := ⟨.hbm, 154, rfl⟩
abbrev main_call3_v0 : Ref sig .tc := ⟨.hbm, 155, rfl⟩
abbrev main_v75 : Ref sig .tc := ⟨.hbm, 156, rfl⟩
abbrev main_c_12 : Ref sig .tc := ⟨.hbm, 157, rfl⟩
abbrev main_v76 : Ref sig .tc := ⟨.hbm, 158, rfl⟩
abbrev main_v77 : Ref sig .tc := ⟨.hbm, 159, rfl⟩
abbrev main_c_13 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_14 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_cst_15 : Ref sig .tc := ⟨.hbm, 176, rfl⟩
abbrev main_v92 : Ref sig .tc := ⟨.hbm, 177, rfl⟩
abbrev main_cst_16 : Ref sig .tc := ⟨.hbm, 178, rfl⟩
abbrev main_v93 : Ref sig .tc := ⟨.hbm, 179, rfl⟩
abbrev main_v94 : Ref sig .tc := ⟨.hbm, 180, rfl⟩
abbrev main_c_17 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_cst_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_cst_1 : Ref sig .tc := ⟨.hbm, 192, rfl⟩
abbrev main_call4_v8 : Ref sig .tc := ⟨.hbm, 193, rfl⟩
abbrev main_call4_cst_2 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_cst_3 : Ref sig .tc := ⟨.hbm, 198, rfl⟩
abbrev main_call4_v12 : Ref sig .tc := ⟨.hbm, 199, rfl⟩
abbrev main_call4_cst_4 : Ref sig .tc := ⟨.hbm, 200, rfl⟩
abbrev main_call4_call0_v0 : Ref sig .tc := ⟨.hbm, 201, rfl⟩
abbrev main_call4_call0_v1 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_cst_18 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_call5_cst : Ref sig .tc := ⟨.hbm, 220, rfl⟩
abbrev main_call5_v0 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_call6_cst : Ref sig .tc := ⟨.hbm, 227, rfl⟩
abbrev main_call6_v0 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  bcast_S_S256 : S_.BroadcastsInDim S256 (![] : Fin 0 → Fin S256.rank)
  bcast_S_S1x256 : S_.BroadcastsInDim S1x256 (![] : Fin 0 → Fin S1x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x64_S100000x64_1_0_0_1_n_n_wf : DotDims.WF S100000x6 S6x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run with its result NAMED. The program is seven grid launches among stretches of host
  operations; the contents of every buffer at each boundary are a fold from the launch memory
  (after the first stretch; after the first launch's write-backs; after the second stretch; and so on), whose last
  stage is the memory the program returns with. The frame statement keeps of that final memory only the argument arrays;
  here the result buffer is kept as well: it ends at the last stage of the fold, read at the result's reference.
  What that stage IS, as a function of the argument arrays, is the business of the modules that import this one.
-/
import proofs.«115009_j15960098472830_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last stage
    of the boundary fold, and the twenty-one argument arrays end as launched. -/
theorem run_named : θ_run defs (onTc (τ := τ) (main (F := F))) ⟨m, fun _ => 0, ρ⟩ (fun r => ∀ c : Dev nD,
      r.2.mem ((c.tc : Thread nD τ).loc main_v70) = W15 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v70 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c)⟩)

end Cert.KernelIdeal.KRun

end
-- ==== Proof.RefStages.lean ====
import proofs.«115009_j15960098472830_1_alg».proof.ReferenceIdeal
import Idealize.ShloMosaic.PureOps.Ideal

/-!
The reference network as a composition of named stages, at the ideal float instance.

The reference is three repetitions of one layer followed by a head. A layer at input width `a` and output width `b`
takes node features `x : 100000 × a` and the edge list `e : 2 × 1600000` (row 0 the source node of each edge, row 1 its
destination) and computes

* `agg x e`: for every node the sum, over the edges that end in it, of the source node's features — a gather of the
  rows of `x` at the sources (a negative source index wrapped once by adding the node count), scatter-added into a
  zero array at the destinations;
* `lin`: `agg · Wl + x · Wr + bias`, the bias a row repeated down the nodes;
* `mean`, `var`: the column means of that, and the column means of the squared deviations from them (divided by
  `100000 − 0`, and a quiet NaN in place of the quotient should that divisor not be positive);
* `bn`: the columns centred at `mean`, scaled by `1 / sqrt (var + ε)`, then by `γ`, shifted by `β`, and clamped below at `0`.

The head is a dense layer with the same clamp, a second dense layer to one column, and the reshape of that column to a
vector. The gather, the scatter-add, the contractions and the column sums are kept as the host operations they are;
nothing here looks inside them.
-/

noncomputable section

namespace Cert.ReferenceIdeal.RefStages

open Idealize.ShloMosaic Idealize.SL.Sem Cert.ReferenceIdeal
open Cert.ReferenceIdeal.Facts₀

variable [Facts₀]

/-- The source node of each edge: row 0 of the edge list, as a vector. -/
def src (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destination node of each edge: row 1 of the edge list, as a vector. -/
def dst (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The source indices as the gather reads them: a negative index wrapped once by adding the node count `100000`,
    as a column. -/
def srcIdx (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32)))
      (src e))

/-- The destination indices as the scatter reads them: a column. -/
def dstIdx (e : (⟨S2x1600000, .i32⟩ : BufTy).Contents (Elt Ideal)) : (⟨S1600000x1, .i32⟩ : BufTy).Contents (Elt Ideal) :=
  broadcastInDim S1600000x1 ![0] bcast_S1600000_S1600000x1_0 (dst e)

/-! ### Layer 1: width 6 to width 64 -/

/-- Layer 1's aggregation: each node's sum of its in-neighbours' rows of `x`. -/
def agg_1 (x : (⟨S100000x6, .f32⟩ : BufTy).Contents (Elt Ideal)) (e : (⟨S2x1600000, .i32⟩ : BufTy).Contents (Elt Ideal)) : (⟨S100000x6, .f32⟩ : BufTy).Contents (Elt Ideal) :=
  Host.scatterAdd (F := Ideal) scatter_S100000x6_S1600000x1_S1600000x6_1_0_0_1
    (broadcastInDim S100000x6 ![] bcast_S_S100000x6 (constant (F := Ideal) S_ .f32 0x00000000#32))
    (dstIdx e)
    (Host.gather gather_S100000x6_S1600000x1_S1600000x6_1_0_n_n_0_1_16 x (srcIdx e))

/-- Layer 1's affine map: `g · wl + x · wr + bias`. -/
def lin_1 (g x : (⟨S100000x6, .f32⟩ : BufTy).Contents (Elt Ideal)) (wl wr : (⟨S6x64, .f32⟩ : BufTy).Contents (Elt Ideal)) (bias : (⟨S64, .f32⟩ : BufTy).Contents (Elt Ideal)) : (⟨S100000x64, .f32⟩ : BufTy).Contents (Elt Ideal) :=
  addf (F := Ideal) (φ := .f32)
    (addf (F := Ideal) (φ := .f32) (Host.dotGeneral (F := Ideal) (φ₁ := .f32) (φ₂ := .f32) dot_S100000x6_S6x64_S100000x64_1_0_0_1_n_n none g wl) (Host.dotGeneral (F := Ideal) (φ₁ := .f32) (φ₂ := .f32) dot_S100000x6_S6x64_S100000x64_1_0_0_1_n_n none x wr))
    (broadcastInDim S100000x64 ![0, 1] bcast_S1x64_S100000x64_0_1 (broadcastInDim S1x64 ![1] bcast_S64_S1x64_1 bias))

/-- Layer 1's column means. -/
def mean_1 (h : (⟨S100000x64, .f32⟩ : BufTy).Contents (Elt Ideal)) : (⟨S64, .f32⟩ : BufTy).Contents (Elt Ideal) :=
  Host.divf (F := Ideal) (φ := .f32) (Host.reduceAdd (F := Ideal) h (constant (F := Ideal) S_ .f32 0x00000000#32) reducesTo_S100000x64_S64_d0 h_S_)
    (broadcastInDim S64 ![] bcast_S_S64 (constant (F := Ideal) S_ .f32 0x47C35000#32))

/-- The deviations of `h`'s entries from their column means, as the variance computes them. -/
def dev_1 (h : (⟨S100000x64, .f32⟩ : BufTy).Contents (Elt Ideal)) : (⟨S100000x64, .f32⟩ : BufTy).Contents (Elt Ideal) :=
  subf (F := Ideal) (φ := .f32) h
    (broadcastInDim S100000x64 ![0, 1] bcast_S1x64_S100000x64_0_1
      (Host.divf (F := Ideal) (φ := .f32)
        (broadcastInDim S1x64 ![1] bcast_S64_S1x64_1 (Host.reduceAdd (F := Ideal) h (constant (F := Ideal) S_ .f32 0x00000000#32) reducesTo_S100000x64_S64_d0 h_S_))
        (broadcastInDim S1x64 ![] bcast_S_S1x64 (constant (F := Ideal) S_ .f32 0x47C35000#32))))

/-- The variance's divisor: the row count `100000` less the correction `0`. -/
def dof : (⟨S_, .f32⟩ : BufTy).Contents (Elt Ideal) :=
  subf (F := Ideal) (φ := .f32) (constant (F := Ideal) S_ .f32 0x47C35000#32) (sitofp (F := Ideal) .f32 (constantI S_ 32 0#32))

/-- Layer 1's column variances: the column sums of the squared deviations over the divisor, and a quiet NaN in their
    place were the divisor not positive. -/
def var_1 (h : (⟨S100000x64, .f32⟩ : BufTy).Contents (Elt Ideal)) : (⟨S64, .f32⟩ : BufTy).Contents (Elt Ideal) :=
  select (broadcastInDim S64 ![] bcast_S_S64 (cmpf (F := Ideal) (φ := .f32) .ogt dof (constant (F := Ideal) S_ .f32 0x00000000#32)))
    (Host.divf (F := Ideal) (φ := .f32)
      (Host.reduceAdd (F := Ideal) (mulf (F := Ideal) (φ := .f32) (dev_1 h) (dev_1 h)) (constant (F := Ideal) S_ .f32 0x00000000#32) reducesTo_S100000x64_S64_d0 h_S_)
      (broadcastInDim S64 ![] bcast_S_S64 dof))
    (broadcastInDim S64 ![] bcast_S_S64 (constant (F := Ideal) S_ .f32 0x7FC00000#32))

/-- Layer 1's normalisation: centred at `mu`, scaled by `1 / sqrt (v + ε)` and by `gamma`, shifted by `beta`, clamped below at `0`. -/
def bn_1 (h : (⟨S100000x64, .f32⟩ : BufTy).Contents (Elt Ideal)) (mu v gamma beta : (⟨S64, .f32⟩ : BufTy).Contents (Elt Ideal)) : (⟨S100000x64, .f32⟩ : BufTy).Contents (Elt Ideal) :=
  maximumf (F := Ideal) (φ := .f32)
    (addf (F := Ideal) (φ := .f32)
      (mulf (F := Ideal) (φ := .f32)
        (mulf (F := Ideal) (φ := .f32)
          (subf (F := Ideal) (φ := .f32) h (broadcastInDim S100000x64 ![0, 1] bcast_S1x64_S100000x64_0_1 (broadcastInDim S1x64 ![1] bcast_S64_S1x64_1 mu)))
          (broadcastInDim S100000x64 ![0, 1] bcast_S1x64_S100000x64_0_1 (broadcastInDim S1x64 ![1] bcast_S64_S1x64_1 (Host.rsqrt (F := Ideal) (φ := .f32) (addf (F := Ideal) (φ := .f32) v (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 gamma)))
      (broadcastInDim S100000x64 ![0, 1] bcast_S1x64_S100000x64_0_1 (broadcastInDim S1x64 ![1] bcast_S64_S1x64_1 beta)))
    (broadcastInDim S100000x64 ![] bcast_S_S100000x64 (constant (F := Ideal) S_ .f32 0x00000000#32))

/-- Layer 1 whole: the affine map of the aggregation, normalised by its own column statistics. -/
def pre_1 (x : (⟨S100000x6, .f32⟩ : BufTy).Contents (Elt Ideal)) (e : (⟨S2x1600000, .i32⟩ : BufTy).Contents (Elt Ideal)) (wl wr : (⟨S6x64, .f32⟩ : BufTy).Contents (Elt Ideal)) (bias : (⟨S64, .f32⟩ : BufTy).Contents (Elt Ideal)) : (⟨S100000x64, .f32⟩ : BufTy).Contents (Elt Ideal) :=
  lin_1 (agg_1 x e) x wl wr bias

@[inherit_doc pre_1]
def layer_1 (x : (⟨S100000x6, .f32⟩ : BufTy).Contents (Elt Ideal)) (e : (⟨S2x1600000, .i32⟩ : BufTy).Contents (Elt Ideal)) (wl wr : (⟨S6x64, .f32⟩ : BufTy).Contents (Elt Ideal)) (bias gamma beta : (⟨S64, .f32⟩ : BufTy).Contents (Elt Ideal)) : (⟨S100000x64, .f32⟩ : BufTy).Contents (Elt Ideal) :=
  bn_1 (pre_1 x e wl wr bias) (mean_1 (pre_1 x e wl wr bias)) (var_1 (pre_1 x e wl wr bias)) gamma beta

/-! ### Layer 2: width 64 to width 128 -/

/-- Layer 2's aggregation: each node's sum of its in-neighbours' rows of `x`. -/
def agg_2 (x : (⟨S100000x64, .f32⟩ : BufTy).Contents (Elt Ideal)) (e : (⟨S2x1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (dstIdx e)
    (Host.gather gather_S100000x64_S1600000x1_S1600000x64_1_0_n_n_0_1_164 x (srcIdx e))

/-- Layer 2's affine map: `g · wl + x · wr + bias`. -/
def lin_2 (g x : (⟨S100000x64, .f32⟩ : BufTy).Contents (Elt Ideal)) (wl wr : (⟨S64x128, .f32⟩ : BufTy).Contents (Elt Ideal)) (bias : (⟨S128, .f32⟩ : BufTy).Contents (Elt Ideal)) : (⟨S100000x128, .f32⟩ : BufTy).Contents (Elt Ideal) :=
  addf (F := Ideal) (φ := .f32)
    (addf (F := Ideal) (φ := .f32) (Host.dotGeneral (F := Ideal) (φ₁ := .f32) (φ₂ := .f32) dot_S100000x64_S64x128_S100000x128_1_0_0_1_n_n none g wl) (Host.dotGeneral (F := Ideal) (φ₁ := .f32) (φ₂ := .f32) dot_S100000x64_S64x128_S100000x128_1_0_0_1_n_n none x wr))
    (broadcastInDim S100000x128 ![0, 1] bcast_S1x128_S100000x128_0_1 (broadcastInDim S1x128 ![1] bcast_S128_S1x128_1 bias))

/-- Layer 2's column means. -/
def mean_2 (h : (⟨S100000x128, .f32⟩ : BufTy).Contents (Elt Ideal)) : (⟨S128, .f32⟩ : BufTy).Contents (Elt Ideal) :=
  Host.divf (F := Ideal) (φ := .f32) (Host.reduceAdd (F := Ideal) h (constant (F := Ideal) S_ .f32 0x00000000#32) reducesTo_S100000x128_S128_d0 h_S_)
    (broadcastInDim S128 ![] bcast_S_S128 (constant (F := Ideal) S_ .f32 0x47C35000#32))

/-- The deviations of `h`'s entries from their column means, as the variance computes them. -/
def dev_2 (h : (⟨S100000x128, .f32⟩ : BufTy).Contents (Elt Ideal)) : (⟨S100000x128, .f32⟩ : BufTy).Contents (Elt Ideal) :=
  subf (F := Ideal) (φ := .f32) h
    (broadcastInDim S100000x128 ![0, 1] bcast_S1x128_S100000x128_0_1
      (Host.divf (F := Ideal) (φ := .f32)
        (broadcastInDim S1x128 ![1] bcast_S128_S1x128_1 (Host.reduceAdd (F := Ideal) h (constant (F := Ideal) S_ .f32 0x00000000#32) reducesTo_S100000x128_S128_d0 h_S_))
        (broadcastInDim S1x128 ![] bcast_S_S1x128 (constant (F := Ideal) S_ .f32 0x47C35000#32))))

/-- Layer 2's column variances: the column sums of the squared deviations over the divisor, and a quiet NaN in their
    place were the divisor not positive. -/
def var_2 (h : (⟨S100000x128, .f32⟩ : BufTy).Contents (Elt Ideal)) : (⟨S128, .f32⟩ : BufTy).Contents (Elt Ideal) :=
  select (broadcastInDim S128 ![] bcast_S_S128 (cmpf (F := Ideal) (φ := .f32) .ogt dof (constant (F := Ideal) S_ .f32 0x00000000#32)))
    (Host.divf (F := Ideal) (φ := .f32)
      (Host.reduceAdd (F := Ideal) (mulf (F := Ideal) (φ := .f32) (dev_2 h) (dev_2 h)) (constant (F := Ideal) S_ .f32 0x00000000#32) reducesTo_S100000x128_S128_d0 h_S_)
      (broadcastInDim S128 ![] bcast_S_S128 dof))
    (broadcastInDim S128 ![] bcast_S_S128 (constant (F := Ideal) S_ .f32 0x7FC00000#32))

/-- Layer 2's normalisation: centred at `mu`, scaled by `1 / sqrt (v + ε)` and by `gamma`, shifted by `beta`, clamped below at `0`. -/
def bn_2 (h : (⟨S100000x128, .f32⟩ : BufTy).Contents (Elt Ideal)) (mu v gamma beta : (⟨S128, .f32⟩ : BufTy).Contents (Elt Ideal)) : (⟨S100000x128, .f32⟩ : BufTy).Contents (Elt Ideal) :=
  maximumf (F := Ideal) (φ := .f32)
    (addf (F := Ideal) (φ := .f32)
      (mulf (F := Ideal) (φ := .f32)
        (mulf (F := Ideal) (φ := .f32)
          (subf (F := Ideal) (φ := .f32) h (broadcastInDim S100000x128 ![0, 1] bcast_S1x128_S100000x128_0_1 (broadcastInDim S1x128 ![1] bcast_S128_S1x128_1 mu)))
          (broadcastInDim S100000x128 ![0, 1] bcast_S1x128_S100000x128_0_1 (broadcastInDim S1x128 ![1] bcast_S128_S1x128_1 (Host.rsqrt (F := Ideal) (φ := .f32) (addf (F := Ideal) (φ := .f32) v (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 gamma)))
      (broadcastInDim S100000x128 ![0, 1] bcast_S1x128_S100000x128_0_1 (broadcastInDim S1x128 ![1] bcast_S128_S1x128_1 beta)))
    (broadcastInDim S100000x128 ![] bcast_S_S100000x128 (constant (F := Ideal) S_ .f32 0x00000000#32))

/-- Layer 2 whole: the affine map of the aggregation, normalised by its own column statistics. -/
def pre_2 (x : (⟨S100000x64, .f32⟩ : BufTy).Contents (Elt Ideal)) (e : (⟨S2x1600000, .i32⟩ : BufTy).Contents (Elt Ideal)) (wl wr : (⟨S64x128, .f32⟩ : BufTy).Contents (Elt Ideal)) (bias : (⟨S128, .f32⟩ : BufTy).Contents (Elt Ideal)) : (⟨S100000x128, .f32⟩ : BufTy).Contents (Elt Ideal) :=
  lin_2 (agg_2 x e) x wl wr bias

@[inherit_doc pre_2]
def layer_2 (x : (⟨S100000x64, .f32⟩ : BufTy).Contents (Elt Ideal)) (e : (⟨S2x1600000, .i32⟩ : BufTy).Contents (Elt Ideal)) (wl wr : (⟨S64x128, .f32⟩ : BufTy).Contents (Elt Ideal)) (bias gamma beta : (⟨S128, .f32⟩ : BufTy).Contents (Elt Ideal)) : (⟨S100000x128, .f32⟩ : BufTy).Contents (Elt Ideal) :=
  bn_2 (pre_2 x e wl wr bias) (mean_2 (pre_2 x e wl wr bias)) (var_2 (pre_2 x e wl wr bias)) gamma beta

/-! ### Layer 3: width 128 to width 256 -/

/-- Layer 3's aggregation: each node's sum of its in-neighbours' rows of `x`. -/
def agg_3 (x : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (dstIdx e)
    (Host.gather gather_S100000x128_S1600000x1_S1600000x128_1_0_n_n_0_1_1128 x (srcIdx e))

/-- Layer 3's affine map: `g · wl + x · wr + bias`. -/
def lin_3 (g x : (⟨S100000x128, .f32⟩ : BufTy).Contents (Elt Ideal)) (wl wr : (⟨S128x256, .f32⟩ : BufTy).Contents (Elt Ideal)) (bias : (⟨S256, .f32⟩ : BufTy).Contents (Elt Ideal)) : (⟨S100000x256, .f32⟩ : BufTy).Contents (Elt Ideal) :=
  addf (F := Ideal) (φ := .f32)
    (addf (F := Ideal) (φ := .f32) (Host.dotGeneral (F := Ideal) (φ₁ := .f32) (φ₂ := .f32) dot_S100000x128_S128x256_S100000x256_1_0_0_1_n_n none g wl) (Host.dotGeneral (F := Ideal) (φ₁ := .f32) (φ₂ := .f32) dot_S100000x128_S128x256_S100000x256_1_0_0_1_n_n none x wr))
    (broadcastInDim S100000x256 ![0, 1] bcast_S1x256_S100000x256_0_1 (broadcastInDim S1x256 ![1] bcast_S256_S1x256_1 bias))

/-- Layer 3's column means. -/
def mean_3 (h : (⟨S100000x256, .f32⟩ : BufTy).Contents (Elt Ideal)) : (⟨S256, .f32⟩ : BufTy).Contents (Elt Ideal) :=
  Host.divf (F := Ideal) (φ := .f32) (Host.reduceAdd (F := Ideal) h (constant (F := Ideal) S_ .f32 0x00000000#32) reducesTo_S100000x256_S256_d0 h_S_)
    (broadcastInDim S256 ![] bcast_S_S256 (constant (F := Ideal) S_ .f32 0x47C35000#32))

/-- The deviations of `h`'s entries from their column means, as the variance computes them. -/
def dev_3 (h : (⟨S100000x256, .f32⟩ : BufTy).Contents (Elt Ideal)) : (⟨S100000x256, .f32⟩ : BufTy).Contents (Elt Ideal) :=
  subf (F := Ideal) (φ := .f32) h
    (broadcastInDim S100000x256 ![0, 1] bcast_S1x256_S100000x256_0_1
      (Host.divf (F := Ideal) (φ := .f32)
        (broadcastInDim S1x256 ![1] bcast_S256_S1x256_1 (Host.reduceAdd (F := Ideal) h (constant (F := Ideal) S_ .f32 0x00000000#32) reducesTo_S100000x256_S256_d0 h_S_))
        (broadcastInDim S1x256 ![] bcast_S_S1x256 (constant (F := Ideal) S_ .f32 0x47C35000#32))))

/-- Layer 3's column variances: the column sums of the squared deviations over the divisor, and a quiet NaN in their
    place were the divisor not positive. -/
def var_3 (h : (⟨S100000x256, .f32⟩ : BufTy).Contents (Elt Ideal)) : (⟨S256, .f32⟩ : BufTy).Contents (Elt Ideal) :=
  select (broadcastInDim S256 ![] bcast_S_S256 (cmpf (F := Ideal) (φ := .f32) .ogt dof (constant (F := Ideal) S_ .f32 0x00000000#32)))
    (Host.divf (F := Ideal) (φ := .f32)
      (Host.reduceAdd (F := Ideal) (mulf (F := Ideal) (φ := .f32) (dev_3 h) (dev_3 h)) (constant (F := Ideal) S_ .f32 0x00000000#32) reducesTo_S100000x256_S256_d0 h_S_)
      (broadcastInDim S256 ![] bcast_S_S256 dof))
    (broadcastInDim S256 ![] bcast_S_S256 (constant (F := Ideal) S_ .f32 0x7FC00000#32))

/-- Layer 3's normalisation: centred at `mu`, scaled by `1 / sqrt (v + ε)` and by `gamma`, shifted by `beta`, clamped below at `0`. -/
def bn_3 (h : (⟨S100000x256, .f32⟩ : BufTy).Contents (Elt Ideal)) (mu v gamma beta : (⟨S256, .f32⟩ : BufTy).Contents (Elt Ideal)) : (⟨S100000x256, .f32⟩ : BufTy).Contents (Elt Ideal) :=
  maximumf (F := Ideal) (φ := .f32)
    (addf (F := Ideal) (φ := .f32)
      (mulf (F := Ideal) (φ := .f32)
        (mulf (F := Ideal) (φ := .f32)
          (subf (F := Ideal) (φ := .f32) h (broadcastInDim S100000x256 ![0, 1] bcast_S1x256_S100000x256_0_1 (broadcastInDim S1x256 ![1] bcast_S256_S1x256_1 mu)))
          (broadcastInDim S100000x256 ![0, 1] bcast_S1x256_S100000x256_0_1 (broadcastInDim S1x256 ![1] bcast_S256_S1x256_1 (Host.rsqrt (F := Ideal) (φ := .f32) (addf (F := Ideal) (φ := .f32) v (broadcastInDim S256 ![] bcast_S_S256 (constant (F := Ideal) S_ .f32 0x3727C5AC#32)))))))
        (broadcastInDim S100000x256 ![0, 1] bcast_S1x256_S100000x256_0_1 (broadcastInDim S1x256 ![1] bcast_S256_S1x256_1 gamma)))
      (broadcastInDim S100000x256 ![0, 1] bcast_S1x256_S100000x256_0_1 (broadcastInDim S1x256 ![1] bcast_S256_S1x256_1 beta)))
    (broadcastInDim S100000x256 ![] bcast_S_S100000x256 (constant (F := Ideal) S_ .f32 0x00000000#32))

/-- Layer 3 whole: the affine map of the aggregation, normalised by its own column statistics. -/
def pre_3 (x : (⟨S100000x128, .f32⟩ : BufTy).Contents (Elt Ideal)) (e : (⟨S2x1600000, .i32⟩ : BufTy).Contents (Elt Ideal)) (wl wr : (⟨S128x256, .f32⟩ : BufTy).Contents (Elt Ideal)) (bias : (⟨S256, .f32⟩ : BufTy).Contents (Elt Ideal)) : (⟨S100000x256, .f32⟩ : BufTy).Contents (Elt Ideal) :=
  lin_3 (agg_3 x e) x wl wr bias

@[inherit_doc pre_3]
def layer_3 (x : (⟨S100000x128, .f32⟩ : BufTy).Contents (Elt Ideal)) (e : (⟨S2x1600000, .i32⟩ : BufTy).Contents (Elt Ideal)) (wl wr : (⟨S128x256, .f32⟩ : BufTy).Contents (Elt Ideal)) (bias gamma beta : (⟨S256, .f32⟩ : BufTy).Contents (Elt Ideal)) : (⟨S100000x256, .f32⟩ : BufTy).Contents (Elt Ideal) :=
  bn_3 (pre_3 x e wl wr bias) (mean_3 (pre_3 x e wl wr bias)) (var_3 (pre_3 x e wl wr bias)) gamma beta

/-! ### The head -/

/-- The head: a dense layer to width 128 clamped below at `0`, a dense layer to one column, that column as a vector. -/
def head (x : (⟨S100000x256, .f32⟩ : BufTy).Contents (Elt Ideal)) (w1 : (⟨S256x128, .f32⟩ : BufTy).Contents (Elt Ideal)) (b1 : (⟨S128, .f32⟩ : BufTy).Contents (Elt Ideal)) (w2 : (⟨S128x1, .f32⟩ : BufTy).Contents (Elt Ideal)) (b2 : (⟨S1, .f32⟩ : BufTy).Contents (Elt Ideal)) : (⟨S100000, .f32⟩ : BufTy).Contents (Elt Ideal) :=
  shapeCast S100000
    (addf (F := Ideal) (φ := .f32)
      (Host.dotGeneral (F := Ideal) (φ₁ := .f32) (φ₂ := .f32) dot_S100000x128_S128x1_S100000x1_1_0_0_1_n_n none
        (maximumf (F := Ideal) (φ := .f32)
          (addf (F := Ideal) (φ := .f32) (Host.dotGeneral (F := Ideal) (φ₁ := .f32) (φ₂ := .f32) dot_S100000x256_S256x128_S100000x128_1_0_0_1_n_n none x w1) (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32)))
        w2)
      (broadcastInDim S100000x1 ![0, 1] bcast_S1x1_S100000x1_0_1 (broadcastInDim S1x1 ![1] bcast_S1_S1x1_1 b2)))
    shapeCasts_S100000x1_S100000

/-- The reference's result as a function of its twenty-one arguments, in the order it takes them: the node features,
    the edge list, then per layer the two weight matrices, the bias, the scale and the shift, then the head's two
    weight matrices with their biases. -/
def refOut
    (a0 : (⟨S100000x6, .f32⟩ : BufTy).Contents (Elt Ideal)) (a1 : (⟨S2x1600000, .i32⟩ : BufTy).Contents (Elt Ideal))
    (a2 a3 : (⟨S6x64, .f32⟩ : BufTy).Contents (Elt Ideal)) (a4 a5 a6 : (⟨S64, .f32⟩ : BufTy).Contents (Elt Ideal))
    (a7 a8 : (⟨S64x128, .f32⟩ : BufTy).Contents (Elt Ideal)) (a9 a10 a11 : (⟨S128, .f32⟩ : BufTy).Contents (Elt Ideal))
    (a12 a13 : (⟨S128x256, .f32⟩ : BufTy).Contents (Elt Ideal)) (a14 a15 a16 : (⟨S256, .f32⟩ : BufTy).Contents (Elt Ideal))
    (a17 : (⟨S256x128, .f32⟩ : BufTy).Contents (Elt Ideal)) (a18 : (⟨S128, .f32⟩ : BufTy).Contents (Elt Ideal)) (a19 : (⟨S128x1, .f32⟩ : BufTy).Contents (Elt Ideal)) (a20 : (⟨S1, .f32⟩ : BufTy).Contents (Elt Ideal)) : (⟨S100000, .f32⟩ : BufTy).Contents (Elt Ideal) :=
  head (layer_3 (layer_2 (layer_1 a0 a1 a2 a3 a4 a5 a6) a1 a7 a8 a9 a10 a11) a1 a12 a13 a14 a15 a16) a17 a18 a19 a20

end Cert.ReferenceIdeal.RefStages

end
-- ==== Proof.RefRunOps.lean ====
import proofs.«115009_j15960098472830_1_alg».proof.Proof.Gen.ReferenceIdeal
import Idealize.ShloMosaic.Lib.StableHlo.Run

/-!
The reference program's @main as a list of host operations, the functions it calls unfolded at their calls.

@main is three repetitions of one layer and a head; the list is cut where the layers' stages end (the edge list's
rows; then per layer the aggregation, the affine map, the column means, the column variances, the normalisation; then
the head), so that what the buffers hold after each piece is one stage of the network applied to what they held
before. A called function's operations stand at the call, over the call's own buffers: the variance function's
nineteen and the three of the select it calls, the clamp's three. `main_eq` is that reading of @main, window by
window of the printed program; the remaining facts are the side conditions a run of such a list asks for, and for
each piece the list of buffers it writes (no piece writes an argument of @main).
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- An operation that writes the one buffer `y` writes inside any list of references that holds `y`. -/
theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- @main's arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- The edge list's two rows as vectors: 4 operations. -/
abbrev seg_idx : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]
/-- The buffers they write. -/
abbrev seg_idx_W : List (Ref sig .tc) :=
  [main_v0, main_v1, main_v2, main_v3]
theorem seg_idx_sub : (seg_idx : List (HloOp τ sig (Elt F))).Forall fun op => op.bufs ⊆ tcRefs τ sig :=
  ⟨unary_bufs_sub .., reshape_bufs_sub .., unary_bufs_sub .., reshape_bufs_sub ..⟩
theorem seg_idx_fresh : (seg_idx : List (HloOp τ sig (Elt F))).Forall fun op => op.fresh = ∅ :=
  ⟨rfl, rfl, rfl, rfl⟩
theorem seg_idx_writes : (seg_idx : List (HloOp τ sig (Elt F))).Forall fun op =>
    op.writes ⊆ (seg_idx_W.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide)⟩
theorem seg_idx_args : ∀ r ∈ argRefs, r ∉ seg_idx_W := by decide

/-- Layer 1's aggregation: 13 operations. -/
abbrev seg_agg1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x6_S1600000x1_S1600000x6_1_0_n_n_0_1_16 x i) : (⟨S100000x6, .f32⟩ : BufTy).Contents (Elt F) → (⟨S1600000x1, .i32⟩ : BufTy).Contents (Elt F) → (⟨S1600000x6, .f32⟩ : BufTy).Contents (Elt F)),
    nullary main_cst (constant S_ .f32 0x00000000#32),
    unary main_cst main_v11 (broadcastInDim S100000x6 ![] bcast_S_S100000x6 : (⟨S_, .f32⟩ : BufTy).Contents (Elt F) → (⟨S100000x6, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x6_S1600000x1_S1600000x6_1_0_0_1 x i u) : (⟨S100000x6, .f32⟩ : BufTy).Contents (Elt F) → (⟨S1600000x1, .i32⟩ : BufTy).Contents (Elt F) → (⟨S1600000x6, .f32⟩ : BufTy).Contents (Elt F) → (⟨S100000x6, .f32⟩ : BufTy).Contents (Elt F)) ]
/-- The buffers they write. -/
abbrev seg_agg1_W : List (Ref sig .tc) :=
  [main_c, main_v4, main_v5, main_c_0, main_v6, main_v7, main_v8, main_v9, main_v10, main_cst, main_v11, main_v12, main_v13]
theorem seg_agg1_sub : (seg_agg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem seg_agg1_fresh : (seg_agg1 : List (HloOp τ sig (Elt F))).Forall fun op => op.fresh = ∅ :=
  ⟨rfl, rfl, rfl, rfl, rfl, rfl, rfl, rfl, rfl, rfl, rfl, rfl, rfl⟩
theorem seg_agg1_writes : (seg_agg1 : List (HloOp τ sig (Elt F))).Forall fun op =>
    op.writes ⊆ (seg_agg1_W.map (Proc.devRef (τ := τ) .tc)).toFinset :=
  ⟨writes_sub_of_mem (y := main_c) rfl (by decide),
   writes_sub_of_mem (y := main_v4) rfl (by decide),
   writes_sub_of_mem (y := main_v5) rfl (by decide),
   writes_sub_of_mem (y := main_c_0) rfl (by decide),
   writes_sub_of_mem (y := main_v6) rfl (by decide),
   writes_sub_of_mem (y := main_v7) rfl (by decide),
   writes_sub_of_mem (y := main_v8) rfl (by decide),
   writes_sub_of_mem (y := main_v9) rfl (by decide),
   writes_sub_of_mem (y := main_v10) rfl (by decide),
   writes_sub_of_mem (y := main_cst) rfl (by decide),
   writes_sub_of_mem (y := main_v11) rfl (by decide),
   writes_sub_of_mem (y := main_v12) rfl (by decide),
   writes_sub_of_mem (y := main_v13) rfl (by decide)⟩
theorem seg_agg1_args : ∀ r ∈ argRefs, r ∉ seg_agg1_W := by decide

/-- Layer 1's affine map: 6 operations. -/
abbrev seg_lin1 : List (HloOp τ sig (Elt F)) :=
  [ binary main_v13 main_arg2 main_v14 ((fun l r => Host.dotGeneral dot_S100000x6_S6x64_S100000x64_1_0_0_1_n_n none l r) : (⟨S100000x6, .f32⟩ : BufTy).Contents (Elt F) → (⟨S6x64, .f32⟩ : BufTy).Contents (Elt F) → (⟨S100000x64, .f32⟩ : BufTy).Contents (Elt F)),
    binary main_arg0 main_arg3 main_v15 ((fun l r => Host.dotGeneral dot_S100000x6_S6x64_S100000x64_1_0_0_1_n_n none l r) : (⟨S100000x6, .f32⟩ : BufTy).Contents (Elt F) → (⟨S6x64, .f32⟩ : BufTy).Contents (Elt F) → (⟨S100000x64, .f32⟩ : BufTy).Contents (Elt F)),
    binary main_v14 main_v15 main_v16 (addf : (⟨S100000x64, .f32⟩ : BufTy).Contents (Elt F) → (⟨S100000x64, .f32⟩ : BufTy).Contents (Elt F) → (⟨S100000x64, .f32⟩ : BufTy).Contents (Elt F)),
    unary main_arg4 main_v17 (broadcastInDim S1x64 ![1] bcast_S64_S1x64_1 : (⟨S64, .f32⟩ : BufTy).Contents (Elt F) → (⟨S1x64, .f32⟩ : BufTy).Contents (Elt F)),
    unary main_v17 main_v18 (broadcastInDim S100000x64 ![0, 1] bcast_S1x64_S100000x64_0_1 : (⟨S1x64, .f32⟩ : BufTy).Contents (Elt F) → (⟨S100000x64, .f32⟩ : BufTy).Contents (Elt F)),
    binary main_v16 main_v18 main_v19 (addf : (⟨S100000x64, .f32⟩ : BufTy).Contents (Elt F) → (⟨S100000x64, .f32⟩ : BufTy).Contents (Elt F) → (⟨S100000x64, .f32⟩ : BufTy).Contents (Elt F)) ]
/-- The buffers they write. -/
abbrev seg_lin1_W : List (Ref sig .tc) :=
  [main_v14, main_v15, main_v16, main_v17, main_v18, main_v19]
theorem seg_lin1_sub : (seg_lin1 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem seg_lin1_fresh : (seg_lin1 : List (HloOp τ sig (Elt F))).Forall fun op => op.fresh = ∅ :=
  ⟨rfl, rfl, rfl, rfl, rfl, rfl⟩
theorem seg_lin1_writes : (seg_lin1 : List (HloOp τ sig (Elt F))).Forall fun op =>
    op.writes ⊆ (seg_lin1_W.map (Proc.devRef (τ := τ) .tc)).toFinset :=
  ⟨writes_sub_of_mem (y := main_v14) rfl (by decide),
   writes_sub_of_mem (y := main_v15) rfl (by decide),
   writes_sub_of_mem (y := main_v16) rfl (by decide),
   writes_sub_of_mem (y := main_v17) rfl (by decide),
   writes_sub_of_mem (y := main_v18) rfl (by decide),
   writes_sub_of_mem (y := main_v19) rfl (by decide)⟩
theorem seg_lin1_args : ∀ r ∈ argRefs, r ∉ seg_lin1_W := by decide

/-- Layer 1's column means: 5 operations. -/
abbrev seg_mean1 : List (HloOp τ sig (Elt F)) :=
  [ nullary main_cst_1 (constant S_ .f32 0x00000000#32),
    binary main_v19 main_cst_1 main_v20 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v21 (broadcastInDim S64 ![] bcast_S_S64 : (⟨S_, .f32⟩ : BufTy).Contents (Elt F) → (⟨S64, .f32⟩ : BufTy).Contents (Elt F)),
    binary main_v20 main_v21 main_v22 (Host.divf : (⟨S64, .f32⟩ : BufTy).Contents (Elt F) → (⟨S64, .f32⟩ : BufTy).Contents (Elt F) → (⟨S64, .f32⟩ : BufTy).Contents (Elt F)) ]
/-- The buffers they write. -/
abbrev seg_mean1_W : List (Ref sig .tc) :=
  [main_cst_1, main_v20, main_cst_2, main_v21, main_v22]
theorem seg_mean1_sub : (seg_mean1 : List (HloOp τ sig (Elt F))).Forall fun op => op.bufs ⊆ tcRefs τ sig :=
  ⟨nullary_bufs_sub .., binary_bufs_sub .., nullary_bufs_sub .., unary_bufs_sub .., binary_bufs_sub ..⟩
theorem seg_mean1_fresh : (seg_mean1 : List (HloOp τ sig (Elt F))).Forall fun op => op.fresh = ∅ :=
  ⟨rfl, rfl, rfl, rfl, rfl⟩
theorem seg_mean1_writes : (seg_mean1 : List (HloOp τ sig (Elt F))).Forall fun op =>
    op.writes ⊆ (seg_mean1_W.map (Proc.devRef (τ := τ) .tc)).toFinset :=
  ⟨writes_sub_of_mem (y := main_cst_1) rfl (by decide),
   writes_sub_of_mem (y := main_v20) rfl (by decide),
   writes_sub_of_mem (y := main_cst_2) rfl (by decide),
   writes_sub_of_mem (y := main_v21) rfl (by decide),
   writes_sub_of_mem (y := main_v22) rfl (by decide)⟩
theorem seg_mean1_args : ∀ r ∈ argRefs, r ∉ seg_mean1_W := by decide

/-- Layer 1's column variances (the variance function's body, the select it calls inside): 23 operations. -/
abbrev seg_var1 : List (HloOp τ sig (Elt F)) :=
  [ nullary main_c_3 (constantI S_ 32 0#32),
    TRef.nullary main_call0.cst (constant S_ .f32 0x00000000#32),
    TRef.binary (.of main_v19 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v19 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]
/-- The buffers they write. -/
abbrev seg_var1_W : List (Ref sig .tc) :=
  [main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem seg_var1_sub : (seg_var1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg_var1_fresh : (seg_var1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem seg_var1_writes : (seg_var1 : List (HloOp τ sig (Elt F))).Forall fun op =>
    op.writes ⊆ (seg_var1_W.map (Proc.devRef (τ := τ) .tc)).toFinset :=
  ⟨writes_sub_of_mem (y := main_c_3) rfl (by decide),
   writes_sub_of_mem (y := main_call0.cst.ref) rfl (by decide),
   writes_sub_of_mem (y := main_call0.v0.ref) rfl (by decide),
   writes_sub_of_mem (y := main_call0.v1.ref) rfl (by decide),
   writes_sub_of_mem (y := main_call0.cst_0.ref) rfl (by decide),
   writes_sub_of_mem (y := main_call0.v2.ref) rfl (by decide),
   writes_sub_of_mem (y := main_call0.v3.ref) rfl (by decide),
   writes_sub_of_mem (y := main_call0.v4.ref) rfl (by decide),
   writes_sub_of_mem (y := main_call0.v5.ref) rfl (by decide),
   writes_sub_of_mem (y := main_call0.v6.ref) rfl (by decide),
   writes_sub_of_mem (y := main_call0.v7.ref) rfl (by decide),
   writes_sub_of_mem (y := main_call0.cst_1.ref) rfl (by decide),
   writes_sub_of_mem (y := main_call0.v8.ref) rfl (by decide),
   writes_sub_of_mem (y := main_call0.cst_2.ref) rfl (by decide),
   writes_sub_of_mem (y := main_call0.v9.ref) rfl (by decide),
   writes_sub_of_mem (y := main_call0.v10.ref) rfl (by decide),
   writes_sub_of_mem (y := main_call0.v11.ref) rfl (by decide),
   writes_sub_of_mem (y := main_call0.cst_3.ref) rfl (by decide),
   writes_sub_of_mem (y := main_call0.v12.ref) rfl (by decide),
   writes_sub_of_mem (y := main_call0.cst_4.ref) rfl (by decide),
   writes_sub_of_mem (y := main_call0.call0.v0.ref) rfl (by decide),
   writes_sub_of_mem (y := main_call0.call0.v1.ref) rfl (by decide),
   writes_sub_of_mem (y := main_call0.call0.v2.ref) rfl (by decide)⟩
theorem seg_var1_args : ∀ r ∈ argRefs, r ∉ seg_var1_W := by decide

/-- Layer 1's normalisation and clamp: 19 operations. -/
abbrev seg_bn1 : List (HloOp τ sig (Elt F)) :=
  [ unary main_v22 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v19 main_v25 main_v26 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v27 (broadcastInDim S64 ![] bcast_S_S64 : (⟨S_, .f32⟩ : BufTy).Contents (Elt F) → (⟨S64, .f32⟩ : BufTy).Contents (Elt F)),
    binary main_v23 main_v27 main_v28 (addf : (⟨S64, .f32⟩ : BufTy).Contents (Elt F) → (⟨S64, .f32⟩ : BufTy).Contents (Elt F) → (⟨S64, .f32⟩ : BufTy).Contents (Elt F)),
    unary main_v28 main_v29 (Host.rsqrt : (⟨S64, .f32⟩ : BufTy).Contents (Elt F) → (⟨S64, .f32⟩ : BufTy).Contents (Elt F)),
    unary main_v29 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v26 main_v31 main_v32 (mulf : (⟨S100000x64, .f32⟩ : BufTy).Contents (Elt F) → (⟨S100000x64, .f32⟩ : BufTy).Contents (Elt F) → (⟨S100000x64, .f32⟩ : BufTy).Contents (Elt F)),
    unary main_arg5 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v32 main_v34 main_v35 (mulf : (⟨S100000x64, .f32⟩ : BufTy).Contents (Elt F) → (⟨S100000x64, .f32⟩ : BufTy).Contents (Elt F) → (⟨S100000x64, .f32⟩ : BufTy).Contents (Elt F)),
    unary main_arg6 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v35 main_v37 main_v38 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v38 : TRef sig ⟨S100000x64, .f32⟩) main_call1.v0 main_call1.v1 maximumf ]
/-- The buffers they write. -/
abbrev seg_bn1_W : List (Ref sig .tc) :=
  [main_v24, main_v25, main_v26, main_cst_4, main_v27, main_v28, main_v29, main_v30, main_v31, main_v32, main_v33, main_v34, main_v35, main_v36, main_v37, main_v38, main_call1.cst.ref, main_call1.v0.ref, main_call1.v1.ref]
theorem seg_bn1_sub : (seg_bn1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem seg_bn1_fresh : (seg_bn1 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem seg_bn1_writes : (seg_bn1 : List (HloOp τ sig (Elt F))).Forall fun op =>
    op.writes ⊆ (seg_bn1_W.map (Proc.devRef (τ := τ) .tc)).toFinset :=
  ⟨writes_sub_of_mem (y := main_v24) rfl (by decide),
   writes_sub_of_mem (y := main_v25) rfl (by decide),
   writes_sub_of_mem (y := main_v26) rfl (by decide),
   writes_sub_of_mem (y := main_cst_4) rfl (by decide),
   writes_sub_of_mem (y := main_v27) rfl (by decide),
   writes_sub_of_mem (y := main_v28) rfl (by decide),
   writes_sub_of_mem (y := main_v29) rfl (by decide),
   writes_sub_of_mem (y := main_v30) rfl (by decide),
   writes_sub_of_mem (y := main_v31) rfl (by decide),
   writes_sub_of_mem (y := main_v32) rfl (by decide),
   writes_sub_of_mem (y := main_v33) rfl (by decide),
   writes_sub_of_mem (y := main_v34) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_call1.cst.ref) rfl (by decide),
   writes_sub_of_mem (y := main_call1.v0.ref) rfl (by decide),
   writes_sub_of_mem (y := main_call1.v1.ref) rfl (by decide)⟩
theorem seg_bn1_args : ∀ r ∈ argRefs, r ∉ seg_bn1_W := by decide

/-- Layer 2's aggregation: 13 operations. -/
abbrev seg_agg2 : List (HloOp τ sig (Elt F)) :=
  [ nullary main_c_5 (constantI S_ 32 0#32),
    unary main_c_5 main_v40 (broadcastInDim S1600000 ![] bcast_S_S1600000 : (⟨S_, .i32⟩ : BufTy).Contents (Elt F) → (⟨S1600000, .i32⟩ : BufTy).Contents (Elt F)),
    binary main_v1 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v42 (broadcastInDim S1600000 ![] bcast_S_S1600000 : (⟨S_, .i32⟩ : BufTy).Contents (Elt F) → (⟨S1600000, .i32⟩ : BufTy).Contents (Elt F)),
    binary main_v1 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_v1 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_v39 main_v45 main_v46 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v47 (broadcastInDim S100000x64 ![] bcast_S_S100000x64 : (⟨S_, .f32⟩ : BufTy).Contents (Elt F) → (⟨S100000x64, .f32⟩ : BufTy).Contents (Elt F)),
    unary main_v3 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers they write. -/
abbrev seg_agg2_W : List (Ref sig .tc) :=
  [main_c_5, main_v40, main_v41, main_c_6, main_v42, main_v43, main_v44, main_v45, main_v46, main_cst_7, main_v47, main_v48, main_v49]
theorem seg_agg2_sub : (seg_agg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem seg_agg2_fresh : (seg_agg2 : List (HloOp τ sig (Elt F))).Forall fun op => op.fresh = ∅ :=
  ⟨rfl, rfl, rfl, rfl, rfl, rfl, rfl, rfl, rfl, rfl, rfl, rfl, rfl⟩
theorem seg_agg2_writes : (seg_agg2 : List (HloOp τ sig (Elt F))).Forall fun op =>
    op.writes ⊆ (seg_agg2_W.map (Proc.devRef (τ := τ) .tc)).toFinset :=
  ⟨writes_sub_of_mem (y := main_c_5) rfl (by decide),
   writes_sub_of_mem (y := main_v40) rfl (by decide),
   writes_sub_of_mem (y := main_v41) rfl (by decide),
   writes_sub_of_mem (y := main_c_6) rfl (by decide),
   writes_sub_of_mem (y := main_v42) rfl (by decide),
   writes_sub_of_mem (y := main_v43) rfl (by decide),
   writes_sub_of_mem (y := main_v44) rfl (by decide),
   writes_sub_of_mem (y := main_v45) rfl (by decide),
   writes_sub_of_mem (y := main_v46) rfl (by decide),
   writes_sub_of_mem (y := main_cst_7) rfl (by decide),
   writes_sub_of_mem (y := main_v47) rfl (by decide),
   writes_sub_of_mem (y := main_v48) rfl (by decide),
   writes_sub_of_mem (y := main_v49) rfl (by decide)⟩
theorem seg_agg2_args : ∀ r ∈ argRefs, r ∉ seg_agg2_W := by decide

/-- Layer 2's affine map: 6 operations. -/
abbrev seg_lin2 : List (HloOp τ sig (Elt F)) :=
  [ binary main_v49 main_arg7 main_v50 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v39 main_arg8 main_v51 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v50 main_v51 main_v52 (addf : (⟨S100000x128, .f32⟩ : BufTy).Contents (Elt F) → (⟨S100000x128, .f32⟩ : BufTy).Contents (Elt F) → (⟨S100000x128, .f32⟩ : BufTy).Contents (Elt F)),
    unary main_arg9 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)) ]
/-- The buffers they write. -/
abbrev seg_lin2_W : List (Ref sig .tc) :=
  [main_v50, main_v51, main_v52, main_v53, main_v54, main_v55]
theorem seg_lin2_sub : (seg_lin2 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem seg_lin2_fresh : (seg_lin2 : List (HloOp τ sig (Elt F))).Forall fun op => op.fresh = ∅ :=
  ⟨rfl, rfl, rfl, rfl, rfl, rfl⟩
theorem seg_lin2_writes : (seg_lin2 : List (HloOp τ sig (Elt F))).Forall fun op =>
    op.writes ⊆ (seg_lin2_W.map (Proc.devRef (τ := τ) .tc)).toFinset :=
  ⟨writes_sub_of_mem (y := main_v50) rfl (by decide),
   writes_sub_of_mem (y := main_v51) rfl (by decide),
   writes_sub_of_mem (y := main_v52) rfl (by decide),
   writes_sub_of_mem (y := main_v53) rfl (by decide),
   writes_sub_of_mem (y := main_v54) rfl (by decide),
   writes_sub_of_mem (y := main_v55) rfl (by decide)⟩
theorem seg_lin2_args : ∀ r ∈ argRefs, r ∉ seg_lin2_W := by decide

/-- Layer 2's column means: 5 operations. -/
abbrev seg_mean2 : List (HloOp τ sig (Elt F)) :=
  [ nullary main_cst_8 (constant S_ .f32 0x00000000#32),
    binary main_v55 main_cst_8 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)) ]
/-- The buffers they write. -/
abbrev seg_mean2_W : List (Ref sig .tc) :=
  [main_cst_8, main_v56, main_cst_9, main_v57, main_v58]
theorem seg_mean2_sub : (seg_mean2 : List (HloOp τ sig (Elt F))).Forall fun op => op.bufs ⊆ tcRefs τ sig :=
  ⟨nullary_bufs_sub .., binary_bufs_sub .., nullary_bufs_sub .., unary_bufs_sub .., binary_bufs_sub ..⟩
theorem seg_mean2_fresh : (seg_mean2 : List (HloOp τ sig (Elt F))).Forall fun op => op.fresh = ∅ :=
  ⟨rfl, rfl, rfl, rfl, rfl⟩
theorem seg_mean2_writes : (seg_mean2 : List (HloOp τ sig (Elt F))).Forall fun op =>
    op.writes ⊆ (seg_mean2_W.map (Proc.devRef (τ := τ) .tc)).toFinset :=
  ⟨writes_sub_of_mem (y := main_cst_8) rfl (by decide),
   writes_sub_of_mem (y := main_v56) rfl (by decide),
   writes_sub_of_mem (y := main_cst_9) rfl (by decide),
   writes_sub_of_mem (y := main_v57) rfl (by decide),
   writes_sub_of_mem (y := main_v58) rfl (by decide)⟩
theorem seg_mean2_args : ∀ r ∈ argRefs, r ∉ seg_mean2_W := by decide

/-- Layer 2's column variances: 23 operations. -/
abbrev seg_var2 : List (HloOp τ sig (Elt F)) :=
  [ nullary main_c_10 (constantI S_ 32 0#32),
    TRef.nullary main_call2.cst (constant S_ .f32 0x00000000#32),
    TRef.binary (.of main_v55 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v55 : TRef sig ⟨S100000x128, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]
/-- The buffers they write. -/
abbrev seg_var2_W : List (Ref sig .tc) :=
  [main_c_10, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
theorem seg_var2_sub : (seg_var2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg_var2_fresh : (seg_var2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem seg_var2_writes : (seg_var2 : List (HloOp τ sig (Elt F))).Forall fun op =>
    op.writes ⊆ (seg_var2_W.map (Proc.devRef (τ := τ) .tc)).toFinset :=
  ⟨writes_sub_of_mem (y := main_c_10) rfl (by decide),
   writes_sub_of_mem (y := main_call2.cst.ref) rfl (by decide),
   writes_sub_of_mem (y := main_call2.v0.ref) rfl (by decide),
   writes_sub_of_mem (y := main_call2.v1.ref) rfl (by decide),
   writes_sub_of_mem (y := main_call2.cst_0.ref) rfl (by decide),
   writes_sub_of_mem (y := main_call2.v2.ref) rfl (by decide),
   writes_sub_of_mem (y := main_call2.v3.ref) rfl (by decide),
   writes_sub_of_mem (y := main_call2.v4.ref) rfl (by decide),
   writes_sub_of_mem (y := main_call2.v5.ref) rfl (by decide),
   writes_sub_of_mem (y := main_call2.v6.ref) rfl (by decide),
   writes_sub_of_mem (y := main_call2.v7.ref) rfl (by decide),
   writes_sub_of_mem (y := main_call2.cst_1.ref) rfl (by decide),
   writes_sub_of_mem (y := main_call2.v8.ref) rfl (by decide),
   writes_sub_of_mem (y := main_call2.cst_2.ref) rfl (by decide),
   writes_sub_of_mem (y := main_call2.v9.ref) rfl (by decide),
   writes_sub_of_mem (y := main_call2.v10.ref) rfl (by decide),
   writes_sub_of_mem (y := main_call2.v11.ref) rfl (by decide),
   writes_sub_of_mem (y := main_call2.cst_3.ref) rfl (by decide),
   writes_sub_of_mem (y := main_call2.v12.ref) rfl (by decide),
   writes_sub_of_mem (y := main_call2.cst_4.ref) rfl (by decide),
   writes_sub_of_mem (y := main_call2.call0.v0.ref) rfl (by decide),
   writes_sub_of_mem (y := main_call2.call0.v1.ref) rfl (by decide),
   writes_sub_of_mem (y := main_call2.call0.v2.ref) rfl (by decide)⟩
theorem seg_var2_args : ∀ r ∈ argRefs, r ∉ seg_var2_W := by decide

/-- Layer 2's normalisation and clamp: 19 operations. -/
abbrev seg_bn2 : List (HloOp τ sig (Elt F)) :=
  [ unary main_v58 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v55 main_v61 main_v62 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v62 main_v67 main_v68 (mulf : (⟨S100000x128, .f32⟩ : BufTy).Contents (Elt F) → (⟨S100000x128, .f32⟩ : BufTy).Contents (Elt F) → (⟨S100000x128, .f32⟩ : BufTy).Contents (Elt F)),
    unary main_arg10 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (mulf : (⟨S100000x128, .f32⟩ : BufTy).Contents (Elt F) → (⟨S100000x128, .f32⟩ : BufTy).Contents (Elt F) → (⟨S100000x128, .f32⟩ : BufTy).Contents (Elt F)),
    unary main_arg11 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v71 main_v73 main_v74 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v74 : TRef sig ⟨S100000x128, .f32⟩) main_call3.v0 main_call3.v1 maximumf ]
/-- The buffers they write. -/
abbrev seg_bn2_W : List (Ref sig .tc) :=
  [main_v60, main_v61, main_v62, main_cst_11, main_v63, main_v64, main_v65, main_v66, main_v67, main_v68, main_v69, main_v70, main_v71, main_v72, main_v73, main_v74, main_call3.cst.ref, main_call3.v0.ref, main_call3.v1.ref]
theorem seg_bn2_sub : (seg_bn2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem seg_bn2_fresh : (seg_bn2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem seg_bn2_writes : (seg_bn2 : List (HloOp τ sig (Elt F))).Forall fun op =>
    op.writes ⊆ (seg_bn2_W.map (Proc.devRef (τ := τ) .tc)).toFinset :=
  ⟨writes_sub_of_mem (y := main_v60) rfl (by decide),
   writes_sub_of_mem (y := main_v61) rfl (by decide),
   writes_sub_of_mem (y := main_v62) rfl (by decide),
   writes_sub_of_mem (y := main_cst_11) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_v70) rfl (by decide),
   writes_sub_of_mem (y := main_v71) rfl (by decide),
   writes_sub_of_mem (y := main_v72) rfl (by decide),
   writes_sub_of_mem (y := main_v73) rfl (by decide),
   writes_sub_of_mem (y := main_v74) rfl (by decide),
   writes_sub_of_mem (y := main_call3.cst.ref) rfl (by decide),
   writes_sub_of_mem (y := main_call3.v0.ref) rfl (by decide),
   writes_sub_of_mem (y := main_call3.v1.ref) rfl (by decide)⟩
theorem seg_bn2_args : ∀ r ∈ argRefs, r ∉ seg_bn2_W := by decide

/-- Layer 3's aggregation: 13 operations. -/
abbrev seg_agg3 : List (HloOp τ sig (Elt F)) :=
  [ nullary main_c_12 (constantI S_ 32 0#32),
    unary main_c_12 main_v76 (broadcastInDim S1600000 ![] bcast_S_S1600000 : (⟨S_, .i32⟩ : BufTy).Contents (Elt F) → (⟨S1600000, .i32⟩ : BufTy).Contents (Elt F)),
    binary main_v1 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v78 (broadcastInDim S1600000 ![] bcast_S_S1600000 : (⟨S_, .i32⟩ : BufTy).Contents (Elt F) → (⟨S1600000, .i32⟩ : BufTy).Contents (Elt F)),
    binary main_v1 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v75 main_v81 main_v82 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v83 (broadcastInDim S100000x128 ![] bcast_S_S100000x128 : (⟨S_, .f32⟩ : BufTy).Contents (Elt F) → (⟨S100000x128, .f32⟩ : BufTy).Contents (Elt F)),
    unary main_v3 main_v84 (broadcastInDim S1600000x1 ![0] bcast_S1600000_S1600000x1_0 : (⟨S1600000, .i32⟩ : BufTy).Contents (Elt F) → (⟨S1600000x1, .i32⟩ : BufTy).Contents (Elt F)),
    ternary main_v83 main_v84 main_v82 main_v85 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers they write. -/
abbrev seg_agg3_W : List (Ref sig .tc) :=
  [main_c_12, main_v76, main_v77, main_c_13, main_v78, main_v79, main_v80, main_v81, main_v82, main_cst_14, main_v83, main_v84, main_v85]
theorem seg_agg3_sub : (seg_agg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem seg_agg3_fresh : (seg_agg3 : List (HloOp τ sig (Elt F))).Forall fun op => op.fresh = ∅ :=
  ⟨rfl, rfl, rfl, rfl, rfl, rfl, rfl, rfl, rfl, rfl, rfl, rfl, rfl⟩
theorem seg_agg3_writes : (seg_agg3 : List (HloOp τ sig (Elt F))).Forall fun op =>
    op.writes ⊆ (seg_agg3_W.map (Proc.devRef (τ := τ) .tc)).toFinset :=
  ⟨writes_sub_of_mem (y := main_c_12) rfl (by decide),
   writes_sub_of_mem (y := main_v76) rfl (by decide),
   writes_sub_of_mem (y := main_v77) rfl (by decide),
   writes_sub_of_mem (y := main_c_13) rfl (by decide),
   writes_sub_of_mem (y := main_v78) rfl (by decide),
   writes_sub_of_mem (y := main_v79) rfl (by decide),
   writes_sub_of_mem (y := main_v80) rfl (by decide),
   writes_sub_of_mem (y := main_v81) rfl (by decide),
   writes_sub_of_mem (y := main_v82) rfl (by decide),
   writes_sub_of_mem (y := main_cst_14) rfl (by decide),
   writes_sub_of_mem (y := main_v83) rfl (by decide),
   writes_sub_of_mem (y := main_v84) rfl (by decide),
   writes_sub_of_mem (y := main_v85) rfl (by decide)⟩
theorem seg_agg3_args : ∀ r ∈ argRefs, r ∉ seg_agg3_W := by decide

/-- Layer 3's affine map: 6 operations. -/
abbrev seg_lin3 : List (HloOp τ sig (Elt F)) :=
  [ binary main_v85 main_arg12 main_v86 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v75 main_arg13 main_v87 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v86 main_v87 main_v88 (addf : (⟨S100000x256, .f32⟩ : BufTy).Contents (Elt F) → (⟨S100000x256, .f32⟩ : BufTy).Contents (Elt F) → (⟨S100000x256, .f32⟩ : BufTy).Contents (Elt F)),
    unary main_arg14 main_v89 (broadcastInDim S1x256 ![1] bcast_S256_S1x256_1 : (⟨S256, .f32⟩ : BufTy).Contents (Elt F) → (⟨S1x256, .f32⟩ : BufTy).Contents (Elt F)),
    unary main_v89 main_v90 (broadcastInDim S100000x256 ![0, 1] bcast_S1x256_S100000x256_0_1 : (⟨S1x256, .f32⟩ : BufTy).Contents (Elt F) → (⟨S100000x256, .f32⟩ : BufTy).Contents (Elt F)),
    binary main_v88 main_v90 main_v91 (addf : (⟨S100000x256, .f32⟩ : BufTy).Contents (Elt F) → (⟨S100000x256, .f32⟩ : BufTy).Contents (Elt F) → (⟨S100000x256, .f32⟩ : BufTy).Contents (Elt F)) ]
/-- The buffers they write. -/
abbrev seg_lin3_W : List (Ref sig .tc) :=
  [main_v86, main_v87, main_v88, main_v89, main_v90, main_v91]
theorem seg_lin3_sub : (seg_lin3 : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem seg_lin3_fresh : (seg_lin3 : List (HloOp τ sig (Elt F))).Forall fun op => op.fresh = ∅ :=
  ⟨rfl, rfl, rfl, rfl, rfl, rfl⟩
theorem seg_lin3_writes : (seg_lin3 : List (HloOp τ sig (Elt F))).Forall fun op =>
    op.writes ⊆ (seg_lin3_W.map (Proc.devRef (τ := τ) .tc)).toFinset :=
  ⟨writes_sub_of_mem (y := main_v86) rfl (by decide),
   writes_sub_of_mem (y := main_v87) rfl (by decide),
   writes_sub_of_mem (y := main_v88) rfl (by decide),
   writes_sub_of_mem (y := main_v89) rfl (by decide),
   writes_sub_of_mem (y := main_v90) rfl (by decide),
   writes_sub_of_mem (y := main_v91) rfl (by decide)⟩
theorem seg_lin3_args : ∀ r ∈ argRefs, r ∉ seg_lin3_W := by decide

/-- Layer 3's column means: 5 operations. -/
abbrev seg_mean3 : List (HloOp τ sig (Elt F)) :=
  [ nullary main_cst_15 (constant S_ .f32 0x00000000#32),
    binary main_v91 main_cst_15 main_v92 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_16 (constant S_ .f32 0x47C35000#32),
    unary main_cst_16 main_v93 (broadcastInDim S256 ![] bcast_S_S256 : (⟨S_, .f32⟩ : BufTy).Contents (Elt F) → (⟨S256, .f32⟩ : BufTy).Contents (Elt F)),
    binary main_v92 main_v93 main_v94 (Host.divf : (⟨S256, .f32⟩ : BufTy).Contents (Elt F) → (⟨S256, .f32⟩ : BufTy).Contents (Elt F) → (⟨S256, .f32⟩ : BufTy).Contents (Elt F)) ]
/-- The buffers they write. -/
abbrev seg_mean3_W : List (Ref sig .tc) :=
  [main_cst_15, main_v92, main_cst_16, main_v93, main_v94]
theorem seg_mean3_sub : (seg_mean3 : List (HloOp τ sig (Elt F))).Forall fun op => op.bufs ⊆ tcRefs τ sig :=
  ⟨nullary_bufs_sub .., binary_bufs_sub .., nullary_bufs_sub .., unary_bufs_sub .., binary_bufs_sub ..⟩
theorem seg_mean3_fresh : (seg_mean3 : List (HloOp τ sig (Elt F))).Forall fun op => op.fresh = ∅ :=
  ⟨rfl, rfl, rfl, rfl, rfl⟩
theorem seg_mean3_writes : (seg_mean3 : List (HloOp τ sig (Elt F))).Forall fun op =>
    op.writes ⊆ (seg_mean3_W.map (Proc.devRef (τ := τ) .tc)).toFinset :=
  ⟨writes_sub_of_mem (y := main_cst_15) rfl (by decide),
   writes_sub_of_mem (y := main_v92) rfl (by decide),
   writes_sub_of_mem (y := main_cst_16) rfl (by decide),
   writes_sub_of_mem (y := main_v93) rfl (by decide),
   writes_sub_of_mem (y := main_v94) rfl (by decide)⟩
theorem seg_mean3_args : ∀ r ∈ argRefs, r ∉ seg_mean3_W := by decide

/-- Layer 3's column variances: 23 operations. -/
abbrev seg_var3 : List (HloOp τ sig (Elt F)) :=
  [ nullary main_c_17 (constantI S_ 32 0#32),
    TRef.nullary main_call4.cst (constant S_ .f32 0x00000000#32),
    TRef.binary (.of main_v91 : TRef sig ⟨S100000x256, .f32⟩) main_call4.cst main_call4.v0 (fun x v => Host.reduceAdd x v reducesTo_S100000x256_S256_d0 h_S_),
    TRef.unary main_call4.v0 main_call4.v1 (broadcastInDim S1x256 ![1] bcast_S256_S1x256_1),
    TRef.nullary main_call4.cst_0 (constant S_ .f32 0x47C35000#32),
    TRef.unary main_call4.cst_0 main_call4.v2 (broadcastInDim S1x256 ![] bcast_S_S1x256),
    TRef.binary main_call4.v1 main_call4.v2 main_call4.v3 Host.divf,
    TRef.unary main_call4.v3 main_call4.v4 (broadcastInDim S100000x256 ![0, 1] bcast_S1x256_S100000x256_0_1),
    TRef.binary (.of main_v91 : TRef sig ⟨S100000x256, .f32⟩) main_call4.v4 main_call4.v5 subf,
    TRef.binary main_call4.v5 main_call4.v5 main_call4.v6 mulf,
    TRef.unary (.of main_c_17 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x256_S256_d0 h_S_),
    TRef.unary main_call4.v8 main_call4.v10 (broadcastInDim S256 ![] bcast_S_S256),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S256 ![] bcast_S_S256),
    TRef.ternary main_call4.v12 main_call4.v11 main_call4.call0.v1 main_call4.call0.v2 (fun p a b => select (broadcastInDim S256 ![] bcast_S_S256 p) a b) ]
/-- The buffers they write. -/
abbrev seg_var3_W : List (Ref sig .tc) :=
  [main_c_17, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]
theorem seg_var3_sub : (seg_var3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg_var3_fresh : (seg_var3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem seg_var3_writes : (seg_var3 : List (HloOp τ sig (Elt F))).Forall fun op =>
    op.writes ⊆ (seg_var3_W.map (Proc.devRef (τ := τ) .tc)).toFinset :=
  ⟨writes_sub_of_mem (y := main_c_17) rfl (by decide),
   writes_sub_of_mem (y := main_call4.cst.ref) rfl (by decide),
   writes_sub_of_mem (y := main_call4.v0.ref) rfl (by decide),
   writes_sub_of_mem (y := main_call4.v1.ref) rfl (by decide),
   writes_sub_of_mem (y := main_call4.cst_0.ref) rfl (by decide),
   writes_sub_of_mem (y := main_call4.v2.ref) rfl (by decide),
   writes_sub_of_mem (y := main_call4.v3.ref) rfl (by decide),
   writes_sub_of_mem (y := main_call4.v4.ref) rfl (by decide),
   writes_sub_of_mem (y := main_call4.v5.ref) rfl (by decide),
   writes_sub_of_mem (y := main_call4.v6.ref) rfl (by decide),
   writes_sub_of_mem (y := main_call4.v7.ref) rfl (by decide),
   writes_sub_of_mem (y := main_call4.cst_1.ref) rfl (by decide),
   writes_sub_of_mem (y := main_call4.v8.ref) rfl (by decide),
   writes_sub_of_mem (y := main_call4.cst_2.ref) rfl (by decide),
   writes_sub_of_mem (y := main_call4.v9.ref) rfl (by decide),
   writes_sub_of_mem (y := main_call4.v10.ref) rfl (by decide),
   writes_sub_of_mem (y := main_call4.v11.ref) rfl (by decide),
   writes_sub_of_mem (y := main_call4.cst_3.ref) rfl (by decide),
   writes_sub_of_mem (y := main_call4.v12.ref) rfl (by decide),
   writes_sub_of_mem (y := main_call4.cst_4.ref) rfl (by decide),
   writes_sub_of_mem (y := main_call4.call0.v0.ref) rfl (by decide),
   writes_sub_of_mem (y := main_call4.call0.v1.ref) rfl (by decide),
   writes_sub_of_mem (y := main_call4.call0.v2.ref) rfl (by decide)⟩
theorem seg_var3_args : ∀ r ∈ argRefs, r ∉ seg_var3_W := by decide

/-- Layer 3's normalisation: the centring, and the constant ε: 4 operations. -/
abbrev seg_bn3a : List (HloOp τ sig (Elt F)) :=
  [ unary main_v94 main_v96 (broadcastInDim S1x256 ![1] bcast_S256_S1x256_1 : (⟨S256, .f32⟩ : BufTy).Contents (Elt F) → (⟨S1x256, .f32⟩ : BufTy).Contents (Elt F)),
    unary main_v96 main_v97 (broadcastInDim S100000x256 ![0, 1] bcast_S1x256_S100000x256_0_1 : (⟨S1x256, .f32⟩ : BufTy).Contents (Elt F) → (⟨S100000x256, .f32⟩ : BufTy).Contents (Elt F)),
    binary main_v91 main_v97 main_v98 (subf : (⟨S100000x256, .f32⟩ : BufTy).Contents (Elt F) → (⟨S100000x256, .f32⟩ : BufTy).Contents (Elt F) → (⟨S100000x256, .f32⟩ : BufTy).Contents (Elt F)),
    nullary main_cst_18 (constant S_ .f32 0x3727C5AC#32) ]
/-- The buffers they write. -/
abbrev seg_bn3a_W : List (Ref sig .tc) :=
  [main_v96, main_v97, main_v98, main_cst_18]
theorem seg_bn3a_sub : (seg_bn3a : List (HloOp τ sig (Elt F))).Forall fun op => op.bufs ⊆ tcRefs τ sig :=
  ⟨unary_bufs_sub .., unary_bufs_sub .., binary_bufs_sub .., nullary_bufs_sub ..⟩
theorem seg_bn3a_fresh : (seg_bn3a : List (HloOp τ sig (Elt F))).Forall fun op => op.fresh = ∅ :=
  ⟨rfl, rfl, rfl, rfl⟩
theorem seg_bn3a_writes : (seg_bn3a : List (HloOp τ sig (Elt F))).Forall fun op =>
    op.writes ⊆ (seg_bn3a_W.map (Proc.devRef (τ := τ) .tc)).toFinset :=
  ⟨writes_sub_of_mem (y := main_v96) rfl (by decide),
   writes_sub_of_mem (y := main_v97) rfl (by decide),
   writes_sub_of_mem (y := main_v98) rfl (by decide),
   writes_sub_of_mem (y := main_cst_18) rfl (by decide)⟩
theorem seg_bn3a_args : ∀ r ∈ argRefs, r ∉ seg_bn3a_W := by decide

/-- Layer 3's normalisation: the scaling, the shift and the clamp: 15 operations. -/
abbrev seg_bn3b : List (HloOp τ sig (Elt F)) :=
  [ unary main_cst_18 main_v99 (broadcastInDim S256 ![] bcast_S_S256 : (⟨S_, .f32⟩ : BufTy).Contents (Elt F) → (⟨S256, .f32⟩ : BufTy).Contents (Elt F)),
    binary main_v95 main_v99 main_v100 (addf : (⟨S256, .f32⟩ : BufTy).Contents (Elt F) → (⟨S256, .f32⟩ : BufTy).Contents (Elt F) → (⟨S256, .f32⟩ : BufTy).Contents (Elt F)),
    unary main_v100 main_v101 (Host.rsqrt : (⟨S256, .f32⟩ : BufTy).Contents (Elt F) → (⟨S256, .f32⟩ : BufTy).Contents (Elt F)),
    unary main_v101 main_v102 (broadcastInDim S1x256 ![1] bcast_S256_S1x256_1 : (⟨S256, .f32⟩ : BufTy).Contents (Elt F) → (⟨S1x256, .f32⟩ : BufTy).Contents (Elt F)),
    unary main_v102 main_v103 (broadcastInDim S100000x256 ![0, 1] bcast_S1x256_S100000x256_0_1 : (⟨S1x256, .f32⟩ : BufTy).Contents (Elt F) → (⟨S100000x256, .f32⟩ : BufTy).Contents (Elt F)),
    binary main_v98 main_v103 main_v104 (mulf : (⟨S100000x256, .f32⟩ : BufTy).Contents (Elt F) → (⟨S100000x256, .f32⟩ : BufTy).Contents (Elt F) → (⟨S100000x256, .f32⟩ : BufTy).Contents (Elt F)),
    unary main_arg15 main_v105 (broadcastInDim S1x256 ![1] bcast_S256_S1x256_1 : (⟨S256, .f32⟩ : BufTy).Contents (Elt F) → (⟨S1x256, .f32⟩ : BufTy).Contents (Elt F)),
    unary main_v105 main_v106 (broadcastInDim S100000x256 ![0, 1] bcast_S1x256_S100000x256_0_1 : (⟨S1x256, .f32⟩ : BufTy).Contents (Elt F) → (⟨S100000x256, .f32⟩ : BufTy).Contents (Elt F)),
    binary main_v104 main_v106 main_v107 (mulf : (⟨S100000x256, .f32⟩ : BufTy).Contents (Elt F) → (⟨S100000x256, .f32⟩ : BufTy).Contents (Elt F) → (⟨S100000x256, .f32⟩ : BufTy).Contents (Elt F)),
    unary main_arg16 main_v108 (broadcastInDim S1x256 ![1] bcast_S256_S1x256_1 : (⟨S256, .f32⟩ : BufTy).Contents (Elt F) → (⟨S1x256, .f32⟩ : BufTy).Contents (Elt F)),
    unary main_v108 main_v109 (broadcastInDim S100000x256 ![0, 1] bcast_S1x256_S100000x256_0_1 : (⟨S1x256, .f32⟩ : BufTy).Contents (Elt F) → (⟨S100000x256, .f32⟩ : BufTy).Contents (Elt F)),
    binary main_v107 main_v109 main_v110 (addf : (⟨S100000x256, .f32⟩ : BufTy).Contents (Elt F) → (⟨S100000x256, .f32⟩ : BufTy).Contents (Elt F) → (⟨S100000x256, .f32⟩ : BufTy).Contents (Elt F)),
    TRef.nullary main_call5.cst (constant S_ .f32 0x00000000#32),
    TRef.unary main_call5.cst main_call5.v0 (broadcastInDim S100000x256 ![] bcast_S_S100000x256),
    TRef.binary (.of main_v110 : TRef sig ⟨S100000x256, .f32⟩) main_call5.v0 main_call5.v1 maximumf ]
/-- The buffers they write. -/
abbrev seg_bn3b_W : List (Ref sig .tc) :=
  [main_v99, main_v100, main_v101, main_v102, main_v103, main_v104, main_v105, main_v106, main_v107, main_v108, main_v109, main_v110, main_call5.cst.ref, main_call5.v0.ref, main_call5.v1.ref]
theorem seg_bn3b_sub : (seg_bn3b : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem seg_bn3b_fresh : (seg_bn3b : List (HloOp τ sig (Elt F))).Forall fun op => op.fresh = ∅ :=
  ⟨rfl, rfl, rfl, rfl, rfl, rfl, rfl, rfl, rfl, rfl, rfl, rfl, rfl, rfl, rfl⟩
theorem seg_bn3b_writes : (seg_bn3b : List (HloOp τ sig (Elt F))).Forall fun op =>
    op.writes ⊆ (seg_bn3b_W.map (Proc.devRef (τ := τ) .tc)).toFinset :=
  ⟨writes_sub_of_mem (y := main_v99) rfl (by decide),
   writes_sub_of_mem (y := main_v100) rfl (by decide),
   writes_sub_of_mem (y := main_v101) rfl (by decide),
   writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_v106) rfl (by decide),
   writes_sub_of_mem (y := main_v107) rfl (by decide),
   writes_sub_of_mem (y := main_v108) rfl (by decide),
   writes_sub_of_mem (y := main_v109) rfl (by decide),
   writes_sub_of_mem (y := main_v110) rfl (by decide),
   writes_sub_of_mem (y := main_call5.cst.ref) rfl (by decide),
   writes_sub_of_mem (y := main_call5.v0.ref) rfl (by decide),
   writes_sub_of_mem (y := main_call5.v1.ref) rfl (by decide)⟩
theorem seg_bn3b_args : ∀ r ∈ argRefs, r ∉ seg_bn3b_W := by decide

/-- The head: 12 operations. -/
abbrev seg_head : List (HloOp τ sig (Elt F)) :=
  [ binary main_v111 main_arg17 main_v112 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg18 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v115 : TRef sig ⟨S100000x128, .f32⟩) main_call6.v0 main_call6.v1 maximumf,
    binary main_v116 main_arg19 main_v117 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg20 main_v118 (broadcastInDim S1x1 ![1] bcast_S1_S1x1_1 : (⟨S1, .f32⟩ : BufTy).Contents (Elt F) → (⟨S1x1, .f32⟩ : BufTy).Contents (Elt F)),
    unary main_v118 main_v119 (broadcastInDim S100000x1 ![0, 1] bcast_S1x1_S100000x1_0_1 : (⟨S1x1, .f32⟩ : BufTy).Contents (Elt F) → (⟨S100000x1, .f32⟩ : BufTy).Contents (Elt F)),
    binary main_v117 main_v119 main_v120 (addf : (⟨S100000x1, .f32⟩ : BufTy).Contents (Elt F) → (⟨S100000x1, .f32⟩ : BufTy).Contents (Elt F) → (⟨S100000x1, .f32⟩ : BufTy).Contents (Elt F)),
    reshape main_v120 main_v121 rfl shapeCasts_S100000x1_S100000 ]
/-- The buffers they write. -/
abbrev seg_head_W : List (Ref sig .tc) :=
  [main_v112, main_v113, main_v114, main_v115, main_call6.cst.ref, main_call6.v0.ref, main_call6.v1.ref, main_v117, main_v118, main_v119, main_v120, main_v121]
theorem seg_head_sub : (seg_head : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩
theorem seg_head_fresh : (seg_head : List (HloOp τ sig (Elt F))).Forall fun op => op.fresh = ∅ :=
  ⟨rfl, rfl, rfl, rfl, rfl, rfl, rfl, rfl, rfl, rfl, rfl, rfl⟩
theorem seg_head_writes : (seg_head : List (HloOp τ sig (Elt F))).Forall fun op =>
    op.writes ⊆ (seg_head_W.map (Proc.devRef (τ := τ) .tc)).toFinset :=
  ⟨writes_sub_of_mem (y := main_v112) rfl (by decide),
   writes_sub_of_mem (y := main_v113) rfl (by decide),
   writes_sub_of_mem (y := main_v114) rfl (by decide),
   writes_sub_of_mem (y := main_v115) rfl (by decide),
   writes_sub_of_mem (y := main_call6.cst.ref) rfl (by decide),
   writes_sub_of_mem (y := main_call6.v0.ref) rfl (by decide),
   writes_sub_of_mem (y := main_call6.v1.ref) rfl (by decide),
   writes_sub_of_mem (y := main_v117) rfl (by decide),
   writes_sub_of_mem (y := main_v118) rfl (by decide),
   writes_sub_of_mem (y := main_v119) rfl (by decide),
   writes_sub_of_mem (y := main_v120) rfl (by decide),
   writes_sub_of_mem (y := main_v121) rfl (by decide)⟩
theorem seg_head_args : ∀ r ∈ argRefs, r ∉ seg_head_W := by decide

/-! ### The three windows of the printed @main, and the whole -/

/-- The operations of @main's window 0. -/
abbrev ops0 : List (HloOp τ sig (Elt F)) := seg_idx ++ seg_agg1 ++ seg_lin1 ++ seg_mean1 ++ seg_var1 ++ seg_bn1 ++ seg_agg2

/-- The operations of @main's window 1. -/
abbrev ops1 : List (HloOp τ sig (Elt F)) := seg_lin2 ++ seg_mean2 ++ seg_var2 ++ seg_bn2 ++ seg_agg3 ++ seg_lin3 ++ seg_mean3 ++ seg_var3 ++ seg_bn3a

/-- The operations of @main's window 2. -/
abbrev ops2 : List (HloOp τ sig (Elt F)) := seg_bn3b ++ seg_head

/-- @main's 214 operations, in order. -/
abbrev ops : List (HloOp τ sig (Elt F)) := ops0 ++ ops1 ++ ops2

-- the window is one chain of binds, a called function's body a chain inside it: reassociated, and the
-- functions' closing returns dropped, both sides are the same chain of steps
set_option maxRecDepth 8192 in
set_option maxHeartbeats 4000000 in
theorem main_part0_eq (c : Dev nD) : main_part0 (F := F) c = seq ops0 := by
  simp only [ops0, seq_append, main_part0, fn_var.body, fn_where.body, fn_relu.body, seq, bind_assoc, pure_bind]
  first | done | rfl

-- the window is one chain of binds, a called function's body a chain inside it: reassociated, and the
-- functions' closing returns dropped, both sides are the same chain of steps
set_option maxRecDepth 8192 in
set_option maxHeartbeats 4000000 in
theorem main_part1_eq (c : Dev nD) : main_part1 (F := F) c = seq ops1 := by
  simp only [ops1, seq_append, main_part1, fn_var_0.body, fn_where_1.body, fn_relu_2.body, fn_var_3.body, fn_where_4.body, seq, bind_assoc, pure_bind]
  first | done | rfl

-- the window is one chain of binds, a called function's body a chain inside it: reassociated, and the
-- functions' closing returns dropped, both sides are the same chain of steps
set_option maxRecDepth 8192 in
set_option maxHeartbeats 4000000 in
theorem main_part2_eq (c : Dev nD) : main_part2 (F := F) c = seq ops2 := by
  simp only [ops2, seq_append, main_part2, fn_relu_5.body, fn_relu_2.body, seq, bind_assoc, pure_bind]
  first | done | rfl

theorem main_eq (c : Dev nD) : main (F := F) c = seq ops := by
  rw [show (ops : List (HloOp τ sig (Elt F))) = (ops0 ++ ops1) ++ ops2 from rfl, seq_append, seq_append,
    ← main_part0_eq c, ← main_part1_eq c, ← main_part2_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append (forall_append (forall_append (forall_append (forall_append (forall_append seg_idx_sub seg_agg1_sub) seg_lin1_sub) seg_mean1_sub) seg_var1_sub) seg_bn1_sub) seg_agg2_sub)
    (forall_append (forall_append (forall_append (forall_append (forall_append (forall_append (forall_append (forall_append seg_lin2_sub seg_mean2_sub) seg_var2_sub) seg_bn2_sub) seg_agg3_sub) seg_lin3_sub) seg_mean3_sub) seg_var3_sub) seg_bn3a_sub))
    (forall_append seg_bn3b_sub seg_head_sub)

theorem ops_fresh : ∀ op ∈ (ops : List (HloOp τ sig (Elt F))), op.fresh = ∅ :=
  List.forall_iff_forall_mem.mp
    (forall_append (forall_append (forall_append (forall_append (forall_append (forall_append (forall_append (forall_append seg_idx_fresh seg_agg1_fresh) seg_lin1_fresh) seg_mean1_fresh) seg_var1_fresh) seg_bn1_fresh) seg_agg2_fresh)
      (forall_append (forall_append (forall_append (forall_append (forall_append (forall_append (forall_append (forall_append seg_lin2_fresh seg_mean2_fresh) seg_var2_fresh) seg_bn2_fresh) seg_agg3_fresh) seg_lin3_fresh) seg_mean3_fresh) seg_var3_fresh) seg_bn3a_fresh))
      (forall_append seg_bn3b_fresh seg_head_fresh))

end Cert.ReferenceIdeal.RefRun

end
-- ==== Proof.RefRun.lean ====
import proofs.«115009_j15960098472830_1_alg».proof.Proof.RefStages
import proofs.«115009_j15960098472830_1_alg».proof.Proof.RefRunOps

/-!
The reference program's run, read back as the network of `RefStages`.

`valK V0` is what the device's buffers hold after the first `K` pieces of the operation list, from contents `V0`.
For each piece, each buffer a later piece reads is given its value as a stage of the network applied to `V0` at
@main's arguments: the piece's own results by unfolding its operations one at a time, each at its own result buffer,
and reading the operands off the lemmas of the piece before; a buffer the piece does not write keeps what it held. No
piece writes an argument. The last piece's result is `refOut` of the arguments, and `run` is that statement about every
weakly fair execution of @main from a memory with zero counters.
-/

noncomputable section

namespace Cert.ReferenceIdeal.RefRun

open Cert.ReferenceIdeal Cert.ReferenceIdeal.Gen Cert.ReferenceIdeal.RefStages Idealize.ShloMosaic Idealize.ShloMosaic.TcCoe Idealize.SL.Sem Idealize.ShloMosaic.StableHlo

/-- The device's buffer contents before the first piece. -/
def val0 (V0 : Valuation τ sig (Elt Ideal)) : Valuation τ sig (Elt Ideal) := V0
theorem val0_args (V0 : Valuation τ sig (Elt Ideal)) (r : Ref sig .tc) (h : r ∈ argRefs) :
    val0 V0 (Proc.devRef .tc r) = V0 (Proc.devRef .tc r) := rfl
theorem val0_main_arg1 (V0 : Valuation τ sig (Elt Ideal)) : val0 V0 (no_index (Proc.devRef .tc main_arg1)) = V0 (Proc.devRef .tc main_arg1) :=
  val0_args V0 main_arg1 (by decide)

/-! ### After the edge list's two rows as vectors -/

/-- The device's buffer contents after the first 1 piece. -/
def val1 (V0 : Valuation τ sig (Elt Ideal)) : Valuation τ sig (Elt Ideal) := after (seg_idx (F := Ideal)) (val0 V0)
/-- A buffer the piece does not write keeps its contents through it. -/
theorem val1_keep (V0 : Valuation τ sig (Elt Ideal)) (r : Ref sig .tc) (h : r ∉ seg_idx_W) :
    val1 V0 (Proc.devRef .tc r) = val0 V0 (Proc.devRef .tc r) :=
  after_of_writes_sub seg_idx _ seg_idx_writes h
theorem val1_args (V0 : Valuation τ sig (Elt Ideal)) (r : Ref sig .tc) (h : r ∈ argRefs) :
    val1 V0 (Proc.devRef .tc r) = V0 (Proc.devRef .tc r) :=
  (val1_keep V0 r (seg_idx_args r h)).trans (val0_args V0 r h)
theorem val1_main_arg0 (V0 : Valuation τ sig (Elt Ideal)) : val1 V0 (no_index (Proc.devRef .tc main_arg0)) = V0 (Proc.devRef .tc main_arg0) :=
  val1_args V0 main_arg0 (by decide)
theorem val1_main_v1 (V0 : Valuation τ sig (Elt Ideal)) : val1 V0 (no_index (Proc.devRef .tc main_v1)) = (src (V0 (Proc.devRef .tc main_arg1))) := by
  unfold val1
  simp only [seg_idx]
  after_results_simp
  all_goals (simp only [val0_main_arg1] <;> rfl)
theorem val1_main_v3 (V0 : Valuation τ sig (Elt Ideal)) : val1 V0 (no_index (Proc.devRef .tc main_v3)) = (dst (V0 (Proc.devRef .tc main_arg1))) := by
  unfold val1
  simp only [seg_idx]
  after_results_simp
  all_goals (simp only [val0_main_arg1] <;> rfl)

/-! ### After layer 1's aggregation -/

/-- The device's buffer contents after the first 2 pieces. -/
def val2 (V0 : Valuation τ sig (Elt Ideal)) : Valuation τ sig (Elt Ideal) := after (seg_agg1 (F := Ideal)) (val1 V0)
/-- A buffer the piece does not write keeps its contents through it. -/
theorem val2_keep (V0 : Valuation τ sig (Elt Ideal)) (r : Ref sig .tc) (h : r ∉ seg_agg1_W) :
    val2 V0 (Proc.devRef .tc r) = val1 V0 (Proc.devRef .tc r) :=
  after_of_writes_sub seg_agg1 _ seg_agg1_writes h
theorem val2_args (V0 : Valuation τ sig (Elt Ideal)) (r : Ref sig .tc) (h : r ∈ argRefs) :
    val2 V0 (Proc.devRef .tc r) = V0 (Proc.devRef .tc r) :=
  (val2_keep V0 r (seg_agg1_args r h)).trans (val1_args V0 r h)
theorem val2_main_arg0 (V0 : Valuation τ sig (Elt Ideal)) : val2 V0 (no_index (Proc.devRef .tc main_arg0)) = V0 (Proc.devRef .tc main_arg0) :=
  val2_args V0 main_arg0 (by decide)
theorem val2_main_arg2 (V0 : Valuation τ sig (Elt Ideal)) : val2 V0 (no_index (Proc.devRef .tc main_arg2)) = V0 (Proc.devRef .tc main_arg2) :=
  val2_args V0 main_arg2 (by decide)
theorem val2_main_arg3 (V0 : Valuation τ sig (Elt Ideal)) : val2 V0 (no_index (Proc.devRef .tc main_arg3)) = V0 (Proc.devRef .tc main_arg3) :=
  val2_args V0 main_arg3 (by decide)
theorem val2_main_arg4 (V0 : Valuation τ sig (Elt Ideal)) : val2 V0 (no_index (Proc.devRef .tc main_arg4)) = V0 (Proc.devRef .tc main_arg4) :=
  val2_args V0 main_arg4 (by decide)
theorem val2_main_v1 (V0 : Valuation τ sig (Elt Ideal)) : val2 V0 (no_index (Proc.devRef .tc main_v1)) = (src (V0 (Proc.devRef .tc main_arg1))) :=
  (val2_keep V0 main_v1 (by decide)).trans (val1_main_v1 V0)
theorem val2_main_v3 (V0 : Valuation τ sig (Elt Ideal)) : val2 V0 (no_index (Proc.devRef .tc main_v3)) = (dst (V0 (Proc.devRef .tc main_arg1))) :=
  (val2_keep V0 main_v3 (by decide)).trans (val1_main_v3 V0)
set_option maxHeartbeats 1300000 in
theorem val2_main_v13 (V0 : Valuation τ sig (Elt Ideal)) : val2 V0 (no_index (Proc.devRef .tc main_v13)) = (agg_1 (V0 (Proc.devRef .tc main_arg0)) (V0 (Proc.devRef .tc main_arg1))) := by
  unfold val2
  simp only [seg_agg1]
  after_results_simp
  all_goals (simp only [val1_main_v1, val1_main_v3, val1_main_arg0] <;> rfl)

/-! ### After layer 1's affine map -/

/-- The device's buffer contents after the first 3 pieces. -/
def val3 (V0 : Valuation τ sig (Elt Ideal)) : Valuation τ sig (Elt Ideal) := after (seg_lin1 (F := Ideal)) (val2 V0)
/-- A buffer the piece does not write keeps its contents through it. -/
theorem val3_keep (V0 : Valuation τ sig (Elt Ideal)) (r : Ref sig .tc) (h : r ∉ seg_lin1_W) :
    val3 V0 (Proc.devRef .tc r) = val2 V0 (Proc.devRef .tc r) :=
  after_of_writes_sub seg_lin1 _ seg_lin1_writes h
theorem val3_args (V0 : Valuation τ sig (Elt Ideal)) (r : Ref sig .tc) (h : r ∈ argRefs) :
    val3 V0 (Proc.devRef .tc r) = V0 (Proc.devRef .tc r) :=
  (val3_keep V0 r (seg_lin1_args r h)).trans (val2_args V0 r h)
theorem val3_main_v1 (V0 : Valuation τ sig (Elt Ideal)) : val3 V0 (no_index (Proc.devRef .tc main_v1)) = (src (V0 (Proc.devRef .tc main_arg1))) :=
  (val3_keep V0 main_v1 (by decide)).trans (val2_main_v1 V0)
theorem val3_main_v3 (V0 : Valuation τ sig (Elt Ideal)) : val3 V0 (no_index (Proc.devRef .tc main_v3)) = (dst (V0 (Proc.devRef .tc main_arg1))) :=
  (val3_keep V0 main_v3 (by decide)).trans (val2_main_v3 V0)
theorem val3_main_v19 (V0 : Valuation τ sig (Elt Ideal)) : val3 V0 (no_index (Proc.devRef .tc main_v19)) = (pre_1 (V0 (Proc.devRef .tc main_arg0)) (V0 (Proc.devRef .tc main_arg1)) (V0 (Proc.devRef .tc main_arg2)) (V0 (Proc.devRef .tc main_arg3)) (V0 (Proc.devRef .tc main_arg4))) := by
  unfold val3
  simp only [seg_lin1]
  after_results_simp
  all_goals (simp only [val2_main_v13, val2_main_arg0, val2_main_arg2, val2_main_arg3, val2_main_arg4] <;> rfl)

/-! ### After layer 1's column means -/

/-- The device's buffer contents after the first 4 pieces. -/
def val4 (V0 : Valuation τ sig (Elt Ideal)) : Valuation τ sig (Elt Ideal) := after (seg_mean1 (F := Ideal)) (val3 V0)
/-- A buffer the piece does not write keeps its contents through it. -/
theorem val4_keep (V0 : Valuation τ sig (Elt Ideal)) (r : Ref sig .tc) (h : r ∉ seg_mean1_W) :
    val4 V0 (Proc.devRef .tc r) = val3 V0 (Proc.devRef .tc r) :=
  after_of_writes_sub seg_mean1 _ seg_mean1_writes h
theorem val4_args (V0 : Valuation τ sig (Elt Ideal)) (r : Ref sig .tc) (h : r ∈ argRefs) :
    val4 V0 (Proc.devRef .tc r) = V0 (Proc.devRef .tc r) :=
  (val4_keep V0 r (seg_mean1_args r h)).trans (val3_args V0 r h)
theorem val4_main_v1 (V0 : Valuation τ sig (Elt Ideal)) : val4 V0 (no_index (Proc.devRef .tc main_v1)) = (src (V0 (Proc.devRef .tc main_arg1))) :=
  (val4_keep V0 main_v1 (by decide)).trans (val3_main_v1 V0)
theorem val4_main_v3 (V0 : Valuation τ sig (Elt Ideal)) : val4 V0 (no_index (Proc.devRef .tc main_v3)) = (dst (V0 (Proc.devRef .tc main_arg1))) :=
  (val4_keep V0 main_v3 (by decide)).trans (val3_main_v3 V0)
theorem val4_main_v19 (V0 : Valuation τ sig (Elt Ideal)) : val4 V0 (no_index (Proc.devRef .tc main_v19)) = (pre_1 (V0 (Proc.devRef .tc main_arg0)) (V0 (Proc.devRef .tc main_arg1)) (V0 (Proc.devRef .tc main_arg2)) (V0 (Proc.devRef .tc main_arg3)) (V0 (Proc.devRef .tc main_arg4))) :=
  (val4_keep V0 main_v19 (by decide)).trans (val3_main_v19 V0)
theorem val4_main_v22 (V0 : Valuation τ sig (Elt Ideal)) : val4 V0 (no_index (Proc.devRef .tc main_v22)) = (mean_1 (pre_1 (V0 (Proc.devRef .tc main_arg0)) (V0 (Proc.devRef .tc main_arg1)) (V0 (Proc.devRef .tc main_arg2)) (V0 (Proc.devRef .tc main_arg3)) (V0 (Proc.devRef .tc main_arg4)))) := by
  unfold val4
  simp only [seg_mean1]
  after_results_simp
  all_goals (simp only [val3_main_v19] <;> rfl)

/-! ### After layer 1's column variances (the variance function's body, the select it calls inside) -/

/-- The device's buffer contents after the first 5 pieces. -/
def val5 (V0 : Valuation τ sig (Elt Ideal)) : Valuation τ sig (Elt Ideal) := after (seg_var1 (F := Ideal)) (val4 V0)
/-- A buffer the piece does not write keeps its contents through it. -/
theorem val5_keep (V0 : Valuation τ sig (Elt Ideal)) (r : Ref sig .tc) (h : r ∉ seg_var1_W) :
    val5 V0 (Proc.devRef .tc r) = val4 V0 (Proc.devRef .tc r) :=
  after_of_writes_sub seg_var1 _ seg_var1_writes h
theorem val5_args (V0 : Valuation τ sig (Elt Ideal)) (r : Ref sig .tc) (h : r ∈ argRefs) :
    val5 V0 (Proc.devRef .tc r) = V0 (Proc.devRef .tc r) :=
  (val5_keep V0 r (seg_var1_args r h)).trans (val4_args V0 r h)
theorem val5_main_arg5 (V0 : Valuation τ sig (Elt Ideal)) : val5 V0 (no_index (Proc.devRef .tc main_arg5)) = V0 (Proc.devRef .tc main_arg5) :=
  val5_args V0 main_arg5 (by decide)
theorem val5_main_arg6 (V0 : Valuation τ sig (Elt Ideal)) : val5 V0 (no_index (Proc.devRef .tc main_arg6)) = V0 (Proc.devRef .tc main_arg6) :=
  val5_args V0 main_arg6 (by decide)
theorem val5_main_v1 (V0 : Valuation τ sig (Elt Ideal)) : val5 V0 (no_index (Proc.devRef .tc main_v1)) = (src (V0 (Proc.devRef .tc main_arg1))) :=
  (val5_keep V0 main_v1 (by decide)).trans (val4_main_v1 V0)
theorem val5_main_v3 (V0 : Valuation τ sig (Elt Ideal)) : val5 V0 (no_index (Proc.devRef .tc main_v3)) = (dst (V0 (Proc.devRef .tc main_arg1))) :=
  (val5_keep V0 main_v3 (by decide)).trans (val4_main_v3 V0)
theorem val5_main_v19 (V0 : Valuation τ sig (Elt Ideal)) : val5 V0 (no_index (Proc.devRef .tc main_v19)) = (pre_1 (V0 (Proc.devRef .tc main_arg0)) (V0 (Proc.devRef .tc main_arg1)) (V0 (Proc.devRef .tc main_arg2)) (V0 (Proc.devRef .tc main_arg3)) (V0 (Proc.devRef .tc main_arg4))) :=
  (val5_keep V0 main_v19 (by decide)).trans (val4_main_v19 V0)
theorem val5_main_v22 (V0 : Valuation τ sig (Elt Ideal)) : val5 V0 (no_index (Proc.devRef .tc main_v22)) = (mean_1 (pre_1 (V0 (Proc.devRef .tc main_arg0)) (V0 (Proc.devRef .tc main_arg1)) (V0 (Proc.devRef .tc main_arg2)) (V0 (Proc.devRef .tc main_arg3)) (V0 (Proc.devRef .tc main_arg4)))) :=
  (val5_keep V0 main_v22 (by decide)).trans (val4_main_v22 V0)
set_option maxHeartbeats 2000000 in
theorem val5_main_v23 (V0 : Valuation τ sig (Elt Ideal)) : val5 V0 (no_index (Proc.devRef .tc main_v23)) = (var_1 (pre_1 (V0 (Proc.devRef .tc main_arg0)) (V0 (Proc.devRef .tc main_arg1)) (V0 (Proc.devRef .tc main_arg2)) (V0 (Proc.devRef .tc main_arg3)) (V0 (Proc.devRef .tc main_arg4)))) := by
  unfold val5
  simp only [seg_var1]
  after_results_simp
  all_goals (simp only [TRef.toBuf, TRef.ofBuf, cast_eq, id_eq, val4_main_v19] <;> rfl)

/-! ### After layer 1's normalisation and clamp -/

/-- The device's buffer contents after the first 6 pieces. -/
def val6 (V0 : Valuation τ sig (Elt Ideal)) : Valuation τ sig (Elt Ideal) := after (seg_bn1 (F := Ideal)) (val5 V0)
/-- A buffer the piece does not write keeps its contents through it. -/
theorem val6_keep (V0 : Valuation τ sig (Elt Ideal)) (r : Ref sig .tc) (h : r ∉ seg_bn1_W) :
    val6 V0 (Proc.devRef .tc r) = val5 V0 (Proc.devRef .tc r) :=
  after_of_writes_sub seg_bn1 _ seg_bn1_writes h
theorem val6_args (V0 : Valuation τ sig (Elt Ideal)) (r : Ref sig .tc) (h : r ∈ argRefs) :
    val6 V0 (Proc.devRef .tc r) = V0 (Proc.devRef .tc r) :=
  (val6_keep V0 r (seg_bn1_args r h)).trans (val5_args V0 r h)
theorem val6_main_v1 (V0 : Valuation τ sig (Elt Ideal)) : val6 V0 (no_index (Proc.devRef .tc main_v1)) = (src (V0 (Proc.devRef .tc main_arg1))) :=
  (val6_keep V0 main_v1 (by decide)).trans (val5_main_v1 V0)
theorem val6_main_v3 (V0 : Valuation τ sig (Elt Ideal)) : val6 V0 (no_index (Proc.devRef .tc main_v3)) = (dst (V0 (Proc.devRef .tc main_arg1))) :=
  (val6_keep V0 main_v3 (by decide)).trans (val5_main_v3 V0)
set_option maxHeartbeats 1900000 in
theorem val6_main_v39 (V0 : Valuation τ sig (Elt Ideal)) : val6 V0 (no_index (Proc.devRef .tc main_v39)) = (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  unfold val6
  simp only [seg_bn1]
  after_results_simp
  all_goals (simp only [TRef.toBuf, TRef.ofBuf, cast_eq, val5_main_v19, val5_main_v22, val5_main_v23, val5_main_arg5, val5_main_arg6] <;> rfl)

/-! ### After layer 2's aggregation -/

/-- The device's buffer contents after the first 7 pieces. -/
def val7 (V0 : Valuation τ sig (Elt Ideal)) : Valuation τ sig (Elt Ideal) := after (seg_agg2 (F := Ideal)) (val6 V0)
/-- A buffer the piece does not write keeps its contents through it. -/
theorem val7_keep (V0 : Valuation τ sig (Elt Ideal)) (r : Ref sig .tc) (h : r ∉ seg_agg2_W) :
    val7 V0 (Proc.devRef .tc r) = val6 V0 (Proc.devRef .tc r) :=
  after_of_writes_sub seg_agg2 _ seg_agg2_writes h
theorem val7_args (V0 : Valuation τ sig (Elt Ideal)) (r : Ref sig .tc) (h : r ∈ argRefs) :
    val7 V0 (Proc.devRef .tc r) = V0 (Proc.devRef .tc r) :=
  (val7_keep V0 r (seg_agg2_args r h)).trans (val6_args V0 r h)
theorem val7_main_arg7 (V0 : Valuation τ sig (Elt Ideal)) : val7 V0 (no_index (Proc.devRef .tc main_arg7)) = V0 (Proc.devRef .tc main_arg7) :=
  val7_args V0 main_arg7 (by decide)
theorem val7_main_arg8 (V0 : Valuation τ sig (Elt Ideal)) : val7 V0 (no_index (Proc.devRef .tc main_arg8)) = V0 (Proc.devRef .tc main_arg8) :=
  val7_args V0 main_arg8 (by decide)
theorem val7_main_arg9 (V0 : Valuation τ sig (Elt Ideal)) : val7 V0 (no_index (Proc.devRef .tc main_arg9)) = V0 (Proc.devRef .tc main_arg9) :=
  val7_args V0 main_arg9 (by decide)
theorem val7_main_v1 (V0 : Valuation τ sig (Elt Ideal)) : val7 V0 (no_index (Proc.devRef .tc main_v1)) = (src (V0 (Proc.devRef .tc main_arg1))) :=
  (val7_keep V0 main_v1 (by decide)).trans (val6_main_v1 V0)
theorem val7_main_v3 (V0 : Valuation τ sig (Elt Ideal)) : val7 V0 (no_index (Proc.devRef .tc main_v3)) = (dst (V0 (Proc.devRef .tc main_arg1))) :=
  (val7_keep V0 main_v3 (by decide)).trans (val6_main_v3 V0)
theorem val7_main_v39 (V0 : Valuation τ sig (Elt Ideal)) : val7 V0 (no_index (Proc.devRef .tc main_v39)) = (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) :=
  (val7_keep V0 main_v39 (by decide)).trans (val6_main_v39 V0)
set_option maxHeartbeats 1300000 in
theorem val7_main_v49 (V0 : Valuation τ sig (Elt Ideal)) : val7 V0 (no_index (Proc.devRef .tc main_v49)) = (agg_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1))) := by
  unfold val7
  simp only [seg_agg2]
  after_results_simp
  all_goals (simp only [val6_main_v1, val6_main_v3, val6_main_v39] <;> rfl)

/-! ### After layer 2's affine map -/

/-- The device's buffer contents after the first 8 pieces. -/
def val8 (V0 : Valuation τ sig (Elt Ideal)) : Valuation τ sig (Elt Ideal) := after (seg_lin2 (F := Ideal)) (val7 V0)
/-- A buffer the piece does not write keeps its contents through it. -/
theorem val8_keep (V0 : Valuation τ sig (Elt Ideal)) (r : Ref sig .tc) (h : r ∉ seg_lin2_W) :
    val8 V0 (Proc.devRef .tc r) = val7 V0 (Proc.devRef .tc r) :=
  after_of_writes_sub seg_lin2 _ seg_lin2_writes h
theorem val8_args (V0 : Valuation τ sig (Elt Ideal)) (r : Ref sig .tc) (h : r ∈ argRefs) :
    val8 V0 (Proc.devRef .tc r) = V0 (Proc.devRef .tc r) :=
  (val8_keep V0 r (seg_lin2_args r h)).trans (val7_args V0 r h)
theorem val8_main_v1 (V0 : Valuation τ sig (Elt Ideal)) : val8 V0 (no_index (Proc.devRef .tc main_v1)) = (src (V0 (Proc.devRef .tc main_arg1))) :=
  (val8_keep V0 main_v1 (by decide)).trans (val7_main_v1 V0)
theorem val8_main_v3 (V0 : Valuation τ sig (Elt Ideal)) : val8 V0 (no_index (Proc.devRef .tc main_v3)) = (dst (V0 (Proc.devRef .tc main_arg1))) :=
  (val8_keep V0 main_v3 (by decide)).trans (val7_main_v3 V0)
theorem val8_main_v55 (V0 : Valuation τ sig (Elt Ideal)) : val8 V0 (no_index (Proc.devRef .tc main_v55)) = (pre_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9))) := by
  unfold val8
  simp only [seg_lin2]
  after_results_simp
  all_goals (simp only [val7_main_v49, val7_main_v39, val7_main_arg7, val7_main_arg8, val7_main_arg9] <;> rfl)

/-! ### After layer 2's column means -/

/-- The device's buffer contents after the first 9 pieces. -/
def val9 (V0 : Valuation τ sig (Elt Ideal)) : Valuation τ sig (Elt Ideal) := after (seg_mean2 (F := Ideal)) (val8 V0)
/-- A buffer the piece does not write keeps its contents through it. -/
theorem val9_keep (V0 : Valuation τ sig (Elt Ideal)) (r : Ref sig .tc) (h : r ∉ seg_mean2_W) :
    val9 V0 (Proc.devRef .tc r) = val8 V0 (Proc.devRef .tc r) :=
  after_of_writes_sub seg_mean2 _ seg_mean2_writes h
theorem val9_args (V0 : Valuation τ sig (Elt Ideal)) (r : Ref sig .tc) (h : r ∈ argRefs) :
    val9 V0 (Proc.devRef .tc r) = V0 (Proc.devRef .tc r) :=
  (val9_keep V0 r (seg_mean2_args r h)).trans (val8_args V0 r h)
theorem val9_main_v1 (V0 : Valuation τ sig (Elt Ideal)) : val9 V0 (no_index (Proc.devRef .tc main_v1)) = (src (V0 (Proc.devRef .tc main_arg1))) :=
  (val9_keep V0 main_v1 (by decide)).trans (val8_main_v1 V0)
theorem val9_main_v3 (V0 : Valuation τ sig (Elt Ideal)) : val9 V0 (no_index (Proc.devRef .tc main_v3)) = (dst (V0 (Proc.devRef .tc main_arg1))) :=
  (val9_keep V0 main_v3 (by decide)).trans (val8_main_v3 V0)
theorem val9_main_v55 (V0 : Valuation τ sig (Elt Ideal)) : val9 V0 (no_index (Proc.devRef .tc main_v55)) = (pre_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9))) :=
  (val9_keep V0 main_v55 (by decide)).trans (val8_main_v55 V0)
theorem val9_main_v58 (V0 : Valuation τ sig (Elt Ideal)) : val9 V0 (no_index (Proc.devRef .tc main_v58)) = (mean_2 (pre_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)))) := by
  unfold val9
  simp only [seg_mean2]
  after_results_simp
  all_goals (simp only [val8_main_v55] <;> rfl)

/-! ### After layer 2's column variances -/

/-- The device's buffer contents after the first 10 pieces. -/
def val10 (V0 : Valuation τ sig (Elt Ideal)) : Valuation τ sig (Elt Ideal) := after (seg_var2 (F := Ideal)) (val9 V0)
/-- A buffer the piece does not write keeps its contents through it. -/
theorem val10_keep (V0 : Valuation τ sig (Elt Ideal)) (r : Ref sig .tc) (h : r ∉ seg_var2_W) :
    val10 V0 (Proc.devRef .tc r) = val9 V0 (Proc.devRef .tc r) :=
  after_of_writes_sub seg_var2 _ seg_var2_writes h
theorem val10_args (V0 : Valuation τ sig (Elt Ideal)) (r : Ref sig .tc) (h : r ∈ argRefs) :
    val10 V0 (Proc.devRef .tc r) = V0 (Proc.devRef .tc r) :=
  (val10_keep V0 r (seg_var2_args r h)).trans (val9_args V0 r h)
theorem val10_main_arg10 (V0 : Valuation τ sig (Elt Ideal)) : val10 V0 (no_index (Proc.devRef .tc main_arg10)) = V0 (Proc.devRef .tc main_arg10) :=
  val10_args V0 main_arg10 (by decide)
theorem val10_main_arg11 (V0 : Valuation τ sig (Elt Ideal)) : val10 V0 (no_index (Proc.devRef .tc main_arg11)) = V0 (Proc.devRef .tc main_arg11) :=
  val10_args V0 main_arg11 (by decide)
theorem val10_main_v1 (V0 : Valuation τ sig (Elt Ideal)) : val10 V0 (no_index (Proc.devRef .tc main_v1)) = (src (V0 (Proc.devRef .tc main_arg1))) :=
  (val10_keep V0 main_v1 (by decide)).trans (val9_main_v1 V0)
theorem val10_main_v3 (V0 : Valuation τ sig (Elt Ideal)) : val10 V0 (no_index (Proc.devRef .tc main_v3)) = (dst (V0 (Proc.devRef .tc main_arg1))) :=
  (val10_keep V0 main_v3 (by decide)).trans (val9_main_v3 V0)
theorem val10_main_v55 (V0 : Valuation τ sig (Elt Ideal)) : val10 V0 (no_index (Proc.devRef .tc main_v55)) = (pre_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9))) :=
  (val10_keep V0 main_v55 (by decide)).trans (val9_main_v55 V0)
theorem val10_main_v58 (V0 : Valuation τ sig (Elt Ideal)) : val10 V0 (no_index (Proc.devRef .tc main_v58)) = (mean_2 (pre_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)))) :=
  (val10_keep V0 main_v58 (by decide)).trans (val9_main_v58 V0)
set_option maxHeartbeats 2000000 in
theorem val10_main_v59 (V0 : Valuation τ sig (Elt Ideal)) : val10 V0 (no_index (Proc.devRef .tc main_v59)) = (var_2 (pre_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)))) := by
  unfold val10
  simp only [seg_var2]
  after_results_simp
  all_goals (simp only [TRef.toBuf, TRef.ofBuf, cast_eq, id_eq, val9_main_v55] <;> rfl)

/-! ### After layer 2's normalisation and clamp -/

/-- The device's buffer contents after the first 11 pieces. -/
def val11 (V0 : Valuation τ sig (Elt Ideal)) : Valuation τ sig (Elt Ideal) := after (seg_bn2 (F := Ideal)) (val10 V0)
/-- A buffer the piece does not write keeps its contents through it. -/
theorem val11_keep (V0 : Valuation τ sig (Elt Ideal)) (r : Ref sig .tc) (h : r ∉ seg_bn2_W) :
    val11 V0 (Proc.devRef .tc r) = val10 V0 (Proc.devRef .tc r) :=
  after_of_writes_sub seg_bn2 _ seg_bn2_writes h
theorem val11_args (V0 : Valuation τ sig (Elt Ideal)) (r : Ref sig .tc) (h : r ∈ argRefs) :
    val11 V0 (Proc.devRef .tc r) = V0 (Proc.devRef .tc r) :=
  (val11_keep V0 r (seg_bn2_args r h)).trans (val10_args V0 r h)
theorem val11_main_v1 (V0 : Valuation τ sig (Elt Ideal)) : val11 V0 (no_index (Proc.devRef .tc main_v1)) = (src (V0 (Proc.devRef .tc main_arg1))) :=
  (val11_keep V0 main_v1 (by decide)).trans (val10_main_v1 V0)
theorem val11_main_v3 (V0 : Valuation τ sig (Elt Ideal)) : val11 V0 (no_index (Proc.devRef .tc main_v3)) = (dst (V0 (Proc.devRef .tc main_arg1))) :=
  (val11_keep V0 main_v3 (by decide)).trans (val10_main_v3 V0)
set_option maxHeartbeats 1900000 in
theorem val11_main_v75 (V0 : Valuation τ sig (Elt Ideal)) : val11 V0 (no_index (Proc.devRef .tc main_v75)) = (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) := by
  unfold val11
  simp only [seg_bn2]
  after_results_simp
  all_goals (simp only [TRef.toBuf, TRef.ofBuf, cast_eq, val10_main_v55, val10_main_v58, val10_main_v59, val10_main_arg10, val10_main_arg11] <;> rfl)

/-! ### After layer 3's aggregation -/

/-- The device's buffer contents after the first 12 pieces. -/
def val12 (V0 : Valuation τ sig (Elt Ideal)) : Valuation τ sig (Elt Ideal) := after (seg_agg3 (F := Ideal)) (val11 V0)
/-- A buffer the piece does not write keeps its contents through it. -/
theorem val12_keep (V0 : Valuation τ sig (Elt Ideal)) (r : Ref sig .tc) (h : r ∉ seg_agg3_W) :
    val12 V0 (Proc.devRef .tc r) = val11 V0 (Proc.devRef .tc r) :=
  after_of_writes_sub seg_agg3 _ seg_agg3_writes h
theorem val12_args (V0 : Valuation τ sig (Elt Ideal)) (r : Ref sig .tc) (h : r ∈ argRefs) :
    val12 V0 (Proc.devRef .tc r) = V0 (Proc.devRef .tc r) :=
  (val12_keep V0 r (seg_agg3_args r h)).trans (val11_args V0 r h)
theorem val12_main_arg12 (V0 : Valuation τ sig (Elt Ideal)) : val12 V0 (no_index (Proc.devRef .tc main_arg12)) = V0 (Proc.devRef .tc main_arg12) :=
  val12_args V0 main_arg12 (by decide)
theorem val12_main_arg13 (V0 : Valuation τ sig (Elt Ideal)) : val12 V0 (no_index (Proc.devRef .tc main_arg13)) = V0 (Proc.devRef .tc main_arg13) :=
  val12_args V0 main_arg13 (by decide)
theorem val12_main_arg14 (V0 : Valuation τ sig (Elt Ideal)) : val12 V0 (no_index (Proc.devRef .tc main_arg14)) = V0 (Proc.devRef .tc main_arg14) :=
  val12_args V0 main_arg14 (by decide)
theorem val12_main_v75 (V0 : Valuation τ sig (Elt Ideal)) : val12 V0 (no_index (Proc.devRef .tc main_v75)) = (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) :=
  (val12_keep V0 main_v75 (by decide)).trans (val11_main_v75 V0)
set_option maxHeartbeats 1300000 in
theorem val12_main_v85 (V0 : Valuation τ sig (Elt Ideal)) : val12 V0 (no_index (Proc.devRef .tc main_v85)) = (agg_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1))) := by
  unfold val12
  simp only [seg_agg3]
  after_results_simp
  all_goals (simp only [val11_main_v1, val11_main_v3, val11_main_v75] <;> rfl)

/-! ### After layer 3's affine map -/

/-- The device's buffer contents after the first 13 pieces. -/
def val13 (V0 : Valuation τ sig (Elt Ideal)) : Valuation τ sig (Elt Ideal) := after (seg_lin3 (F := Ideal)) (val12 V0)
/-- A buffer the piece does not write keeps its contents through it. -/
theorem val13_keep (V0 : Valuation τ sig (Elt Ideal)) (r : Ref sig .tc) (h : r ∉ seg_lin3_W) :
    val13 V0 (Proc.devRef .tc r) = val12 V0 (Proc.devRef .tc r) :=
  after_of_writes_sub seg_lin3 _ seg_lin3_writes h
theorem val13_args (V0 : Valuation τ sig (Elt Ideal)) (r : Ref sig .tc) (h : r ∈ argRefs) :
    val13 V0 (Proc.devRef .tc r) = V0 (Proc.devRef .tc r) :=
  (val13_keep V0 r (seg_lin3_args r h)).trans (val12_args V0 r h)
theorem val13_main_v91 (V0 : Valuation τ sig (Elt Ideal)) : val13 V0 (no_index (Proc.devRef .tc main_v91)) = (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14))) := by
  unfold val13
  simp only [seg_lin3]
  after_results_simp
  all_goals (simp only [val12_main_v85, val12_main_v75, val12_main_arg12, val12_main_arg13, val12_main_arg14] <;> rfl)

/-! ### After layer 3's column means -/

/-- The device's buffer contents after the first 14 pieces. -/
def val14 (V0 : Valuation τ sig (Elt Ideal)) : Valuation τ sig (Elt Ideal) := after (seg_mean3 (F := Ideal)) (val13 V0)
/-- A buffer the piece does not write keeps its contents through it. -/
theorem val14_keep (V0 : Valuation τ sig (Elt Ideal)) (r : Ref sig .tc) (h : r ∉ seg_mean3_W) :
    val14 V0 (Proc.devRef .tc r) = val13 V0 (Proc.devRef .tc r) :=
  after_of_writes_sub seg_mean3 _ seg_mean3_writes h
theorem val14_args (V0 : Valuation τ sig (Elt Ideal)) (r : Ref sig .tc) (h : r ∈ argRefs) :
    val14 V0 (Proc.devRef .tc r) = V0 (Proc.devRef .tc r) :=
  (val14_keep V0 r (seg_mean3_args r h)).trans (val13_args V0 r h)
theorem val14_main_v91 (V0 : Valuation τ sig (Elt Ideal)) : val14 V0 (no_index (Proc.devRef .tc main_v91)) = (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14))) :=
  (val14_keep V0 main_v91 (by decide)).trans (val13_main_v91 V0)
theorem val14_main_v94 (V0 : Valuation τ sig (Elt Ideal)) : val14 V0 (no_index (Proc.devRef .tc main_v94)) = (mean_3 (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14)))) := by
  unfold val14
  simp only [seg_mean3]
  after_results_simp
  all_goals (simp only [val13_main_v91] <;> rfl)

/-! ### After layer 3's column variances -/

/-- The device's buffer contents after the first 15 pieces. -/
def val15 (V0 : Valuation τ sig (Elt Ideal)) : Valuation τ sig (Elt Ideal) := after (seg_var3 (F := Ideal)) (val14 V0)
/-- A buffer the piece does not write keeps its contents through it. -/
theorem val15_keep (V0 : Valuation τ sig (Elt Ideal)) (r : Ref sig .tc) (h : r ∉ seg_var3_W) :
    val15 V0 (Proc.devRef .tc r) = val14 V0 (Proc.devRef .tc r) :=
  after_of_writes_sub seg_var3 _ seg_var3_writes h
theorem val15_args (V0 : Valuation τ sig (Elt Ideal)) (r : Ref sig .tc) (h : r ∈ argRefs) :
    val15 V0 (Proc.devRef .tc r) = V0 (Proc.devRef .tc r) :=
  (val15_keep V0 r (seg_var3_args r h)).trans (val14_args V0 r h)
theorem val15_main_v91 (V0 : Valuation τ sig (Elt Ideal)) : val15 V0 (no_index (Proc.devRef .tc main_v91)) = (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14))) :=
  (val15_keep V0 main_v91 (by decide)).trans (val14_main_v91 V0)
theorem val15_main_v94 (V0 : Valuation τ sig (Elt Ideal)) : val15 V0 (no_index (Proc.devRef .tc main_v94)) = (mean_3 (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14)))) :=
  (val15_keep V0 main_v94 (by decide)).trans (val14_main_v94 V0)
set_option maxHeartbeats 2000000 in
theorem val15_main_v95 (V0 : Valuation τ sig (Elt Ideal)) : val15 V0 (no_index (Proc.devRef .tc main_v95)) = (var_3 (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14)))) := by
  unfold val15
  simp only [seg_var3]
  after_results_simp
  all_goals (simp only [TRef.toBuf, TRef.ofBuf, cast_eq, id_eq, val14_main_v91] <;> rfl)

/-! ### After layer 3's normalisation: the centring, and the constant ε -/

/-- The device's buffer contents after the first 16 pieces. -/
def val16 (V0 : Valuation τ sig (Elt Ideal)) : Valuation τ sig (Elt Ideal) := after (seg_bn3a (F := Ideal)) (val15 V0)
/-- A buffer the piece does not write keeps its contents through it. -/
theorem val16_keep (V0 : Valuation τ sig (Elt Ideal)) (r : Ref sig .tc) (h : r ∉ seg_bn3a_W) :
    val16 V0 (Proc.devRef .tc r) = val15 V0 (Proc.devRef .tc r) :=
  after_of_writes_sub seg_bn3a _ seg_bn3a_writes h
theorem val16_args (V0 : Valuation τ sig (Elt Ideal)) (r : Ref sig .tc) (h : r ∈ argRefs) :
    val16 V0 (Proc.devRef .tc r) = V0 (Proc.devRef .tc r) :=
  (val16_keep V0 r (seg_bn3a_args r h)).trans (val15_args V0 r h)
theorem val16_main_arg15 (V0 : Valuation τ sig (Elt Ideal)) : val16 V0 (no_index (Proc.devRef .tc main_arg15)) = V0 (Proc.devRef .tc main_arg15) :=
  val16_args V0 main_arg15 (by decide)
theorem val16_main_arg16 (V0 : Valuation τ sig (Elt Ideal)) : val16 V0 (no_index (Proc.devRef .tc main_arg16)) = V0 (Proc.devRef .tc main_arg16) :=
  val16_args V0 main_arg16 (by decide)
theorem val16_main_v95 (V0 : Valuation τ sig (Elt Ideal)) : val16 V0 (no_index (Proc.devRef .tc main_v95)) = (var_3 (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14)))) :=
  (val16_keep V0 main_v95 (by decide)).trans (val15_main_v95 V0)
theorem val16_main_v98 (V0 : Valuation τ sig (Elt Ideal)) : val16 V0 (no_index (Proc.devRef .tc main_v98)) = (subf (F := Ideal) (φ := .f32) (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14))) (broadcastInDim S100000x256 ![0, 1] bcast_S1x256_S100000x256_0_1 (broadcastInDim S1x256 ![1] bcast_S256_S1x256_1 (mean_3 (pre_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14))))))) := by
  unfold val16
  simp only [seg_bn3a]
  after_results_simp
  all_goals (simp only [val15_main_v91, val15_main_v94] <;> rfl)
theorem val16_main_cst_18 (V0 : Valuation τ sig (Elt Ideal)) : val16 V0 (no_index (Proc.devRef .tc main_cst_18)) = (constant (F := Ideal) S_ .f32 0x3727C5AC#32) := by
  unfold val16
  simp only [seg_bn3a]
  after_results_simp
  all_goals (simp only [val15_main_v91, val15_main_v94] <;> rfl)

/-! ### After layer 3's normalisation: the scaling, the shift and the clamp -/

/-- The device's buffer contents after the first 17 pieces. -/
def val17 (V0 : Valuation τ sig (Elt Ideal)) : Valuation τ sig (Elt Ideal) := after (seg_bn3b (F := Ideal)) (val16 V0)
/-- A buffer the piece does not write keeps its contents through it. -/
theorem val17_keep (V0 : Valuation τ sig (Elt Ideal)) (r : Ref sig .tc) (h : r ∉ seg_bn3b_W) :
    val17 V0 (Proc.devRef .tc r) = val16 V0 (Proc.devRef .tc r) :=
  after_of_writes_sub seg_bn3b _ seg_bn3b_writes h
theorem val17_args (V0 : Valuation τ sig (Elt Ideal)) (r : Ref sig .tc) (h : r ∈ argRefs) :
    val17 V0 (Proc.devRef .tc r) = V0 (Proc.devRef .tc r) :=
  (val17_keep V0 r (seg_bn3b_args r h)).trans (val16_args V0 r h)
theorem val17_main_arg17 (V0 : Valuation τ sig (Elt Ideal)) : val17 V0 (no_index (Proc.devRef .tc main_arg17)) = V0 (Proc.devRef .tc main_arg17) :=
  val17_args V0 main_arg17 (by decide)
theorem val17_main_arg18 (V0 : Valuation τ sig (Elt Ideal)) : val17 V0 (no_index (Proc.devRef .tc main_arg18)) = V0 (Proc.devRef .tc main_arg18) :=
  val17_args V0 main_arg18 (by decide)
theorem val17_main_arg19 (V0 : Valuation τ sig (Elt Ideal)) : val17 V0 (no_index (Proc.devRef .tc main_arg19)) = V0 (Proc.devRef .tc main_arg19) :=
  val17_args V0 main_arg19 (by decide)
theorem val17_main_arg20 (V0 : Valuation τ sig (Elt Ideal)) : val17 V0 (no_index (Proc.devRef .tc main_arg20)) = V0 (Proc.devRef .tc main_arg20) :=
  val17_args V0 main_arg20 (by decide)
set_option maxHeartbeats 1500000 in
theorem val17_main_v111 (V0 : Valuation τ sig (Elt Ideal)) : val17 V0 (no_index (Proc.devRef .tc main_v111)) = (layer_3 (layer_2 (layer_1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) (V0 (Proc.devRef .tc main_arg1)) (V0 (Proc.devRef .tc main_arg7)) (V0 (Proc.devRef .tc main_arg8)) (V0 (Proc.devRef .tc main_arg9)) (V0 (Proc.devRef .tc main_arg10)) (V0 (Proc.devRef .tc main_arg11))) (V0 (Proc.devRef .tc main_arg1)) (V0 (Proc.devRef .tc main_arg12)) (V0 (Proc.devRef .tc main_arg13)) (V0 (Proc.devRef .tc main_arg14)) (V0 (Proc.devRef .tc main_arg15)) (V0 (Proc.devRef .tc main_arg16))) := by
  unfold val17
  simp only [seg_bn3b]
  after_results_simp
  all_goals (simp only [TRef.toBuf, TRef.ofBuf, cast_eq, val16_main_v98, val16_main_cst_18, val16_main_v95, val16_main_arg15, val16_main_arg16] <;> rfl)

/-! ### After the head -/

/-- The device's buffer contents after the first 18 pieces. -/
def val18 (V0 : Valuation τ sig (Elt Ideal)) : Valuation τ sig (Elt Ideal) := after (seg_head (F := Ideal)) (val17 V0)
/-- A buffer the piece does not write keeps its contents through it. -/
theorem val18_keep (V0 : Valuation τ sig (Elt Ideal)) (r : Ref sig .tc) (h : r ∉ seg_head_W) :
    val18 V0 (Proc.devRef .tc r) = val17 V0 (Proc.devRef .tc r) :=
  after_of_writes_sub seg_head _ seg_head_writes h
theorem val18_args (V0 : Valuation τ sig (Elt Ideal)) (r : Ref sig .tc) (h : r ∈ argRefs) :
    val18 V0 (Proc.devRef .tc r) = V0 (Proc.devRef .tc r) :=
  (val18_keep V0 r (seg_head_args r h)).trans (val17_args V0 r h)
set_option maxHeartbeats 1200000 in
theorem val18_main_v121 (V0 : Valuation τ sig (Elt Ideal)) : val18 V0 (no_index (Proc.devRef .tc main_v121)) = (refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))) := by
  unfold val18
  simp only [seg_head]
  after_results_simp
  all_goals (simp only [TRef.toBuf, TRef.ofBuf, cast_eq, val17_main_v111, val17_main_arg17, val17_main_arg18, val17_main_arg19, val17_main_arg20] <;> rfl)

/-! ### The whole list, and the run -/

/-- The contents after two lists of operations run one after the other. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem after_ops (V0 : Valuation τ sig (Elt Ideal)) : after (ops (F := Ideal)) V0 = val18 V0 := by
  simp only [ops, ops0, ops1, ops2, after_app]
  rfl

/-- At the compiled mesh, at the ideal float instance, from any memory with zero counters: every weakly fair execution
    of @main terminates with the result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121) = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c =>
      ⟨(h c main_v121).trans ((congrFun (after_ops _) _).trans (val18_main_v121 _)),
       (h c main_arg0).trans ((congrFun (after_ops _) _).trans (val18_args _ main_arg0 (by decide))),
       (h c main_arg1).trans ((congrFun (after_ops _) _).trans (val18_args _ main_arg1 (by decide))),
       (h c main_arg2).trans ((congrFun (after_ops _) _).trans (val18_args _ main_arg2 (by decide))),
       (h c main_arg3).trans ((congrFun (after_ops _) _).trans (val18_args _ main_arg3 (by decide))),
       (h c main_arg4).trans ((congrFun (after_ops _) _).trans (val18_args _ main_arg4 (by decide))),
       (h c main_arg5).trans ((congrFun (after_ops _) _).trans (val18_args _ main_arg5 (by decide))),
       (h c main_arg6).trans ((congrFun (after_ops _) _).trans (val18_args _ main_arg6 (by decide))),
       (h c main_arg7).trans ((congrFun (after_ops _) _).trans (val18_args _ main_arg7 (by decide))),
       (h c main_arg8).trans ((congrFun (after_ops _) _).trans (val18_args _ main_arg8 (by decide))),
       (h c main_arg9).trans ((congrFun (after_ops _) _).trans (val18_args _ main_arg9 (by decide))),
       (h c main_arg10).trans ((congrFun (after_ops _) _).trans (val18_args _ main_arg10 (by decide))),
       (h c main_arg11).trans ((congrFun (after_ops _) _).trans (val18_args _ main_arg11 (by decide))),
       (h c main_arg12).trans ((congrFun (after_ops _) _).trans (val18_args _ main_arg12 (by decide))),
       (h c main_arg13).trans ((congrFun (after_ops _) _).trans (val18_args _ main_arg13 (by decide))),
       (h c main_arg14).trans ((congrFun (after_ops _) _).trans (val18_args _ main_arg14 (by decide))),
       (h c main_arg15).trans ((congrFun (after_ops _) _).trans (val18_args _ main_arg15 (by decide))),
       (h c main_arg16).trans ((congrFun (after_ops _) _).trans (val18_args _ main_arg16 (by decide))),
       (h c main_arg17).trans ((congrFun (after_ops _) _).trans (val18_args _ main_arg17 (by decide))),
       (h c main_arg18).trans ((congrFun (after_ops _) _).trans (val18_args _ main_arg18 (by decide))),
       (h c main_arg19).trans ((congrFun (after_ops _) _).trans (val18_args _ main_arg19 (by decide))),
       (h c main_arg20).trans ((congrFun (after_ops _) _).trans (val18_args _ main_arg20 (by decide)))⟩)
    (run_seq scopedRefs_eq scopedSems_eq defs main (fun _ => ops) main_eq (fun _ => ops_sub) m ρ (fun _ => ops_fresh))

end Cert.ReferenceIdeal.RefRun

end
-- ==== Proof.Assembly.lean ====
import proofs.«115009_j15960098472830_1_alg».proof.Defs
import proofs.«115009_j15960098472830_1_alg».proof.Proof.Gen.Kernel.Frame
import proofs.«115009_j15960098472830_1_alg».proof.Proof.Gen.KernelIdeal.Frame
import proofs.«115009_j15960098472830_1_alg».proof.Proof.Gen.ReferenceIdeal
import proofs.«115009_j15960098472830_1_alg».proof.Proof.Gen.Pre_finite_inputs
import proofs.«115009_j15960098472830_1_alg».proof.Proof.KernelRun
import proofs.«115009_j15960098472830_1_alg».proof.Proof.RefRun

/-!
The certificate's five claims from one fact about values.

The kernel program's run ends with its result buffer at the last stage of its boundary fold, a function of the launch
memory; the reference program's run ends with its result buffer at `refOut` of its argument arrays. Given that the
first is `refOut` of the kernel's argument arrays whenever the precondition holds (`hval`), the two programs, started
from memories that agree on the arguments, end with equal results: rewrite the reference's arguments to the kernel's.
The three frame claims are the runs with the result's conjunct dropped (the reference's) or the generated frames (the
kernel's two), and the idealization rewrote nothing.
-/

noncomputable section

namespace Cert.Assembly

open Idealize.ShloMosaic Idealize.SL.Sem

theorem frame_Kernel : Cert.frame_Kernel (hKernel := Cert.Kernel.Gen.facts) (hPre_finite_inputs := Cert.Pre_finite_inputs.Gen.facts) :=
  fun m ρ _ => Cert.Kernel.Gen.frame m ρ

theorem frame_KernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run with the result's conjunct dropped. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

theorem preserves : Cert.preserves_Kernel_KernelIdeal := trivial

/-- Both programs run, and from memories that agree on the arguments they end with equal results: the reference's is
    `refOut` of its arguments, the kernel's is `refOut` of its own by `hval`, and the arguments are equal. -/
theorem algebraic
    (hval : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.Pre_KernelIdeal (hPre_finite_inputs := Cert.Pre_finite_inputs.Gen.facts) m →
      Cert.KernelIdeal.Gen.W15 (F := Ideal) m ρ c (Proc.devRef .tc Cert.KernelIdeal.main_v70)
        = Cert.ReferenceIdeal.RefStages.refOut
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19))
            (m ((c.tc : Thread Cert.KernelIdeal.nD Cert.KernelIdeal.τ).loc Cert.KernelIdeal.main_arg20))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.ReferenceIdeal.RefStages.refOut
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20)), ?_, Cert.ReferenceIdeal.RefRun.run m' ρ'⟩
  refine (θ_run Cert.KernelIdeal.defs _ _).mono (fun _ h c => ⟨(h c).1.trans ((hval m ρ c hpre).trans ?_), (h c).2⟩)
    (Cert.KernelIdeal.KRun.run_named (F := Ideal) m ρ)
  beta_reduce
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]

/-- Everything the certificate claims, given the value fact. -/
theorem claim_of_value
    (hval : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.Pre_KernelIdeal (hPre_finite_inputs := Cert.Pre_finite_inputs.Gen.facts) m →
      Cert.KernelIdeal.Gen.W15 (F := Ideal) m ρ c (Proc.devRef .tc Cert.KernelIdeal.main_v70)
        = Cert.ReferenceIdeal.RefStages.refOut
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19))
            (m ((c.tc : Thread Cert.KernelIdeal.nD Cert.KernelIdeal.τ).loc Cert.KernelIdeal.main_arg20))) :
    Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic hval⟩

end Cert.Assembly

end
-- ==== Proof.KSpecBn.lean ====
/- The normalise-and-rectify step as a function of whole arrays, at the three widths it is used at.
   Floats are extended reals; every operation is the extended reals' own. The small offset added to the
   variance and the zero the result is cut off at are kept as the 32-bit words the program spells them with. -/
import proofs.«115009_j15960098472830_1_alg».proof.KernelIdeal
import Idealize.ShloMosaic.PureOps.Ideal
import Idealize.ShloMosaic.Lib.ValueIdx

noncomputable section

namespace Cert.KernelIdeal.KSpecBn

open Idealize.ShloMosaic Idealize.ShloMosaic.ValueIdx

/-- The entry at row `r`, column `j` of the normalised and rectified [100000, 64] array: the column's mean
    subtracted, the difference scaled by the reciprocal square root of the column's variance plus the fixed
    offset, then by the column's scale, the column's shift added, and the result cut off below at zero. The
    four column statistics are [1, 64] arrays read at row 0. -/
def bnRelu64At (x : S100000x64.Idx → EReal) (mean var gamma beta : S1x64.Idx → EReal)
    (r : Fin 100000) (j : Fin 64) : EReal :=
  max ((x (ix2 r j) - mean (ix2 (0 : Fin 1) j))
        * Ideal.rsqrt (var (ix2 (0 : Fin 1) j) + Ideal.ofBits .f32 0x3727C5AC#32)
        * gamma (ix2 (0 : Fin 1) j)
      + beta (ix2 (0 : Fin 1) j))
    (Ideal.ofBits .f32 0x00000000#32)

/-- The whole [100000, 64] array, index by index. -/
def bnRelu64 (x : S100000x64.Idx → EReal) (mean var gamma beta : S1x64.Idx → EReal) :
    S100000x64.Idx → EReal :=
  fun i => bnRelu64At x mean var gamma beta (i 0) (i 1)

/-- The array at an index given by its coordinates. -/
theorem bnRelu64_ix2 (x : S100000x64.Idx → EReal) (mean var gamma beta : S1x64.Idx → EReal)
    (r : Fin 100000) (j : Fin 64) :
    bnRelu64 x mean var gamma beta (ix2 r j) = bnRelu64At x mean var gamma beta r j := rfl

/-- The entry at row `r`, column `j` of the normalised and rectified [100000, 128] array: the column's mean
    subtracted, the difference scaled by the reciprocal square root of the column's variance plus the fixed
    offset, then by the column's scale, the column's shift added, and the result cut off below at zero. The
    four column statistics are [1, 128] arrays read at row 0. -/
def bnRelu128At (x : S100000x128.Idx → EReal) (mean var gamma beta : S1x128.Idx → EReal)
    (r : Fin 100000) (j : Fin 128) : EReal :=
  max ((x (ix2 r j) - mean (ix2 (0 : Fin 1) j))
        * Ideal.rsqrt (var (ix2 (0 : Fin 1) j) + Ideal.ofBits .f32 0x3727C5AC#32)
        * gamma (ix2 (0 : Fin 1) j)
      + beta (ix2 (0 : Fin 1) j))
    (Ideal.ofBits .f32 0x00000000#32)

/-- The whole [100000, 128] array, index by index. -/
def bnRelu128 (x : S100000x128.Idx → EReal) (mean var gamma beta : S1x128.Idx → EReal) :
    S100000x128.Idx → EReal :=
  fun i => bnRelu128At x mean var gamma beta (i 0) (i 1)

/-- The array at an index given by its coordinates. -/
theorem bnRelu128_ix2 (x : S100000x128.Idx → EReal) (mean var gamma beta : S1x128.Idx → EReal)
    (r : Fin 100000) (j : Fin 128) :
    bnRelu128 x mean var gamma beta (ix2 r j) = bnRelu128At x mean var gamma beta r j := rfl

/-- The entry at row `r`, column `j` of the normalised and rectified [100000, 256] array: the column's mean
    subtracted, the difference scaled by the reciprocal square root of the column's variance plus the fixed
    offset, then by the column's scale, the column's shift added, and the result cut off below at zero. The
    four column statistics are [1, 256] arrays read at row 0. -/
def bnRelu256At (x : S100000x256.Idx → EReal) (mean var gamma beta : S1x256.Idx → EReal)
    (r : Fin 100000) (j : Fin 256) : EReal :=
  max ((x (ix2 r j) - mean (ix2 (0 : Fin 1) j))
        * Ideal.rsqrt (var (ix2 (0 : Fin 1) j) + Ideal.ofBits .f32 0x3727C5AC#32)
        * gamma (ix2 (0 : Fin 1) j)
      + beta (ix2 (0 : Fin 1) j))
    (Ideal.ofBits .f32 0x00000000#32)

/-- The whole [100000, 256] array, index by index. -/
def bnRelu256 (x : S100000x256.Idx → EReal) (mean var gamma beta : S1x256.Idx → EReal) :
    S100000x256.Idx → EReal :=
  fun i => bnRelu256At x mean var gamma beta (i 0) (i 1)

/-- The array at an index given by its coordinates. -/
theorem bnRelu256_ix2 (x : S100000x256.Idx → EReal) (mean var gamma beta : S1x256.Idx → EReal)
    (r : Fin 100000) (j : Fin 256) :
    bnRelu256 x mean var gamma beta (ix2 r j) = bnRelu256At x mean var gamma beta r j := rfl

end Cert.KernelIdeal.KSpecBn

end
-- ==== Proof.KSpecHead.lean ====
/- The two-layer head as a function of whole arrays: each row of a [100000, 256] array times a [256, 128]
   matrix, a [1, 128] row added, the result cut off below at zero, times a [128, 1] matrix, a [1, 1] entry added.
   Floats are extended reals; every operation is the extended reals' own, the two products finite sums. The zero
   the middle layer is cut off at is kept as the 32-bit word the program spells it with. -/
import proofs.«115009_j15960098472830_1_alg».proof.KernelIdeal
import Idealize.ShloMosaic.PureOps.Ideal
import Idealize.ShloMosaic.Lib.ValueIdx

noncomputable section

namespace Cert.KernelIdeal.KSpecHead

open Idealize.ShloMosaic Idealize.ShloMosaic.ValueIdx
open scoped BigOperators

/-- The entry at row `r` (and the one column `o`) of the head's [100000, 1] output: row `r` of `h` times the
    [256, 128] matrix `w1`, the [1, 128] row `b1` added, each of the 128 entries cut off below at zero, the result
    times the [128, 1] matrix `w2`, and the [1, 1] entry `b2` added. -/
def headAt (h : S100000x256.Idx → EReal) (w1 : S256x128.Idx → EReal) (b1 : S1x128.Idx → EReal)
    (w2 : S128x1.Idx → EReal) (b2 : S1x1.Idx → EReal) (r : Fin 100000) (o : Fin 1) : EReal :=
  (∑ n : Fin 128,
      max ((∑ k : Fin 256, h (ix2 r k) * w1 (ix2 k n)) + b1 (ix2 (0 : Fin 1) n)) (Ideal.ofBits .f32 0x00000000#32)
        * w2 (ix2 n o))
    + b2 (ix2 (0 : Fin 1) o)

/-- The whole [100000, 1] array, index by index. -/
def head (h : S100000x256.Idx → EReal) (w1 : S256x128.Idx → EReal) (b1 : S1x128.Idx → EReal)
    (w2 : S128x1.Idx → EReal) (b2 : S1x1.Idx → EReal) : S100000x1.Idx → EReal :=
  fun i => headAt h w1 b1 w2 b2 (i 0) (i 1)

/-- The array at an index given by its coordinates. -/
theorem head_ix2 (h : S100000x256.Idx → EReal) (w1 : S256x128.Idx → EReal) (b1 : S1x128.Idx → EReal)
    (w2 : S128x1.Idx → EReal) (b2 : S1x1.Idx → EReal) (r : Fin 100000) (o : Fin 1) :
    head h w1 b1 w2 b2 (ix2 r o) = headAt h w1 b1 w2 b2 r o := rfl

end Cert.KernelIdeal.KSpecHead

end
-- ==== Proof.KSpecLin.lean ====
/- The linear stage of a layer as a function of whole arrays, at the three widths it is used at: each entry is the row of
   the aggregated features times a column of one weight matrix, plus the same row of the features times the column of
   the other, plus the bias of that column; and, per column, the sum of the entries and the sum of their squares over all
   100000 rows. Floats are extended reals and every operation is the extended reals' own. -/
import proofs.«115009_j15960098472830_1_alg».proof.KernelIdeal
import Idealize.ShloMosaic.PureOps.Ideal
import Idealize.ShloMosaic.Lib.ValueIdx

noncomputable section

namespace Cert.KernelIdeal.KSpecLin

open Idealize.ShloMosaic Idealize.ShloMosaic.ValueIdx
open scoped BigOperators

/-- The entry at row `r`, column `j` of the [100000, 64] linear array: the row of `g` times column `j` of `wl`, plus the
    row of `x` times column `j` of `wr`, plus the bias row (a [1, 64] array read at row 0) at `j`. -/
def lin64At (g x : S100000x6.Idx → EReal) (wl wr : S6x64.Idx → EReal) (bias : S1x64.Idx → EReal)
    (r : Fin 100000) (j : Fin 64) : EReal :=
  (∑ k : Fin 6, g (ix2 r k) * wl (ix2 k j)) + (∑ k : Fin 6, x (ix2 r k) * wr (ix2 k j)) + bias (ix2 (0 : Fin 1) j)

/-- The whole [100000, 64] array, index by index. -/
def lin64 (g x : S100000x6.Idx → EReal) (wl wr : S6x64.Idx → EReal) (bias : S1x64.Idx → EReal) :
    S100000x64.Idx → EReal :=
  fun i => lin64At g x wl wr bias (i 0) (i 1)

theorem lin64_ix2 (g x : S100000x6.Idx → EReal) (wl wr : S6x64.Idx → EReal) (bias : S1x64.Idx → EReal)
    (r : Fin 100000) (j : Fin 64) : lin64 g x wl wr bias (ix2 r j) = lin64At g x wl wr bias r j := rfl

/-- The [1, 64] row of column sums of a [100000, 64] array. -/
def colSum64 (L : S100000x64.Idx → EReal) : S1x64.Idx → EReal :=
  fun k => ∑ r : Fin 100000, L (ix2 r (k 1))

/-- The [1, 64] row of column sums of squares of a [100000, 64] array. -/
def colSq64 (L : S100000x64.Idx → EReal) : S1x64.Idx → EReal :=
  fun k => ∑ r : Fin 100000, L (ix2 r (k 1)) * L (ix2 r (k 1))

/-- The entry at row `r`, column `j` of the [100000, 128] linear array: the row of `g` times column `j` of `wl`, plus the
    row of `x` times column `j` of `wr`, plus the bias row (a [1, 128] array read at row 0) at `j`. -/
def lin128At (g x : S100000x64.Idx → EReal) (wl wr : S64x128.Idx → EReal) (bias : S1x128.Idx → EReal)
    (r : Fin 100000) (j : Fin 128) : EReal :=
  (∑ k : Fin 64, g (ix2 r k) * wl (ix2 k j)) + (∑ k : Fin 64, x (ix2 r k) * wr (ix2 k j)) + bias (ix2 (0 : Fin 1) j)

/-- The whole [100000, 128] array, index by index. -/
def lin128 (g x : S100000x64.Idx → EReal) (wl wr : S64x128.Idx → EReal) (bias : S1x128.Idx → EReal) :
    S100000x128.Idx → EReal :=
  fun i => lin128At g x wl wr bias (i 0) (i 1)

theorem lin128_ix2 (g x : S100000x64.Idx → EReal) (wl wr : S64x128.Idx → EReal) (bias : S1x128.Idx → EReal)
    (r : Fin 100000) (j : Fin 128) : lin128 g x wl wr bias (ix2 r j) = lin128At g x wl wr bias r j := rfl

/-- The [1, 128] row of column sums of a [100000, 128] array. -/
def colSum128 (L : S100000x128.Idx → EReal) : S1x128.Idx → EReal :=
  fun k => ∑ r : Fin 100000, L (ix2 r (k 1))

/-- The [1, 128] row of column sums of squares of a [100000, 128] array. -/
def colSq128 (L : S100000x128.Idx → EReal) : S1x128.Idx → EReal :=
  fun k => ∑ r : Fin 100000, L (ix2 r (k 1)) * L (ix2 r (k 1))

/-- The entry at row `r`, column `j` of the [100000, 256] linear array: the row of `g` times column `j` of `wl`, plus the
    row of `x` times column `j` of `wr`, plus the bias row (a [1, 256] array read at row 0) at `j`. -/
def lin256At (g x : S100000x128.Idx → EReal) (wl wr : S128x256.Idx → EReal) (bias : S1x256.Idx → EReal)
    (r : Fin 100000) (j : Fin 256) : EReal :=
  (∑ k : Fin 128, g (ix2 r k) * wl (ix2 k j)) + (∑ k : Fin 128, x (ix2 r k) * wr (ix2 k j)) + bias (ix2 (0 : Fin 1) j)

/-- The whole [100000, 256] array, index by index. -/
def lin256 (g x : S100000x128.Idx → EReal) (wl wr : S128x256.Idx → EReal) (bias : S1x256.Idx → EReal) :
    S100000x256.Idx → EReal :=
  fun i => lin256At g x wl wr bias (i 0) (i 1)

theorem lin256_ix2 (g x : S100000x128.Idx → EReal) (wl wr : S128x256.Idx → EReal) (bias : S1x256.Idx → EReal)
    (r : Fin 100000) (j : Fin 256) : lin256 g x wl wr bias (ix2 r j) = lin256At g x wl wr bias r j := rfl

/-- The [1, 256] row of column sums of a [100000, 256] array. -/
def colSum256 (L : S100000x256.Idx → EReal) : S1x256.Idx → EReal :=
  fun k => ∑ r : Fin 100000, L (ix2 r (k 1))

/-- The [1, 256] row of column sums of squares of a [100000, 256] array. -/
def colSq256 (L : S100000x256.Idx → EReal) : S1x256.Idx → EReal :=
  fun k => ∑ r : Fin 100000, L (ix2 r (k 1)) * L (ix2 r (k 1))

end Cert.KernelIdeal.KSpecLin

end
-- ==== Proof.KSpecOut.lean ====
/- The whole program's result as one function of its twenty-one arguments, at the extended reals: three layers —
   neighbour sum, linear step, normalise-and-rectify with the batch's own column statistics — and the two-layer head.
   The steps between the launches (index wrapping, gather, scatter-add, reshapes, the division by the row count) are
   spelled operation by operation as the program spells them; the launches' steps are the whole-array functions of
   the three specification modules. -/
import proofs.«115009_j15960098472830_1_alg».proof.Proof.Gen.KernelIdeal
import proofs.«115009_j15960098472830_1_alg».proof.Proof.KSpecBn
import proofs.«115009_j15960098472830_1_alg».proof.Proof.KSpecHead
import proofs.«115009_j15960098472830_1_alg».proof.Proof.KSpecLin

noncomputable section

namespace Cert.KernelIdeal.KSpecOut

open Cert.KernelIdeal Cert.KernelIdeal.Gen
open Cert.KernelIdeal.KSpecBn Cert.KernelIdeal.KSpecHead Cert.KernelIdeal.KSpecLin
open Idealize.ShloMosaic

/-! ## The edge array's two rows as gather and scatter indices -/

/-- Row 0 of the [2, 1600000] edge array, as a vector: the source node of each edge. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge array, as a vector: the destination node of each edge. -/
def dstRow (e : IVec S2x1600000 32) : IVec S1600000 32 :=
  shapeCast S1600000 (extractStridedSlice S1x1600000 ![1, 0] e slices_S2x1600000_S1x1600000_1_0) shapeCasts_S1x1600000_S1600000

/-- A vector of node numbers with the negative ones moved up by 100000, as a [1600000, 1] column of start indices. -/
def wrapCol (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32)))
      r)

/-- A vector of node numbers as a [1600000, 1] column of scatter indices. -/
def col (r : IVec S1600000 32) : IVec S1600000x1 32 :=
  broadcastInDim S1600000x1 ![0] bcast_S1600000_S1600000x1_0 r

/-- The gather's start indices: the wrapped source nodes. -/
def srcIdx (e : IVec S2x1600000 32) : IVec S1600000x1 32 := wrapCol (srcRow e)

/-- The scatter's indices: the destination nodes. -/
def dstIdx (e : IVec S2x1600000 32) : IVec S1600000x1 32 := col (dstRow e)

/-! ## The neighbour sums -/

/-- The neighbour sum for a [100000, 6] feature array: the rows gathered at the (wrapped) source nodes, added
    into an all-zero [100000, 6] array at the destination nodes. -/
def kagg1 (x : S100000x6.Idx → EReal) (e : IVec S2x1600000 32) : S100000x6.Idx → EReal :=
  Host.scatterAdd (F := Ideal) scatter_S100000x6_S1600000x1_S1600000x6_1_0_0_1
    (broadcastInDim S100000x6 ![] bcast_S_S100000x6 (constant (F := Ideal) S_ .f32 0x00000000#32))
    (dstIdx e)
    (Host.gather gather_S100000x6_S1600000x1_S1600000x6_1_0_n_n_0_1_16 x (srcIdx e))

/-- The neighbour sum for a [100000, 64] feature array: the rows gathered at the (wrapped) source nodes, added
    into an all-zero [100000, 64] array at the destination nodes. -/
def kagg2 (x : S100000x64.Idx → EReal) (e : IVec S2x1600000 32) : S100000x64.Idx → EReal :=
  Host.scatterAdd (F := Ideal) scatter_S100000x64_S1600000x1_S1600000x64_1_0_0_1
    (broadcastInDim S100000x64 ![] bcast_S_S100000x64 (constant (F := Ideal) S_ .f32 0x00000000#32))
    (dstIdx e)
    (Host.gather gather_S100000x64_S1600000x1_S1600000x64_1_0_n_n_0_1_164 x (srcIdx e))

/-- The neighbour sum for a [100000, 128] feature array: the rows gathered at the (wrapped) source nodes, added
    into an all-zero [100000, 128] array at the destination nodes. -/
def kagg3 (x : S100000x128.Idx → EReal) (e : IVec S2x1600000 32) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (dstIdx e)
    (Host.gather gather_S100000x128_S1600000x1_S1600000x128_1_0_n_n_0_1_1128 x (srcIdx e))

/-! ## Rows, means, variances -/

/-- A length-64 vector as a [1, 64] row. -/
def row64 (v : S64.Idx → EReal) : S1x64.Idx → EReal := shapeCast S1x64 v shapeCasts_S64_S1x64

/-- A [1, 64] row of column sums divided by the number of rows, 100000, spelled as the 32-bit word the program
    spells it with. -/
def kmean64 (s : S1x64.Idx → EReal) : S1x64.Idx → EReal :=
  Host.divf (F := Ideal) s (broadcastInDim S1x64 ![] bcast_S_S1x64 (constant (F := Ideal) S_ .f32 0x47C35000#32))

/-- The columns' variances from the column sums `s` and the column sums of squares `q`: the mean of the squares
    minus the square of the mean. -/
def kvar64 (s q : S1x64.Idx → EReal) : S1x64.Idx → EReal :=
  subf (F := Ideal) (φ := .f32) (kmean64 q) (mulf (F := Ideal) (φ := .f32) (kmean64 s) (kmean64 s))

/-- A length-128 vector as a [1, 128] row. -/
def row128 (v : S128.Idx → EReal) : S1x128.Idx → EReal := shapeCast S1x128 v shapeCasts_S128_S1x128

/-- A [1, 128] row of column sums divided by the number of rows, 100000, spelled as the 32-bit word the program
    spells it with. -/
def kmean128 (s : S1x128.Idx → EReal) : S1x128.Idx → EReal :=
  Host.divf (F := Ideal) s (broadcastInDim S1x128 ![] bcast_S_S1x128 (constant (F := Ideal) S_ .f32 0x47C35000#32))

/-- The columns' variances from the column sums `s` and the column sums of squares `q`: the mean of the squares
    minus the square of the mean. -/
def kvar128 (s q : S1x128.Idx → EReal) : S1x128.Idx → EReal :=
  subf (F := Ideal) (φ := .f32) (kmean128 q) (mulf (F := Ideal) (φ := .f32) (kmean128 s) (kmean128 s))

/-- A length-256 vector as a [1, 256] row. -/
def row256 (v : S256.Idx → EReal) : S1x256.Idx → EReal := shapeCast S1x256 v shapeCasts_S256_S1x256

/-- A [1, 256] row of column sums divided by the number of rows, 100000, spelled as the 32-bit word the program
    spells it with. -/
def kmean256 (s : S1x256.Idx → EReal) : S1x256.Idx → EReal :=
  Host.divf (F := Ideal) s (broadcastInDim S1x256 ![] bcast_S_S1x256 (constant (F := Ideal) S_ .f32 0x47C35000#32))

/-- The columns' variances from the column sums `s` and the column sums of squares `q`: the mean of the squares
    minus the square of the mean. -/
def kvar256 (s q : S1x256.Idx → EReal) : S1x256.Idx → EReal :=
  subf (F := Ideal) (φ := .f32) (kmean256 q) (mulf (F := Ideal) (φ := .f32) (kmean256 s) (kmean256 s))

/-- A length-1 vector as a [1, 1] array. -/
def row1 (v : S1.Idx → EReal) : S1x1.Idx → EReal := shapeCast S1x1 v shapeCasts_S1_S1x1

/-! ## The layers and the result -/

/-- The normalise-and-rectify step of a [100000, 64] array with the array's OWN column statistics: the means and
    variances computed from its column sums and column sums of squares. -/
def bnStat64 (L : S100000x64.Idx → EReal) (g be : S1x64.Idx → EReal) : S100000x64.Idx → EReal :=
  bnRelu64 L (kmean64 (colSum64 L)) (kvar64 (colSum64 L) (colSq64 L)) g be

/-- The normalise-and-rectify step of a [100000, 128] array with the array's OWN column statistics: the means and
    variances computed from its column sums and column sums of squares. -/
def bnStat128 (L : S100000x128.Idx → EReal) (g be : S1x128.Idx → EReal) : S100000x128.Idx → EReal :=
  bnRelu128 L (kmean128 (colSum128 L)) (kvar128 (colSum128 L) (colSq128 L)) g be

/-- The normalise-and-rectify step of a [100000, 256] array with the array's OWN column statistics: the means and
    variances computed from its column sums and column sums of squares. -/
def bnStat256 (L : S100000x256.Idx → EReal) (g be : S1x256.Idx → EReal) : S100000x256.Idx → EReal :=
  bnRelu256 L (kmean256 (colSum256 L)) (kvar256 (colSum256 L) (colSq256 L)) g be

/-- Layer 1's linear step: on the neighbour sum and the features. -/
def klin1 (x : S100000x6.Idx → EReal) (e : IVec S2x1600000 32) (wl wr : S6x64.Idx → EReal)
    (b : S64.Idx → EReal) : S100000x64.Idx → EReal :=
  lin64 (kagg1 x e) x wl wr (row64 b)

/-- Layer 1: the linear step, then the normalise-and-rectify step with the columns' mean and variance of the
    linear step's own result. -/
def klayer1 (x : S100000x6.Idx → EReal) (e : IVec S2x1600000 32) (wl wr : S6x64.Idx → EReal)
    (b g be : S64.Idx → EReal) : S100000x64.Idx → EReal :=
  bnStat64 (klin1 x e wl wr b) (row64 g) (row64 be)

/-- Layer 2's linear step: on the neighbour sum and the features. -/
def klin2 (x : S100000x64.Idx → EReal) (e : IVec S2x1600000 32) (wl wr : S64x128.Idx → EReal)
    (b : S128.Idx → EReal) : S100000x128.Idx → EReal :=
  lin128 (kagg2 x e) x wl wr (row128 b)

/-- Layer 2: the linear step, then the normalise-and-rectify step with the columns' mean and variance of the
    linear step's own result. -/
def klayer2 (x : S100000x64.Idx → EReal) (e : IVec S2x1600000 32) (wl wr : S64x128.Idx → EReal)
    (b g be : S128.Idx → EReal) : S100000x128.Idx → EReal :=
  bnStat128 (klin2 x e wl wr b) (row128 g) (row128 be)

/-- Layer 3's linear step: on the neighbour sum and the features. -/
def klin3 (x : S100000x128.Idx → EReal) (e : IVec S2x1600000 32) (wl wr : S128x256.Idx → EReal)
    (b : S256.Idx → EReal) : S100000x256.Idx → EReal :=
  lin256 (kagg3 x e) x wl wr (row256 b)

/-- Layer 3: the linear step, then the normalise-and-rectify step with the columns' mean and variance of the
    linear step's own result. -/
def klayer3 (x : S100000x128.Idx → EReal) (e : IVec S2x1600000 32) (wl wr : S128x256.Idx → EReal)
    (b g be : S256.Idx → EReal) : S100000x256.Idx → EReal :=
  bnStat256 (klin3 x e wl wr b) (row256 g) (row256 be)

/-- THE RESULT: three layers, the head, and the [100000, 1] column flattened to a length-100000 vector. -/
def kout (a0 : S100000x6.Idx → EReal) (a1 : IVec S2x1600000 32)
    (a2 a3 : S6x64.Idx → EReal) (a4 a5 a6 : S64.Idx → EReal)
    (a7 a8 : S64x128.Idx → EReal) (a9 a10 a11 : S128.Idx → EReal)
    (a12 a13 : S128x256.Idx → EReal) (a14 a15 a16 : S256.Idx → EReal)
    (a17 : S256x128.Idx → EReal) (a18 : S128.Idx → EReal) (a19 : S128x1.Idx → EReal) (a20 : S1.Idx → EReal) :
    S100000.Idx → EReal :=
  shapeCast S100000
    (head (klayer3 (klayer2 (klayer1 a0 a1 a2 a3 a4 a5 a6) a1 a7 a8 a9 a10 a11) a1 a12 a13 a14 a15 a16)
      a17 (row128 a18) a19 (row1 a20))
    shapeCasts_S100000x1_S100000

end Cert.KernelIdeal.KSpecOut

end
-- ==== Proof.KLin0.lean ====
/-
  A linear launch of the kernel program (a row block of the aggregated features times one weight matrix, plus the same
  row block of the features times the other, plus the bias row; and, carried from grid point to grid point, the column
  sums of that block and of its square), read as VALUES: what each of the two control cases leaves in the three output
  buffers is the body's arithmetic on the point's input blocks — the linear block itself, and the running column sums
  "what the buffer held before, plus this block's column sums", the first point starting from the zero row it has just
  stored. By induction on the grid point the carried buffers are therefore the running sums of the blocks seen so far.
-/
import proofs.«115009_j15960098472830_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KLin0

open Cert.KernelIdeal Cert.KernelIdeal.Gen

variable {F : FTy → Type} [FloatOps F]

theorem hz : (![0, 0] : Fin 2 → Nat) = fun _ => 0 := funext fun a => by fin_cases a <;> rfl

/-! ## The five roles of the body's arithmetic -/

/-- The linear block of the five input blocks. -/
abbrev linPay (x0 x1 : Vec F S2000x6 .f32) (x2 x3 : Vec F S6x64 .f32) (x4 : Vec F S1x64 .f32) : FVec F S2000x64 .f32 := k0_pay1 x0 x1 x2 x3 x4
/-- The zero row the first point stores into the row of column sums. -/
abbrev zeroSum : FVec F S1x64 .f32 := k0_pay2 (F := F)
/-- The zero row the first point stores into the row of column sums of squares. -/
abbrev zeroSq : FVec F S1x64 .f32 := k0_pay3 (F := F)
/-- The row of column sums after a point: what it held, plus the linear block's column sums. -/
abbrev sumPay (x0 x1 : Vec F S2000x6 .f32) (x2 x3 : Vec F S6x64 .f32) (x4 : Vec F S1x64 .f32) (acc : Vec F S1x64 .f32) : FVec F S1x64 .f32 := k0_pay4 x0 x1 x2 x3 x4 acc
/-- The row of column sums of squares after a point: what it held, plus the column sums of the linear block's squares. -/
abbrev sqPay (x0 x1 : Vec F S2000x6 .f32) (x2 x3 : Vec F S6x64 .f32) (x4 : Vec F S1x64 .f32) (acc : Vec F S1x64 .f32) : FVec F S1x64 .f32 := k0_pay5 x0 x1 x2 x3 x4 acc

/-! ## What each case leaves in each output buffer -/

/-- Later points: the linear block is the body's one covering store, a function of the five input blocks only. -/
theorem lin_B (c : Dev nD) (i : grid0.Coords) (a1 : Memref sig .tc .vmem S2000x6 .f32) (h1 : a1.IsWhole) (a2 : Memref sig .tc .vmem S2000x6 .f32) (h2 : a2.IsWhole) (a3 : Memref sig .tc .vmem S6x64 .f32) (h3 : a3.IsWhole) (a4 : Memref sig .tc .vmem S6x64 .f32) (h4 : a4.IsWhole) (a5 : Memref sig .tc .vmem S1x64 .f32) (h5 : a5.IsWhole) (a6 : Memref sig .tc .vmem S2000x64 .f32) (h6 : a6.IsWhole) (a7 : Memref sig .tc .vmem S1x64 .f32) (h7 : a7.IsWhole) (a8 : Memref sig .tc .vmem S1x64 .f32) (h8 : a8.IsWhole) (hc : ¬cond0_0 i) (x0 x1 : Vec F S2000x6 .f32) (x2 x3 : Vec F S6x64 .f32) (x4 : Vec F S1x64 .f32) (xo6 xo7 : Vec F S1x64 .f32) :
    out0_B_5 c i a1 h1 a2 h2 a3 h3 a4 h4 a5 h5 a6 h6 a7 h7 a8 h8 hc x0 x1 x2 x3 x4 xo6 xo7 = linPay x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x6) hz, View.ld_unit_zero (S := S6x64) hz, View.ld_unit_zero (S := S1x64) hz, View.ld_unit_zero (S := S2000x64) hz, linPay, sumPay, sqPay, zeroSum, zeroSq]

/-- First point: the same linear block. -/
theorem lin_A (c : Dev nD) (i : grid0.Coords) (a1 : Memref sig .tc .vmem S2000x6 .f32) (h1 : a1.IsWhole) (a2 : Memref sig .tc .vmem S2000x6 .f32) (h2 : a2.IsWhole) (a3 : Memref sig .tc .vmem S6x64 .f32) (h3 : a3.IsWhole) (a4 : Memref sig .tc .vmem S6x64 .f32) (h4 : a4.IsWhole) (a5 : Memref sig .tc .vmem S1x64 .f32) (h5 : a5.IsWhole) (a6 : Memref sig .tc .vmem S2000x64 .f32) (h6 : a6.IsWhole) (a7 : Memref sig .tc .vmem S1x64 .f32) (h7 : a7.IsWhole) (a8 : Memref sig .tc .vmem S1x64 .f32) (h8 : a8.IsWhole) (hc : cond0_0 i) (x0 x1 : Vec F S2000x6 .f32) (x2 x3 : Vec F S6x64 .f32) (x4 : Vec F S1x64 .f32) :
    out0_A_5 c i a1 h1 a2 h2 a3 h3 a4 h4 a5 h5 a6 h6 a7 h7 a8 h8 hc x0 x1 x2 x3 x4 = linPay x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x6) hz, View.ld_unit_zero (S := S6x64) hz, View.ld_unit_zero (S := S1x64) hz, View.ld_unit_zero (S := S2000x64) hz, linPay, sumPay, sqPay, zeroSum, zeroSq]

/-- Later points: the column-sum row becomes what it held plus this block's column sums. -/
theorem sum_B (c : Dev nD) (i : grid0.Coords) (a1 : Memref sig .tc .vmem S2000x6 .f32) (h1 : a1.IsWhole) (a2 : Memref sig .tc .vmem S2000x6 .f32) (h2 : a2.IsWhole) (a3 : Memref sig .tc .vmem S6x64 .f32) (h3 : a3.IsWhole) (a4 : Memref sig .tc .vmem S6x64 .f32) (h4 : a4.IsWhole) (a5 : Memref sig .tc .vmem S1x64 .f32) (h5 : a5.IsWhole) (a6 : Memref sig .tc .vmem S2000x64 .f32) (h6 : a6.IsWhole) (a7 : Memref sig .tc .vmem S1x64 .f32) (h7 : a7.IsWhole) (a8 : Memref sig .tc .vmem S1x64 .f32) (h8 : a8.IsWhole) (hc : ¬cond0_0 i) (x0 x1 : Vec F S2000x6 .f32) (x2 x3 : Vec F S6x64 .f32) (x4 : Vec F S1x64 .f32) (xo6 xo7 : Vec F S1x64 .f32) :
    out0_B_6 c i a1 h1 a2 h2 a3 h3 a4 h4 a5 h5 a6 h6 a7 h7 a8 h8 hc x0 x1 x2 x3 x4 xo6 xo7 = sumPay x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x6) hz, View.ld_unit_zero (S := S6x64) hz, View.ld_unit_zero (S := S1x64) hz, View.ld_unit_zero (S := S2000x64) hz, linPay, sumPay, sqPay, zeroSum, zeroSq]

/-- First point: the column-sum row is zeroed, read back, and this block's column sums added. -/
theorem sum_A (c : Dev nD) (i : grid0.Coords) (a1 : Memref sig .tc .vmem S2000x6 .f32) (h1 : a1.IsWhole) (a2 : Memref sig .tc .vmem S2000x6 .f32) (h2 : a2.IsWhole) (a3 : Memref sig .tc .vmem S6x64 .f32) (h3 : a3.IsWhole) (a4 : Memref sig .tc .vmem S6x64 .f32) (h4 : a4.IsWhole) (a5 : Memref sig .tc .vmem S1x64 .f32) (h5 : a5.IsWhole) (a6 : Memref sig .tc .vmem S2000x64 .f32) (h6 : a6.IsWhole) (a7 : Memref sig .tc .vmem S1x64 .f32) (h7 : a7.IsWhole) (a8 : Memref sig .tc .vmem S1x64 .f32) (h8 : a8.IsWhole) (hc : cond0_0 i) (x0 x1 : Vec F S2000x6 .f32) (x2 x3 : Vec F S6x64 .f32) (x4 : Vec F S1x64 .f32) :
    out0_A_6 c i a1 h1 a2 h2 a3 h3 a4 h4 a5 h5 a6 h6 a7 h7 a8 h8 hc x0 x1 x2 x3 x4 = sumPay x0 x1 x2 x3 x4 (zeroSum (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, h8.read_unread, View.ld_unit_zero (S := S2000x6) hz, View.ld_unit_zero (S := S6x64) hz, View.ld_unit_zero (S := S1x64) hz, View.ld_unit_zero (S := S2000x64) hz, linPay, sumPay, sqPay, zeroSum, zeroSq]

/-- Later points: the row of column sums of squares becomes what it held plus this block's. -/
theorem sq_B (c : Dev nD) (i : grid0.Coords) (a1 : Memref sig .tc .vmem S2000x6 .f32) (h1 : a1.IsWhole) (a2 : Memref sig .tc .vmem S2000x6 .f32) (h2 : a2.IsWhole) (a3 : Memref sig .tc .vmem S6x64 .f32) (h3 : a3.IsWhole) (a4 : Memref sig .tc .vmem S6x64 .f32) (h4 : a4.IsWhole) (a5 : Memref sig .tc .vmem S1x64 .f32) (h5 : a5.IsWhole) (a6 : Memref sig .tc .vmem S2000x64 .f32) (h6 : a6.IsWhole) (a7 : Memref sig .tc .vmem S1x64 .f32) (h7 : a7.IsWhole) (a8 : Memref sig .tc .vmem S1x64 .f32) (h8 : a8.IsWhole) (hc : ¬cond0_0 i) (x0 x1 : Vec F S2000x6 .f32) (x2 x3 : Vec F S6x64 .f32) (x4 : Vec F S1x64 .f32) (xo6 xo7 : Vec F S1x64 .f32) :
    out0_B_7 c i a1 h1 a2 h2 a3 h3 a4 h4 a5 h5 a6 h6 a7 h7 a8 h8 hc x0 x1 x2 x3 x4 xo6 xo7 = sqPay x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x6) hz, View.ld_unit_zero (S := S6x64) hz, View.ld_unit_zero (S := S1x64) hz, View.ld_unit_zero (S := S2000x64) hz, linPay, sumPay, sqPay, zeroSum, zeroSq]

/-- First point: the row of column sums of squares is zeroed, read back, and this block's added. -/
theorem sq_A (c : Dev nD) (i : grid0.Coords) (a1 : Memref sig .tc .vmem S2000x6 .f32) (h1 : a1.IsWhole) (a2 : Memref sig .tc .vmem S2000x6 .f32) (h2 : a2.IsWhole) (a3 : Memref sig .tc .vmem S6x64 .f32) (h3 : a3.IsWhole) (a4 : Memref sig .tc .vmem S6x64 .f32) (h4 : a4.IsWhole) (a5 : Memref sig .tc .vmem S1x64 .f32) (h5 : a5.IsWhole) (a6 : Memref sig .tc .vmem S2000x64 .f32) (h6 : a6.IsWhole) (a7 : Memref sig .tc .vmem S1x64 .f32) (h7 : a7.IsWhole) (a8 : Memref sig .tc .vmem S1x64 .f32) (h8 : a8.IsWhole) (hc : cond0_0 i) (x0 x1 : Vec F S2000x6 .f32) (x2 x3 : Vec F S6x64 .f32) (x4 : Vec F S1x64 .f32) :
    out0_A_7 c i a1 h1 a2 h2 a3 h3 a4 h4 a5 h5 a6 h6 a7 h7 a8 h8 hc x0 x1 x2 x3 x4 = sqPay x0 x1 x2 x3 x4 (zeroSq (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, h8.read_unread, View.ld_unit_zero (S := S2000x6) hz, View.ld_unit_zero (S := S6x64) hz, View.ld_unit_zero (S := S1x64) hz, View.ld_unit_zero (S := S2000x64) hz, linPay, sumPay, sqPay, zeroSum, zeroSq]

/-! ## The accumulation over the grid -/

variable (V : (c : Dev nD) → (b : Ref sig .tc) → Buf (Elt F) ((c : Thread nD τ).loc b))

/-- The linear block of grid point `t`: the body's arithmetic on that point's five input blocks. -/
abbrev linBlk (c : Dev nD) (t : Fin cfg0.N) : Vec F S2000x64 .f32 := linPay (iblk0 V c 0 t) (iblk0 V c 1 t) (iblk0 V c 2 t) (iblk0 V c 3 t) (iblk0 V c 4 t)

/-- The running row of column sums after point `n`: the zero row plus the first block's column sums, then each later
    block's added in point order. -/
def accSum (c : Dev nD) : (n : ℕ) → n < cfg0.N → Vec F S1x64 .f32
  | 0, h => sumPay (iblk0 V c 0 ⟨0, h⟩) (iblk0 V c 1 ⟨0, h⟩) (iblk0 V c 2 ⟨0, h⟩) (iblk0 V c 3 ⟨0, h⟩) (iblk0 V c 4 ⟨0, h⟩) (zeroSum (F := F))
  | n + 1, h => sumPay (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accSum c n (Nat.lt_of_succ_lt h))

/-- The running row of column sums of squares after point `n`, likewise. -/
def accSq (c : Dev nD) : (n : ℕ) → n < cfg0.N → Vec F S1x64 .f32
  | 0, h => sqPay (iblk0 V c 0 ⟨0, h⟩) (iblk0 V c 1 ⟨0, h⟩) (iblk0 V c 2 ⟨0, h⟩) (iblk0 V c 3 ⟨0, h⟩) (iblk0 V c 4 ⟨0, h⟩) (zeroSq (F := F))
  | n + 1, h => sqPay (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accSq c n (Nat.lt_of_succ_lt h))

theorem accSum_zero (c : Dev nD) (h : 0 < cfg0.N) :
    accSum V c 0 h = sumPay (iblk0 V c 0 ⟨0, h⟩) (iblk0 V c 1 ⟨0, h⟩) (iblk0 V c 2 ⟨0, h⟩) (iblk0 V c 3 ⟨0, h⟩) (iblk0 V c 4 ⟨0, h⟩) (zeroSum (F := F)) := rfl
theorem accSum_succ (c : Dev nD) (n : ℕ) (h : n + 1 < cfg0.N) :
    accSum V c (n + 1) h = sumPay (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accSum V c n (Nat.lt_of_succ_lt h)) := rfl
theorem accSq_zero (c : Dev nD) (h : 0 < cfg0.N) :
    accSq V c 0 h = sqPay (iblk0 V c 0 ⟨0, h⟩) (iblk0 V c 1 ⟨0, h⟩) (iblk0 V c 2 ⟨0, h⟩) (iblk0 V c 3 ⟨0, h⟩) (iblk0 V c 4 ⟨0, h⟩) (zeroSq (F := F)) := rfl
theorem accSq_succ (c : Dev nD) (n : ℕ) (h : n + 1 < cfg0.N) :
    accSq V c (n + 1) h = sqPay (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accSq V c n (Nat.lt_of_succ_lt h)) := rfl

/-- After point `n` the three output buffers hold that point's linear block and the two running rows: by induction on
    the point, the first point in the zeroing case and every later one in the carrying case. -/
theorem outsAt_eq (c : Dev nD) : ∀ (n : ℕ) (h : n < cfg0.N),
    outsAt0 V c n h = (linBlk V c ⟨n, h⟩, accSum V c n h, accSq V c n h)
  | 0, h => by
    rw [outsAt0_A V c ⟨0, h⟩ rfl, lin_A, sum_A, sq_A]
    rfl
  | n + 1, h => by
    have hN : cfg0.N = 50 := N_0
    have hB : ¬(⟨n + 1, h⟩ : Fin cfg0.N).val % 50 = 0 := by dsimp only; omega
    rw [outsAt0_B V c ⟨n + 1, h⟩ hB, lin_B, sum_B, sq_B]
    show (_, sumPay _ _ _ _ _ (outsAt0 V c n _).2.1, sqPay _ _ _ _ _ (outsAt0 V c n _).2.2) = _
    rw [outsAt_eq c n]
    rfl

end Cert.KernelIdeal.KLin0

end
-- ==== Proof.LibTileSum.lean ====
import Mathlib.Data.EReal.Operations
import Mathlib.Algebra.BigOperators.Fin
import Mathlib.Algebra.BigOperators.Ring.Finset
import Mathlib.Logic.Equiv.Fin.Basic

/-!
# Sums over a grid of tiles

Pure algebra, no program: a sum over `n * m` points regrouped as `n` blocks of `m` points, the
two contractions `Sᵀ·X` and `Sᵀ·A·S` computed tile by tile against the same contractions computed
whole, and a running accumulator over the points of a grid against the double sum over the grid.

The regrouping laws hold in any additive commutative monoid, so in particular in the extended
reals.  The law for `Sᵀ·A·S` moves a factor across a sum, which the extended reals do not allow at
`±∞`; it is proved for real-valued `S` and `A` and transported along the coercion `ℝ → EReal`.
-/

namespace Cert.TileSum

open Finset

variable {M : Type*} [AddCommMonoid M]

/-! ## Regrouping a sum over `n * m` points into `n` blocks of `m` -/

/-- For `i < n` and `r < m`, the point `m * i + r` lies below `n * m`. -/
theorem tile_lt {n m : ℕ} (i : Fin n) (r : Fin m) : m * i.1 + r.1 < n * m :=
  calc m * i.1 + r.1 < m * i.1 + m := Nat.add_lt_add_left r.2 _
    _ = (i.1 + 1) * m := by rw [Nat.succ_mul, Nat.mul_comm]
    _ ≤ n * m := Nat.mul_le_mul_right _ i.2

/-- The point `m * i + r` of block `i`, offset `r`, as an element of `Fin (n * m)`. -/
def tile {n m : ℕ} (i : Fin n) (r : Fin m) : Fin (n * m) := ⟨m * i.1 + r.1, tile_lt i r⟩

@[simp] theorem tile_val {n m : ℕ} (i : Fin n) (r : Fin m) : (tile i r).1 = m * i.1 + r.1 := rfl

/-- `tile i r` is the image of `(i, r)` under the standard bijection `Fin n × Fin m ≃ Fin (n * m)`. -/
theorem tile_eq_finProdFinEquiv {n m : ℕ} (i : Fin n) (r : Fin m) :
    tile i r = finProdFinEquiv (i, r) :=
  Fin.ext (by simp [finProdFinEquiv, Nat.add_comm])

/-- **Regrouping.** `Σ_{i<n} Σ_{r<m} f (m*i + r) = Σ_{k<n*m} f k`, for `f` on `Fin (n * m)`. -/
theorem sum_tile (n m : ℕ) (f : Fin (n * m) → M) :
    ∑ i : Fin n, ∑ r : Fin m, f (tile i r) = ∑ k : Fin (n * m), f k := by
  rw [← Fintype.sum_prod_type']
  exact Fintype.sum_equiv finProdFinEquiv _ _ fun x => by rw [tile_eq_finProdFinEquiv]

/-- **Regrouping**, for a function on `ℕ`: `Σ_{i<n} Σ_{r<m} f (m*i + r) = Σ_{k<n*m} f k`. -/
theorem sum_tile_nat (n m : ℕ) (f : ℕ → M) :
    ∑ i : Fin n, ∑ r : Fin m, f (m * i.1 + r.1) = ∑ k : Fin (n * m), f k.1 :=
  sum_tile n m fun k => f k.1

/-- **Regrouping**, over ranges of `ℕ`: `Σ_{i<n} Σ_{r<m} f (m*i + r) = Σ_{k<n*m} f k`. -/
theorem sum_tile_range (n m : ℕ) (f : ℕ → M) :
    ∑ i ∈ range n, ∑ r ∈ range m, f (m * i + r) = ∑ k ∈ range (n * m), f k := by
  rw [Finset.sum_range, Finset.sum_range fun k => f k]
  simp only [Finset.sum_range fun r => f (m * _ + r)]
  exact sum_tile_nat n m f

/-- Regrouping with the block and the offset given separately:
`Σ_{k<n*m} G (k / m) (k % m) = Σ_{i<n} Σ_{r<m} G i r`. -/
theorem sum_div_mod (n m : ℕ) (G : ℕ → ℕ → M) :
    ∑ k : Fin (n * m), G (k.1 / m) (k.1 % m) = ∑ i : Fin n, ∑ r : Fin m, G i.1 r.1 := by
  rw [← sum_tile_nat n m fun k => G (k / m) (k % m)]
  refine Finset.sum_congr rfl fun i _ => Finset.sum_congr rfl fun r _ => ?_
  have hm : 0 < m := Nat.lt_of_le_of_lt (Nat.zero_le _) r.2
  rw [Nat.mul_add_div hm, Nat.div_eq_of_lt r.2, Nat.add_zero, Nat.mul_add_mod,
    Nat.mod_eq_of_lt r.2]

/-- 8192 rows as 8 tiles of 1024 rows: `Σ_{i<8} Σ_{r<1024} f (1024*i + r) = Σ_{k<8192} f k`. -/
theorem sum_8_1024 (f : Fin 8192 → M) :
    ∑ i : Fin 8, ∑ r : Fin 1024, f ⟨1024 * i.1 + r.1, by omega⟩ = ∑ k : Fin 8192, f k :=
  sum_tile 8 1024 f

/-- 8192 columns as 4 tiles of 2048 columns: `Σ_{j<4} Σ_{c<2048} f (2048*j + c) = Σ_{k<8192} f k`. -/
theorem sum_4_2048 (f : Fin 8192 → M) :
    ∑ j : Fin 4, ∑ c : Fin 2048, f ⟨2048 * j.1 + c.1, by omega⟩ = ∑ k : Fin 8192, f k :=
  sum_tile 4 2048 f

/-- 32 grid points as 8 rows of 4: `Σ_{i<8} Σ_{j<4} g (4*i + j) = Σ_{t<32} g t`. -/
theorem sum_8_4 (g : Fin 32 → M) :
    ∑ i : Fin 8, ∑ j : Fin 4, g ⟨4 * i.1 + j.1, by omega⟩ = ∑ t : Fin 32, g t :=
  sum_tile 8 4 g

/-- `sum_8_1024` for a function on `ℕ`. -/
theorem sum_8_1024_nat (f : ℕ → M) :
    ∑ i : Fin 8, ∑ r : Fin 1024, f (1024 * i.1 + r.1) = ∑ k : Fin 8192, f k.1 :=
  sum_tile_nat 8 1024 f

/-- `sum_4_2048` for a function on `ℕ`. -/
theorem sum_4_2048_nat (f : ℕ → M) :
    ∑ j : Fin 4, ∑ c : Fin 2048, f (2048 * j.1 + c.1) = ∑ k : Fin 8192, f k.1 :=
  sum_tile_nat 4 2048 f

/-! ## The contraction `Sᵀ·X`, tile by tile -/

/-- **`x1`.** `Σ_{i<n} Σ_{r<m} S (m*i+r) * X (m*i+r) = Σ_{k<n*m} S k * X k` in the extended reals
(or any additive commutative monoid with a product): only a regrouping of one sum, so no
finiteness is needed. -/
theorem x1_tiles {E : Type*} [AddCommMonoid E] [Mul E] (n m : ℕ) (S X : ℕ → E) :
    ∑ i : Fin n, ∑ r : Fin m, S (m * i.1 + r.1) * X (m * i.1 + r.1)
      = ∑ k : Fin (n * m), S k.1 * X k.1 :=
  sum_tile_nat n m fun k => S k * X k

/-- **`x1K = x1R`**: the 8 row tiles of 1024 rows against the whole contraction over 8192 rows,
in the extended reals, with no hypothesis. -/
theorem x1K_eq_x1R {ι κ : Type*} (S : ℕ → ι → EReal) (X : ℕ → κ → EReal) (a : ι) (d : κ) :
    ∑ i : Fin 8, ∑ r : Fin 1024, S (1024 * i.1 + r.1) a * X (1024 * i.1 + r.1) d
      = ∑ k : Fin 8192, S k.1 a * X k.1 d :=
  x1_tiles 8 1024 (fun k => S k a) (fun k => X k d)

/-! ## The contraction `Sᵀ·A·S`, tile by tile -/

/-- **`adj` over a commutative semiring.**  With rows in `n` tiles of `m` and columns in `p` tiles
of `q`,
`Σ_{i<n} Σ_{j<p} Σ_{c<q} (Σ_{r<m} u (m*i+r) * α (m*i+r) (q*j+c)) * v (q*j+c)
  = Σ_{c<p*q} (Σ_{r<n*m} u r * α r c) * v c`:
regroup the columns, distribute `v c` over the inner sum, exchange the sums over row tiles and
columns, regroup the rows, and factor `v c` out again. -/
theorem adj_tiles {R : Type*} [CommSemiring R] (n m p q : ℕ) (u v : ℕ → R) (α : ℕ → ℕ → R) :
    ∑ i : Fin n, ∑ j : Fin p, ∑ c : Fin q,
        (∑ r : Fin m, u (m * i.1 + r.1) * α (m * i.1 + r.1) (q * j.1 + c.1)) * v (q * j.1 + c.1)
      = ∑ c : Fin (p * q), (∑ r : Fin (n * m), u r.1 * α r.1 c.1) * v c.1 :=
  calc ∑ i : Fin n, ∑ j : Fin p, ∑ c : Fin q,
        (∑ r : Fin m, u (m * i.1 + r.1) * α (m * i.1 + r.1) (q * j.1 + c.1)) * v (q * j.1 + c.1)
      = ∑ i : Fin n, ∑ c : Fin (p * q),
          (∑ r : Fin m, u (m * i.1 + r.1) * α (m * i.1 + r.1) c.1) * v c.1 :=
        Finset.sum_congr rfl fun i _ =>
          sum_tile_nat p q fun c => (∑ r : Fin m, u (m * i.1 + r.1) * α (m * i.1 + r.1) c) * v c
    _ = ∑ c : Fin (p * q), ∑ i : Fin n, ∑ r : Fin m,
          u (m * i.1 + r.1) * α (m * i.1 + r.1) c.1 * v c.1 := by
        rw [Finset.sum_comm]; simp only [Finset.sum_mul]
    _ = ∑ c : Fin (p * q), ∑ r : Fin (n * m), u r.1 * α r.1 c.1 * v c.1 :=
        Finset.sum_congr rfl fun c _ => sum_tile_nat n m fun r => u r * α r c.1 * v c.1
    _ = ∑ c : Fin (p * q), (∑ r : Fin (n * m), u r.1 * α r.1 c.1) * v c.1 := by
        simp only [Finset.sum_mul]

/-- The coercion `ℝ → EReal` commutes with finite sums. -/
@[norm_cast]
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- **`adj` in the extended reals, real-valued data.**  `adj_tiles` for `u`, `v`, `α` that are
coercions of real-valued functions: both sides are coercions of the corresponding real sums. -/
theorem adj_tiles_coe (n m p q : ℕ) (u v : ℕ → ℝ) (α : ℕ → ℕ → ℝ) :
    ∑ i : Fin n, ∑ j : Fin p, ∑ c : Fin q,
        (∑ r : Fin m, (u (m * i.1 + r.1) : EReal) * (α (m * i.1 + r.1) (q * j.1 + c.1) : EReal))
          * (v (q * j.1 + c.1) : EReal)
      = ∑ c : Fin (p * q), (∑ r : Fin (n * m), (u r.1 : EReal) * (α r.1 c.1 : EReal))
          * (v c.1 : EReal) := by
  have h := congrArg Real.toEReal (adj_tiles n m p q u v α)
  simpa only [coe_sum, EReal.coe_mul] using h

/-- **`adjK = adjR`**: 8 × 4 tiles of 1024 × 2048 against the whole contraction over
8192 × 8192, in the extended reals, for `S` and `A` the coercions of real-valued `s` and `α`. -/
theorem adjK_eq_adjR {ι : Type*} (s : ℕ → ι → ℝ) (α : ℕ → ℕ → ℝ) (a b : ι) :
    ∑ i : Fin 8, ∑ j : Fin 4, ∑ c : Fin 2048,
        (∑ r : Fin 1024, (s (1024 * i.1 + r.1) a : EReal)
            * (α (1024 * i.1 + r.1) (2048 * j.1 + c.1) : EReal))
          * (s (2048 * j.1 + c.1) b : EReal)
      = ∑ c : Fin 8192, (∑ r : Fin 8192, (s r.1 a : EReal) * (α r.1 c.1 : EReal))
          * (s c.1 b : EReal) :=
  adj_tiles_coe 8 1024 4 2048 (fun k => s k a) (fun k => s k b) α

/-- **`adjK = adjR`, finiteness as a hypothesis.**  The same law for extended-real `S` and `A`
every entry of which is the coercion of some real. -/
theorem adjK_eq_adjR_of_real {ι : Type*} (S : ℕ → ι → EReal) (A : ℕ → ℕ → EReal)
    (hS : ∀ k a, ∃ x : ℝ, S k a = (x : EReal)) (hA : ∀ k l, ∃ x : ℝ, A k l = (x : EReal))
    (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b := by
  choose s hs using hS
  choose α hα using hA
  simp only [hs, hα]
  exact adjK_eq_adjR s α a b

/-! ## The running accumulator over the points of a grid -/

/-- The accumulator after `t` points: it starts at `0` and point `t` adds `g t`. -/
def acc (g : ℕ → M) : ℕ → M
  | 0 => 0
  | t + 1 => acc g t + g t

@[simp] theorem acc_zero (g : ℕ → M) : acc g 0 = 0 := rfl

@[simp] theorem acc_succ (g : ℕ → M) (t : ℕ) : acc g (t + 1) = acc g t + g t := rfl

/-- After `n` points the accumulator holds `Σ_{t<n} g t`. -/
theorem acc_eq_sum_range (g : ℕ → M) (n : ℕ) : acc g n = ∑ t ∈ range n, g t := by
  induction n with
  | zero => rfl
  | succ n ih => rw [acc_succ, ih, Finset.sum_range_succ]

/-- After `n` points the accumulator holds `Σ_{t : Fin n} g t`. -/
theorem acc_eq_sum (g : ℕ → M) (n : ℕ) : acc g n = ∑ t : Fin n, g t.1 := by
  rw [acc_eq_sum_range, Finset.sum_range]

/-- After the `n * m` points of an `n × m` grid visited row by row (point `t = m*i + j`), the
accumulator holds the double sum over the grid. -/
theorem acc_grid (g : ℕ → M) (n m : ℕ) :
    acc g (n * m) = ∑ i : Fin n, ∑ j : Fin m, g (m * i.1 + j.1) := by
  rw [acc_eq_sum, sum_tile_nat]

/-- The same with the contribution of point `t` given by its row `t / m` and column `t % m`. -/
theorem acc_grid_div_mod (G : ℕ → ℕ → M) (n m : ℕ) :
    acc (fun t => G (t / m) (t % m)) (n * m) = ∑ i : Fin n, ∑ j : Fin m, G i.1 j.1 := by
  rw [acc_eq_sum, sum_div_mod]

/-- The 32 points of the 8 × 4 grid: `acc g 32 = Σ_{t<32} g t`. -/
theorem acc_32 (g : ℕ → M) : acc g 32 = ∑ t : Fin 32, g t.1 := acc_eq_sum g 32

/-- The 32 points of the 8 × 4 grid: `acc g 32 = Σ_{i<8} Σ_{j<4} g (4*i + j)`. -/
theorem acc_32_grid (g : ℕ → M) : acc g 32 = ∑ i : Fin 8, ∑ j : Fin 4, g (4 * i.1 + j.1) :=
  acc_grid g 8 4

/-- The accumulator to which only the points satisfying `p` add. -/
def accIf (p : ℕ → Prop) [DecidablePred p] (h : ℕ → M) : ℕ → M
  | 0 => 0
  | t + 1 => if p t then accIf p h t + h t else accIf p h t

@[simp] theorem accIf_zero (p : ℕ → Prop) [DecidablePred p] (h : ℕ → M) : accIf p h 0 = 0 := rfl

@[simp] theorem accIf_succ (p : ℕ → Prop) [DecidablePred p] (h : ℕ → M) (t : ℕ) :
    accIf p h (t + 1) = if p t then accIf p h t + h t else accIf p h t := rfl

/-- A point that does not add, adds `0`. -/
theorem accIf_eq_acc (p : ℕ → Prop) [DecidablePred p] (h : ℕ → M) (n : ℕ) :
    accIf p h n = acc (fun t => if p t then h t else 0) n := by
  induction n with
  | zero => rfl
  | succ n ih =>
    rw [accIf_succ, acc_succ, ih]
    by_cases hp : p n
    · rw [if_pos hp, if_pos hp]
    · rw [if_neg hp, if_neg hp, add_zero]

/-- Over an `n × m` grid with `0 < m`, if only the first point of each row (`t % m = 0`) adds, the
accumulator ends with `Σ_{i<n} h (m*i)`. -/
theorem accIf_mod_grid (h : ℕ → M) (n m : ℕ) (hm : 0 < m) :
    accIf (fun t => t % m = 0) h (n * m) = ∑ i : Fin n, h (m * i.1) := by
  rw [accIf_eq_acc, acc_grid]
  refine Finset.sum_congr rfl fun i _ => ?_
  beta_reduce
  rw [Finset.sum_eq_single (⟨0, hm⟩ : Fin m)]
  · rw [Nat.add_zero, Nat.mul_mod_right, if_pos rfl]
  · intro j _ hj
    have hne : (m * i.1 + j.1) % m ≠ 0 := by
      rw [Nat.mul_add_mod, Nat.mod_eq_of_lt j.2]
      exact fun h0 => hj (Fin.ext h0)
    rw [if_neg hne]
  · intro h0
    exact absurd (Finset.mem_univ _) h0

/-- The 8 × 4 grid, only the points with `t % 4 = 0` adding: the accumulator ends with
`Σ_{i<8} h (4*i)`. -/
theorem accIf_32 (h : ℕ → M) :
    accIf (fun t => t % 4 = 0) h 32 = ∑ i : Fin 8, h (4 * i.1) :=
  accIf_mod_grid h 8 4 (by decide)

/-- The same with the contribution of a row's first point given by the row `t / m` alone. -/
theorem accIf_mod_grid_div (H : ℕ → M) (n m : ℕ) (hm : 0 < m) :
    accIf (fun t => t % m = 0) (fun t => H (t / m)) (n * m) = ∑ i : Fin n, H i.1 := by
  rw [accIf_mod_grid _ n m hm]
  refine Finset.sum_congr rfl fun i _ => ?_
  beta_reduce
  rw [Nat.mul_div_cancel_left _ hm]

/-! ### The accumulator as a sequence of observed values

The same laws for any sequence `f` of observed accumulator values that obeys the step equation on
the first `N` points, with the accumulator either starting at `0` or being cleared by the first
point (whatever it held before). -/

/-- A sequence that starts at `0` and whose step `t < N` adds `g t` is the accumulator up to `N`. -/
theorem eq_acc_of_step (N : ℕ) (f g : ℕ → M) (h0 : f 0 = 0)
    (hs : ∀ t, t < N → f (t + 1) = f t + g t) : ∀ n, n ≤ N → f n = acc g n := by
  intro n
  induction n with
  | zero => intro _; exact h0
  | succ n ih => intro hn; rw [hs n hn, ih (Nat.le_of_succ_le hn), acc_succ]

/-- The same when the sequence starts anywhere and the first point, instead of adding to what it
finds, leaves `g 0` (the accumulator is cleared at the first point). -/
theorem eq_acc_of_step_reset (N : ℕ) (f g : ℕ → M) (h1 : f 1 = g 0)
    (hs : ∀ t, 0 < t → t < N → f (t + 1) = f t + g t) :
    ∀ n, 0 < n → n ≤ N → f n = acc g n := by
  intro n
  induction n with
  | zero => intro h; exact absurd h (Nat.lt_irrefl 0)
  | succ n ih =>
    intro _ hn
    rcases Nat.eq_zero_or_pos n with rfl | hpos
    · rw [h1, acc_succ, acc_zero, zero_add]
    · rw [hs n hpos hn, ih hpos (Nat.le_of_succ_le hn), acc_succ]

/-- A sequence that starts at `0` and whose step `t < N` adds `h t` exactly when `p t` is the
conditional accumulator up to `N`. -/
theorem eq_accIf_of_step (N : ℕ) (p : ℕ → Prop) [DecidablePred p] (f h : ℕ → M) (h0 : f 0 = 0)
    (hs : ∀ t, t < N → f (t + 1) = if p t then f t + h t else f t) :
    ∀ n, n ≤ N → f n = accIf p h n := by
  intro n
  induction n with
  | zero => intro _; exact h0
  | succ n ih => intro hn; rw [hs n hn, ih (Nat.le_of_succ_le hn), accIf_succ]

/-- The same when the first point (which satisfies `p`) clears the accumulator before adding. -/
theorem eq_accIf_of_step_reset (N : ℕ) (p : ℕ → Prop) [DecidablePred p] (f h : ℕ → M)
    (hp0 : p 0) (h1 : f 1 = h 0)
    (hs : ∀ t, 0 < t → t < N → f (t + 1) = if p t then f t + h t else f t) :
    ∀ n, 0 < n → n ≤ N → f n = accIf p h n := by
  intro n
  induction n with
  | zero => intro h; exact absurd h (Nat.lt_irrefl 0)
  | succ n ih =>
    intro _ hn
    rcases Nat.eq_zero_or_pos n with rfl | hpos
    · rw [h1, accIf_succ, if_pos hp0, accIf_zero, zero_add]
    · rw [hs n hpos hn, ih hpos (Nat.le_of_succ_le hn), accIf_succ]

/-- The accumulator is the left fold of `+` over the points `0, …, n-1` in order. -/
theorem foldl_range_eq_acc (g : ℕ → M) (n : ℕ) :
    (List.range n).foldl (fun s t => s + g t) 0 = acc g n := by
  induction n with
  | zero => rfl
  | succ n ih => rw [List.range_succ, List.foldl_append, ih]; rfl

/-- For `g` given on `Fin n` only: the accumulator of its extension by `0` ends with
`Σ_{t : Fin n} g t`. -/
theorem acc_extend_eq_sum {n : ℕ} (g : Fin n → M) :
    acc (fun t => if h : t < n then g ⟨t, h⟩ else 0) n = ∑ t : Fin n, g t := by
  rw [acc_eq_sum]
  refine Finset.sum_congr rfl fun t _ => ?_
  rw [dif_pos t.2]

/-! ## Extended reals that are real numbers -/

/-- An extended real that is the coercion of a real number, that is, neither `+∞` nor `-∞`. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- Being a real number is being different from both infinities. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The sum of two reals is real. -/
theorem IsReal.add {x y : EReal} : IsReal x → IsReal y → IsReal (x + y)
  | ⟨a, ha⟩, ⟨b, hb⟩ => ⟨a + b, by rw [ha, hb, EReal.coe_add]⟩

/-- The product of two reals is real. -/
theorem IsReal.mul {x y : EReal} : IsReal x → IsReal y → IsReal (x * y)
  | ⟨a, ha⟩, ⟨b, hb⟩ => ⟨a * b, by rw [ha, hb, EReal.coe_mul]⟩

/-- A finite sum of reals is real. -/
theorem IsReal.sum {ι : Type*} (s : Finset ι) (f : ι → EReal) (h : ∀ i ∈ s, IsReal (f i)) :
    IsReal (∑ i ∈ s, f i) :=
  Finset.sum_induction f IsReal (fun _ _ => IsReal.add) isReal_zero h

/-- A signed integer word converted exactly is a real number. -/
theorem isReal_toInt {w : ℕ} (b : BitVec w) : IsReal ((b.toInt : ℝ) : EReal) := ⟨_, rfl⟩

/-- An unsigned integer word converted exactly is a real number. -/
theorem isReal_toNat {w : ℕ} (b : BitVec w) : IsReal ((b.toNat : ℝ) : EReal) := ⟨_, rfl⟩

/-- A one-hot entry, a condition read as `1` or `0`, is a real number. -/
theorem isReal_ite (c : Prop) [Decidable c] : IsReal (if c then (1 : EReal) else 0) := by
  by_cases hc : c
  · rw [if_pos hc]; exact isReal_one
  · rw [if_neg hc]; exact isReal_zero

/-- A one-hot entry, a one-bit word read unsigned, is a real number (and is `0` or `1`). -/
theorem isReal_bit (b : BitVec 1) : IsReal ((b.toNat : ℝ) : EReal) := isReal_toNat b

/-! ## The two laws end to end: accumulator over the 8 × 4 grid against the whole contraction -/

/-- **`adjK = adjR` for real entries.**  The law `adjK_eq_adjR` for extended-real `S` and `A` all of
whose entries are real numbers. -/
theorem adjK_eq_adjR_of_isReal {ι : Type*} (S : ℕ → ι → EReal) (A : ℕ → ℕ → EReal)
    (hS : ∀ k a, IsReal (S k a)) (hA : ∀ k l, IsReal (A k l)) (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b :=
  adjK_eq_adjR_of_real S A hS hA a b

/-- **`adj`, end to end.**  The accumulator that starts at `0` and to which grid point `t` (row tile
`t / 4`, column tile `t % 4`) adds the tile's contribution ends, after the 32 points, with the
whole contraction `Σ_{c<8192} (Σ_{r<8192} S r a * A r c) * S c b`, for real-valued `S` and `A`. -/
theorem adj_acc_eq {ι : Type*} (S : ℕ → ι → EReal) (A : ℕ → ℕ → EReal)
    (hS : ∀ k a, IsReal (S k a)) (hA : ∀ k l, IsReal (A k l)) (a b : ι) :
    acc (fun t => ∑ c : Fin 2048,
        (∑ r : Fin 1024, S (1024 * (t / 4) + r.1) a * A (1024 * (t / 4) + r.1) (2048 * (t % 4) + c.1))
          * S (2048 * (t % 4) + c.1) b) 32
      = ∑ c : Fin 8192, (∑ r : Fin 8192, S r.1 a * A r.1 c.1) * S c.1 b :=
  (acc_grid_div_mod (fun i j => ∑ c : Fin 2048,
      (∑ r : Fin 1024, S (1024 * i + r.1) a * A (1024 * i + r.1) (2048 * j + c.1))
        * S (2048 * j + c.1) b) 8 4).trans
    (adjK_eq_adjR_of_isReal S A hS hA a b)

/-- **`x1`, end to end.**  The accumulator that starts at `0` and to which only the first point of
each grid row (`t % 4 = 0`, row tile `t / 4`) adds the tile's contribution ends, after the 32
points, with the whole contraction `Σ_{k<8192} S k a * X k d`; no finiteness is needed. -/
theorem x1_acc_eq {ι κ : Type*} (S : ℕ → ι → EReal) (X : ℕ → κ → EReal) (a : ι) (d : κ) :
    accIf (fun t => t % 4 = 0)
        (fun t => ∑ r : Fin 1024, S (1024 * (t / 4) + r.1) a * X (1024 * (t / 4) + r.1) d) 32
      = ∑ k : Fin 8192, S k.1 a * X k.1 d :=
  (accIf_mod_grid_div
      (fun i => ∑ r : Fin 1024, S (1024 * i + r.1) a * X (1024 * i + r.1) d) 8 4 (by decide)).trans
    (x1K_eq_x1R S X a d)

/-! ## The same laws for data indexed by `Fin 8192` -/

/-- The accumulator after `n` points depends only on the contributions of the points below `n`. -/
theorem acc_congr {g g' : ℕ → M} {n : ℕ} (h : ∀ t, t < n → g t = g' t) : acc g n = acc g' n := by
  rw [acc_eq_sum_range, acc_eq_sum_range]
  exact Finset.sum_congr rfl fun t ht => h t (Finset.mem_range.1 ht)

/-- The conditional accumulator after `n` points depends only on the contributions of the points
below `n`. -/
theorem accIf_congr (p : ℕ → Prop) [DecidablePred p] {h h' : ℕ → M} {n : ℕ}
    (hh : ∀ t, t < n → h t = h' t) : accIf p h n = accIf p h' n := by
  rw [accIf_eq_acc, accIf_eq_acc]
  exact acc_congr fun t ht => by beta_reduce; rw [hh t ht]

/-- **`x1K = x1R`**, data indexed by `Fin 8192`. -/
theorem x1K_eq_x1R_fin {ι κ : Type*} (S : Fin 8192 → ι → EReal) (X : Fin 8192 → κ → EReal)
    (a : ι) (d : κ) :
    ∑ i : Fin 8, ∑ r : Fin 1024,
        S ⟨1024 * i.1 + r.1, by omega⟩ a * X ⟨1024 * i.1 + r.1, by omega⟩ d
      = ∑ k : Fin 8192, S k a * X k d :=
  sum_8_1024 fun k => S k a * X k d

/-- **`adj` over a commutative semiring**, data indexed by `Fin (n * m)` and `Fin (p * q)`: the law
`adj_tiles` with the same proof. -/
theorem adj_tiles_fin {R : Type*} [CommSemiring R] (n m p q : ℕ) (u : Fin (n * m) → R)
    (v : Fin (p * q) → R) (α : Fin (n * m) → Fin (p * q) → R) :
    ∑ i : Fin n, ∑ j : Fin p, ∑ c : Fin q,
        (∑ r : Fin m, u (tile i r) * α (tile i r) (tile j c)) * v (tile j c)
      = ∑ c : Fin (p * q), (∑ r : Fin (n * m), u r * α r c) * v c :=
  calc ∑ i : Fin n, ∑ j : Fin p, ∑ c : Fin q,
        (∑ r : Fin m, u (tile i r) * α (tile i r) (tile j c)) * v (tile j c)
      = ∑ i : Fin n, ∑ c : Fin (p * q), (∑ r : Fin m, u (tile i r) * α (tile i r) c) * v c :=
        Finset.sum_congr rfl fun i _ =>
          sum_tile p q fun c => (∑ r : Fin m, u (tile i r) * α (tile i r) c) * v c
    _ = ∑ c : Fin (p * q), ∑ i : Fin n, ∑ r : Fin m, u (tile i r) * α (tile i r) c * v c := by
        rw [Finset.sum_comm]; simp only [Finset.sum_mul]
    _ = ∑ c : Fin (p * q), ∑ r : Fin (n * m), u r * α r c * v c :=
        Finset.sum_congr rfl fun c _ => sum_tile n m fun r => u r * α r c * v c
    _ = ∑ c : Fin (p * q), (∑ r : Fin (n * m), u r * α r c) * v c := by
        simp only [Finset.sum_mul]

/-- `adj_tiles_fin` in the extended reals for coercions of real-valued data. -/
theorem adj_tiles_fin_coe (n m p q : ℕ) (u : Fin (n * m) → ℝ) (v : Fin (p * q) → ℝ)
    (α : Fin (n * m) → Fin (p * q) → ℝ) :
    ∑ i : Fin n, ∑ j : Fin p, ∑ c : Fin q,
        (∑ r : Fin m, (u (tile i r) : EReal) * (α (tile i r) (tile j c) : EReal))
          * (v (tile j c) : EReal)
      = ∑ c : Fin (p * q), (∑ r : Fin (n * m), (u r : EReal) * (α r c : EReal)) * (v c : EReal) := by
  have h := congrArg Real.toEReal (adj_tiles_fin n m p q u v α)
  simpa only [coe_sum, EReal.coe_mul] using h

/-- **`adjK = adjR`**, data indexed by `Fin 8192`, every entry of `S` and `A` a real number. -/
theorem adjK_eq_adjR_fin {ι : Type*} (S : Fin 8192 → ι → EReal) (A : Fin 8192 → Fin 8192 → EReal)
    (hS : ∀ k a, IsReal (S k a)) (hA : ∀ k l, IsReal (A k l)) (a b : ι) :
    ∑ i : Fin 8, ∑ j : Fin 4, ∑ c : Fin 2048,
        (∑ r : Fin 1024, S ⟨1024 * i.1 + r.1, by omega⟩ a
            * A ⟨1024 * i.1 + r.1, by omega⟩ ⟨2048 * j.1 + c.1, by omega⟩)
          * S ⟨2048 * j.1 + c.1, by omega⟩ b
      = ∑ c : Fin 8192, (∑ r : Fin 8192, S r a * A r c) * S c b := by
  have hS' : ∀ k a, ∃ x : ℝ, S k a = (x : EReal) := hS
  have hA' : ∀ k l, ∃ x : ℝ, A k l = (x : EReal) := hA
  choose s hs using hS'
  choose α hα using hA'
  simp only [hs, hα]
  exact adj_tiles_fin_coe 8 1024 4 2048 (fun k => s k a) (fun k => s k b) α

/-- Over an `n × m` grid, if point `m*i + j` adds `G i j`, the accumulator ends with
`Σ_{i<n} Σ_{j<m} G i j`. -/
theorem acc_grid_of_eq (n m : ℕ) (g : ℕ → M) (G : Fin n → Fin m → M)
    (hg : ∀ (i : Fin n) (j : Fin m), g (m * i.1 + j.1) = G i j) :
    acc g (n * m) = ∑ i : Fin n, ∑ j : Fin m, G i j := by
  rw [acc_grid]
  exact Finset.sum_congr rfl fun i _ => Finset.sum_congr rfl fun j _ => hg i j

/-- Over an `n × m` grid with `0 < m`, if only the first point of each row adds and point `m*i`
adds `H i`, the accumulator ends with `Σ_{i<n} H i`. -/
theorem accIf_mod_grid_of_eq (n m : ℕ) (hm : 0 < m) (h : ℕ → M) (H : Fin n → M)
    (hh : ∀ i : Fin n, h (m * i.1) = H i) :
    accIf (fun t => t % m = 0) h (n * m) = ∑ i : Fin n, H i := by
  rw [accIf_mod_grid h n m hm]
  exact Finset.sum_congr rfl fun i _ => hh i

end Cert.TileSum
-- ==== Proof.KLin0V.lean ====
/-
  A linear launch read as functions of whole arrays, at the ideal instance. A block's entry (p, q) is row p of the
  aggregated block times column q of one weight matrix, plus row p of the feature block times column q of the other, plus
  the bias of column q; block t holds rows 2000·t … 2000·t + 1999, so the 50 blocks are the restrictions of ONE function of
  the five arrays and tile the [100000, 64] output. The two carried rows start at zero and each point adds its block's
  column sums (of the entries, of their squares); after the last point they hold, column by column, the sums over
  50 blocks of 2000 rows, which regrouped are the sums over all 100000 rows — addition of extended reals is
  commutative and associative, so no finiteness is used here.
-/
import proofs.«115009_j15960098472830_1_alg».proof.Proof.KLin0
import proofs.«115009_j15960098472830_1_alg».proof.Proof.KSpecLin
import proofs.«115009_j15960098472830_1_alg».proof.Proof.LibTileSum
import Idealize.ShloMosaic.Lib.Pipeline.Value
import Idealize.ShloMosaic.Lib.ValueLayout
import Idealize.ShloMosaic.PureOps.Ideal.Laws

noncomputable section

namespace Cert.KernelIdeal.KLin0V

open Cert.KernelIdeal Cert.KernelIdeal.Gen Cert.KernelIdeal.KLin0 Cert.KernelIdeal.KSpecLin Cert.TileSum
open Idealize.ShloMosaic Idealize.ShloMosaic.TcCoe Idealize.SL.Sem Idealize.ShloMosaic.ValueIdx
open Idealize.ShloMosaic.Pipeline (Dat)
open scoped BigOperators

/-! ## The body's arithmetic at an entry -/

/-- A row block times a weight matrix into a zero accumulator, read at row `a`, column `b`: the sum over the contracted
    coordinate of the products of the entries. -/
theorem mm_apply (A : FVec Ideal S2000x6 .bf16) (B : FVec Ideal S6x64 .bf16) (a : Fin 2000) (b : Fin 64) :
    Idealize.ShloMosaic.matmul dot_S2000x6_S6x64_S2000x64_1_0_0_1_n_n none A B (constant (F := Ideal) S2000x64 .f32 0x00000000#32) (ix2 a b)
      = ∑ c : Fin 6, A (ix2 a c) * B (ix2 c b) := by
  show FloatOps.matmul dot_S2000x6_S6x64_S2000x64_1_0_0_1_n_n none A B (constant (F := Ideal) S2000x64 .f32 0x00000000#32) (ix2 a b) = _
  rw [Ideal.matmul_constant_zero_apply, ← Equiv.sum_comp (contrEquiv1 dot_S2000x6_S6x64_S2000x64_1_0_0_1_n_n 6 rfl rfl).symm]
  refine Finset.sum_congr rfl fun c _ => ?_
  have cv := contrEquiv1_symm_val dot_S2000x6_S6x64_S2000x64_1_0_0_1_n_n 6 rfl rfl c
  have hl : (dot_S2000x6_S6x64_S2000x64_1_0_0_1_n_n).lhsIdx (ix2 a b) ((contrEquiv1 dot_S2000x6_S6x64_S2000x64_1_0_0_1_n_n 6 rfl rfl).symm c) = ix2 a c := by
    funext ax; apply Fin.ext
    match ax with
    | ⟨0, _⟩ => simp [DotDims.lhsIdx, dot_S2000x6_S6x64_S2000x64_1_0_0_1_n_n] <;> rfl
    | ⟨1, _⟩ => simp [DotDims.lhsIdx, dot_S2000x6_S6x64_S2000x64_1_0_0_1_n_n] <;> exact cv
  have hr : (dot_S2000x6_S6x64_S2000x64_1_0_0_1_n_n).rhsIdx (ix2 a b) ((contrEquiv1 dot_S2000x6_S6x64_S2000x64_1_0_0_1_n_n 6 rfl rfl).symm c) = ix2 c b := by
    funext ax; apply Fin.ext
    match ax with
    | ⟨0, _⟩ => simp [DotDims.rhsIdx, dot_S2000x6_S6x64_S2000x64_1_0_0_1_n_n] <;> exact cv
    | ⟨1, _⟩ => simp [DotDims.rhsIdx, dot_S2000x6_S6x64_S2000x64_1_0_0_1_n_n] <;> rfl
  rw [hl, hr]

/-- The linear block at (p, q): the two products read as sums over their contracted coordinate, the changes of format
    the identity, the bias row broadcast over the rows read at row 0. -/
theorem lin_apply (x0 x1 : Vec Ideal S2000x6 .f32) (x2 x3 : Vec Ideal S6x64 .f32) (x4 : Vec Ideal S1x64 .f32) (p : Fin 2000) (q : Fin 64) :
    linPay x0 x1 x2 x3 x4 (ix2 p q)
      = (∑ c : Fin 6, x0 (ix2 p c) * x2 (ix2 c q)) + (∑ c : Fin 6, x1 (ix2 p c) * x3 (ix2 c q))
        + x4 (ix2 (0 : Fin 1) q) := by
  dsimp only [linPay]
  unfold Gen.k0_pay1
  simp only [shapeCast_self, addf_apply, broadcastTo_1b_ab_apply, mm_apply, truncf_apply]

/-- A sum over the 2000 rows of a block, column by column. -/
theorem colsum_apply (src : FVec Ideal S2000x64 .f32) (hφ : FKind.Formats .f32)
    (hacc : (0x00000000#32 : BitVec FTy.f32.bits) = FKind.add.neutral .f32 hφ) (q : Fin 64) :
    multiReduction .add [0] S64 src 0x00000000#32 reduces_S2000x64_S64 hφ hacc (ix1 q)
      = ∑ p : Fin 2000, src (ix2 p q) := by
  refine (Ideal.multiReduction_add_single src 0x00000000#32 reduces_S2000x64_S64 hφ hacc (ix1 q)).trans ?_
  exact Finset.sum_congr rfl fun k _ => congrArg src (by funext c; apply Fin.ext; fin_cases c <;> rfl)

/-- One step of the row of column sums, at column q. -/
theorem sum_apply (x0 x1 : Vec Ideal S2000x6 .f32) (x2 x3 : Vec Ideal S6x64 .f32) (x4 : Vec Ideal S1x64 .f32) (acc : Vec Ideal S1x64 .f32) (q : Fin 64) :
    sumPay x0 x1 x2 x3 x4 acc (ix2 (0 : Fin 1) q)
      = acc (ix2 (0 : Fin 1) q) + ∑ p : Fin 2000, linPay x0 x1 x2 x3 x4 (ix2 p q) := by
  dsimp only [sumPay, linPay]
  unfold Gen.k0_pay4
  simp only [shapeCast_self, addf_apply, shapeCast_a_1a_apply]
  exact congrArg (acc (ix2 (0 : Fin 1) q) + ·) (colsum_apply _ _ _ q)

/-- One step of the row of column sums of squares, at column q. -/
theorem sq_apply (x0 x1 : Vec Ideal S2000x6 .f32) (x2 x3 : Vec Ideal S6x64 .f32) (x4 : Vec Ideal S1x64 .f32) (acc : Vec Ideal S1x64 .f32) (q : Fin 64) :
    sqPay x0 x1 x2 x3 x4 acc (ix2 (0 : Fin 1) q)
      = acc (ix2 (0 : Fin 1) q) + ∑ p : Fin 2000, linPay x0 x1 x2 x3 x4 (ix2 p q) * linPay x0 x1 x2 x3 x4 (ix2 p q) := by
  dsimp only [sqPay, linPay]
  unfold Gen.k0_pay5
  simp only [shapeCast_self, addf_apply, shapeCast_a_1a_apply]
  refine (congrArg (acc (ix2 (0 : Fin 1) q) + ·) (colsum_apply _ _ _ q)).trans ?_
  simp only [mulf_apply]

theorem zeroSum_apply (q : Fin 64) : zeroSum (F := Ideal) (ix2 (0 : Fin 1) q) = 0 := by
  dsimp only [zeroSum]
  unfold Gen.k0_pay2
  simp only [broadcast_apply]
  exact Ideal.ofBits_zero_f32

theorem zeroSq_apply (q : Fin 64) : zeroSq (F := Ideal) (ix2 (0 : Fin 1) q) = 0 := by
  dsimp only [zeroSq]
  unfold Gen.k0_pay3
  simp only [broadcast_apply]
  exact Ideal.ofBits_zero_f32

/-! ## The blocks of a point -/

variable (V : (c : Dev nD) → (b : Ref sig .tc) → Buf (Elt Ideal) ((c : Thread nD τ).loc b))

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)

/-- The row of the [100000, ·] arrays that row `p` of block `t` is. -/
def rowOf (t : Fin cfg0.N) (p : Fin 2000) : Fin 100000 :=
  ⟨2000 * t.val + p.val, by have := t.isLt; have hN : cfg0.N = 50 := N_0; have := p.isLt; omega⟩

theorem iblk_0 (c : Dev nD) (t : Fin cfg0.N) (p : Fin 2000) (k : Fin 6) :
    iblk0 V c 0 t (ix2 p k) = V c (Pipeline.arrRef spec0 0) (ix2 (rowOf t p) k) := by
  obtain ⟨e0, e1⟩ := idx_0 t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = 2000 * t.val + p.val; omega
  | ⟨1, _⟩ => show win0_0.index t (1 : Fin 2) * 6 + 1 * k.val = k.val; omega

theorem iblk_1 (c : Dev nD) (t : Fin cfg0.N) (p : Fin 2000) (k : Fin 6) :
    iblk0 V c 1 t (ix2 p k) = V c (Pipeline.arrRef spec0 1) (ix2 (rowOf t p) k) := by
  obtain ⟨e0, e1⟩ := idx_1 t
  show V c (Pipeline.arrRef spec0 1) (((cfg0.win 1).blk t).view.emb (ix2 p k)) = _
  refine congrArg (V c (Pipeline.arrRef spec0 1)) (funext fun a => Fin.ext ?_)
  match a with
  | ⟨0, _⟩ => show win0_1.index t (0 : Fin 2) * 2000 + 1 * p.val = 2000 * t.val + p.val; omega
  | ⟨1, _⟩ => show win0_1.index t (1 : Fin 2) * 6 + 1 * k.val = k.val; omega

theorem iblk_2 (c : Dev nD) (t : Fin cfg0.N) (k : S6x64.Idx) :
    iblk0 V c 2 t k = V c (Pipeline.arrRef spec0 2) k := by
  obtain ⟨e0, e1⟩ := idx_2 t
  show V c (Pipeline.arrRef spec0 2) (((cfg0.win 2).blk t).view.emb k) = _
  refine congrArg (V c (Pipeline.arrRef spec0 2)) (funext fun a => Fin.ext ?_)
  match a with
  | ⟨0, _⟩ => show win0_2.index t (0 : Fin 2) * 6 + 1 * (k 0).val = (k 0).val; omega
  | ⟨1, _⟩ => show win0_2.index t (1 : Fin 2) * 64 + 1 * (k 1).val = (k 1).val; omega

theorem iblk_3 (c : Dev nD) (t : Fin cfg0.N) (k : S6x64.Idx) :
    iblk0 V c 3 t k = V c (Pipeline.arrRef spec0 3) k := by
  obtain ⟨e0, e1⟩ := idx_3 t
  show V c (Pipeline.arrRef spec0 3) (((cfg0.win 3).blk t).view.emb k) = _
  refine congrArg (V c (Pipeline.arrRef spec0 3)) (funext fun a => Fin.ext ?_)
  match a with
  | ⟨0, _⟩ => show win0_3.index t (0 : Fin 2) * 6 + 1 * (k 0).val = (k 0).val; omega
  | ⟨1, _⟩ => show win0_3.index t (1 : Fin 2) * 64 + 1 * (k 1).val = (k 1).val; omega

theorem iblk_4 (c : Dev nD) (t : Fin cfg0.N) (k : S1x64.Idx) :
    iblk0 V c 4 t k = V c (Pipeline.arrRef spec0 4) k := by
  obtain ⟨e0, e1⟩ := idx_4 t
  show V c (Pipeline.arrRef spec0 4) (((cfg0.win 4).blk t).view.emb k) = _
  refine congrArg (V c (Pipeline.arrRef spec0 4)) (funext fun a => Fin.ext ?_)
  match a with
  | ⟨0, _⟩ => show win0_4.index t (0 : Fin 2) * 1 + 1 * (k 0).val = (k 0).val; omega
  | ⟨1, _⟩ => show win0_4.index t (1 : Fin 2) * 64 + 1 * (k 1).val = (k 1).val; omega

/-- The linear block of point `t` at (p, q) is the whole-array linear function at row 2000·t + p, column q. -/
theorem linBlk_apply (c : Dev nD) (t : Fin cfg0.N) (p : Fin 2000) (q : Fin 64) :
    linBlk V c t (ix2 p q) = lin64At (V c (Pipeline.arrRef spec0 0)) (V c (Pipeline.arrRef spec0 1)) (V c (Pipeline.arrRef spec0 2)) (V c (Pipeline.arrRef spec0 3)) (V c (Pipeline.arrRef spec0 4)) (rowOf t p) q := by
  show linPay _ _ _ _ _ (ix2 p q) = _
  rw [lin_apply]
  simp only [iblk_0, iblk_1, iblk_2, iblk_3, iblk_4]
  rfl

/-! ## The linear array -/

theorem emb5 (t : Fin cfg0.N) (p : Fin 2000) (q : Fin 64) :
    ((cfg0.win 5).blk t).view.emb (ix2 p q) = ix2 (rowOf t p) q := by
  obtain ⟨e0, e1⟩ := idx_5 t
  funext a; apply Fin.ext
  match a with
  | ⟨0, _⟩ => show win0_5.index t (0 : Fin 2) * 2000 + 1 * p.val = 2000 * t.val + p.val; omega
  | ⟨1, _⟩ => show win0_5.index t (1 : Fin 2) * 64 + 1 * q.val = q.val; omega

theorem cut_apply5 (t : Fin cfg0.N) (X : S2000x64.Idx → EReal) (y : S2000x64.Idx) :
    (cfg0.win 5).cut (grid0.coords t) X y = X y := rfl
theorem read_blk5 (t : Fin cfg0.N) (G : S100000x64.Idx → EReal) (y : S2000x64.Idx) :
    ((cfg0.win 5).blk t).view.read (Elt Ideal) G y = G (((cfg0.win 5).blk t).view.emb y) := rfl

/-- What point `t` writes back is block `t` of the whole-array linear function of the five arrays as the launch finds them. -/
theorem flushed5_eq (c : Dev nD) (t : Fin cfg0.N) :
    (dat0 V c).flushed 5 t = ((cfg0.win 5).blk t).view.read (Elt Ideal) (lin64 (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5, outsAt_eq]
  funext y
  obtain ⟨p, q, rfl⟩ : ∃ (p : Fin 2000) (q : Fin 64), y = ix2 p q := ⟨y 0, y 1, eq_ix2 y⟩
  rw [cut_apply5, read_blk5, emb5]
  exact linBlk_apply V c t p q

theorem mem_blk5 (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v15_0).slice (win0_5.rect t)).set ↔ _
  rw [View.set_slice_whole, Rect.mem_set_unit]
  exact Iff.rfl

theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 2000 < cfg0.N := by
    show (i 0).val / 2000 < grid0.N
    rw [N_0]; omega
  obtain ⟨e0, e1⟩ := idx_5 ⟨(i 0).val / 2000, hlt⟩
  have e0' : win0_5.index ⟨(i 0).val / 2000, hlt⟩ (0 : Fin 2) = (i 0).val / 2000 := e0
  refine ⟨⟨(i 0).val / 2000, hlt⟩, flush0_5 _, ?_⟩
  rw [mem_blk5]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e0']; omega
  | ⟨1, _⟩ =>
    show win0_5.index ⟨(i 0).val / 2000, hlt⟩ (1 : Fin 2) * 64 ≤ (i 1).val
      ∧ (i 1).val < win0_5.index ⟨(i 0).val / 2000, hlt⟩ (1 : Fin 2) * 64 + 64
    rw [e1]; omega

/-- THE LINEAR ARRAY after the launch is the whole-array linear function of the five arrays the launch found. -/
theorem final5 (c : Dev nD) : (dat0 V c).arrAt 5 cfg0.N = lin64 (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed5_eq V c t) cover5

/-! ## The two carried rows -/

theorem h49 : 49 < cfg0.N := by rw [show cfg0.N = 50 from N_0]; decide
abbrev t49 : Fin cfg0.N := ⟨49, h49⟩

theorem cut_apply6 (t : Fin cfg0.N) (X : S1x64.Idx → EReal) (y : S1x64.Idx) :
    (cfg0.win 6).cut (grid0.coords t) X y = X y := rfl
theorem read_blk6 (t : Fin cfg0.N) (G : S1x64.Idx → EReal) (y : S1x64.Idx) :
    ((cfg0.win 6).blk t).view.read (Elt Ideal) G y = G (((cfg0.win 6).blk t).view.emb y) := rfl

/-- The last point's write-back of the carried row writes the running row after the last point. -/
theorem flushed6_eq (c : Dev nD) (t : Fin cfg0.N) (hf : (cfg0.win 6).flush t = true) :
    (dat0 V c).flushed 6 t = ((cfg0.win 6).blk t).view.read (Elt Ideal) (accSum V c 49 h49) := by
  have hN : cfg0.N = 50 := N_0
  have h : t.val = 49 := by have := (flush0_6 t).mp hf; have := t.isLt; omega
  obtain rfl : t = t49 := Fin.ext h
  show (cfg0.win 6).cut (grid0.coords t49) ((dat0 V c).after 6 t49) = _
  rw [after0_6, outsAt_eq]
  funext y
  rw [cut_apply6, read_blk6]
  obtain ⟨e0, e1⟩ := idx_6 t49
  refine congrArg (accSum V c 49 h49) (funext fun a => Fin.ext ?_)
  match a with
  | ⟨0, _⟩ => show (y 0).val = win0_6.index t49 (0 : Fin 2) * 1 + 1 * (y 0).val; omega
  | ⟨1, _⟩ => show (y 1).val = win0_6.index t49 (1 : Fin 2) * 64 + 1 * (y 1).val; omega

theorem mem_blk6 (t : Fin cfg0.N) (i : S1x64.Idx) :
    i ∈ ((cfg0.win 6).blk t).view.set ↔ ∀ a : Fin 2, win0_6.index t a * S1x64.size a ≤ (i a).val
      ∧ (i a).val < win0_6.index t a * S1x64.size a + S1x64.size a := by
  show i ∈ ((View.whole main_v15_1).slice (win0_6.rect t)).set ↔ _
  rw [View.set_slice_whole, Rect.mem_set_unit]
  exact Iff.rfl

/-- The carried row's array after the launch is the running row after the last point. -/
theorem final6_acc (c : Dev nD) : (dat0 V c).arrAt 6 cfg0.N = accSum V c 49 h49 :=
  (dat0 V c).arrAt_eq_of_cover 6 _ (flushed6_eq V c) fun i => ⟨t49, (flush0_6 t49).mpr rfl, by
    rw [mem_blk6]
    obtain ⟨e0, e1⟩ := idx_6 t49
    have h0 : (i 0).val < 1 := (i 0).isLt
    have h1 : (i 1).val < 64 := (i 1).isLt
    intro a
    match a with
    | ⟨0, _⟩ => show win0_6.index t49 (0 : Fin 2) * 1 ≤ (i 0).val ∧ (i 0).val < win0_6.index t49 (0 : Fin 2) * 1 + 1; omega
    | ⟨1, _⟩ => show win0_6.index t49 (1 : Fin 2) * 64 ≤ (i 1).val ∧ (i 1).val < win0_6.index t49 (1 : Fin 2) * 64 + 64; omega⟩

theorem cut_apply7 (t : Fin cfg0.N) (X : S1x64.Idx → EReal) (y : S1x64.Idx) :
    (cfg0.win 7).cut (grid0.coords t) X y = X y := rfl
theorem read_blk7 (t : Fin cfg0.N) (G : S1x64.Idx → EReal) (y : S1x64.Idx) :
    ((cfg0.win 7).blk t).view.read (Elt Ideal) G y = G (((cfg0.win 7).blk t).view.emb y) := rfl

/-- The last point's write-back of the carried row writes the running row after the last point. -/
theorem flushed7_eq (c : Dev nD) (t : Fin cfg0.N) (hf : (cfg0.win 7).flush t = true) :
    (dat0 V c).flushed 7 t = ((cfg0.win 7).blk t).view.read (Elt Ideal) (accSq V c 49 h49) := by
  have hN : cfg0.N = 50 := N_0
  have h : t.val = 49 := by have := (flush0_7 t).mp hf; have := t.isLt; omega
  obtain rfl : t = t49 := Fin.ext h
  show (cfg0.win 7).cut (grid0.coords t49) ((dat0 V c).after 7 t49) = _
  rw [after0_7, outsAt_eq]
  funext y
  rw [cut_apply7, read_blk7]
  obtain ⟨e0, e1⟩ := idx_7 t49
  refine congrArg (accSq V c 49 h49) (funext fun a => Fin.ext ?_)
  match a with
  | ⟨0, _⟩ => show (y 0).val = win0_7.index t49 (0 : Fin 2) * 1 + 1 * (y 0).val; omega
  | ⟨1, _⟩ => show (y 1).val = win0_7.index t49 (1 : Fin 2) * 64 + 1 * (y 1).val; omega

theorem mem_blk7 (t : Fin cfg0.N) (i : S1x64.Idx) :
    i ∈ ((cfg0.win 7).blk t).view.set ↔ ∀ a : Fin 2, win0_7.index t a * S1x64.size a ≤ (i a).val
      ∧ (i a).val < win0_7.index t a * S1x64.size a + S1x64.size a := by
  show i ∈ ((View.whole main_v15_2).slice (win0_7.rect t)).set ↔ _
  rw [View.set_slice_whole, Rect.mem_set_unit]
  exact Iff.rfl

/-- The carried row's array after the launch is the running row after the last point. -/
theorem final7_acc (c : Dev nD) : (dat0 V c).arrAt 7 cfg0.N = accSq V c 49 h49 :=
  (dat0 V c).arrAt_eq_of_cover 7 _ (flushed7_eq V c) fun i => ⟨t49, (flush0_7 t49).mpr rfl, by
    rw [mem_blk7]
    obtain ⟨e0, e1⟩ := idx_7 t49
    have h0 : (i 0).val < 1 := (i 0).isLt
    have h1 : (i 1).val < 64 := (i 1).isLt
    intro a
    match a with
    | ⟨0, _⟩ => show win0_7.index t49 (0 : Fin 2) * 1 ≤ (i 0).val ∧ (i 0).val < win0_7.index t49 (0 : Fin 2) * 1 + 1; omega
    | ⟨1, _⟩ => show win0_7.index t49 (1 : Fin 2) * 64 ≤ (i 1).val ∧ (i 1).val < win0_7.index t49 (1 : Fin 2) * 64 + 64; omega⟩

/-! ## The carried rows are the column sums over all rows -/

/-- Block `t`'s contribution to column `q`'s running sum. -/
def blkSum (c : Dev nD) (q : Fin 64) (t : ℕ) : EReal :=
  if h : t < cfg0.N then ∑ p : Fin 2000, linBlk V c ⟨t, h⟩ (ix2 p q) else 0

/-- Column `q` of the carried row after `n` points (zero before the first). -/
def seqSum (c : Dev nD) (q : Fin 64) : ℕ → EReal
  | 0 => 0
  | n + 1 => if h : n < cfg0.N then accSum V c n h (ix2 (0 : Fin 1) q) else 0

theorem seqSum_eq_acc (c : Dev nD) (q : Fin 64) : ∀ n, n ≤ cfg0.N → seqSum V c q n = acc (blkSum V c q) n :=
  eq_acc_of_step cfg0.N _ _ rfl fun t ht => by
    show (if h : t < cfg0.N then accSum V c t h (ix2 (0 : Fin 1) q) else 0) = seqSum V c q t + blkSum V c q t
    rw [dif_pos ht]
    unfold blkSum
    rw [dif_pos ht]
    cases t with
    | zero =>
      rw [accSum_zero, sum_apply, zeroSum_apply]
      all_goals rfl
    | succ n =>
      have hn : n < cfg0.N := Nat.lt_of_succ_lt ht
      show _ = (if h : n < cfg0.N then accSum V c n h (ix2 (0 : Fin 1) q) else 0) + _
      rw [dif_pos hn, accSum_succ, sum_apply]
      all_goals rfl

/-- After the last point, column `q` of the carried row is the column's sum over all 100000 rows of the linear array. -/
theorem accSum_last (c : Dev nD) (q : Fin 64) :
    accSum V c 49 h49 (ix2 (0 : Fin 1) q)
      = ∑ r : Fin 100000, lin64At (V c (Pipeline.arrRef spec0 0)) (V c (Pipeline.arrRef spec0 1)) (V c (Pipeline.arrRef spec0 2)) (V c (Pipeline.arrRef spec0 3)) (V c (Pipeline.arrRef spec0 4)) r q := by
  have hN : cfg0.N = 50 := N_0
  have h1 := seqSum_eq_acc V c q 50 (by omega)
  have h2 : seqSum V c q 50 = accSum V c 49 h49 (ix2 (0 : Fin 1) q) := by
    show (if h : 49 < cfg0.N then accSum V c 49 h (ix2 (0 : Fin 1) q) else 0) = _
    rw [dif_pos h49]
  rw [← h2, h1, acc_eq_sum]
  have key := sum_tile 50 2000 (fun r : Fin 100000 => lin64At (V c (Pipeline.arrRef spec0 0)) (V c (Pipeline.arrRef spec0 1)) (V c (Pipeline.arrRef spec0 2)) (V c (Pipeline.arrRef spec0 3)) (V c (Pipeline.arrRef spec0 4)) r q)
  refine Eq.trans ?_ key
  refine Finset.sum_congr rfl fun t _ => ?_
  have ht : t.val < cfg0.N := by have := t.isLt; omega
  unfold blkSum
  rw [dif_pos ht]
  refine Finset.sum_congr rfl fun p _ => ?_
  rw [linBlk_apply]
  rfl

/-- Block `t`'s contribution to column `q`'s running sum of squares. -/
def blkSq (c : Dev nD) (q : Fin 64) (t : ℕ) : EReal :=
  if h : t < cfg0.N then ∑ p : Fin 2000, linBlk V c ⟨t, h⟩ (ix2 p q) * linBlk V c ⟨t, h⟩ (ix2 p q) else 0

/-- Column `q` of the carried row after `n` points (zero before the first). -/
def seqSq (c : Dev nD) (q : Fin 64) : ℕ → EReal
  | 0 => 0
  | n + 1 => if h : n < cfg0.N then accSq V c n h (ix2 (0 : Fin 1) q) else 0

theorem seqSq_eq_acc (c : Dev nD) (q : Fin 64) : ∀ n, n ≤ cfg0.N → seqSq V c q n = acc (blkSq V c q) n :=
  eq_acc_of_step cfg0.N _ _ rfl fun t ht => by
    show (if h : t < cfg0.N then accSq V c t h (ix2 (0 : Fin 1) q) else 0) = seqSq V c q t + blkSq V c q t
    rw [dif_pos ht]
    unfold blkSq
    rw [dif_pos ht]
    cases t with
    | zero =>
      rw [accSq_zero, sq_apply, zeroSq_apply]
      all_goals rfl
    | succ n =>
      have hn : n < cfg0.N := Nat.lt_of_succ_lt ht
      show _ = (if h : n < cfg0.N then accSq V c n h (ix2 (0 : Fin 1) q) else 0) + _
      rw [dif_pos hn, accSq_succ, sq_apply]
      all_goals rfl

/-- After the last point, column `q` of the carried row is the column's sum of squares over all 100000 rows of the linear array. -/
theorem accSq_last (c : Dev nD) (q : Fin 64) :
    accSq V c 49 h49 (ix2 (0 : Fin 1) q)
      = ∑ r : Fin 100000, lin64At (V c (Pipeline.arrRef spec0 0)) (V c (Pipeline.arrRef spec0 1)) (V c (Pipeline.arrRef spec0 2)) (V c (Pipeline.arrRef spec0 3)) (V c (Pipeline.arrRef spec0 4)) r q * lin64At (V c (Pipeline.arrRef spec0 0)) (V c (Pipeline.arrRef spec0 1)) (V c (Pipeline.arrRef spec0 2)) (V c (Pipeline.arrRef spec0 3)) (V c (Pipeline.arrRef spec0 4)) r q := by
  have hN : cfg0.N = 50 := N_0
  have h1 := seqSq_eq_acc V c q 50 (by omega)
  have h2 : seqSq V c q 50 = accSq V c 49 h49 (ix2 (0 : Fin 1) q) := by
    show (if h : 49 < cfg0.N then accSq V c 49 h (ix2 (0 : Fin 1) q) else 0) = _
    rw [dif_pos h49]
  rw [← h2, h1, acc_eq_sum]
  have key := sum_tile 50 2000 (fun r : Fin 100000 => lin64At (V c (Pipeline.arrRef spec0 0)) (V c (Pipeline.arrRef spec0 1)) (V c (Pipeline.arrRef spec0 2)) (V c (Pipeline.arrRef spec0 3)) (V c (Pipeline.arrRef spec0 4)) r q * lin64At (V c (Pipeline.arrRef spec0 0)) (V c (Pipeline.arrRef spec0 1)) (V c (Pipeline.arrRef spec0 2)) (V c (Pipeline.arrRef spec0 3)) (V c (Pipeline.arrRef spec0 4)) r q)
  refine Eq.trans ?_ key
  refine Finset.sum_congr rfl fun t _ => ?_
  have ht : t.val < cfg0.N := by have := t.isLt; omega
  unfold blkSq
  rw [dif_pos ht]
  refine Finset.sum_congr rfl fun p _ => ?_
  rw [linBlk_apply]
  rfl

/-- THE ROW OF COLUMN SUMS after the launch. -/
theorem final6 (c : Dev nD) : (dat0 V c).arrAt 6 cfg0.N = colSum64 (lin64 (V c (Pipeline.arrRef spec0 0)) (V c (Pipeline.arrRef spec0 1)) (V c (Pipeline.arrRef spec0 2)) (V c (Pipeline.arrRef spec0 3)) (V c (Pipeline.arrRef spec0 4))) := by
  rw [final6_acc]
  funext k
  obtain ⟨u, q, rfl⟩ : ∃ (u : Fin 1) (q : Fin 64), k = ix2 u q := ⟨k 0, k 1, eq_ix2 k⟩
  obtain rfl : u = 0 := Subsingleton.elim _ _
  rw [accSum_last]
  rfl

/-- THE ROW OF COLUMN SUMS OF SQUARES after the launch. -/
theorem final7 (c : Dev nD) : (dat0 V c).arrAt 7 cfg0.N = colSq64 (lin64 (V c (Pipeline.arrRef spec0 0)) (V c (Pipeline.arrRef spec0 1)) (V c (Pipeline.arrRef spec0 2)) (V c (Pipeline.arrRef spec0 3)) (V c (Pipeline.arrRef spec0 4))) := by
  rw [final7_acc]
  funext k
  obtain ⟨u, q, rfl⟩ : ∃ (u : Fin 1) (q : Fin 64), k = ix2 u q := ⟨k 0, k 1, eq_ix2 k⟩
  obtain rfl : u = 0 := Subsingleton.elim _ _
  rw [accSq_last]
  rfl

end Cert.KernelIdeal.KLin0V

end
-- ==== Proof.KLin2.lean ====
/-
  A linear launch of the kernel program (a row block of the aggregated features times one weight matrix, plus the same
  row block of the features times the other, plus the bias row; and, carried from grid point to grid point, the column
  sums of that block and of its square), read as VALUES: what each of the two control cases leaves in the three output
  buffers is the body's arithmetic on the point's input blocks — the linear block itself, and the running column sums
  "what the buffer held before, plus this block's column sums", the first point starting from the zero row it has just
  stored. By induction on the grid point the carried buffers are therefore the running sums of the blocks seen so far.
-/
import proofs.«115009_j15960098472830_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KLin2

open Cert.KernelIdeal Cert.KernelIdeal.Gen

variable {F : FTy → Type} [FloatOps F]

theorem hz : (![0, 0] : Fin 2 → Nat) = fun _ => 0 := funext fun a => by fin_cases a <;> rfl

/-! ## The five roles of the body's arithmetic -/

/-- The linear block of the five input blocks. -/
abbrev linPay (x0 x1 : Vec F S2000x64 .f32) (x2 x3 : Vec F S64x128 .f32) (x4 : Vec F S1x128 .f32) : FVec F S2000x128 .f32 := k2_pay2 x0 x1 x2 x3 x4
/-- The zero row the first point stores into the row of column sums. -/
abbrev zeroSum : FVec F S1x128 .f32 := k2_pay4 (F := F)
/-- The zero row the first point stores into the row of column sums of squares. -/
abbrev zeroSq : FVec F S1x128 .f32 := k2_pay5 (F := F)
/-- The row of column sums after a point: what it held, plus the linear block's column sums. -/
abbrev sumPay (x0 x1 : Vec F S2000x64 .f32) (x2 x3 : Vec F S64x128 .f32) (x4 : Vec F S1x128 .f32) (acc : Vec F S1x128 .f32) : FVec F S1x128 .f32 := k2_pay6 x0 x1 x2 x3 x4 acc
/-- The row of column sums of squares after a point: what it held, plus the column sums of the linear block's squares. -/
abbrev sqPay (x0 x1 : Vec F S2000x64 .f32) (x2 x3 : Vec F S64x128 .f32) (x4 : Vec F S1x128 .f32) (acc : Vec F S1x128 .f32) : FVec F S1x128 .f32 := k2_pay1 (k2_pay3 x0 x1 x2 x3 x4) (k2_pay7 acc)

/-! ## What each case leaves in each output buffer -/

/-- Later points: the linear block is the body's one covering store, a function of the five input blocks only. -/
theorem lin_B (c : Dev nD) (i : grid2.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S2000x64 .f32) (x2 x3 : Vec F S64x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = linPay x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x64) hz, View.ld_unit_zero (S := S64x128) hz, View.ld_unit_zero (S := S1x128) hz, View.ld_unit_zero (S := S2000x128) hz, linPay, sumPay, sqPay, zeroSum, zeroSq]

/-- First point: the same linear block. -/
theorem lin_A (c : Dev nD) (i : grid2.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S2000x64 .f32) (x2 x3 : Vec F S64x128 .f32) (x4 : Vec F S1x128 .f32) :
    out2_A_5 c i a1 h1 a2 h2 a3 h3 a4 h4 a5 h5 a6 h6 a7 h7 a8 h8 hc x0 x1 x2 x3 x4 = linPay x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x64) hz, View.ld_unit_zero (S := S64x128) hz, View.ld_unit_zero (S := S1x128) hz, View.ld_unit_zero (S := S2000x128) hz, linPay, sumPay, sqPay, zeroSum, zeroSq]

/-- Later points: the column-sum row becomes what it held plus this block's column sums. -/
theorem sum_B (c : Dev nD) (i : grid2.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S2000x64 .f32) (x2 x3 : Vec F S64x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = sumPay x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x64) hz, View.ld_unit_zero (S := S64x128) hz, View.ld_unit_zero (S := S1x128) hz, View.ld_unit_zero (S := S2000x128) hz, linPay, sumPay, sqPay, zeroSum, zeroSq]

/-- First point: the column-sum row is zeroed, read back, and this block's column sums added. -/
theorem sum_A (c : Dev nD) (i : grid2.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S2000x64 .f32) (x2 x3 : Vec F S64x128 .f32) (x4 : Vec F S1x128 .f32) :
    out2_A_6 c i a1 h1 a2 h2 a3 h3 a4 h4 a5 h5 a6 h6 a7 h7 a8 h8 hc x0 x1 x2 x3 x4 = sumPay x0 x1 x2 x3 x4 (zeroSum (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S2000x64) hz, View.ld_unit_zero (S := S64x128) hz, View.ld_unit_zero (S := S1x128) hz, View.ld_unit_zero (S := S2000x128) hz, linPay, sumPay, sqPay, zeroSum, zeroSq]

/-- Later points: the row of column sums of squares becomes what it held plus this block's. -/
theorem sq_B (c : Dev nD) (i : grid2.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S2000x64 .f32) (x2 x3 : Vec F S64x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = sqPay x0 x1 x2 x3 x4 xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x64) hz, View.ld_unit_zero (S := S64x128) hz, View.ld_unit_zero (S := S1x128) hz, View.ld_unit_zero (S := S2000x128) hz, linPay, sumPay, sqPay, zeroSum, zeroSq]

/-- First point: the row of column sums of squares is zeroed, read back, and this block's added. -/
theorem sq_A (c : Dev nD) (i : grid2.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S2000x64 .f32) (x2 x3 : Vec F S64x128 .f32) (x4 : Vec F S1x128 .f32) :
    out2_A_7 c i a1 h1 a2 h2 a3 h3 a4 h4 a5 h5 a6 h6 a7 h7 a8 h8 hc x0 x1 x2 x3 x4 = sqPay x0 x1 x2 x3 x4 (zeroSq (F := F)) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S2000x64) hz, View.ld_unit_zero (S := S64x128) hz, View.ld_unit_zero (S := S1x128) hz, View.ld_unit_zero (S := S2000x128) hz, linPay, sumPay, sqPay, zeroSum, zeroSq]

/-! ## The accumulation over the grid -/

variable (V : (c : Dev nD) → (b : Ref sig .tc) → Buf (Elt F) ((c : Thread nD τ).loc b))

/-- The linear block of grid point `t`: the body's arithmetic on that point's five input blocks. -/
abbrev linBlk (c : Dev nD) (t : Fin cfg2.N) : Vec F S2000x128 .f32 := linPay (iblk2 V c 0 t) (iblk2 V c 1 t) (iblk2 V c 2 t) (iblk2 V c 3 t) (iblk2 V c 4 t)

/-- The running row of column sums after point `n`: the zero row plus the first block's column sums, then each later
    block's added in point order. -/
def accSum (c : Dev nD) : (n : ℕ) → n < cfg2.N → Vec F S1x128 .f32
  | 0, h => sumPay (iblk2 V c 0 ⟨0, h⟩) (iblk2 V c 1 ⟨0, h⟩) (iblk2 V c 2 ⟨0, h⟩) (iblk2 V c 3 ⟨0, h⟩) (iblk2 V c 4 ⟨0, h⟩) (zeroSum (F := F))
  | n + 1, h => sumPay (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accSum c n (Nat.lt_of_succ_lt h))

/-- The running row of column sums of squares after point `n`, likewise. -/
def accSq (c : Dev nD) : (n : ℕ) → n < cfg2.N → Vec F S1x128 .f32
  | 0, h => sqPay (iblk2 V c 0 ⟨0, h⟩) (iblk2 V c 1 ⟨0, h⟩) (iblk2 V c 2 ⟨0, h⟩) (iblk2 V c 3 ⟨0, h⟩) (iblk2 V c 4 ⟨0, h⟩) (zeroSq (F := F))
  | n + 1, h => sqPay (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accSq c n (Nat.lt_of_succ_lt h))

theorem accSum_zero (c : Dev nD) (h : 0 < cfg2.N) :
    accSum V c 0 h = sumPay (iblk2 V c 0 ⟨0, h⟩) (iblk2 V c 1 ⟨0, h⟩) (iblk2 V c 2 ⟨0, h⟩) (iblk2 V c 3 ⟨0, h⟩) (iblk2 V c 4 ⟨0, h⟩) (zeroSum (F := F)) := rfl
theorem accSum_succ (c : Dev nD) (n : ℕ) (h : n + 1 < cfg2.N) :
    accSum V c (n + 1) h = sumPay (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accSum V c n (Nat.lt_of_succ_lt h)) := rfl
theorem accSq_zero (c : Dev nD) (h : 0 < cfg2.N) :
    accSq V c 0 h = sqPay (iblk2 V c 0 ⟨0, h⟩) (iblk2 V c 1 ⟨0, h⟩) (iblk2 V c 2 ⟨0, h⟩) (iblk2 V c 3 ⟨0, h⟩) (iblk2 V c 4 ⟨0, h⟩) (zeroSq (F := F)) := rfl
theorem accSq_succ (c : Dev nD) (n : ℕ) (h : n + 1 < cfg2.N) :
    accSq V c (n + 1) h = sqPay (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accSq V c n (Nat.lt_of_succ_lt h)) := rfl

/-- After point `n` the three output buffers hold that point's linear block and the two running rows: by induction on
    the point, the first point in the zeroing case and every later one in the carrying case. -/
theorem outsAt_eq (c : Dev nD) : ∀ (n : ℕ) (h : n < cfg2.N),
    outsAt2 V c n h = (linBlk V c ⟨n, h⟩, accSum V c n h, accSq V c n h)
  | 0, h => by
    rw [outsAt2_A V c ⟨0, h⟩ rfl, lin_A, sum_A, sq_A]
    rfl
  | n + 1, h => by
    have hN : cfg2.N = 50 := N_2
    have hB : ¬(⟨n + 1, h⟩ : Fin cfg2.N).val % 50 = 0 := by dsimp only; omega
    rw [outsAt2_B V c ⟨n + 1, h⟩ hB, lin_B, sum_B, sq_B]
    show (_, sumPay _ _ _ _ _ (outsAt2 V c n _).2.1, sqPay _ _ _ _ _ (outsAt2 V c n _).2.2) = _
    rw [outsAt_eq c n]
    rfl

end Cert.KernelIdeal.KLin2

end
-- ==== Proof.KLin2V.lean ====
/-
  A linear launch read as functions of whole arrays, at the ideal instance. A block's entry (p, q) is row p of the
  aggregated block times column q of one weight matrix, plus row p of the feature block times column q of the other, plus
  the bias of column q; block t holds rows 2000·t … 2000·t + 1999, so the 50 blocks are the restrictions of ONE function of
  the five arrays and tile the [100000, 128] output. The two carried rows start at zero and each point adds its block's
  column sums (of the entries, of their squares); after the last point they hold, column by column, the sums over
  50 blocks of 2000 rows, which regrouped are the sums over all 100000 rows — addition of extended reals is
  commutative and associative, so no finiteness is used here.
-/
import proofs.«115009_j15960098472830_1_alg».proof.Proof.KLin2
import proofs.«115009_j15960098472830_1_alg».proof.Proof.KSpecLin
import proofs.«115009_j15960098472830_1_alg».proof.Proof.LibTileSum
import Idealize.ShloMosaic.Lib.Pipeline.Value
import Idealize.ShloMosaic.Lib.ValueLayout
import Idealize.ShloMosaic.PureOps.Ideal.Laws

noncomputable section

namespace Cert.KernelIdeal.KLin2V

open Cert.KernelIdeal Cert.KernelIdeal.Gen Cert.KernelIdeal.KLin2 Cert.KernelIdeal.KSpecLin Cert.TileSum
open Idealize.ShloMosaic Idealize.ShloMosaic.TcCoe Idealize.SL.Sem Idealize.ShloMosaic.ValueIdx
open Idealize.ShloMosaic.Pipeline (Dat)
open scoped BigOperators

/-! ## The body's arithmetic at an entry -/

/-- A row block times a weight matrix into a zero accumulator, read at row `a`, column `b`: the sum over the contracted
    coordinate of the products of the entries. -/
theorem mm_apply (A : FVec Ideal S2000x64 .bf16) (B : FVec Ideal S64x128 .bf16) (a : Fin 2000) (b : Fin 128) :
    Idealize.ShloMosaic.matmul dot_S2000x64_S64x128_S2000x128_1_0_0_1_n_n none A B (constant (F := Ideal) S2000x128 .f32 0x00000000#32) (ix2 a b)
      = ∑ c : Fin 64, A (ix2 a c) * B (ix2 c b) := by
  show FloatOps.matmul dot_S2000x64_S64x128_S2000x128_1_0_0_1_n_n none A B (constant (F := Ideal) S2000x128 .f32 0x00000000#32) (ix2 a b) = _
  rw [Ideal.matmul_constant_zero_apply, ← Equiv.sum_comp (contrEquiv1 dot_S2000x64_S64x128_S2000x128_1_0_0_1_n_n 64 rfl rfl).symm]
  refine Finset.sum_congr rfl fun c _ => ?_
  have cv := contrEquiv1_symm_val dot_S2000x64_S64x128_S2000x128_1_0_0_1_n_n 64 rfl rfl c
  have hl : (dot_S2000x64_S64x128_S2000x128_1_0_0_1_n_n).lhsIdx (ix2 a b) ((contrEquiv1 dot_S2000x64_S64x128_S2000x128_1_0_0_1_n_n 64 rfl rfl).symm c) = ix2 a c := by
    funext ax; apply Fin.ext
    match ax with
    | ⟨0, _⟩ => simp [DotDims.lhsIdx, dot_S2000x64_S64x128_S2000x128_1_0_0_1_n_n] <;> rfl
    | ⟨1, _⟩ => simp [DotDims.lhsIdx, dot_S2000x64_S64x128_S2000x128_1_0_0_1_n_n] <;> exact cv
  have hr : (dot_S2000x64_S64x128_S2000x128_1_0_0_1_n_n).rhsIdx (ix2 a b) ((contrEquiv1 dot_S2000x64_S64x128_S2000x128_1_0_0_1_n_n 64 rfl rfl).symm c) = ix2 c b := by
    funext ax; apply Fin.ext
    match ax with
    | ⟨0, _⟩ => simp [DotDims.rhsIdx, dot_S2000x64_S64x128_S2000x128_1_0_0_1_n_n] <;> exact cv
    | ⟨1, _⟩ => simp [DotDims.rhsIdx, dot_S2000x64_S64x128_S2000x128_1_0_0_1_n_n] <;> rfl
  rw [hl, hr]

/-- The linear block at (p, q): the two products read as sums over their contracted coordinate, the changes of format
    the identity, the bias row broadcast over the rows read at row 0. -/
theorem lin_apply (x0 x1 : Vec Ideal S2000x64 .f32) (x2 x3 : Vec Ideal S64x128 .f32) (x4 : Vec Ideal S1x128 .f32) (p : Fin 2000) (q : Fin 128) :
    linPay x0 x1 x2 x3 x4 (ix2 p q)
      = (∑ c : Fin 64, x0 (ix2 p c) * x2 (ix2 c q)) + (∑ c : Fin 64, x1 (ix2 p c) * x3 (ix2 c q))
        + x4 (ix2 (0 : Fin 1) q) := by
  dsimp only [linPay]
  unfold Gen.k2_pay2
  simp only [shapeCast_self, addf_apply, broadcastTo_1b_ab_apply, mm_apply, truncf_apply]

/-- A sum over the 2000 rows of a block, column by column. -/
theorem colsum_apply (src : FVec Ideal S2000x128 .f32) (hφ : FKind.Formats .f32)
    (hacc : (0x00000000#32 : BitVec FTy.f32.bits) = FKind.add.neutral .f32 hφ) (q : Fin 128) :
    multiReduction .add [0] S128 src 0x00000000#32 reduces_S2000x128_S128 hφ hacc (ix1 q)
      = ∑ p : Fin 2000, src (ix2 p q) := by
  refine (Ideal.multiReduction_add_single src 0x00000000#32 reduces_S2000x128_S128 hφ hacc (ix1 q)).trans ?_
  exact Finset.sum_congr rfl fun k _ => congrArg src (by funext c; apply Fin.ext; fin_cases c <;> rfl)

/-- One step of the row of column sums, at column q. -/
theorem sum_apply (x0 x1 : Vec Ideal S2000x64 .f32) (x2 x3 : Vec Ideal S64x128 .f32) (x4 : Vec Ideal S1x128 .f32) (acc : Vec Ideal S1x128 .f32) (q : Fin 128) :
    sumPay x0 x1 x2 x3 x4 acc (ix2 (0 : Fin 1) q)
      = acc (ix2 (0 : Fin 1) q) + ∑ p : Fin 2000, linPay x0 x1 x2 x3 x4 (ix2 p q) := by
  dsimp only [sumPay, linPay]
  unfold Gen.k2_pay6
  simp only [shapeCast_self, addf_apply, shapeCast_a_1a_apply]
  exact congrArg (acc (ix2 (0 : Fin 1) q) + ·) (colsum_apply _ _ _ q)

/-- One step of the row of column sums of squares, at column q. -/
theorem sq_apply (x0 x1 : Vec Ideal S2000x64 .f32) (x2 x3 : Vec Ideal S64x128 .f32) (x4 : Vec Ideal S1x128 .f32) (acc : Vec Ideal S1x128 .f32) (q : Fin 128) :
    sqPay x0 x1 x2 x3 x4 acc (ix2 (0 : Fin 1) q)
      = acc (ix2 (0 : Fin 1) q) + ∑ p : Fin 2000, linPay x0 x1 x2 x3 x4 (ix2 p q) * linPay x0 x1 x2 x3 x4 (ix2 p q) := by
  dsimp only [sqPay, linPay]
  unfold Gen.k2_pay1 Gen.k2_pay3 Gen.k2_pay7
  simp only [shapeCast_self, addf_apply, shapeCast_a_1a_apply]
  refine (congrArg (acc (ix2 (0 : Fin 1) q) + ·) (colsum_apply _ _ _ q)).trans ?_
  simp only [mulf_apply]

theorem zeroSum_apply (q : Fin 128) : zeroSum (F := Ideal) (ix2 (0 : Fin 1) q) = 0 := by
  dsimp only [zeroSum]
  unfold Gen.k2_pay4
  simp only [broadcast_apply]
  exact Ideal.ofBits_zero_f32

theorem zeroSq_apply (q : Fin 128) : zeroSq (F := Ideal) (ix2 (0 : Fin 1) q) = 0 := by
  dsimp only [zeroSq]
  unfold Gen.k2_pay5
  simp only [broadcast_apply]
  exact Ideal.ofBits_zero_f32

/-! ## The blocks of a point -/

variable (V : (c : Dev nD) → (b : Ref sig .tc) → Buf (Elt Ideal) ((c : Thread nD τ).loc b))

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_5 : ∀ t : Fin cfg2.N, win2_5.index t (0 : Fin 2) = t.val ∧ win2_5.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)

/-- The row of the [100000, ·] arrays that row `p` of block `t` is. -/
def rowOf (t : Fin cfg2.N) (p : Fin 2000) : Fin 100000 :=
  ⟨2000 * t.val + p.val, by have := t.isLt; have hN : cfg2.N = 50 := N_2; have := p.isLt; omega⟩

theorem iblk_0 (c : Dev nD) (t : Fin cfg2.N) (p : Fin 2000) (k : Fin 64) :
    iblk2 V c 0 t (ix2 p k) = V c (Pipeline.arrRef spec2 0) (ix2 (rowOf t p) k) := by
  obtain ⟨e0, e1⟩ := idx_0 t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = 2000 * t.val + p.val; omega
  | ⟨1, _⟩ => show win2_0.index t (1 : Fin 2) * 64 + 1 * k.val = k.val; omega

theorem iblk_1 (c : Dev nD) (t : Fin cfg2.N) (p : Fin 2000) (k : Fin 64) :
    iblk2 V c 1 t (ix2 p k) = V c (Pipeline.arrRef spec2 1) (ix2 (rowOf t p) k) := by
  obtain ⟨e0, e1⟩ := idx_1 t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2000 + 1 * p.val = 2000 * t.val + p.val; omega
  | ⟨1, _⟩ => show win2_1.index t (1 : Fin 2) * 64 + 1 * k.val = k.val; omega

theorem iblk_2 (c : Dev nD) (t : Fin cfg2.N) (k : S64x128.Idx) :
    iblk2 V c 2 t k = V c (Pipeline.arrRef spec2 2) k := by
  obtain ⟨e0, e1⟩ := idx_2 t
  show V c (Pipeline.arrRef spec2 2) (((cfg2.win 2).blk t).view.emb k) = _
  refine congrArg (V c (Pipeline.arrRef spec2 2)) (funext fun a => Fin.ext ?_)
  match a with
  | ⟨0, _⟩ => show win2_2.index t (0 : Fin 2) * 64 + 1 * (k 0).val = (k 0).val; omega
  | ⟨1, _⟩ => show win2_2.index t (1 : Fin 2) * 128 + 1 * (k 1).val = (k 1).val; omega

theorem iblk_3 (c : Dev nD) (t : Fin cfg2.N) (k : S64x128.Idx) :
    iblk2 V c 3 t k = V c (Pipeline.arrRef spec2 3) k := by
  obtain ⟨e0, e1⟩ := idx_3 t
  show V c (Pipeline.arrRef spec2 3) (((cfg2.win 3).blk t).view.emb k) = _
  refine congrArg (V c (Pipeline.arrRef spec2 3)) (funext fun a => Fin.ext ?_)
  match a with
  | ⟨0, _⟩ => show win2_3.index t (0 : Fin 2) * 64 + 1 * (k 0).val = (k 0).val; omega
  | ⟨1, _⟩ => show win2_3.index t (1 : Fin 2) * 128 + 1 * (k 1).val = (k 1).val; omega

theorem iblk_4 (c : Dev nD) (t : Fin cfg2.N) (k : S1x128.Idx) :
    iblk2 V c 4 t k = V c (Pipeline.arrRef spec2 4) k := by
  obtain ⟨e0, e1⟩ := idx_4 t
  show V c (Pipeline.arrRef spec2 4) (((cfg2.win 4).blk t).view.emb k) = _
  refine congrArg (V c (Pipeline.arrRef spec2 4)) (funext fun a => Fin.ext ?_)
  match a with
  | ⟨0, _⟩ => show win2_4.index t (0 : Fin 2) * 1 + 1 * (k 0).val = (k 0).val; omega
  | ⟨1, _⟩ => show win2_4.index t (1 : Fin 2) * 128 + 1 * (k 1).val = (k 1).val; omega

/-- The linear block of point `t` at (p, q) is the whole-array linear function at row 2000·t + p, column q. -/
theorem linBlk_apply (c : Dev nD) (t : Fin cfg2.N) (p : Fin 2000) (q : Fin 128) :
    linBlk V c t (ix2 p q) = lin128At (V c (Pipeline.arrRef spec2 0)) (V c (Pipeline.arrRef spec2 1)) (V c (Pipeline.arrRef spec2 2)) (V c (Pipeline.arrRef spec2 3)) (V c (Pipeline.arrRef spec2 4)) (rowOf t p) q := by
  show linPay _ _ _ _ _ (ix2 p q) = _
  rw [lin_apply]
  simp only [iblk_0, iblk_1, iblk_2, iblk_3, iblk_4]
  rfl

/-! ## The linear array -/

theorem emb5 (t : Fin cfg2.N) (p : Fin 2000) (q : Fin 128) :
    ((cfg2.win 5).blk t).view.emb (ix2 p q) = ix2 (rowOf t p) q := by
  obtain ⟨e0, e1⟩ := idx_5 t
  funext a; apply Fin.ext
  match a with
  | ⟨0, _⟩ => show win2_5.index t (0 : Fin 2) * 2000 + 1 * p.val = 2000 * t.val + p.val; omega
  | ⟨1, _⟩ => show win2_5.index t (1 : Fin 2) * 128 + 1 * q.val = q.val; omega

theorem cut_apply5 (t : Fin cfg2.N) (X : S2000x128.Idx → EReal) (y : S2000x128.Idx) :
    (cfg2.win 5).cut (grid2.coords t) X y = X y := rfl
theorem read_blk5 (t : Fin cfg2.N) (G : S100000x128.Idx → EReal) (y : S2000x128.Idx) :
    ((cfg2.win 5).blk t).view.read (Elt Ideal) G y = G (((cfg2.win 5).blk t).view.emb y) := rfl

/-- What point `t` writes back is block `t` of the whole-array linear function of the five arrays as the launch finds them. -/
theorem flushed5_eq (c : Dev nD) (t : Fin cfg2.N) :
    (dat2 V c).flushed 5 t = ((cfg2.win 5).blk t).view.read (Elt Ideal) (lin128 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5, outsAt_eq]
  funext y
  obtain ⟨p, q, rfl⟩ : ∃ (p : Fin 2000) (q : Fin 128), y = ix2 p q := ⟨y 0, y 1, eq_ix2 y⟩
  rw [cut_apply5, read_blk5, emb5]
  exact linBlk_apply V c t p q

theorem mem_blk5 (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v36_0).slice (win2_5.rect t)).set ↔ _
  rw [View.set_slice_whole, Rect.mem_set_unit]
  exact Iff.rfl

theorem cover5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hlt : (i 0).val / 2000 < cfg2.N := by
    show (i 0).val / 2000 < grid2.N
    rw [N_2]; omega
  obtain ⟨e0, e1⟩ := idx_5 ⟨(i 0).val / 2000, hlt⟩
  have e0' : win2_5.index ⟨(i 0).val / 2000, hlt⟩ (0 : Fin 2) = (i 0).val / 2000 := e0
  refine ⟨⟨(i 0).val / 2000, hlt⟩, flush2_5 _, ?_⟩
  rw [mem_blk5]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e0']; omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    rw [e1]; omega

/-- THE LINEAR ARRAY after the launch is the whole-array linear function of the five arrays the launch found. -/
theorem final5 (c : Dev nD) : (dat2 V c).arrAt 5 cfg2.N = lin128 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed5_eq V c t) cover5

/-! ## The two carried rows -/

theorem h49 : 49 < cfg2.N := by rw [show cfg2.N = 50 from N_2]; decide
abbrev t49 : Fin cfg2.N := ⟨49, h49⟩

theorem cut_apply6 (t : Fin cfg2.N) (X : S1x128.Idx → EReal) (y : S1x128.Idx) :
    (cfg2.win 6).cut (grid2.coords t) X y = X y := rfl
theorem read_blk6 (t : Fin cfg2.N) (G : S1x128.Idx → EReal) (y : S1x128.Idx) :
    ((cfg2.win 6).blk t).view.read (Elt Ideal) G y = G (((cfg2.win 6).blk t).view.emb y) := rfl

/-- The last point's write-back of the carried row writes the running row after the last point. -/
theorem flushed6_eq (c : Dev nD) (t : Fin cfg2.N) (hf : (cfg2.win 6).flush t = true) :
    (dat2 V c).flushed 6 t = ((cfg2.win 6).blk t).view.read (Elt Ideal) (accSum V c 49 h49) := by
  have hN : cfg2.N = 50 := N_2
  have h : t.val = 49 := by have := (flush2_6 t).mp hf; have := t.isLt; omega
  obtain rfl : t = t49 := Fin.ext h
  show (cfg2.win 6).cut (grid2.coords t49) ((dat2 V c).after 6 t49) = _
  rw [after2_6, outsAt_eq]
  funext y
  rw [cut_apply6, read_blk6]
  obtain ⟨e0, e1⟩ := idx_6 t49
  refine congrArg (accSum V c 49 h49) (funext fun a => Fin.ext ?_)
  match a with
  | ⟨0, _⟩ => show (y 0).val = win2_6.index t49 (0 : Fin 2) * 1 + 1 * (y 0).val; omega
  | ⟨1, _⟩ => show (y 1).val = win2_6.index t49 (1 : Fin 2) * 128 + 1 * (y 1).val; omega

theorem mem_blk6 (t : Fin cfg2.N) (i : S1x128.Idx) :
    i ∈ ((cfg2.win 6).blk t).view.set ↔ ∀ a : Fin 2, win2_6.index t a * S1x128.size a ≤ (i a).val
      ∧ (i a).val < win2_6.index t a * S1x128.size a + S1x128.size a := by
  show i ∈ ((View.whole main_v36_1).slice (win2_6.rect t)).set ↔ _
  rw [View.set_slice_whole, Rect.mem_set_unit]
  exact Iff.rfl

/-- The carried row's array after the launch is the running row after the last point. -/
theorem final6_acc (c : Dev nD) : (dat2 V c).arrAt 6 cfg2.N = accSum V c 49 h49 :=
  (dat2 V c).arrAt_eq_of_cover 6 _ (flushed6_eq V c) fun i => ⟨t49, (flush2_6 t49).mpr rfl, by
    rw [mem_blk6]
    obtain ⟨e0, e1⟩ := idx_6 t49
    have h0 : (i 0).val < 1 := (i 0).isLt
    have h1 : (i 1).val < 128 := (i 1).isLt
    intro a
    match a with
    | ⟨0, _⟩ => show win2_6.index t49 (0 : Fin 2) * 1 ≤ (i 0).val ∧ (i 0).val < win2_6.index t49 (0 : Fin 2) * 1 + 1; omega
    | ⟨1, _⟩ => show win2_6.index t49 (1 : Fin 2) * 128 ≤ (i 1).val ∧ (i 1).val < win2_6.index t49 (1 : Fin 2) * 128 + 128; omega⟩

theorem cut_apply7 (t : Fin cfg2.N) (X : S1x128.Idx → EReal) (y : S1x128.Idx) :
    (cfg2.win 7).cut (grid2.coords t) X y = X y := rfl
theorem read_blk7 (t : Fin cfg2.N) (G : S1x128.Idx → EReal) (y : S1x128.Idx) :
    ((cfg2.win 7).blk t).view.read (Elt Ideal) G y = G (((cfg2.win 7).blk t).view.emb y) := rfl

/-- The last point's write-back of the carried row writes the running row after the last point. -/
theorem flushed7_eq (c : Dev nD) (t : Fin cfg2.N) (hf : (cfg2.win 7).flush t = true) :
    (dat2 V c).flushed 7 t = ((cfg2.win 7).blk t).view.read (Elt Ideal) (accSq V c 49 h49) := by
  have hN : cfg2.N = 50 := N_2
  have h : t.val = 49 := by have := (flush2_7 t).mp hf; have := t.isLt; omega
  obtain rfl : t = t49 := Fin.ext h
  show (cfg2.win 7).cut (grid2.coords t49) ((dat2 V c).after 7 t49) = _
  rw [after2_7, outsAt_eq]
  funext y
  rw [cut_apply7, read_blk7]
  obtain ⟨e0, e1⟩ := idx_7 t49
  refine congrArg (accSq V c 49 h49) (funext fun a => Fin.ext ?_)
  match a with
  | ⟨0, _⟩ => show (y 0).val = win2_7.index t49 (0 : Fin 2) * 1 + 1 * (y 0).val; omega
  | ⟨1, _⟩ => show (y 1).val = win2_7.index t49 (1 : Fin 2) * 128 + 1 * (y 1).val; omega

theorem mem_blk7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v36_2).slice (win2_7.rect t)).set ↔ _
  rw [View.set_slice_whole, Rect.mem_set_unit]
  exact Iff.rfl

/-- The carried row's array after the launch is the running row after the last point. -/
theorem final7_acc (c : Dev nD) : (dat2 V c).arrAt 7 cfg2.N = accSq V c 49 h49 :=
  (dat2 V c).arrAt_eq_of_cover 7 _ (flushed7_eq V c) fun i => ⟨t49, (flush2_7 t49).mpr rfl, by
    rw [mem_blk7]
    obtain ⟨e0, e1⟩ := idx_7 t49
    have h0 : (i 0).val < 1 := (i 0).isLt
    have h1 : (i 1).val < 128 := (i 1).isLt
    intro a
    match a with
    | ⟨0, _⟩ => show win2_7.index t49 (0 : Fin 2) * 1 ≤ (i 0).val ∧ (i 0).val < win2_7.index t49 (0 : Fin 2) * 1 + 1; omega
    | ⟨1, _⟩ => show win2_7.index t49 (1 : Fin 2) * 128 ≤ (i 1).val ∧ (i 1).val < win2_7.index t49 (1 : Fin 2) * 128 + 128; omega⟩

/-! ## The carried rows are the column sums over all rows -/

/-- Block `t`'s contribution to column `q`'s running sum. -/
def blkSum (c : Dev nD) (q : Fin 128) (t : ℕ) : EReal :=
  if h : t < cfg2.N then ∑ p : Fin 2000, linBlk V c ⟨t, h⟩ (ix2 p q) else 0

/-- Column `q` of the carried row after `n` points (zero before the first). -/
def seqSum (c : Dev nD) (q : Fin 128) : ℕ → EReal
  | 0 => 0
  | n + 1 => if h : n < cfg2.N then accSum V c n h (ix2 (0 : Fin 1) q) else 0

theorem seqSum_eq_acc (c : Dev nD) (q : Fin 128) : ∀ n, n ≤ cfg2.N → seqSum V c q n = acc (blkSum V c q) n :=
  eq_acc_of_step cfg2.N _ _ rfl fun t ht => by
    show (if h : t < cfg2.N then accSum V c t h (ix2 (0 : Fin 1) q) else 0) = seqSum V c q t + blkSum V c q t
    rw [dif_pos ht]
    unfold blkSum
    rw [dif_pos ht]
    cases t with
    | zero =>
      rw [accSum_zero, sum_apply, zeroSum_apply]
      all_goals rfl
    | succ n =>
      have hn : n < cfg2.N := Nat.lt_of_succ_lt ht
      show _ = (if h : n < cfg2.N then accSum V c n h (ix2 (0 : Fin 1) q) else 0) + _
      rw [dif_pos hn, accSum_succ, sum_apply]
      all_goals rfl

/-- After the last point, column `q` of the carried row is the column's sum over all 100000 rows of the linear array. -/
theorem accSum_last (c : Dev nD) (q : Fin 128) :
    accSum V c 49 h49 (ix2 (0 : Fin 1) q)
      = ∑ r : Fin 100000, lin128At (V c (Pipeline.arrRef spec2 0)) (V c (Pipeline.arrRef spec2 1)) (V c (Pipeline.arrRef spec2 2)) (V c (Pipeline.arrRef spec2 3)) (V c (Pipeline.arrRef spec2 4)) r q := by
  have hN : cfg2.N = 50 := N_2
  have h1 := seqSum_eq_acc V c q 50 (by omega)
  have h2 : seqSum V c q 50 = accSum V c 49 h49 (ix2 (0 : Fin 1) q) := by
    show (if h : 49 < cfg2.N then accSum V c 49 h (ix2 (0 : Fin 1) q) else 0) = _
    rw [dif_pos h49]
  rw [← h2, h1, acc_eq_sum]
  have key := sum_tile 50 2000 (fun r : Fin 100000 => lin128At (V c (Pipeline.arrRef spec2 0)) (V c (Pipeline.arrRef spec2 1)) (V c (Pipeline.arrRef spec2 2)) (V c (Pipeline.arrRef spec2 3)) (V c (Pipeline.arrRef spec2 4)) r q)
  refine Eq.trans ?_ key
  refine Finset.sum_congr rfl fun t _ => ?_
  have ht : t.val < cfg2.N := by have := t.isLt; omega
  unfold blkSum
  rw [dif_pos ht]
  refine Finset.sum_congr rfl fun p _ => ?_
  rw [linBlk_apply]
  rfl

/-- Block `t`'s contribution to column `q`'s running sum of squares. -/
def blkSq (c : Dev nD) (q : Fin 128) (t : ℕ) : EReal :=
  if h : t < cfg2.N then ∑ p : Fin 2000, linBlk V c ⟨t, h⟩ (ix2 p q) * linBlk V c ⟨t, h⟩ (ix2 p q) else 0

/-- Column `q` of the carried row after `n` points (zero before the first). -/
def seqSq (c : Dev nD) (q : Fin 128) : ℕ → EReal
  | 0 => 0
  | n + 1 => if h : n < cfg2.N then accSq V c n h (ix2 (0 : Fin 1) q) else 0

theorem seqSq_eq_acc (c : Dev nD) (q : Fin 128) : ∀ n, n ≤ cfg2.N → seqSq V c q n = acc (blkSq V c q) n :=
  eq_acc_of_step cfg2.N _ _ rfl fun t ht => by
    show (if h : t < cfg2.N then accSq V c t h (ix2 (0 : Fin 1) q) else 0) = seqSq V c q t + blkSq V c q t
    rw [dif_pos ht]
    unfold blkSq
    rw [dif_pos ht]
    cases t with
    | zero =>
      rw [accSq_zero, sq_apply, zeroSq_apply]
      all_goals rfl
    | succ n =>
      have hn : n < cfg2.N := Nat.lt_of_succ_lt ht
      show _ = (if h : n < cfg2.N then accSq V c n h (ix2 (0 : Fin 1) q) else 0) + _
      rw [dif_pos hn, accSq_succ, sq_apply]
      all_goals rfl

/-- After the last point, column `q` of the carried row is the column's sum of squares over all 100000 rows of the linear array. -/
theorem accSq_last (c : Dev nD) (q : Fin 128) :
    accSq V c 49 h49 (ix2 (0 : Fin 1) q)
      = ∑ r : Fin 100000, lin128At (V c (Pipeline.arrRef spec2 0)) (V c (Pipeline.arrRef spec2 1)) (V c (Pipeline.arrRef spec2 2)) (V c (Pipeline.arrRef spec2 3)) (V c (Pipeline.arrRef spec2 4)) r q * lin128At (V c (Pipeline.arrRef spec2 0)) (V c (Pipeline.arrRef spec2 1)) (V c (Pipeline.arrRef spec2 2)) (V c (Pipeline.arrRef spec2 3)) (V c (Pipeline.arrRef spec2 4)) r q := by
  have hN : cfg2.N = 50 := N_2
  have h1 := seqSq_eq_acc V c q 50 (by omega)
  have h2 : seqSq V c q 50 = accSq V c 49 h49 (ix2 (0 : Fin 1) q) := by
    show (if h : 49 < cfg2.N then accSq V c 49 h (ix2 (0 : Fin 1) q) else 0) = _
    rw [dif_pos h49]
  rw [← h2, h1, acc_eq_sum]
  have key := sum_tile 50 2000 (fun r : Fin 100000 => lin128At (V c (Pipeline.arrRef spec2 0)) (V c (Pipeline.arrRef spec2 1)) (V c (Pipeline.arrRef spec2 2)) (V c (Pipeline.arrRef spec2 3)) (V c (Pipeline.arrRef spec2 4)) r q * lin128At (V c (Pipeline.arrRef spec2 0)) (V c (Pipeline.arrRef spec2 1)) (V c (Pipeline.arrRef spec2 2)) (V c (Pipeline.arrRef spec2 3)) (V c (Pipeline.arrRef spec2 4)) r q)
  refine Eq.trans ?_ key
  refine Finset.sum_congr rfl fun t _ => ?_
  have ht : t.val < cfg2.N := by have := t.isLt; omega
  unfold blkSq
  rw [dif_pos ht]
  refine Finset.sum_congr rfl fun p _ => ?_
  rw [linBlk_apply]
  rfl

/-- THE ROW OF COLUMN SUMS after the launch. -/
theorem final6 (c : Dev nD) : (dat2 V c).arrAt 6 cfg2.N = colSum128 (lin128 (V c (Pipeline.arrRef spec2 0)) (V c (Pipeline.arrRef spec2 1)) (V c (Pipeline.arrRef spec2 2)) (V c (Pipeline.arrRef spec2 3)) (V c (Pipeline.arrRef spec2 4))) := by
  rw [final6_acc]
  funext k
  obtain ⟨u, q, rfl⟩ : ∃ (u : Fin 1) (q : Fin 128), k = ix2 u q := ⟨k 0, k 1, eq_ix2 k⟩
  obtain rfl : u = 0 := Subsingleton.elim _ _
  rw [accSum_last]
  rfl

/-- THE ROW OF COLUMN SUMS OF SQUARES after the launch. -/
theorem final7 (c : Dev nD) : (dat2 V c).arrAt 7 cfg2.N = colSq128 (lin128 (V c (Pipeline.arrRef spec2 0)) (V c (Pipeline.arrRef spec2 1)) (V c (Pipeline.arrRef spec2 2)) (V c (Pipeline.arrRef spec2 3)) (V c (Pipeline.arrRef spec2 4))) := by
  rw [final7_acc]
  funext k
  obtain ⟨u, q, rfl⟩ : ∃ (u : Fin 1) (q : Fin 128), k = ix2 u q := ⟨k 0, k 1, eq_ix2 k⟩
  obtain rfl : u = 0 := Subsingleton.elim _ _
  rw [accSq_last]
  rfl

end Cert.KernelIdeal.KLin2V

end
-- ==== Proof.KLin4.lean ====
/-
  A linear launch of the kernel program (a row block of the aggregated features times one weight matrix, plus the same
  row block of the features times the other, plus the bias row; and, carried from grid point to grid point, the column
  sums of that block and of its square), read as VALUES: what each of the two control cases leaves in the three output
  buffers is the body's arithmetic on the point's input blocks — the linear block itself, and the running column sums
  "what the buffer held before, plus this block's column sums", the first point starting from the zero row it has just
  stored. By induction on the grid point the carried buffers are therefore the running sums of the blocks seen so far.
-/
import proofs.«115009_j15960098472830_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KLin4

open Cert.KernelIdeal Cert.KernelIdeal.Gen

variable {F : FTy → Type} [FloatOps F]

theorem hz : (![0, 0] : Fin 2 → Nat) = fun _ => 0 := funext fun a => by fin_cases a <;> rfl

/-! ## The five roles of the body's arithmetic -/

/-- The linear block of the five input blocks. -/
abbrev linPay (x0 x1 : Vec F S2000x128 .f32) (x2 x3 : Vec F S128x256 .f32) (x4 : Vec F S1x256 .f32) : FVec F S2000x256 .f32 := k4_pay2 x0 x1 x2 x3 x4
/-- The zero row the first point stores into the row of column sums. -/
abbrev zeroSum : FVec F S1x256 .f32 := k4_pay4 (F := F)
/-- The zero row the first point stores into the row of column sums of squares. -/
abbrev zeroSq : FVec F S1x256 .f32 := k4_pay5 (F := F)
/-- The row of column sums after a point: what it held, plus the linear block's column sums. -/
abbrev sumPay (x0 x1 : Vec F S2000x128 .f32) (x2 x3 : Vec F S128x256 .f32) (x4 : Vec F S1x256 .f32) (acc : Vec F S1x256 .f32) : FVec F S1x256 .f32 := k4_pay6 x0 x1 x2 x3 x4 acc
/-- The row of column sums of squares after a point: what it held, plus the column sums of the linear block's squares. -/
abbrev sqPay (x0 x1 : Vec F S2000x128 .f32) (x2 x3 : Vec F S128x256 .f32) (x4 : Vec F S1x256 .f32) (acc : Vec F S1x256 .f32) : FVec F S1x256 .f32 := k4_pay1 (k4_pay3 x0 x1 x2 x3 x4) (k4_pay7 acc)

/-! ## What each case leaves in each output buffer -/

/-- Later points: the linear block is the body's one covering store, a function of the five input blocks only. -/
theorem lin_B (c : Dev nD) (i : grid4.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond4_0 i) (x0 x1 : Vec F S2000x128 .f32) (x2 x3 : Vec F S128x256 .f32) (x4 : Vec F S1x256 .f32) (xo6 xo7 : Vec F S1x256 .f32) :
    out4_B_5 c i a1 h1 a2 h2 a3 h3 a4 h4 a5 h5 a6 h6 a7 h7 a8 h8 hc x0 x1 x2 x3 x4 xo6 xo7 = linPay x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x128) hz, View.ld_unit_zero (S := S128x256) hz, View.ld_unit_zero (S := S1x256) hz, View.ld_unit_zero (S := S2000x256) hz, linPay, sumPay, sqPay, zeroSum, zeroSq]

/-- First point: the same linear block. -/
theorem lin_A (c : Dev nD) (i : grid4.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond4_0 i) (x0 x1 : Vec F S2000x128 .f32) (x2 x3 : Vec F S128x256 .f32) (x4 : Vec F S1x256 .f32) :
    out4_A_5 c i a1 h1 a2 h2 a3 h3 a4 h4 a5 h5 a6 h6 a7 h7 a8 h8 hc x0 x1 x2 x3 x4 = linPay x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x128) hz, View.ld_unit_zero (S := S128x256) hz, View.ld_unit_zero (S := S1x256) hz, View.ld_unit_zero (S := S2000x256) hz, linPay, sumPay, sqPay, zeroSum, zeroSq]

/-- Later points: the column-sum row becomes what it held plus this block's column sums. -/
theorem sum_B (c : Dev nD) (i : grid4.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond4_0 i) (x0 x1 : Vec F S2000x128 .f32) (x2 x3 : Vec F S128x256 .f32) (x4 : Vec F S1x256 .f32) (xo6 xo7 : Vec F S1x256 .f32) :
    out4_B_6 c i a1 h1 a2 h2 a3 h3 a4 h4 a5 h5 a6 h6 a7 h7 a8 h8 hc x0 x1 x2 x3 x4 xo6 xo7 = sumPay x0 x1 x2 x3 x4 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x128) hz, View.ld_unit_zero (S := S128x256) hz, View.ld_unit_zero (S := S1x256) hz, View.ld_unit_zero (S := S2000x256) hz, linPay, sumPay, sqPay, zeroSum, zeroSq]

/-- First point: the column-sum row is zeroed, read back, and this block's column sums added. -/
theorem sum_A (c : Dev nD) (i : grid4.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond4_0 i) (x0 x1 : Vec F S2000x128 .f32) (x2 x3 : Vec F S128x256 .f32) (x4 : Vec F S1x256 .f32) :
    out4_A_6 c i a1 h1 a2 h2 a3 h3 a4 h4 a5 h5 a6 h6 a7 h7 a8 h8 hc x0 x1 x2 x3 x4 = sumPay x0 x1 x2 x3 x4 (zeroSum (F := F)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S2000x128) hz, View.ld_unit_zero (S := S128x256) hz, View.ld_unit_zero (S := S1x256) hz, View.ld_unit_zero (S := S2000x256) hz, linPay, sumPay, sqPay, zeroSum, zeroSq]

/-- Later points: the row of column sums of squares becomes what it held plus this block's. -/
theorem sq_B (c : Dev nD) (i : grid4.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond4_0 i) (x0 x1 : Vec F S2000x128 .f32) (x2 x3 : Vec F S128x256 .f32) (x4 : Vec F S1x256 .f32) (xo6 xo7 : Vec F S1x256 .f32) :
    out4_B_7 c i a1 h1 a2 h2 a3 h3 a4 h4 a5 h5 a6 h6 a7 h7 a8 h8 hc x0 x1 x2 x3 x4 xo6 xo7 = sqPay x0 x1 x2 x3 x4 xo7 := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x128) hz, View.ld_unit_zero (S := S128x256) hz, View.ld_unit_zero (S := S1x256) hz, View.ld_unit_zero (S := S2000x256) hz, linPay, sumPay, sqPay, zeroSum, zeroSq]

/-- First point: the row of column sums of squares is zeroed, read back, and this block's added. -/
theorem sq_A (c : Dev nD) (i : grid4.Coords) (a1 : Memref sig .tc .vmem S2000x128 .f32) (h1 : a1.IsWhole) (a2 : Memref sig .tc .vmem S2000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond4_0 i) (x0 x1 : Vec F S2000x128 .f32) (x2 x3 : Vec F S128x256 .f32) (x4 : Vec F S1x256 .f32) :
    out4_A_7 c i a1 h1 a2 h2 a3 h3 a4 h4 a5 h5 a6 h6 a7 h7 a8 h8 hc x0 x1 x2 x3 x4 = sqPay x0 x1 x2 x3 x4 (zeroSq (F := F)) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S2000x128) hz, View.ld_unit_zero (S := S128x256) hz, View.ld_unit_zero (S := S1x256) hz, View.ld_unit_zero (S := S2000x256) hz, linPay, sumPay, sqPay, zeroSum, zeroSq]

/-! ## The accumulation over the grid -/

variable (V : (c : Dev nD) → (b : Ref sig .tc) → Buf (Elt F) ((c : Thread nD τ).loc b))

/-- The linear block of grid point `t`: the body's arithmetic on that point's five input blocks. -/
abbrev linBlk (c : Dev nD) (t : Fin cfg4.N) : Vec F S2000x256 .f32 := linPay (iblk4 V c 0 t) (iblk4 V c 1 t) (iblk4 V c 2 t) (iblk4 V c 3 t) (iblk4 V c 4 t)

/-- The running row of column sums after point `n`: the zero row plus the first block's column sums, then each later
    block's added in point order. -/
def accSum (c : Dev nD) : (n : ℕ) → n < cfg4.N → Vec F S1x256 .f32
  | 0, h => sumPay (iblk4 V c 0 ⟨0, h⟩) (iblk4 V c 1 ⟨0, h⟩) (iblk4 V c 2 ⟨0, h⟩) (iblk4 V c 3 ⟨0, h⟩) (iblk4 V c 4 ⟨0, h⟩) (zeroSum (F := F))
  | n + 1, h => sumPay (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accSum c n (Nat.lt_of_succ_lt h))

/-- The running row of column sums of squares after point `n`, likewise. -/
def accSq (c : Dev nD) : (n : ℕ) → n < cfg4.N → Vec F S1x256 .f32
  | 0, h => sqPay (iblk4 V c 0 ⟨0, h⟩) (iblk4 V c 1 ⟨0, h⟩) (iblk4 V c 2 ⟨0, h⟩) (iblk4 V c 3 ⟨0, h⟩) (iblk4 V c 4 ⟨0, h⟩) (zeroSq (F := F))
  | n + 1, h => sqPay (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accSq c n (Nat.lt_of_succ_lt h))

theorem accSum_zero (c : Dev nD) (h : 0 < cfg4.N) :
    accSum V c 0 h = sumPay (iblk4 V c 0 ⟨0, h⟩) (iblk4 V c 1 ⟨0, h⟩) (iblk4 V c 2 ⟨0, h⟩) (iblk4 V c 3 ⟨0, h⟩) (iblk4 V c 4 ⟨0, h⟩) (zeroSum (F := F)) := rfl
theorem accSum_succ (c : Dev nD) (n : ℕ) (h : n + 1 < cfg4.N) :
    accSum V c (n + 1) h = sumPay (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accSum V c n (Nat.lt_of_succ_lt h)) := rfl
theorem accSq_zero (c : Dev nD) (h : 0 < cfg4.N) :
    accSq V c 0 h = sqPay (iblk4 V c 0 ⟨0, h⟩) (iblk4 V c 1 ⟨0, h⟩) (iblk4 V c 2 ⟨0, h⟩) (iblk4 V c 3 ⟨0, h⟩) (iblk4 V c 4 ⟨0, h⟩) (zeroSq (F := F)) := rfl
theorem accSq_succ (c : Dev nD) (n : ℕ) (h : n + 1 < cfg4.N) :
    accSq V c (n + 1) h = sqPay (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (accSq V c n (Nat.lt_of_succ_lt h)) := rfl

/-- After point `n` the three output buffers hold that point's linear block and the two running rows: by induction on
    the point, the first point in the zeroing case and every later one in the carrying case. -/
theorem outsAt_eq (c : Dev nD) : ∀ (n : ℕ) (h : n < cfg4.N),
    outsAt4 V c n h = (linBlk V c ⟨n, h⟩, accSum V c n h, accSq V c n h)
  | 0, h => by
    rw [outsAt4_A V c ⟨0, h⟩ rfl, lin_A, sum_A, sq_A]
    rfl
  | n + 1, h => by
    have hN : cfg4.N = 50 := N_4
    have hB : ¬(⟨n + 1, h⟩ : Fin cfg4.N).val % 50 = 0 := by dsimp only; omega
    rw [outsAt4_B V c ⟨n + 1, h⟩ hB, lin_B, sum_B, sq_B]
    show (_, sumPay _ _ _ _ _ (outsAt4 V c n _).2.1, sqPay _ _ _ _ _ (outsAt4 V c n _).2.2) = _
    rw [outsAt_eq c n]
    rfl

end Cert.KernelIdeal.KLin4

end
-- ==== Proof.KLin4V.lean ====
/-
  A linear launch read as functions of whole arrays, at the ideal instance. A block's entry (p, q) is row p of the
  aggregated block times column q of one weight matrix, plus row p of the feature block times column q of the other, plus
  the bias of column q; block t holds rows 2000·t … 2000·t + 1999, so the 50 blocks are the restrictions of ONE function of
  the five arrays and tile the [100000, 256] output. The two carried rows start at zero and each point adds its block's
  column sums (of the entries, of their squares); after the last point they hold, column by column, the sums over
  50 blocks of 2000 rows, which regrouped are the sums over all 100000 rows — addition of extended reals is
  commutative and associative, so no finiteness is used here.
-/
import proofs.«115009_j15960098472830_1_alg».proof.Proof.KLin4
import proofs.«115009_j15960098472830_1_alg».proof.Proof.KSpecLin
import proofs.«115009_j15960098472830_1_alg».proof.Proof.LibTileSum
import Idealize.ShloMosaic.Lib.Pipeline.Value
import Idealize.ShloMosaic.Lib.ValueLayout
import Idealize.ShloMosaic.PureOps.Ideal.Laws

noncomputable section

namespace Cert.KernelIdeal.KLin4V

open Cert.KernelIdeal Cert.KernelIdeal.Gen Cert.KernelIdeal.KLin4 Cert.KernelIdeal.KSpecLin Cert.TileSum
open Idealize.ShloMosaic Idealize.ShloMosaic.TcCoe Idealize.SL.Sem Idealize.ShloMosaic.ValueIdx
open Idealize.ShloMosaic.Pipeline (Dat)
open scoped BigOperators

/-! ## The body's arithmetic at an entry -/

/-- A row block times a weight matrix into a zero accumulator, read at row `a`, column `b`: the sum over the contracted
    coordinate of the products of the entries. -/
theorem mm_apply (A : FVec Ideal S2000x128 .bf16) (B : FVec Ideal S128x256 .bf16) (a : Fin 2000) (b : Fin 256) :
    Idealize.ShloMosaic.matmul dot_S2000x128_S128x256_S2000x256_1_0_0_1_n_n none A B (constant (F := Ideal) S2000x256 .f32 0x00000000#32) (ix2 a b)
      = ∑ c : Fin 128, A (ix2 a c) * B (ix2 c b) := by
  show FloatOps.matmul dot_S2000x128_S128x256_S2000x256_1_0_0_1_n_n none A B (constant (F := Ideal) S2000x256 .f32 0x00000000#32) (ix2 a b) = _
  rw [Ideal.matmul_constant_zero_apply, ← Equiv.sum_comp (contrEquiv1 dot_S2000x128_S128x256_S2000x256_1_0_0_1_n_n 128 rfl rfl).symm]
  refine Finset.sum_congr rfl fun c _ => ?_
  have cv := contrEquiv1_symm_val dot_S2000x128_S128x256_S2000x256_1_0_0_1_n_n 128 rfl rfl c
  have hl : (dot_S2000x128_S128x256_S2000x256_1_0_0_1_n_n).lhsIdx (ix2 a b) ((contrEquiv1 dot_S2000x128_S128x256_S2000x256_1_0_0_1_n_n 128 rfl rfl).symm c) = ix2 a c := by
    funext ax; apply Fin.ext
    match ax with
    | ⟨0, _⟩ => simp [DotDims.lhsIdx, dot_S2000x128_S128x256_S2000x256_1_0_0_1_n_n] <;> rfl
    | ⟨1, _⟩ => simp [DotDims.lhsIdx, dot_S2000x128_S128x256_S2000x256_1_0_0_1_n_n] <;> exact cv
  have hr : (dot_S2000x128_S128x256_S2000x256_1_0_0_1_n_n).rhsIdx (ix2 a b) ((contrEquiv1 dot_S2000x128_S128x256_S2000x256_1_0_0_1_n_n 128 rfl rfl).symm c) = ix2 c b := by
    funext ax; apply Fin.ext
    match ax with
    | ⟨0, _⟩ => simp [DotDims.rhsIdx, dot_S2000x128_S128x256_S2000x256_1_0_0_1_n_n] <;> exact cv
    | ⟨1, _⟩ => simp [DotDims.rhsIdx, dot_S2000x128_S128x256_S2000x256_1_0_0_1_n_n] <;> rfl
  rw [hl, hr]

/-- The linear block at (p, q): the two products read as sums over their contracted coordinate, the changes of format
    the identity, the bias row broadcast over the rows read at row 0. -/
theorem lin_apply (x0 x1 : Vec Ideal S2000x128 .f32) (x2 x3 : Vec Ideal S128x256 .f32) (x4 : Vec Ideal S1x256 .f32) (p : Fin 2000) (q : Fin 256) :
    linPay x0 x1 x2 x3 x4 (ix2 p q)
      = (∑ c : Fin 128, x0 (ix2 p c) * x2 (ix2 c q)) + (∑ c : Fin 128, x1 (ix2 p c) * x3 (ix2 c q))
        + x4 (ix2 (0 : Fin 1) q) := by
  dsimp only [linPay]
  unfold Gen.k4_pay2
  simp only [shapeCast_self, addf_apply, broadcastTo_1b_ab_apply, mm_apply, truncf_apply]

/-- A sum over the 2000 rows of a block, column by column. -/
theorem colsum_apply (src : FVec Ideal S2000x256 .f32) (hφ : FKind.Formats .f32)
    (hacc : (0x00000000#32 : BitVec FTy.f32.bits) = FKind.add.neutral .f32 hφ) (q : Fin 256) :
    multiReduction .add [0] S256 src 0x00000000#32 reduces_S2000x256_S256 hφ hacc (ix1 q)
      = ∑ p : Fin 2000, src (ix2 p q) := by
  refine (Ideal.multiReduction_add_single src 0x00000000#32 reduces_S2000x256_S256 hφ hacc (ix1 q)).trans ?_
  exact Finset.sum_congr rfl fun k _ => congrArg src (by funext c; apply Fin.ext; fin_cases c <;> rfl)

/-- One step of the row of column sums, at column q. -/
theorem sum_apply (x0 x1 : Vec Ideal S2000x128 .f32) (x2 x3 : Vec Ideal S128x256 .f32) (x4 : Vec Ideal S1x256 .f32) (acc : Vec Ideal S1x256 .f32) (q : Fin 256) :
    sumPay x0 x1 x2 x3 x4 acc (ix2 (0 : Fin 1) q)
      = acc (ix2 (0 : Fin 1) q) + ∑ p : Fin 2000, linPay x0 x1 x2 x3 x4 (ix2 p q) := by
  dsimp only [sumPay, linPay]
  unfold Gen.k4_pay6
  simp only [shapeCast_self, addf_apply, shapeCast_a_1a_apply]
  exact congrArg (acc (ix2 (0 : Fin 1) q) + ·) (colsum_apply _ _ _ q)

/-- One step of the row of column sums of squares, at column q. -/
theorem sq_apply (x0 x1 : Vec Ideal S2000x128 .f32) (x2 x3 : Vec Ideal S128x256 .f32) (x4 : Vec Ideal S1x256 .f32) (acc : Vec Ideal S1x256 .f32) (q : Fin 256) :
    sqPay x0 x1 x2 x3 x4 acc (ix2 (0 : Fin 1) q)
      = acc (ix2 (0 : Fin 1) q) + ∑ p : Fin 2000, linPay x0 x1 x2 x3 x4 (ix2 p q) * linPay x0 x1 x2 x3 x4 (ix2 p q) := by
  dsimp only [sqPay, linPay]
  unfold Gen.k4_pay1 Gen.k4_pay3 Gen.k4_pay7
  simp only [shapeCast_self, addf_apply, shapeCast_a_1a_apply]
  refine (congrArg (acc (ix2 (0 : Fin 1) q) + ·) (colsum_apply _ _ _ q)).trans ?_
  simp only [mulf_apply]

theorem zeroSum_apply (q : Fin 256) : zeroSum (F := Ideal) (ix2 (0 : Fin 1) q) = 0 := by
  dsimp only [zeroSum]
  unfold Gen.k4_pay4
  simp only [broadcast_apply]
  exact Ideal.ofBits_zero_f32

theorem zeroSq_apply (q : Fin 256) : zeroSq (F := Ideal) (ix2 (0 : Fin 1) q) = 0 := by
  dsimp only [zeroSq]
  unfold Gen.k4_pay5
  simp only [broadcast_apply]
  exact Ideal.ofBits_zero_f32

/-! ## The blocks of a point -/

variable (V : (c : Dev nD) → (b : Ref sig .tc) → Buf (Elt Ideal) ((c : Thread nD τ).loc b))

theorem idx_0 : ∀ t : Fin cfg4.N, win4_0.index t (0 : Fin 2) = t.val ∧ win4_0.index t (1 : Fin 2) = 0 :=
  (by decide +kernel : ∀ t : Fin grid4.N, _)
theorem idx_1 : ∀ t : Fin cfg4.N, win4_1.index t (0 : Fin 2) = t.val ∧ win4_1.index t (1 : Fin 2) = 0 :=
  (by decide +kernel : ∀ t : Fin grid4.N, _)
theorem idx_5 : ∀ t : Fin cfg4.N, win4_5.index t (0 : Fin 2) = t.val ∧ win4_5.index t (1 : Fin 2) = 0 :=
  (by decide +kernel : ∀ t : Fin grid4.N, _)
theorem idx_2 : ∀ t : Fin cfg4.N, win4_2.index t (0 : Fin 2) = 0 ∧ win4_2.index t (1 : Fin 2) = 0 :=
  (by decide +kernel : ∀ t : Fin grid4.N, _)
theorem idx_3 : ∀ t : Fin cfg4.N, win4_3.index t (0 : Fin 2) = 0 ∧ win4_3.index t (1 : Fin 2) = 0 :=
  (by decide +kernel : ∀ t : Fin grid4.N, _)
theorem idx_4 : ∀ t : Fin cfg4.N, win4_4.index t (0 : Fin 2) = 0 ∧ win4_4.index t (1 : Fin 2) = 0 :=
  (by decide +kernel : ∀ t : Fin grid4.N, _)
theorem idx_6 : ∀ t : Fin cfg4.N, win4_6.index t (0 : Fin 2) = 0 ∧ win4_6.index t (1 : Fin 2) = 0 :=
  (by decide +kernel : ∀ t : Fin grid4.N, _)
theorem idx_7 : ∀ t : Fin cfg4.N, win4_7.index t (0 : Fin 2) = 0 ∧ win4_7.index t (1 : Fin 2) = 0 :=
  (by decide +kernel : ∀ t : Fin grid4.N, _)

/-- The row of the [100000, ·] arrays that row `p` of block `t` is. -/
def rowOf (t : Fin cfg4.N) (p : Fin 2000) : Fin 100000 :=
  ⟨2000 * t.val + p.val, by have := t.isLt; have hN : cfg4.N = 50 := N_4; have := p.isLt; omega⟩

theorem iblk_0 (c : Dev nD) (t : Fin cfg4.N) (p : Fin 2000) (k : Fin 128) :
    iblk4 V c 0 t (ix2 p k) = V c (Pipeline.arrRef spec4 0) (ix2 (rowOf t p) k) := by
  obtain ⟨e0, e1⟩ := idx_0 t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * k.val = k.val; omega

theorem iblk_1 (c : Dev nD) (t : Fin cfg4.N) (p : Fin 2000) (k : Fin 128) :
    iblk4 V c 1 t (ix2 p k) = V c (Pipeline.arrRef spec4 1) (ix2 (rowOf t p) k) := by
  obtain ⟨e0, e1⟩ := idx_1 t
  show V c (Pipeline.arrRef spec4 1) (((cfg4.win 1).blk t).view.emb (ix2 p k)) = _
  refine congrArg (V c (Pipeline.arrRef spec4 1)) (funext fun a => Fin.ext ?_)
  match a with
  | ⟨0, _⟩ => show win4_1.index t (0 : Fin 2) * 2000 + 1 * p.val = 2000 * t.val + p.val; omega
  | ⟨1, _⟩ => show win4_1.index t (1 : Fin 2) * 128 + 1 * k.val = k.val; omega

theorem iblk_2 (c : Dev nD) (t : Fin cfg4.N) (k : S128x256.Idx) :
    iblk4 V c 2 t k = V c (Pipeline.arrRef spec4 2) k := by
  obtain ⟨e0, e1⟩ := idx_2 t
  show V c (Pipeline.arrRef spec4 2) (((cfg4.win 2).blk t).view.emb k) = _
  refine congrArg (V c (Pipeline.arrRef spec4 2)) (funext fun a => Fin.ext ?_)
  match a with
  | ⟨0, _⟩ => show win4_2.index t (0 : Fin 2) * 128 + 1 * (k 0).val = (k 0).val; omega
  | ⟨1, _⟩ => show win4_2.index t (1 : Fin 2) * 256 + 1 * (k 1).val = (k 1).val; omega

theorem iblk_3 (c : Dev nD) (t : Fin cfg4.N) (k : S128x256.Idx) :
    iblk4 V c 3 t k = V c (Pipeline.arrRef spec4 3) k := by
  obtain ⟨e0, e1⟩ := idx_3 t
  show V c (Pipeline.arrRef spec4 3) (((cfg4.win 3).blk t).view.emb k) = _
  refine congrArg (V c (Pipeline.arrRef spec4 3)) (funext fun a => Fin.ext ?_)
  match a with
  | ⟨0, _⟩ => show win4_3.index t (0 : Fin 2) * 128 + 1 * (k 0).val = (k 0).val; omega
  | ⟨1, _⟩ => show win4_3.index t (1 : Fin 2) * 256 + 1 * (k 1).val = (k 1).val; omega

theorem iblk_4 (c : Dev nD) (t : Fin cfg4.N) (k : S1x256.Idx) :
    iblk4 V c 4 t k = V c (Pipeline.arrRef spec4 4) k := by
  obtain ⟨e0, e1⟩ := idx_4 t
  show V c (Pipeline.arrRef spec4 4) (((cfg4.win 4).blk t).view.emb k) = _
  refine congrArg (V c (Pipeline.arrRef spec4 4)) (funext fun a => Fin.ext ?_)
  match a with
  | ⟨0, _⟩ => show win4_4.index t (0 : Fin 2) * 1 + 1 * (k 0).val = (k 0).val; omega
  | ⟨1, _⟩ => show win4_4.index t (1 : Fin 2) * 256 + 1 * (k 1).val = (k 1).val; omega

/-- The linear block of point `t` at (p, q) is the whole-array linear function at row 2000·t + p, column q. -/
theorem linBlk_apply (c : Dev nD) (t : Fin cfg4.N) (p : Fin 2000) (q : Fin 256) :
    linBlk V c t (ix2 p q) = lin256At (V c (Pipeline.arrRef spec4 0)) (V c (Pipeline.arrRef spec4 1)) (V c (Pipeline.arrRef spec4 2)) (V c (Pipeline.arrRef spec4 3)) (V c (Pipeline.arrRef spec4 4)) (rowOf t p) q := by
  show linPay _ _ _ _ _ (ix2 p q) = _
  rw [lin_apply]
  simp only [iblk_0, iblk_1, iblk_2, iblk_3, iblk_4]
  rfl

/-! ## The linear array -/

theorem emb5 (t : Fin cfg4.N) (p : Fin 2000) (q : Fin 256) :
    ((cfg4.win 5).blk t).view.emb (ix2 p q) = ix2 (rowOf t p) q := by
  obtain ⟨e0, e1⟩ := idx_5 t
  funext a; apply Fin.ext
  match a with
  | ⟨0, _⟩ => show win4_5.index t (0 : Fin 2) * 2000 + 1 * p.val = 2000 * t.val + p.val; omega
  | ⟨1, _⟩ => show win4_5.index t (1 : Fin 2) * 256 + 1 * q.val = q.val; omega

theorem cut_apply5 (t : Fin cfg4.N) (X : S2000x256.Idx → EReal) (y : S2000x256.Idx) :
    (cfg4.win 5).cut (grid4.coords t) X y = X y := rfl
theorem read_blk5 (t : Fin cfg4.N) (G : S100000x256.Idx → EReal) (y : S2000x256.Idx) :
    ((cfg4.win 5).blk t).view.read (Elt Ideal) G y = G (((cfg4.win 5).blk t).view.emb y) := rfl

/-- What point `t` writes back is block `t` of the whole-array linear function of the five arrays as the launch finds them. -/
theorem flushed5_eq (c : Dev nD) (t : Fin cfg4.N) :
    (dat4 V c).flushed 5 t = ((cfg4.win 5).blk t).view.read (Elt Ideal) (lin256 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5, outsAt_eq]
  funext y
  obtain ⟨p, q, rfl⟩ : ∃ (p : Fin 2000) (q : Fin 256), y = ix2 p q := ⟨y 0, y 1, eq_ix2 y⟩
  rw [cut_apply5, read_blk5, emb5]
  exact linBlk_apply V c t p q

theorem mem_blk5 (t : Fin cfg4.N) (i : S100000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v57_0).slice (win4_5.rect t)).set ↔ _
  rw [View.set_slice_whole, Rect.mem_set_unit]
  exact Iff.rfl

theorem cover5 (i : S100000x256.Idx) :
    ∃ t : Fin cfg4.N, (cfg4.win 5).flush t = true ∧ i ∈ ((cfg4.win 5).blk t).view.set := by
  have hi0 : (i 0).val < 100000 := (i 0).isLt
  have hi1 : (i 1).val < 256 := (i 1).isLt
  have hlt : (i 0).val / 2000 < cfg4.N := by
    show (i 0).val / 2000 < grid4.N
    rw [N_4]; omega
  obtain ⟨e0, e1⟩ := idx_5 ⟨(i 0).val / 2000, hlt⟩
  have e0' : win4_5.index ⟨(i 0).val / 2000, hlt⟩ (0 : Fin 2) = (i 0).val / 2000 := e0
  refine ⟨⟨(i 0).val / 2000, hlt⟩, flush4_5 _, ?_⟩
  rw [mem_blk5]
  intro a
  match a with
  | ⟨0, _⟩ =>
    show win4_5.index ⟨(i 0).val / 2000, hlt⟩ (0 : Fin 2) * 2000 ≤ (i 0).val
      ∧ (i 0).val < win4_5.index ⟨(i 0).val / 2000, hlt⟩ (0 : Fin 2) * 2000 + 2000
    rw [e0']; omega
  | ⟨1, _⟩ =>
    show win4_5.index ⟨(i 0).val / 2000, hlt⟩ (1 : Fin 2) * 256 ≤ (i 1).val
      ∧ (i 1).val < win4_5.index ⟨(i 0).val / 2000, hlt⟩ (1 : Fin 2) * 256 + 256
    rw [e1]; omega

/-- THE LINEAR ARRAY after the launch is the whole-array linear function of the five arrays the launch found. -/
theorem final5 (c : Dev nD) : (dat4 V c).arrAt 5 cfg4.N = lin256 (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 _ (fun t _ => flushed5_eq V c t) cover5

/-! ## The two carried rows -/

theorem h49 : 49 < cfg4.N := by rw [show cfg4.N = 50 from N_4]; decide
abbrev t49 : Fin cfg4.N := ⟨49, h49⟩

theorem cut_apply6 (t : Fin cfg4.N) (X : S1x256.Idx → EReal) (y : S1x256.Idx) :
    (cfg4.win 6).cut (grid4.coords t) X y = X y := rfl
theorem read_blk6 (t : Fin cfg4.N) (G : S1x256.Idx → EReal) (y : S1x256.Idx) :
    ((cfg4.win 6).blk t).view.read (Elt Ideal) G y = G (((cfg4.win 6).blk t).view.emb y) := rfl

/-- The last point's write-back of the carried row writes the running row after the last point. -/
theorem flushed6_eq (c : Dev nD) (t : Fin cfg4.N) (hf : (cfg4.win 6).flush t = true) :
    (dat4 V c).flushed 6 t = ((cfg4.win 6).blk t).view.read (Elt Ideal) (accSum V c 49 h49) := by
  have hN : cfg4.N = 50 := N_4
  have h : t.val = 49 := by have := (flush4_6 t).mp hf; have := t.isLt; omega
  obtain rfl : t = t49 := Fin.ext h
  show (cfg4.win 6).cut (grid4.coords t49) ((dat4 V c).after 6 t49) = _
  rw [after4_6, outsAt_eq]
  funext y
  rw [cut_apply6, read_blk6]
  obtain ⟨e0, e1⟩ := idx_6 t49
  refine congrArg (accSum V c 49 h49) (funext fun a => Fin.ext ?_)
  match a with
  | ⟨0, _⟩ => show (y 0).val = win4_6.index t49 (0 : Fin 2) * 1 + 1 * (y 0).val; omega
  | ⟨1, _⟩ => show (y 1).val = win4_6.index t49 (1 : Fin 2) * 256 + 1 * (y 1).val; omega

theorem mem_blk6 (t : Fin cfg4.N) (i : S1x256.Idx) :
    i ∈ ((cfg4.win 6).blk t).view.set ↔ ∀ a : Fin 2, win4_6.index t a * S1x256.size a ≤ (i a).val
      ∧ (i a).val < win4_6.index t a * S1x256.size a + S1x256.size a := by
  show i ∈ ((View.whole main_v57_1).slice (win4_6.rect t)).set ↔ _
  rw [View.set_slice_whole, Rect.mem_set_unit]
  exact Iff.rfl

/-- The carried row's array after the launch is the running row after the last point. -/
theorem final6_acc (c : Dev nD) : (dat4 V c).arrAt 6 cfg4.N = accSum V c 49 h49 :=
  (dat4 V c).arrAt_eq_of_cover 6 _ (flushed6_eq V c) fun i => ⟨t49, (flush4_6 t49).mpr rfl, by
    rw [mem_blk6]
    obtain ⟨e0, e1⟩ := idx_6 t49
    have h0 : (i 0).val < 1 := (i 0).isLt
    have h1 : (i 1).val < 256 := (i 1).isLt
    intro a
    match a with
    | ⟨0, _⟩ => show win4_6.index t49 (0 : Fin 2) * 1 ≤ (i 0).val ∧ (i 0).val < win4_6.index t49 (0 : Fin 2) * 1 + 1; omega
    | ⟨1, _⟩ => show win4_6.index t49 (1 : Fin 2) * 256 ≤ (i 1).val ∧ (i 1).val < win4_6.index t49 (1 : Fin 2) * 256 + 256; omega⟩

theorem cut_apply7 (t : Fin cfg4.N) (X : S1x256.Idx → EReal) (y : S1x256.Idx) :
    (cfg4.win 7).cut (grid4.coords t) X y = X y := rfl
theorem read_blk7 (t : Fin cfg4.N) (G : S1x256.Idx → EReal) (y : S1x256.Idx) :
    ((cfg4.win 7).blk t).view.read (Elt Ideal) G y = G (((cfg4.win 7).blk t).view.emb y) := rfl

/-- The last point's write-back of the carried row writes the running row after the last point. -/
theorem flushed7_eq (c : Dev nD) (t : Fin cfg4.N) (hf : (cfg4.win 7).flush t = true) :
    (dat4 V c).flushed 7 t = ((cfg4.win 7).blk t).view.read (Elt Ideal) (accSq V c 49 h49) := by
  have hN : cfg4.N = 50 := N_4
  have h : t.val = 49 := by have := (flush4_7 t).mp hf; have := t.isLt; omega
  obtain rfl : t = t49 := Fin.ext h
  show (cfg4.win 7).cut (grid4.coords t49) ((dat4 V c).after 7 t49) = _
  rw [after4_7, outsAt_eq]
  funext y
  rw [cut_apply7, read_blk7]
  obtain ⟨e0, e1⟩ := idx_7 t49
  refine congrArg (accSq V c 49 h49) (funext fun a => Fin.ext ?_)
  match a with
  | ⟨0, _⟩ => show (y 0).val = win4_7.index t49 (0 : Fin 2) * 1 + 1 * (y 0).val; omega
  | ⟨1, _⟩ => show (y 1).val = win4_7.index t49 (1 : Fin 2) * 256 + 1 * (y 1).val; omega

theorem mem_blk7 (t : Fin cfg4.N) (i : S1x256.Idx) :
    i ∈ ((cfg4.win 7).blk t).view.set ↔ ∀ a : Fin 2, win4_7.index t a * S1x256.size a ≤ (i a).val
      ∧ (i a).val < win4_7.index t a * S1x256.size a + S1x256.size a := by
  show i ∈ ((View.whole main_v57_2).slice (win4_7.rect t)).set ↔ _
  rw [View.set_slice_whole, Rect.mem_set_unit]
  exact Iff.rfl

/-- The carried row's array after the launch is the running row after the last point. -/
theorem final7_acc (c : Dev nD) : (dat4 V c).arrAt 7 cfg4.N = accSq V c 49 h49 :=
  (dat4 V c).arrAt_eq_of_cover 7 _ (flushed7_eq V c) fun i => ⟨t49, (flush4_7 t49).mpr rfl, by
    rw [mem_blk7]
    obtain ⟨e0, e1⟩ := idx_7 t49
    have h0 : (i 0).val < 1 := (i 0).isLt
    have h1 : (i 1).val < 256 := (i 1).isLt
    intro a
    match a with
    | ⟨0, _⟩ => show win4_7.index t49 (0 : Fin 2) * 1 ≤ (i 0).val ∧ (i 0).val < win4_7.index t49 (0 : Fin 2) * 1 + 1; omega
    | ⟨1, _⟩ => show win4_7.index t49 (1 : Fin 2) * 256 ≤ (i 1).val ∧ (i 1).val < win4_7.index t49 (1 : Fin 2) * 256 + 256; omega⟩

/-! ## The carried rows are the column sums over all rows -/

/-- Block `t`'s contribution to column `q`'s running sum. -/
def blkSum (c : Dev nD) (q : Fin 256) (t : ℕ) : EReal :=
  if h : t < cfg4.N then ∑ p : Fin 2000, linBlk V c ⟨t, h⟩ (ix2 p q) else 0

/-- Column `q` of the carried row after `n` points (zero before the first). -/
def seqSum (c : Dev nD) (q : Fin 256) : ℕ → EReal
  | 0 => 0
  | n + 1 => if h : n < cfg4.N then accSum V c n h (ix2 (0 : Fin 1) q) else 0

theorem seqSum_eq_acc (c : Dev nD) (q : Fin 256) : ∀ n, n ≤ cfg4.N → seqSum V c q n = acc (blkSum V c q) n :=
  eq_acc_of_step cfg4.N _ _ rfl fun t ht => by
    show (if h : t < cfg4.N then accSum V c t h (ix2 (0 : Fin 1) q) else 0) = seqSum V c q t + blkSum V c q t
    rw [dif_pos ht]
    unfold blkSum
    rw [dif_pos ht]
    cases t with
    | zero =>
      rw [accSum_zero, sum_apply, zeroSum_apply]
      all_goals rfl
    | succ n =>
      have hn : n < cfg4.N := Nat.lt_of_succ_lt ht
      show _ = (if h : n < cfg4.N then accSum V c n h (ix2 (0 : Fin 1) q) else 0) + _
      rw [dif_pos hn, accSum_succ, sum_apply]
      all_goals rfl

/-- After the last point, column `q` of the carried row is the column's sum over all 100000 rows of the linear array. -/
theorem accSum_last (c : Dev nD) (q : Fin 256) :
    accSum V c 49 h49 (ix2 (0 : Fin 1) q)
      = ∑ r : Fin 100000, lin256At (V c (Pipeline.arrRef spec4 0)) (V c (Pipeline.arrRef spec4 1)) (V c (Pipeline.arrRef spec4 2)) (V c (Pipeline.arrRef spec4 3)) (V c (Pipeline.arrRef spec4 4)) r q := by
  have hN : cfg4.N = 50 := N_4
  have h1 := seqSum_eq_acc V c q 50 (by omega)
  have h2 : seqSum V c q 50 = accSum V c 49 h49 (ix2 (0 : Fin 1) q) := by
    show (if h : 49 < cfg4.N then accSum V c 49 h (ix2 (0 : Fin 1) q) else 0) = _
    rw [dif_pos h49]
  rw [← h2, h1, acc_eq_sum]
  have key := sum_tile 50 2000 (fun r : Fin 100000 => lin256At (V c (Pipeline.arrRef spec4 0)) (V c (Pipeline.arrRef spec4 1)) (V c (Pipeline.arrRef spec4 2)) (V c (Pipeline.arrRef spec4 3)) (V c (Pipeline.arrRef spec4 4)) r q)
  refine Eq.trans ?_ key
  refine Finset.sum_congr rfl fun t _ => ?_
  have ht : t.val < cfg4.N := by have := t.isLt; omega
  unfold blkSum
  rw [dif_pos ht]
  refine Finset.sum_congr rfl fun p _ => ?_
  rw [linBlk_apply]
  rfl

/-- Block `t`'s contribution to column `q`'s running sum of squares. -/
def blkSq (c : Dev nD) (q : Fin 256) (t : ℕ) : EReal :=
  if h : t < cfg4.N then ∑ p : Fin 2000, linBlk V c ⟨t, h⟩ (ix2 p q) * linBlk V c ⟨t, h⟩ (ix2 p q) else 0

/-- Column `q` of the carried row after `n` points (zero before the first). -/
def seqSq (c : Dev nD) (q : Fin 256) : ℕ → EReal
  | 0 => 0
  | n + 1 => if h : n < cfg4.N then accSq V c n h (ix2 (0 : Fin 1) q) else 0

theorem seqSq_eq_acc (c : Dev nD) (q : Fin 256) : ∀ n, n ≤ cfg4.N → seqSq V c q n = acc (blkSq V c q) n :=
  eq_acc_of_step cfg4.N _ _ rfl fun t ht => by
    show (if h : t < cfg4.N then accSq V c t h (ix2 (0 : Fin 1) q) else 0) = seqSq V c q t + blkSq V c q t
    rw [dif_pos ht]
    unfold blkSq
    rw [dif_pos ht]
    cases t with
    | zero =>
      rw [accSq_zero, sq_apply, zeroSq_apply]
      all_goals rfl
    | succ n =>
      have hn : n < cfg4.N := Nat.lt_of_succ_lt ht
      show _ = (if h : n < cfg4.N then accSq V c n h (ix2 (0 : Fin 1) q) else 0) + _
      rw [dif_pos hn, accSq_succ, sq_apply]
      all_goals rfl

/-- After the last point, column `q` of the carried row is the column's sum of squares over all 100000 rows of the linear array. -/
theorem accSq_last (c : Dev nD) (q : Fin 256) :
    accSq V c 49 h49 (ix2 (0 : Fin 1) q)
      = ∑ r : Fin 100000, lin256At (V c (Pipeline.arrRef spec4 0)) (V c (Pipeline.arrRef spec4 1)) (V c (Pipeline.arrRef spec4 2)) (V c (Pipeline.arrRef spec4 3)) (V c (Pipeline.arrRef spec4 4)) r q * lin256At (V c (Pipeline.arrRef spec4 0)) (V c (Pipeline.arrRef spec4 1)) (V c (Pipeline.arrRef spec4 2)) (V c (Pipeline.arrRef spec4 3)) (V c (Pipeline.arrRef spec4 4)) r q := by
  have hN : cfg4.N = 50 := N_4
  have h1 := seqSq_eq_acc V c q 50 (by omega)
  have h2 : seqSq V c q 50 = accSq V c 49 h49 (ix2 (0 : Fin 1) q) := by
    show (if h : 49 < cfg4.N then accSq V c 49 h (ix2 (0 : Fin 1) q) else 0) = _
    rw [dif_pos h49]
  rw [← h2, h1, acc_eq_sum]
  have key := sum_tile 50 2000 (fun r : Fin 100000 => lin256At (V c (Pipeline.arrRef spec4 0)) (V c (Pipeline.arrRef spec4 1)) (V c (Pipeline.arrRef spec4 2)) (V c (Pipeline.arrRef spec4 3)) (V c (Pipeline.arrRef spec4 4)) r q * lin256At (V c (Pipeline.arrRef spec4 0)) (V c (Pipeline.arrRef spec4 1)) (V c (Pipeline.arrRef spec4 2)) (V c (Pipeline.arrRef spec4 3)) (V c (Pipeline.arrRef spec4 4)) r q)
  refine Eq.trans ?_ key
  refine Finset.sum_congr rfl fun t _ => ?_
  have ht : t.val < cfg4.N := by have := t.isLt; omega
  unfold blkSq
  rw [dif_pos ht]
  refine Finset.sum_congr rfl fun p _ => ?_
  rw [linBlk_apply]
  rfl

/-- THE ROW OF COLUMN SUMS after the launch. -/
theorem final6 (c : Dev nD) : (dat4 V c).arrAt 6 cfg4.N = colSum256 (lin256 (V c (Pipeline.arrRef spec4 0)) (V c (Pipeline.arrRef spec4 1)) (V c (Pipeline.arrRef spec4 2)) (V c (Pipeline.arrRef spec4 3)) (V c (Pipeline.arrRef spec4 4))) := by
  rw [final6_acc]
  funext k
  obtain ⟨u, q, rfl⟩ : ∃ (u : Fin 1) (q : Fin 256), k = ix2 u q := ⟨k 0, k 1, eq_ix2 k⟩
  obtain rfl : u = 0 := Subsingleton.elim _ _
  rw [accSum_last]
  rfl

/-- THE ROW OF COLUMN SUMS OF SQUARES after the launch. -/
theorem final7 (c : Dev nD) : (dat4 V c).arrAt 7 cfg4.N = colSq256 (lin256 (V c (Pipeline.arrRef spec4 0)) (V c (Pipeline.arrRef spec4 1)) (V c (Pipeline.arrRef spec4 2)) (V c (Pipeline.arrRef spec4 3)) (V c (Pipeline.arrRef spec4 4))) := by
  rw [final7_acc]
  funext k
  obtain ⟨u, q, rfl⟩ : ∃ (u : Fin 1) (q : Fin 256), k = ix2 u q := ⟨k 0, k 1, eq_ix2 k⟩
  obtain rfl : u = 0 := Subsingleton.elim _ _
  rw [accSq_last]
  rfl

end Cert.KernelIdeal.KLin4V

end
-- ==== Proof.KBnRelu1.lean ====
/- The first normalise-and-rectify launch of the program, read as a function of whole arrays.
   The launch walks a grid of 50 points; point t holds rows 2000·t … 2000·t + 1999 of the [100000, 64] input and
   writes the same rows of the [100000, 64] output, while the four [1, 64] column statistics stay whole at every
   point. Each entry of an output block depends only on the input entry at the same place and on the four
   statistics of its column, so the blocks are restrictions of one function of the five arrays, and since the
   50 blocks tile the output, the output array ends equal to that function. -/
import proofs.«115009_j15960098472830_1_alg».proof.Proof.Gen.KernelIdeal.Frame
import proofs.«115009_j15960098472830_1_alg».proof.Proof.KSpecBn
import Idealize.ShloMosaic.Lib.Pipeline.Value
import Idealize.ShloMosaic.Lib.ValueLayout

noncomputable section

namespace Cert.KernelIdeal.KBn1

open Cert.KernelIdeal Cert.KernelIdeal.Gen Cert.KernelIdeal.KSpecBn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One entry of a block -/

/-- The zero offset of a whole-buffer access, as a constant function. -/
theorem hz : (![0, 0] : Fin 2 → Nat) = fun _ => 0 := funext fun a => by fin_cases a <;> rfl

/-- The vector reciprocal square root at an index is the scalar one of the element there. -/
theorem rsqrt_apply {s : Shape} {φ : FTy} (a : FVec Ideal s φ) (i : s.Idx) :
    Idealize.ShloMosaic.rsqrt a i = Ideal.rsqrt (a i) := rfl

/-- The body's arithmetic at row p, column q of a block: the pointwise operations read at the entry, each
    [1, 64] operand broadcast over the rows read at row 0 of the same column. -/
theorem pay_apply (x0 : Vec Ideal S2000x64 .f32) (x1 x2 x3 x4 : Vec Ideal S1x64 .f32) (p : Fin 2000) (q : Fin 64) :
    Gen.k1_pay1 x0 x1 x2 x3 x4 (ix2 p q)
      = max ((x0 (ix2 p q) - x1 (ix2 (0 : Fin 1) q))
              * Ideal.rsqrt (x2 (ix2 (0 : Fin 1) q) + Ideal.ofBits .f32 0x3727C5AC#32)
              * x3 (ix2 (0 : Fin 1) q)
            + x4 (ix2 (0 : Fin 1) q))
          (Ideal.ofBits .f32 0x00000000#32) := by
  unfold Gen.k1_pay1
  simp only [shapeCast_self, maximumf_apply, addf_apply, mulf_apply, subf_apply, broadcast_apply,
    broadcastTo_1b_ab_apply, rsqrt_apply]
  rfl

/-- An entry of the body's result is the whole-array function at the array index `i` that the entry lands on,
    as soon as the row block `x0` holds at `y` what the input array holds at `i`, `i` and `y` are in the same
    column, and the four resident blocks are the four statistics arrays. -/
theorem point_eq (x0 : Vec Ideal S2000x64 .f32) (x1 x2 x3 x4 : Vec Ideal S1x64 .f32)
    (a0 : S100000x64.Idx → EReal) (a1 a2 a3 a4 : S1x64.Idx → EReal)
    (y : S2000x64.Idx) (i : S100000x64.Idx)
    (h0 : x0 y = a0 i) (hcol : (i 1).val = (y 1).val)
    (h1 : ∀ k : S1x64.Idx, x1 k = a1 k) (h2 : ∀ k : S1x64.Idx, x2 k = a2 k)
    (h3 : ∀ k : S1x64.Idx, x3 k = a3 k) (h4 : ∀ k : S1x64.Idx, x4 k = a4 k) :
    Gen.k1_pay1 x0 x1 x2 x3 x4 y = bnRelu64 a0 a1 a2 a3 a4 i := by
  obtain ⟨p, q, rfl⟩ : ∃ (p : Fin 2000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hcol
  rw [pay_apply, bnRelu64_ix2, h0, h1, h2, h3, h4]
  rfl

/-! ## The blocks of a point

The printed index maps, decided over the 50 points: the input's and the output's row blocks sit at block row t,
block column 0; the four statistics stay at block (0, 0). -/

theorem idx_0 : ∀ t : Fin cfg1.N, win1_0.index t (0 : Fin 2) = t.val ∧ win1_0.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)
theorem idx_1 : ∀ t : Fin cfg1.N, win1_1.index t (0 : Fin 2) = 0 ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)

/-- The input's block at point `t`, read at `y`, is the input array at the place the output block's entry `y` lands on. -/
theorem iblk_0 (c : Dev nD) (t : Fin cfg1.N) (y : S2000x64.Idx) :
    Gen.iblk1 V c 0 t y = V c (Pipeline.arrRef spec1 0) (((cfg1.win 5).blk t).view.emb y) := by
  obtain ⟨e00, e01⟩ := idx_0 t
  obtain ⟨e50, e51⟩ := idx_5 t
  show V c (Pipeline.arrRef spec1 0) (((cfg1.win 0).blk t).view.emb y) = _
  refine congrArg (V c (Pipeline.arrRef spec1 0)) (funext fun a => Fin.ext ?_)
  match a with
  | ⟨0, _⟩ => show win1_0.index t (0 : Fin 2) * 2000 + 1 * (y 0).val = win1_5.index t (0 : Fin 2) * 2000 + 1 * (y 0).val; omega
  | ⟨1, _⟩ => show win1_0.index t (1 : Fin 2) * 64 + 1 * (y 1).val = win1_5.index t (1 : Fin 2) * 64 + 1 * (y 1).val; omega

/-- An entry of the output block lands in its own column of the output array. -/
theorem emb_col (t : Fin cfg1.N) (y : S2000x64.Idx) : ((((cfg1.win 5).blk t).view.emb y) 1).val = (y 1).val := by
  obtain ⟨e50, e51⟩ := idx_5 t
  show win1_5.index t (1 : Fin 2) * 64 + 1 * (y 1).val = (y 1).val; omega

/-- Resident window 1's block at any point is its whole array. -/
theorem iblk_1 (c : Dev nD) (t : Fin cfg1.N) (k : S1x64.Idx) :
    Gen.iblk1 V c 1 t k = V c (Pipeline.arrRef spec1 1) k := by
  obtain ⟨e0, e1⟩ := idx_1 t
  show V c (Pipeline.arrRef spec1 1) (((cfg1.win 1).blk t).view.emb k) = _
  refine congrArg (V c (Pipeline.arrRef spec1 1)) (funext fun a => Fin.ext ?_)
  match a with
  | ⟨0, _⟩ => show win1_1.index t (0 : Fin 2) * 1 + 1 * (k 0).val = (k 0).val; omega
  | ⟨1, _⟩ => show win1_1.index t (1 : Fin 2) * 64 + 1 * (k 1).val = (k 1).val; omega

/-- Resident window 2's block at any point is its whole array. -/
theorem iblk_2 (c : Dev nD) (t : Fin cfg1.N) (k : S1x64.Idx) :
    Gen.iblk1 V c 2 t k = V c (Pipeline.arrRef spec1 2) k := by
  obtain ⟨e0, e1⟩ := idx_2 t
  show V c (Pipeline.arrRef spec1 2) (((cfg1.win 2).blk t).view.emb k) = _
  refine congrArg (V c (Pipeline.arrRef spec1 2)) (funext fun a => Fin.ext ?_)
  match a with
  | ⟨0, _⟩ => show win1_2.index t (0 : Fin 2) * 1 + 1 * (k 0).val = (k 0).val; omega
  | ⟨1, _⟩ => show win1_2.index t (1 : Fin 2) * 64 + 1 * (k 1).val = (k 1).val; omega

/-- Resident window 3's block at any point is its whole array. -/
theorem iblk_3 (c : Dev nD) (t : Fin cfg1.N) (k : S1x64.Idx) :
    Gen.iblk1 V c 3 t k = V c (Pipeline.arrRef spec1 3) k := by
  obtain ⟨e0, e1⟩ := idx_3 t
  show V c (Pipeline.arrRef spec1 3) (((cfg1.win 3).blk t).view.emb k) = _
  refine congrArg (V c (Pipeline.arrRef spec1 3)) (funext fun a => Fin.ext ?_)
  match a with
  | ⟨0, _⟩ => show win1_3.index t (0 : Fin 2) * 1 + 1 * (k 0).val = (k 0).val; omega
  | ⟨1, _⟩ => show win1_3.index t (1 : Fin 2) * 64 + 1 * (k 1).val = (k 1).val; omega

/-- Resident window 4's block at any point is its whole array. -/
theorem iblk_4 (c : Dev nD) (t : Fin cfg1.N) (k : S1x64.Idx) :
    Gen.iblk1 V c 4 t k = V c (Pipeline.arrRef spec1 4) k := by
  obtain ⟨e0, e1⟩ := idx_4 t
  show V c (Pipeline.arrRef spec1 4) (((cfg1.win 4).blk t).view.emb k) = _
  refine congrArg (V c (Pipeline.arrRef spec1 4)) (funext fun a => Fin.ext ?_)
  match a with
  | ⟨0, _⟩ => show win1_4.index t (0 : Fin 2) * 1 + 1 * (k 0).val = (k 0).val; omega
  | ⟨1, _⟩ => show win1_4.index t (1 : Fin 2) * 64 + 1 * (k 1).val = (k 1).val; omega

/-- WHAT POINT `t` WRITES BACK is block `t` of the whole-array function of the five arrays as the launch finds them. -/
theorem flushed_eq (c : Dev nD) (t : Fin cfg1.N) :
    (Gen.dat1 V c).flushed 5 t = ((cfg1.win 5).blk t).view.read (Elt Ideal)
      (bnRelu64 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((Gen.dat1 V c).after 5 t) = _
  rw [Gen.after1_5]
  unfold Gen.out1_5
  rw [View.canon_unit_zero hz]
  simp only [View.ld_unit_zero (S := S2000x64) hz, View.ld_unit_zero (S := S1x64) hz]
  funext y
  exact point_eq (Gen.iblk1 V c 0 t) (Gen.iblk1 V c 1 t) (Gen.iblk1 V c 2 t) (Gen.iblk1 V c 3 t) (Gen.iblk1 V c 4 t)
    (V c (Pipeline.arrRef spec1 0)) (V c (Pipeline.arrRef spec1 1)) (V c (Pipeline.arrRef spec1 2))
    (V c (Pipeline.arrRef spec1 3)) (V c (Pipeline.arrRef spec1 4))
    y (((cfg1.win 5).blk t).view.emb y) (iblk_0 V c t y) (emb_col t y)
    (iblk_1 V c t) (iblk_2 V c t) (iblk_3 V c t) (iblk_4 V c t)

/-! ## The blocks tile the output -/

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v24).slice (win1_5.rect t)).set ↔ _
  rw [View.set_slice_whole, Rect.mem_set_unit]
  exact Iff.rfl

/-- Every index of the output array is in the block of the point numbered by its row divided by 2000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 2000 < cfg1.N := by
    show (i 0).val / 2000 < grid1.N
    rw [Gen.N_1]; omega
  obtain ⟨e50, e51⟩ := idx_5 ⟨(i 0).val / 2000, hlt⟩
  have e50' : win1_5.index ⟨(i 0).val / 2000, hlt⟩ (0 : Fin 2) = (i 0).val / 2000 := e50
  refine ⟨⟨(i 0).val / 2000, hlt⟩, Gen.flush1_5 _, ?_⟩
  rw [mem_blk]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e50']; omega
  | ⟨1, _⟩ =>
    show win1_5.index ⟨(i 0).val / 2000, hlt⟩ (1 : Fin 2) * 64 ≤ (i 1).val
      ∧ (i 1).val < win1_5.index ⟨(i 0).val / 2000, hlt⟩ (1 : Fin 2) * 64 + 64
    rw [e51]; omega

/-! ## The output array after the launch -/

/-- THE OUTPUT ARRAY after the launch's 50 points is the whole-array function of the five arrays the launch
    found, whatever those contents `V` are. -/
theorem final (c : Dev nD) :
    (Gen.dat1 V c).arrAt 5 cfg1.N
      = bnRelu64 (V c (Pipeline.arrRef spec1 0)) (V c (Pipeline.arrRef spec1 1)) (V c (Pipeline.arrRef spec1 2))
          (V c (Pipeline.arrRef spec1 3)) (V c (Pipeline.arrRef spec1 4)) :=
  (Gen.dat1 V c).arrAt_eq_of_cover 5 _ (fun t _ => flushed_eq V c t) cover

end Cert.KernelIdeal.KBn1

end
-- ==== Proof.KBnRelu3.lean ====
/- The second normalise-and-rectify launch of the program, read as a function of whole arrays.
   The launch walks a grid of 50 points; point t holds rows 2000·t … 2000·t + 1999 of the [100000, 128] input and
   writes the same rows of the [100000, 128] output, while the four [1, 128] column statistics stay whole at every
   point. Each entry of an output block depends only on the input entry at the same place and on the four
   statistics of its column, so the blocks are restrictions of one function of the five arrays, and since the
   50 blocks tile the output, the output array ends equal to that function. -/
import proofs.«115009_j15960098472830_1_alg».proof.Proof.Gen.KernelIdeal.Frame
import proofs.«115009_j15960098472830_1_alg».proof.Proof.KSpecBn
import Idealize.ShloMosaic.Lib.Pipeline.Value
import Idealize.ShloMosaic.Lib.ValueLayout

noncomputable section

namespace Cert.KernelIdeal.KBn3

open Cert.KernelIdeal Cert.KernelIdeal.Gen Cert.KernelIdeal.KSpecBn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One entry of a block -/

/-- The zero offset of a whole-buffer access, as a constant function. -/
theorem hz : (![0, 0] : Fin 2 → Nat) = fun _ => 0 := funext fun a => by fin_cases a <;> rfl

/-- The vector reciprocal square root at an index is the scalar one of the element there. -/
theorem rsqrt_apply {s : Shape} {φ : FTy} (a : FVec Ideal s φ) (i : s.Idx) :
    Idealize.ShloMosaic.rsqrt a i = Ideal.rsqrt (a i) := rfl

/-- The body's arithmetic at row p, column q of a block: the pointwise operations read at the entry, each
    [1, 128] operand broadcast over the rows read at row 0 of the same column. -/
theorem pay_apply (x0 : Vec Ideal S2000x128 .f32) (x1 x2 x3 x4 : Vec Ideal S1x128 .f32) (p : Fin 2000) (q : Fin 128) :
    Gen.k3_pay1 x0 x1 x2 x3 x4 (ix2 p q)
      = max ((x0 (ix2 p q) - x1 (ix2 (0 : Fin 1) q))
              * Ideal.rsqrt (x2 (ix2 (0 : Fin 1) q) + Ideal.ofBits .f32 0x3727C5AC#32)
              * x3 (ix2 (0 : Fin 1) q)
            + x4 (ix2 (0 : Fin 1) q))
          (Ideal.ofBits .f32 0x00000000#32) := by
  unfold Gen.k3_pay1
  simp only [shapeCast_self, maximumf_apply, addf_apply, mulf_apply, subf_apply, broadcast_apply,
    broadcastTo_1b_ab_apply, rsqrt_apply]
  rfl

/-- An entry of the body's result is the whole-array function at the array index `i` that the entry lands on,
    as soon as the row block `x0` holds at `y` what the input array holds at `i`, `i` and `y` are in the same
    column, and the four resident blocks are the four statistics arrays. -/
theorem point_eq (x0 : Vec Ideal S2000x128 .f32) (x1 x2 x3 x4 : Vec Ideal S1x128 .f32)
    (a0 : S100000x128.Idx → EReal) (a1 a2 a3 a4 : S1x128.Idx → EReal)
    (y : S2000x128.Idx) (i : S100000x128.Idx)
    (h0 : x0 y = a0 i) (hcol : (i 1).val = (y 1).val)
    (h1 : ∀ k : S1x128.Idx, x1 k = a1 k) (h2 : ∀ k : S1x128.Idx, x2 k = a2 k)
    (h3 : ∀ k : S1x128.Idx, x3 k = a3 k) (h4 : ∀ k : S1x128.Idx, x4 k = a4 k) :
    Gen.k3_pay1 x0 x1 x2 x3 x4 y = bnRelu128 a0 a1 a2 a3 a4 i := by
  obtain ⟨p, q, rfl⟩ : ∃ (p : Fin 2000) (q : Fin 128), y = ix2 p q := ⟨y 0, y 1, eq_ix2 y⟩
  obtain ⟨r, j, rfl⟩ : ∃ (r : Fin 100000) (j : Fin 128), i = ix2 r j := ⟨i 0, i 1, eq_ix2 i⟩
  obtain rfl : j = q := Fin.ext hcol
  rw [pay_apply, bnRelu128_ix2, h0, h1, h2, h3, h4]
  rfl

/-! ## The blocks of a point

The printed index maps, decided over the 50 points: the input's and the output's row blocks sit at block row t,
block column 0; the four statistics stay at block (0, 0). -/

theorem idx_0 : ∀ t : Fin cfg3.N, win3_0.index t (0 : Fin 2) = t.val ∧ win3_0.index t (1 : Fin 2) = 0 :=
  (by decide +kernel : ∀ t : Fin grid3.N, _)
theorem idx_5 : ∀ t : Fin cfg3.N, win3_5.index t (0 : Fin 2) = t.val ∧ win3_5.index t (1 : Fin 2) = 0 :=
  (by decide +kernel : ∀ t : Fin grid3.N, _)
theorem idx_1 : ∀ t : Fin cfg3.N, win3_1.index t (0 : Fin 2) = 0 ∧ win3_1.index t (1 : Fin 2) = 0 :=
  (by decide +kernel : ∀ t : Fin grid3.N, _)
theorem idx_2 : ∀ t : Fin cfg3.N, win3_2.index t (0 : Fin 2) = 0 ∧ win3_2.index t (1 : Fin 2) = 0 :=
  (by decide +kernel : ∀ t : Fin grid3.N, _)
theorem idx_3 : ∀ t : Fin cfg3.N, win3_3.index t (0 : Fin 2) = 0 ∧ win3_3.index t (1 : Fin 2) = 0 :=
  (by decide +kernel : ∀ t : Fin grid3.N, _)
theorem idx_4 : ∀ t : Fin cfg3.N, win3_4.index t (0 : Fin 2) = 0 ∧ win3_4.index t (1 : Fin 2) = 0 :=
  (by decide +kernel : ∀ t : Fin grid3.N, _)

/-- The input's block at point `t`, read at `y`, is the input array at the place the output block's entry `y` lands on. -/
theorem iblk_0 (c : Dev nD) (t : Fin cfg3.N) (y : S2000x128.Idx) :
    Gen.iblk3 V c 0 t y = V c (Pipeline.arrRef spec3 0) (((cfg3.win 5).blk t).view.emb y) := by
  obtain ⟨e00, e01⟩ := idx_0 t
  obtain ⟨e50, e51⟩ := idx_5 t
  show V c (Pipeline.arrRef spec3 0) (((cfg3.win 0).blk t).view.emb y) = _
  refine congrArg (V c (Pipeline.arrRef spec3 0)) (funext fun a => Fin.ext ?_)
  match a with
  | ⟨0, _⟩ => show win3_0.index t (0 : Fin 2) * 2000 + 1 * (y 0).val = win3_5.index t (0 : Fin 2) * 2000 + 1 * (y 0).val; omega
  | ⟨1, _⟩ => show win3_0.index t (1 : Fin 2) * 128 + 1 * (y 1).val = win3_5.index t (1 : Fin 2) * 128 + 1 * (y 1).val; omega

/-- An entry of the output block lands in its own column of the output array. -/
theorem emb_col (t : Fin cfg3.N) (y : S2000x128.Idx) : ((((cfg3.win 5).blk t).view.emb y) 1).val = (y 1).val := by
  obtain ⟨e50, e51⟩ := idx_5 t
  show win3_5.index t (1 : Fin 2) * 128 + 1 * (y 1).val = (y 1).val; omega

/-- Resident window 1's block at any point is its whole array. -/
theorem iblk_1 (c : Dev nD) (t : Fin cfg3.N) (k : S1x128.Idx) :
    Gen.iblk3 V c 1 t k = V c (Pipeline.arrRef spec3 1) k := by
  obtain ⟨e0, e1⟩ := idx_1 t
  show V c (Pipeline.arrRef spec3 1) (((cfg3.win 1).blk t).view.emb k) = _
  refine congrArg (V c (Pipeline.arrRef spec3 1)) (funext fun a => Fin.ext ?_)
  match a with
  | ⟨0, _⟩ => show win3_1.index t (0 : Fin 2) * 1 + 1 * (k 0).val = (k 0).val; omega
  | ⟨1, _⟩ => show win3_1.index t (1 : Fin 2) * 128 + 1 * (k 1).val = (k 1).val; omega

/-- Resident window 2's block at any point is its whole array. -/
theorem iblk_2 (c : Dev nD) (t : Fin cfg3.N) (k : S1x128.Idx) :
    Gen.iblk3 V c 2 t k = V c (Pipeline.arrRef spec3 2) k := by
  obtain ⟨e0, e1⟩ := idx_2 t
  show V c (Pipeline.arrRef spec3 2) (((cfg3.win 2).blk t).view.emb k) = _
  refine congrArg (V c (Pipeline.arrRef spec3 2)) (funext fun a => Fin.ext ?_)
  match a with
  | ⟨0, _⟩ => show win3_2.index t (0 : Fin 2) * 1 + 1 * (k 0).val = (k 0).val; omega
  | ⟨1, _⟩ => show win3_2.index t (1 : Fin 2) * 128 + 1 * (k 1).val = (k 1).val; omega

/-- Resident window 3's block at any point is its whole array. -/
theorem iblk_3 (c : Dev nD) (t : Fin cfg3.N) (k : S1x128.Idx) :
    Gen.iblk3 V c 3 t k = V c (Pipeline.arrRef spec3 3) k := by
  obtain ⟨e0, e1⟩ := idx_3 t
  show V c (Pipeline.arrRef spec3 3) (((cfg3.win 3).blk t).view.emb k) = _
  refine congrArg (V c (Pipeline.arrRef spec3 3)) (funext fun a => Fin.ext ?_)
  match a with
  | ⟨0, _⟩ => show win3_3.index t (0 : Fin 2) * 1 + 1 * (k 0).val = (k 0).val; omega
  | ⟨1, _⟩ => show win3_3.index t (1 : Fin 2) * 128 + 1 * (k 1).val = (k 1).val; omega

/-- Resident window 4's block at any point is its whole array. -/
theorem iblk_4 (c : Dev nD) (t : Fin cfg3.N) (k : S1x128.Idx) :
    Gen.iblk3 V c 4 t k = V c (Pipeline.arrRef spec3 4) k := by
  obtain ⟨e0, e1⟩ := idx_4 t
  show V c (Pipeline.arrRef spec3 4) (((cfg3.win 4).blk t).view.emb k) = _
  refine congrArg (V c (Pipeline.arrRef spec3 4)) (funext fun a => Fin.ext ?_)
  match a with
  | ⟨0, _⟩ => show win3_4.index t (0 : Fin 2) * 1 + 1 * (k 0).val = (k 0).val; omega
  | ⟨1, _⟩ => show win3_4.index t (1 : Fin 2) * 128 + 1 * (k 1).val = (k 1).val; omega

/-- What a write-back takes from the output's staging buffer is the buffer itself: the blocks are never cut short. -/
theorem cut_apply (t : Fin cfg3.N) (X : S2000x128.Idx → EReal) (y : S2000x128.Idx) :
    (cfg3.win 5).cut (grid3.coords t) X y = X y := rfl

/-- Block `t` of a function of the output array's index, read at `y`, is the function at the place `y` lands on. -/
theorem read_blk (t : Fin cfg3.N) (G : S100000x128.Idx → EReal) (y : S2000x128.Idx) :
    ((cfg3.win 5).blk t).view.read (Elt Ideal) G y = G (((cfg3.win 5).blk t).view.emb y) := rfl

/-- WHAT POINT `t` WRITES BACK is block `t` of the whole-array function of the five arrays as the launch finds them. -/
theorem flushed_eq (c : Dev nD) (t : Fin cfg3.N) :
    (Gen.dat3 V c).flushed 5 t = ((cfg3.win 5).blk t).view.read (Elt Ideal)
      (bnRelu128 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((Gen.dat3 V c).after 5 t) = _
  rw [Gen.after3_5]
  unfold Gen.out3_5
  rw [View.canon_unit_zero hz]
  simp only [View.ld_unit_zero (S := S2000x128) hz, View.ld_unit_zero (S := S1x128) hz]
  funext y
  rw [cut_apply, read_blk]
  exact point_eq (Gen.iblk3 V c 0 t) (Gen.iblk3 V c 1 t) (Gen.iblk3 V c 2 t) (Gen.iblk3 V c 3 t) (Gen.iblk3 V c 4 t)
    (V c (Pipeline.arrRef spec3 0)) (V c (Pipeline.arrRef spec3 1)) (V c (Pipeline.arrRef spec3 2))
    (V c (Pipeline.arrRef spec3 3)) (V c (Pipeline.arrRef spec3 4))
    y (((cfg3.win 5).blk t).view.emb y) (iblk_0 V c t y) (emb_col t y)
    (iblk_1 V c t) (iblk_2 V c t) (iblk_3 V c t) (iblk_4 V c t)

/-! ## The blocks tile the output -/

/-- An index of the output array is in point `t`'s block iff each coordinate is in the block's range on its axis. -/
theorem mem_blk (t : Fin cfg3.N) (i : S100000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v45).slice (win3_5.rect t)).set ↔ _
  rw [View.set_slice_whole, Rect.mem_set_unit]
  exact Iff.rfl

/-- Every index of the output array is in the block of the point numbered by its row divided by 2000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hlt : (i 0).val / 2000 < cfg3.N := by
    show (i 0).val / 2000 < grid3.N
    rw [Gen.N_3]; omega
  obtain ⟨e50, e51⟩ := idx_5 ⟨(i 0).val / 2000, hlt⟩
  have e50' : win3_5.index ⟨(i 0).val / 2000, hlt⟩ (0 : Fin 2) = (i 0).val / 2000 := e50
  refine ⟨⟨(i 0).val / 2000, hlt⟩, Gen.flush3_5 _, ?_⟩
  rw [mem_blk]
  intro a
  match a with
  | ⟨0, _⟩ =>
    show win3_5.index ⟨(i 0).val / 2000, hlt⟩ (0 : Fin 2) * 2000 ≤ (i 0).val
      ∧ (i 0).val < win3_5.index ⟨(i 0).val / 2000, hlt⟩ (0 : Fin 2) * 2000 + 2000
    rw [e50']; omega
  | ⟨1, _⟩ =>
    show win3_5.index ⟨(i 0).val / 2000, hlt⟩ (1 : Fin 2) * 128 ≤ (i 1).val
      ∧ (i 1).val < win3_5.index ⟨(i 0).val / 2000, hlt⟩ (1 : Fin 2) * 128 + 128
    rw [e51]; omega

/-! ## The output array after the launch -/

/-- THE OUTPUT ARRAY after the launch's 50 points is the whole-array function of the five arrays the launch
    found, whatever those contents `V` are. -/
theorem final (c : Dev nD) :
    (Gen.dat3 V c).arrAt 5 cfg3.N
      = bnRelu128 (V c (Pipeline.arrRef spec3 0)) (V c (Pipeline.arrRef spec3 1)) (V c (Pipeline.arrRef spec3 2))
          (V c (Pipeline.arrRef spec3 3)) (V c (Pipeline.arrRef spec3 4)) :=
  (Gen.dat3 V c).arrAt_eq_of_cover 5 _ (fun t _ => flushed_eq V c t) cover

end Cert.KernelIdeal.KBn3

end
-- ==== Proof.KBnRelu5.lean ====
/- The third normalise-and-rectify launch of the program, read as a function of whole arrays.
   The launch walks a grid of 50 points; point t holds rows 2000·t … 2000·t + 1999 of the [100000, 256] input and
   writes the same rows of the [100000, 256] output, while the four [1, 256] column statistics stay whole at every
   point. Each entry of an output block depends only on the input entry at the same place and on the four
   statistics of its column, so the blocks are restrictions of one function of the five arrays, and since the
   50 blocks tile the output, the output array ends equal to that function. -/
import proofs.«115009_j15960098472830_1_alg».proof.Proof.Gen.KernelIdeal.Frame
import proofs.«115009_j15960098472830_1_alg».proof.Proof.KSpecBn
import Idealize.ShloMosaic.Lib.Pipeline.Value
import Idealize.ShloMosaic.Lib.ValueLayout

noncomputable section

namespace Cert.KernelIdeal.KBn5

open Cert.KernelIdeal Cert.KernelIdeal.Gen Cert.KernelIdeal.KSpecBn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One entry of a block -/

/-- The zero offset of a whole-buffer access, as a constant function. -/
theorem hz : (![0, 0] : Fin 2 → Nat) = fun _ => 0 := funext fun a => by fin_cases a <;> rfl

/-- The vector reciprocal square root at an index is the scalar one of the element there. -/
theorem rsqrt_apply {s : Shape} {φ : FTy} (a : FVec Ideal s φ) (i : s.Idx) :
    Idealize.ShloMosaic.rsqrt a i = Ideal.rsqrt (a i) := rfl

/-- The body's arithmetic at row p, column q of a block: the pointwise operations read at the entry, each
    [1, 256] operand broadcast over the rows read at row 0 of the same column. -/
theorem pay_apply (x0 : Vec Ideal S2000x256 .f32) (x1 x2 x3 x4 : Vec Ideal S1x256 .f32) (p : Fin 2000) (q : Fin 256) :
    Gen.k5_pay1 x0 x1 x2 x3 x4 (ix2 p q)
      = max ((x0 (ix2 p q) - x1 (ix2 (0 : Fin 1) q))
              * Ideal.rsqrt (x2 (ix2 (0 : Fin 1) q) + Ideal.ofBits .f32 0x3727C5AC#32)
              * x3 (ix2 (0 : Fin 1) q)
            + x4 (ix2 (0 : Fin 1) q))
          (Ideal.ofBits .f32 0x00000000#32) := by
  unfold Gen.k5_pay1
  simp only [shapeCast_self, maximumf_apply, addf_apply, mulf_apply, subf_apply, broadcast_apply,
    broadcastTo_1b_ab_apply, rsqrt_apply]
  rfl

/-- An entry of the body's result is the whole-array function at the array index `i` that the entry lands on,
    as soon as the row block `x0` holds at `y` what the input array holds at `i`, `i` and `y` are in the same
    column, and the four resident blocks are the four statistics arrays. -/
theorem point_eq (x0 : Vec Ideal S2000x256 .f32) (x1 x2 x3 x4 : Vec Ideal S1x256 .f32)
    (a0 : S100000x256.Idx → EReal) (a1 a2 a3 a4 : S1x256.Idx → EReal)
    (y : S2000x256.Idx) (i : S100000x256.Idx)
    (h0 : x0 y = a0 i) (hcol : (i 1).val = (y 1).val)
    (h1 : ∀ k : S1x256.Idx, x1 k = a1 k) (h2 : ∀ k : S1x256.Idx, x2 k = a2 k)
    (h3 : ∀ k : S1x256.Idx, x3 k = a3 k) (h4 : ∀ k : S1x256.Idx, x4 k = a4 k) :
    Gen.k5_pay1 x0 x1 x2 x3 x4 y = bnRelu256 a0 a1 a2 a3 a4 i := by
  obtain ⟨p, q, rfl⟩ : ∃ (p : Fin 2000) (q : Fin 256), y = ix2 p q := ⟨y 0, y 1, eq_ix2 y⟩
  obtain ⟨r, j, rfl⟩ : ∃ (r : Fin 100000) (j : Fin 256), i = ix2 r j := ⟨i 0, i 1, eq_ix2 i⟩
  obtain rfl : j = q := Fin.ext hcol
  rw [pay_apply, bnRelu256_ix2, h0, h1, h2, h3, h4]
  rfl

/-! ## The blocks of a point

The printed index maps, decided over the 50 points: the input's and the output's row blocks sit at block row t,
block column 0; the four statistics stay at block (0, 0). -/

theorem idx_0 : ∀ t : Fin cfg5.N, win5_0.index t (0 : Fin 2) = t.val ∧ win5_0.index t (1 : Fin 2) = 0 :=
  (by decide +kernel : ∀ t : Fin grid5.N, _)
theorem idx_5 : ∀ t : Fin cfg5.N, win5_5.index t (0 : Fin 2) = t.val ∧ win5_5.index t (1 : Fin 2) = 0 :=
  (by decide +kernel : ∀ t : Fin grid5.N, _)
theorem idx_1 : ∀ t : Fin cfg5.N, win5_1.index t (0 : Fin 2) = 0 ∧ win5_1.index t (1 : Fin 2) = 0 :=
  (by decide +kernel : ∀ t : Fin grid5.N, _)
theorem idx_2 : ∀ t : Fin cfg5.N, win5_2.index t (0 : Fin 2) = 0 ∧ win5_2.index t (1 : Fin 2) = 0 :=
  (by decide +kernel : ∀ t : Fin grid5.N, _)
theorem idx_3 : ∀ t : Fin cfg5.N, win5_3.index t (0 : Fin 2) = 0 ∧ win5_3.index t (1 : Fin 2) = 0 :=
  (by decide +kernel : ∀ t : Fin grid5.N, _)
theorem idx_4 : ∀ t : Fin cfg5.N, win5_4.index t (0 : Fin 2) = 0 ∧ win5_4.index t (1 : Fin 2) = 0 :=
  (by decide +kernel : ∀ t : Fin grid5.N, _)

/-- The input's block at point `t`, read at `y`, is the input array at the place the output block's entry `y` lands on. -/
theorem iblk_0 (c : Dev nD) (t : Fin cfg5.N) (y : S2000x256.Idx) :
    Gen.iblk5 V c 0 t y = V c (Pipeline.arrRef spec5 0) (((cfg5.win 5).blk t).view.emb y) := by
  obtain ⟨e00, e01⟩ := idx_0 t
  obtain ⟨e50, e51⟩ := idx_5 t
  show V c (Pipeline.arrRef spec5 0) (((cfg5.win 0).blk t).view.emb y) = _
  refine congrArg (V c (Pipeline.arrRef spec5 0)) (funext fun a => Fin.ext ?_)
  match a with
  | ⟨0, _⟩ => show win5_0.index t (0 : Fin 2) * 2000 + 1 * (y 0).val = win5_5.index t (0 : Fin 2) * 2000 + 1 * (y 0).val; omega
  | ⟨1, _⟩ => show win5_0.index t (1 : Fin 2) * 256 + 1 * (y 1).val = win5_5.index t (1 : Fin 2) * 256 + 1 * (y 1).val; omega

/-- An entry of the output block lands in its own column of the output array. -/
theorem emb_col (t : Fin cfg5.N) (y : S2000x256.Idx) : ((((cfg5.win 5).blk t).view.emb y) 1).val = (y 1).val := by
  obtain ⟨e50, e51⟩ := idx_5 t
  show win5_5.index t (1 : Fin 2) * 256 + 1 * (y 1).val = (y 1).val; omega

/-- Resident window 1's block at any point is its whole array. -/
theorem iblk_1 (c : Dev nD) (t : Fin cfg5.N) (k : S1x256.Idx) :
    Gen.iblk5 V c 1 t k = V c (Pipeline.arrRef spec5 1) k := by
  obtain ⟨e0, e1⟩ := idx_1 t
  show V c (Pipeline.arrRef spec5 1) (((cfg5.win 1).blk t).view.emb k) = _
  refine congrArg (V c (Pipeline.arrRef spec5 1)) (funext fun a => Fin.ext ?_)
  match a with
  | ⟨0, _⟩ => show win5_1.index t (0 : Fin 2) * 1 + 1 * (k 0).val = (k 0).val; omega
  | ⟨1, _⟩ => show win5_1.index t (1 : Fin 2) * 256 + 1 * (k 1).val = (k 1).val; omega

/-- Resident window 2's block at any point is its whole array. -/
theorem iblk_2 (c : Dev nD) (t : Fin cfg5.N) (k : S1x256.Idx) :
    Gen.iblk5 V c 2 t k = V c (Pipeline.arrRef spec5 2) k := by
  obtain ⟨e0, e1⟩ := idx_2 t
  show V c (Pipeline.arrRef spec5 2) (((cfg5.win 2).blk t).view.emb k) = _
  refine congrArg (V c (Pipeline.arrRef spec5 2)) (funext fun a => Fin.ext ?_)
  match a with
  | ⟨0, _⟩ => show win5_2.index t (0 : Fin 2) * 1 + 1 * (k 0).val = (k 0).val; omega
  | ⟨1, _⟩ => show win5_2.index t (1 : Fin 2) * 256 + 1 * (k 1).val = (k 1).val; omega

/-- Resident window 3's block at any point is its whole array. -/
theorem iblk_3 (c : Dev nD) (t : Fin cfg5.N) (k : S1x256.Idx) :
    Gen.iblk5 V c 3 t k = V c (Pipeline.arrRef spec5 3) k := by
  obtain ⟨e0, e1⟩ := idx_3 t
  show V c (Pipeline.arrRef spec5 3) (((cfg5.win 3).blk t).view.emb k) = _
  refine congrArg (V c (Pipeline.arrRef spec5 3)) (funext fun a => Fin.ext ?_)
  match a with
  | ⟨0, _⟩ => show win5_3.index t (0 : Fin 2) * 1 + 1 * (k 0).val = (k 0).val; omega
  | ⟨1, _⟩ => show win5_3.index t (1 : Fin 2) * 256 + 1 * (k 1).val = (k 1).val; omega

/-- Resident window 4's block at any point is its whole array. -/
theorem iblk_4 (c : Dev nD) (t : Fin cfg5.N) (k : S1x256.Idx) :
    Gen.iblk5 V c 4 t k = V c (Pipeline.arrRef spec5 4) k := by
  obtain ⟨e0, e1⟩ := idx_4 t
  show V c (Pipeline.arrRef spec5 4) (((cfg5.win 4).blk t).view.emb k) = _
  refine congrArg (V c (Pipeline.arrRef spec5 4)) (funext fun a => Fin.ext ?_)
  match a with
  | ⟨0, _⟩ => show win5_4.index t (0 : Fin 2) * 1 + 1 * (k 0).val = (k 0).val; omega
  | ⟨1, _⟩ => show win5_4.index t (1 : Fin 2) * 256 + 1 * (k 1).val = (k 1).val; omega

/-- What a write-back takes from the output's staging buffer is the buffer itself: the blocks are never cut short. -/
theorem cut_apply (t : Fin cfg5.N) (X : S2000x256.Idx → EReal) (y : S2000x256.Idx) :
    (cfg5.win 5).cut (grid5.coords t) X y = X y := rfl

/-- Block `t` of a function of the output array's index, read at `y`, is the function at the place `y` lands on. -/
theorem read_blk (t : Fin cfg5.N) (G : S100000x256.Idx → EReal) (y : S2000x256.Idx) :
    ((cfg5.win 5).blk t).view.read (Elt Ideal) G y = G (((cfg5.win 5).blk t).view.emb y) := rfl

/-- WHAT POINT `t` WRITES BACK is block `t` of the whole-array function of the five arrays as the launch finds them. -/
theorem flushed_eq (c : Dev nD) (t : Fin cfg5.N) :
    (Gen.dat5 V c).flushed 5 t = ((cfg5.win 5).blk t).view.read (Elt Ideal)
      (bnRelu256 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((Gen.dat5 V c).after 5 t) = _
  rw [Gen.after5_5]
  unfold Gen.out5_5
  rw [View.canon_unit_zero hz]
  simp only [View.ld_unit_zero (S := S2000x256) hz, View.ld_unit_zero (S := S1x256) hz]
  funext y
  rw [cut_apply, read_blk]
  exact point_eq (Gen.iblk5 V c 0 t) (Gen.iblk5 V c 1 t) (Gen.iblk5 V c 2 t) (Gen.iblk5 V c 3 t) (Gen.iblk5 V c 4 t)
    (V c (Pipeline.arrRef spec5 0)) (V c (Pipeline.arrRef spec5 1)) (V c (Pipeline.arrRef spec5 2))
    (V c (Pipeline.arrRef spec5 3)) (V c (Pipeline.arrRef spec5 4))
    y (((cfg5.win 5).blk t).view.emb y) (iblk_0 V c t y) (emb_col t y)
    (iblk_1 V c t) (iblk_2 V c t) (iblk_3 V c t) (iblk_4 V c t)

/-! ## The blocks tile the output -/

/-- An index of the output array is in point `t`'s block iff each coordinate is in the block's range on its axis. -/
theorem mem_blk (t : Fin cfg5.N) (i : S100000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole main_v66).slice (win5_5.rect t)).set ↔ _
  rw [View.set_slice_whole, Rect.mem_set_unit]
  exact Iff.rfl

/-- Every index of the output array is in the block of the point numbered by its row divided by 2000. -/
theorem cover (i : S100000x256.Idx) :
    ∃ t : Fin cfg5.N, (cfg5.win 5).flush t = true ∧ i ∈ ((cfg5.win 5).blk t).view.set := by
  have hi0 : (i 0).val < 100000 := (i 0).isLt
  have hi1 : (i 1).val < 256 := (i 1).isLt
  have hlt : (i 0).val / 2000 < cfg5.N := by
    show (i 0).val / 2000 < grid5.N
    rw [Gen.N_5]; omega
  obtain ⟨e50, e51⟩ := idx_5 ⟨(i 0).val / 2000, hlt⟩
  have e50' : win5_5.index ⟨(i 0).val / 2000, hlt⟩ (0 : Fin 2) = (i 0).val / 2000 := e50
  refine ⟨⟨(i 0).val / 2000, hlt⟩, Gen.flush5_5 _, ?_⟩
  rw [mem_blk]
  intro a
  match a with
  | ⟨0, _⟩ =>
    show win5_5.index ⟨(i 0).val / 2000, hlt⟩ (0 : Fin 2) * 2000 ≤ (i 0).val
      ∧ (i 0).val < win5_5.index ⟨(i 0).val / 2000, hlt⟩ (0 : Fin 2) * 2000 + 2000
    rw [e50']; omega
  | ⟨1, _⟩ =>
    show win5_5.index ⟨(i 0).val / 2000, hlt⟩ (1 : Fin 2) * 256 ≤ (i 1).val
      ∧ (i 1).val < win5_5.index ⟨(i 0).val / 2000, hlt⟩ (1 : Fin 2) * 256 + 256
    rw [e51]; omega

/-! ## The output array after the launch -/

/-- THE OUTPUT ARRAY after the launch's 50 points is the whole-array function of the five arrays the launch
    found, whatever those contents `V` are. -/
theorem final (c : Dev nD) :
    (Gen.dat5 V c).arrAt 5 cfg5.N
      = bnRelu256 (V c (Pipeline.arrRef spec5 0)) (V c (Pipeline.arrRef spec5 1)) (V c (Pipeline.arrRef spec5 2))
          (V c (Pipeline.arrRef spec5 3)) (V c (Pipeline.arrRef spec5 4)) :=
  (Gen.dat5 V c).arrAt_eq_of_cover 5 _ (fun t _ => flushed_eq V c t) cover

end Cert.KernelIdeal.KBn5

end
-- ==== Proof.KHead6.lean ====
/- The head launch of the program, read as a function of whole arrays. The launch walks a grid of 50 points;
   point t holds rows 2000·t … 2000·t + 1999 of the [100000, 256] input and writes the same rows of the
   [100000, 1] output, while the two weight matrices and the two bias arrays stay whole at every point. Row p of
   an output block depends only on row p of the input block and on the four resident arrays, so the blocks are
   restrictions of one function of the five arrays, and since the 50 blocks tile the output, the output array
   ends equal to that function. -/
import proofs.«115009_j15960098472830_1_alg».proof.Proof.Gen.KernelIdeal.Frame
import proofs.«115009_j15960098472830_1_alg».proof.Proof.KSpecHead
import Idealize.ShloMosaic.Lib.Pipeline.Value
import Idealize.ShloMosaic.Lib.ValueLayout
import Idealize.ShloMosaic.PureOps.Ideal.Laws

noncomputable section

namespace Cert.KernelIdeal.KHead6

open Cert.KernelIdeal Cert.KernelIdeal.Gen Cert.KernelIdeal.KSpecHead
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## One entry of a block -/

/-- The zero offset of a whole-buffer access, as a constant function. -/
theorem hz : (![0, 0] : Fin 2 → Nat) = fun _ => 0 := funext fun a => by fin_cases a <;> rfl

/-- The 2000×256 by 256×128 product into a zero accumulator, read at row `a`, column `b`: the sum over the contracted
    coordinate of the products of the entries. -/
theorem mm1_apply (A : FVec Ideal S2000x256 .bf16) (B : FVec Ideal S256x128 .bf16) (a : Fin 2000) (b : Fin 128) :
    Idealize.ShloMosaic.matmul dot_S2000x256_S256x128_S2000x128_1_0_0_1_n_n none A B (constant (F := Ideal) S2000x128 .f32 0x00000000#32) (ix2 a b)
      = ∑ c : Fin 256, A (ix2 a c) * B (ix2 c b) := by
  show FloatOps.matmul dot_S2000x256_S256x128_S2000x128_1_0_0_1_n_n none A B (constant (F := Ideal) S2000x128 .f32 0x00000000#32) (ix2 a b) = _
  rw [Ideal.matmul_constant_zero_apply, ← Equiv.sum_comp (contrEquiv1 dot_S2000x256_S256x128_S2000x128_1_0_0_1_n_n 256 rfl rfl).symm]
  refine Finset.sum_congr rfl fun c _ => ?_
  have cv := contrEquiv1_symm_val dot_S2000x256_S256x128_S2000x128_1_0_0_1_n_n 256 rfl rfl c
  have hl : (dot_S2000x256_S256x128_S2000x128_1_0_0_1_n_n).lhsIdx (ix2 a b) ((contrEquiv1 dot_S2000x256_S256x128_S2000x128_1_0_0_1_n_n 256 rfl rfl).symm c) = ix2 a c := by
    funext ax; apply Fin.ext
    match ax with
    | ⟨0, _⟩ => simp [DotDims.lhsIdx, dot_S2000x256_S256x128_S2000x128_1_0_0_1_n_n] <;> rfl
    | ⟨1, _⟩ => simp [DotDims.lhsIdx, dot_S2000x256_S256x128_S2000x128_1_0_0_1_n_n] <;> exact cv
  have hr : (dot_S2000x256_S256x128_S2000x128_1_0_0_1_n_n).rhsIdx (ix2 a b) ((contrEquiv1 dot_S2000x256_S256x128_S2000x128_1_0_0_1_n_n 256 rfl rfl).symm c) = ix2 c b := by
    funext ax; apply Fin.ext
    match ax with
    | ⟨0, _⟩ => simp [DotDims.rhsIdx, dot_S2000x256_S256x128_S2000x128_1_0_0_1_n_n] <;> exact cv
    | ⟨1, _⟩ => simp [DotDims.rhsIdx, dot_S2000x256_S256x128_S2000x128_1_0_0_1_n_n] <;> rfl
  rw [hl, hr]

/-- The 2000×128 by 128×1 product into a zero accumulator, read at row `a`, column `b`: the sum over the contracted
    coordinate of the products of the entries. -/
theorem mm2_apply (A : FVec Ideal S2000x128 .bf16) (B : FVec Ideal S128x1 .bf16) (a : Fin 2000) (b : Fin 1) :
    Idealize.ShloMosaic.matmul dot_S2000x128_S128x1_S2000x1_1_0_0_1_n_n none A B (constant (F := Ideal) S2000x1 .f32 0x00000000#32) (ix2 a b)
      = ∑ c : Fin 128, A (ix2 a c) * B (ix2 c b) := by
  show FloatOps.matmul dot_S2000x128_S128x1_S2000x1_1_0_0_1_n_n none A B (constant (F := Ideal) S2000x1 .f32 0x00000000#32) (ix2 a b) = _
  rw [Ideal.matmul_constant_zero_apply, ← Equiv.sum_comp (contrEquiv1 dot_S2000x128_S128x1_S2000x1_1_0_0_1_n_n 128 rfl rfl).symm]
  refine Finset.sum_congr rfl fun c _ => ?_
  have cv := contrEquiv1_symm_val dot_S2000x128_S128x1_S2000x1_1_0_0_1_n_n 128 rfl rfl c
  have hl : (dot_S2000x128_S128x1_S2000x1_1_0_0_1_n_n).lhsIdx (ix2 a b) ((contrEquiv1 dot_S2000x128_S128x1_S2000x1_1_0_0_1_n_n 128 rfl rfl).symm c) = ix2 a c := by
    funext ax; apply Fin.ext
    match ax with
    | ⟨0, _⟩ => simp [DotDims.lhsIdx, dot_S2000x128_S128x1_S2000x1_1_0_0_1_n_n] <;> rfl
    | ⟨1, _⟩ => simp [DotDims.lhsIdx, dot_S2000x128_S128x1_S2000x1_1_0_0_1_n_n] <;> exact cv
  have hr : (dot_S2000x128_S128x1_S2000x1_1_0_0_1_n_n).rhsIdx (ix2 a b) ((contrEquiv1 dot_S2000x128_S128x1_S2000x1_1_0_0_1_n_n 128 rfl rfl).symm c) = ix2 c b := by
    funext ax; apply Fin.ext
    match ax with
    | ⟨0, _⟩ => simp [DotDims.rhsIdx, dot_S2000x128_S128x1_S2000x1_1_0_0_1_n_n] <;> exact cv
    | ⟨1, _⟩ => simp [DotDims.rhsIdx, dot_S2000x128_S128x1_S2000x1_1_0_0_1_n_n] <;> rfl
  rw [hl, hr]

/-- The body's arithmetic at row p (and the one column o) of a block: the two products read as sums over their
    contracted coordinates, the changes of format the identity, the [1, 128] and [1, 1] operands broadcast over
    the rows read at row 0. -/
theorem pay_apply (x0 : Vec Ideal S2000x256 .f32) (x1 : Vec Ideal S256x128 .f32) (x2 : Vec Ideal S1x128 .f32)
    (x3 : Vec Ideal S128x1 .f32) (x4 : Vec Ideal S1x1 .f32) (p : Fin 2000) (o : Fin 1) :
    Gen.k6_pay1 x0 x1 x2 x3 x4 (ix2 p o)
      = (∑ n : Fin 128,
            max ((∑ k : Fin 256, x0 (ix2 p k) * x1 (ix2 k n)) + x2 (ix2 (0 : Fin 1) n)) (Ideal.ofBits .f32 0x00000000#32)
              * x3 (ix2 n o))
          + x4 (ix2 (0 : Fin 1) o) := by
  unfold Gen.k6_pay1
  simp only [shapeCast_self, addf_apply, broadcastTo_1b_ab_apply, mm2_apply, truncf_apply, maximumf_apply,
    broadcast_apply, mm1_apply]
  rfl

/-- An entry of the body's result is the whole-array function at the array index `i` that the entry lands on,
    as soon as row `y 0` of the row block `x0` is row `i 0` of the input array, `i` and `y` are in the same
    column, and the four resident blocks are the four resident arrays. -/
theorem point_eq (x0 : Vec Ideal S2000x256 .f32) (x1 : Vec Ideal S256x128 .f32) (x2 : Vec Ideal S1x128 .f32)
    (x3 : Vec Ideal S128x1 .f32) (x4 : Vec Ideal S1x1 .f32)
    (a0 : S100000x256.Idx → EReal) (a1 : S256x128.Idx → EReal) (a2 : S1x128.Idx → EReal)
    (a3 : S128x1.Idx → EReal) (a4 : S1x1.Idx → EReal)
    (y : S2000x1.Idx) (i : S100000x1.Idx)
    (h0 : ∀ k : Fin 256, x0 (ix2 (n0 := 2000) (y 0) k) = a0 (ix2 (n0 := 100000) (i 0) k))
    (hcol : (i 1).val = (y 1).val)
    (h1 : ∀ k : S256x128.Idx, x1 k = a1 k) (h2 : ∀ k : S1x128.Idx, x2 k = a2 k)
    (h3 : ∀ k : S128x1.Idx, x3 k = a3 k) (h4 : ∀ k : S1x1.Idx, x4 k = a4 k) :
    Gen.k6_pay1 x0 x1 x2 x3 x4 y = head a0 a1 a2 a3 a4 i := by
  obtain ⟨p, o, rfl⟩ : ∃ (p : Fin 2000) (o : Fin 1), y = ix2 p o := ⟨y 0, y 1, eq_ix2 y⟩
  obtain ⟨r, o', rfl⟩ : ∃ (r : Fin 100000) (o' : Fin 1), i = ix2 r o' := ⟨i 0, i 1, eq_ix2 i⟩
  obtain rfl : o' = o := Fin.ext hcol
  have h0' : ∀ k : Fin 256, x0 (ix2 p k) = a0 (ix2 r k) := h0
  rw [pay_apply, head_ix2]
  unfold headAt
  simp only [h0', h1, h2, h3, h4]

/-! ## The blocks of a point

The printed index maps, decided over the 50 points: the input's and the output's row blocks sit at block row t,
block column 0; the four resident arrays stay at block (0, 0). -/

theorem idx_0 : ∀ t : Fin cfg6.N, win6_0.index t (0 : Fin 2) = t.val ∧ win6_0.index t (1 : Fin 2) = 0 :=
  (by decide +kernel : ∀ t : Fin grid6.N, _)
theorem idx_5 : ∀ t : Fin cfg6.N, win6_5.index t (0 : Fin 2) = t.val ∧ win6_5.index t (1 : Fin 2) = 0 :=
  (by decide +kernel : ∀ t : Fin grid6.N, _)
theorem idx_1 : ∀ t : Fin cfg6.N, win6_1.index t (0 : Fin 2) = 0 ∧ win6_1.index t (1 : Fin 2) = 0 :=
  (by decide +kernel : ∀ t : Fin grid6.N, _)
theorem idx_2 : ∀ t : Fin cfg6.N, win6_2.index t (0 : Fin 2) = 0 ∧ win6_2.index t (1 : Fin 2) = 0 :=
  (by decide +kernel : ∀ t : Fin grid6.N, _)
theorem idx_3 : ∀ t : Fin cfg6.N, win6_3.index t (0 : Fin 2) = 0 ∧ win6_3.index t (1 : Fin 2) = 0 :=
  (by decide +kernel : ∀ t : Fin grid6.N, _)
theorem idx_4 : ∀ t : Fin cfg6.N, win6_4.index t (0 : Fin 2) = 0 ∧ win6_4.index t (1 : Fin 2) = 0 :=
  (by decide +kernel : ∀ t : Fin grid6.N, _)

/-- Row `y 0` of the input's block at point `t` is the row of the input array that the output block's entry `y`
    lands on. -/
theorem iblk_0 (c : Dev nD) (t : Fin cfg6.N) (y : S2000x1.Idx) (k : Fin 256) :
    Gen.iblk6 V c 0 t (ix2 (n0 := 2000) (y 0) k)
      = V c (Pipeline.arrRef spec6 0) (ix2 (n0 := 100000) ((((cfg6.win 5).blk t).view.emb y) 0) k) := by
  obtain ⟨e00, e01⟩ := idx_0 t
  obtain ⟨e50, e51⟩ := idx_5 t
  show V c (Pipeline.arrRef spec6 0) (((cfg6.win 0).blk t).view.emb (ix2 (n0 := 2000) (y 0) k)) = _
  refine congrArg (V c (Pipeline.arrRef spec6 0)) (funext fun a => Fin.ext ?_)
  match a with
  | ⟨0, _⟩ => show win6_0.index t (0 : Fin 2) * 2000 + 1 * (y 0).val = win6_5.index t (0 : Fin 2) * 2000 + 1 * (y 0).val; omega
  | ⟨1, _⟩ => show win6_0.index t (1 : Fin 2) * 256 + 1 * k.val = k.val; omega

/-- An entry of the output block lands in its own column of the output array. -/
theorem emb_col (t : Fin cfg6.N) (y : S2000x1.Idx) : ((((cfg6.win 5).blk t).view.emb y) 1).val = (y 1).val := by
  obtain ⟨e50, e51⟩ := idx_5 t
  show win6_5.index t (1 : Fin 2) * 1 + 1 * (y 1).val = (y 1).val; omega

/-- Resident window 1's block at any point is its whole array. -/
theorem iblk_1 (c : Dev nD) (t : Fin cfg6.N) (k : S256x128.Idx) :
    Gen.iblk6 V c 1 t k = V c (Pipeline.arrRef spec6 1) k := by
  obtain ⟨e0, e1⟩ := idx_1 t
  show V c (Pipeline.arrRef spec6 1) (((cfg6.win 1).blk t).view.emb k) = _
  refine congrArg (V c (Pipeline.arrRef spec6 1)) (funext fun a => Fin.ext ?_)
  match a with
  | ⟨0, _⟩ => show win6_1.index t (0 : Fin 2) * 256 + 1 * (k 0).val = (k 0).val; omega
  | ⟨1, _⟩ => show win6_1.index t (1 : Fin 2) * 128 + 1 * (k 1).val = (k 1).val; omega

/-- Resident window 2's block at any point is its whole array. -/
theorem iblk_2 (c : Dev nD) (t : Fin cfg6.N) (k : S1x128.Idx) :
    Gen.iblk6 V c 2 t k = V c (Pipeline.arrRef spec6 2) k := by
  obtain ⟨e0, e1⟩ := idx_2 t
  show V c (Pipeline.arrRef spec6 2) (((cfg6.win 2).blk t).view.emb k) = _
  refine congrArg (V c (Pipeline.arrRef spec6 2)) (funext fun a => Fin.ext ?_)
  match a with
  | ⟨0, _⟩ => show win6_2.index t (0 : Fin 2) * 1 + 1 * (k 0).val = (k 0).val; omega
  | ⟨1, _⟩ => show win6_2.index t (1 : Fin 2) * 128 + 1 * (k 1).val = (k 1).val; omega

/-- Resident window 3's block at any point is its whole array. -/
theorem iblk_3 (c : Dev nD) (t : Fin cfg6.N) (k : S128x1.Idx) :
    Gen.iblk6 V c 3 t k = V c (Pipeline.arrRef spec6 3) k := by
  obtain ⟨e0, e1⟩ := idx_3 t
  show V c (Pipeline.arrRef spec6 3) (((cfg6.win 3).blk t).view.emb k) = _
  refine congrArg (V c (Pipeline.arrRef spec6 3)) (funext fun a => Fin.ext ?_)
  match a with
  | ⟨0, _⟩ => show win6_3.index t (0 : Fin 2) * 128 + 1 * (k 0).val = (k 0).val; omega
  | ⟨1, _⟩ => show win6_3.index t (1 : Fin 2) * 1 + 1 * (k 1).val = (k 1).val; omega

/-- Resident window 4's block at any point is its whole array. -/
theorem iblk_4 (c : Dev nD) (t : Fin cfg6.N) (k : S1x1.Idx) :
    Gen.iblk6 V c 4 t k = V c (Pipeline.arrRef spec6 4) k := by
  obtain ⟨e0, e1⟩ := idx_4 t
  show V c (Pipeline.arrRef spec6 4) (((cfg6.win 4).blk t).view.emb k) = _
  refine congrArg (V c (Pipeline.arrRef spec6 4)) (funext fun a => Fin.ext ?_)
  match a with
  | ⟨0, _⟩ => show win6_4.index t (0 : Fin 2) * 1 + 1 * (k 0).val = (k 0).val; omega
  | ⟨1, _⟩ => show win6_4.index t (1 : Fin 2) * 1 + 1 * (k 1).val = (k 1).val; omega

/-- What a write-back takes from the output's staging buffer is the buffer itself: the blocks are never cut short. -/
theorem cut_apply (t : Fin cfg6.N) (X : S2000x1.Idx → EReal) (y : S2000x1.Idx) :
    (cfg6.win 5).cut (grid6.coords t) X y = X y := rfl

/-- Block `t` of a function of the output array's index, read at `y`, is the function at the place `y` lands on. -/
theorem read_blk (t : Fin cfg6.N) (G : S100000x1.Idx → EReal) (y : S2000x1.Idx) :
    ((cfg6.win 5).blk t).view.read (Elt Ideal) G y = G (((cfg6.win 5).blk t).view.emb y) := rfl

/-- WHAT POINT `t` WRITES BACK is block `t` of the whole-array function of the five arrays as the launch finds them. -/
theorem flushed_eq (c : Dev nD) (t : Fin cfg6.N) :
    (Gen.dat6 V c).flushed 5 t = ((cfg6.win 5).blk t).view.read (Elt Ideal)
      (head (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((Gen.dat6 V c).after 5 t) = _
  rw [Gen.after6_5]
  unfold Gen.out6_5
  rw [View.canon_unit_zero hz]
  simp only [View.ld_unit_zero (S := S2000x256) hz, View.ld_unit_zero (S := S256x128) hz,
    View.ld_unit_zero (S := S1x128) hz, View.ld_unit_zero (S := S128x1) hz, View.ld_unit_zero (S := S1x1) hz]
  funext y
  rw [cut_apply, read_blk]
  exact point_eq (Gen.iblk6 V c 0 t) (Gen.iblk6 V c 1 t) (Gen.iblk6 V c 2 t) (Gen.iblk6 V c 3 t) (Gen.iblk6 V c 4 t)
    (V c (Pipeline.arrRef spec6 0)) (V c (Pipeline.arrRef spec6 1)) (V c (Pipeline.arrRef spec6 2))
    (V c (Pipeline.arrRef spec6 3)) (V c (Pipeline.arrRef spec6 4))
    y (((cfg6.win 5).blk t).view.emb y) (iblk_0 V c t y) (emb_col t y)
    (iblk_1 V c t) (iblk_2 V c t) (iblk_3 V c t) (iblk_4 V c t)

/-! ## The blocks tile the output -/

/-- An index of the output array is in point `t`'s block iff each coordinate is in the block's range on its axis. -/
theorem mem_blk (t : Fin cfg6.N) (i : S100000x1.Idx) :
    i ∈ ((cfg6.win 5).blk t).view.set ↔ ∀ a : Fin 2, win6_5.index t a * S2000x1.size a ≤ (i a).val
      ∧ (i a).val < win6_5.index t a * S2000x1.size a + S2000x1.size a := by
  show i ∈ ((View.whole main_v69).slice (win6_5.rect t)).set ↔ _
  rw [View.set_slice_whole, Rect.mem_set_unit]
  exact Iff.rfl

/-- Every index of the output array is in the block of the point numbered by its row divided by 2000. -/
theorem cover (i : S100000x1.Idx) :
    ∃ t : Fin cfg6.N, (cfg6.win 5).flush t = true ∧ i ∈ ((cfg6.win 5).blk t).view.set := by
  have hi0 : (i 0).val < 100000 := (i 0).isLt
  have hi1 : (i 1).val < 1 := (i 1).isLt
  have hlt : (i 0).val / 2000 < cfg6.N := by
    show (i 0).val / 2000 < grid6.N
    rw [Gen.N_6]; omega
  obtain ⟨e50, e51⟩ := idx_5 ⟨(i 0).val / 2000, hlt⟩
  have e50' : win6_5.index ⟨(i 0).val / 2000, hlt⟩ (0 : Fin 2) = (i 0).val / 2000 := e50
  refine ⟨⟨(i 0).val / 2000, hlt⟩, Gen.flush6_5 _, ?_⟩
  rw [mem_blk]
  intro a
  match a with
  | ⟨0, _⟩ =>
    show win6_5.index ⟨(i 0).val / 2000, hlt⟩ (0 : Fin 2) * 2000 ≤ (i 0).val
      ∧ (i 0).val < win6_5.index ⟨(i 0).val / 2000, hlt⟩ (0 : Fin 2) * 2000 + 2000
    rw [e50']; omega
  | ⟨1, _⟩ =>
    show win6_5.index ⟨(i 0).val / 2000, hlt⟩ (1 : Fin 2) * 1 ≤ (i 1).val
      ∧ (i 1).val < win6_5.index ⟨(i 0).val / 2000, hlt⟩ (1 : Fin 2) * 1 + 1
    rw [e51]; omega

/-! ## The output array after the launch -/

/-- THE OUTPUT ARRAY after the launch's 50 points is the whole-array function of the five arrays the launch
    found, whatever those contents `V` are. -/
theorem final (c : Dev nD) :
    (Gen.dat6 V c).arrAt 5 cfg6.N
      = head (V c (Pipeline.arrRef spec6 0)) (V c (Pipeline.arrRef spec6 1)) (V c (Pipeline.arrRef spec6 2))
          (V c (Pipeline.arrRef spec6 3)) (V c (Pipeline.arrRef spec6 4)) :=
  (Gen.dat6 V c).arrAt_eq_of_cover 5 _ (fun t _ => flushed_eq V c t) cover

end Cert.KernelIdeal.KHead6

end
-- ==== Proof.KFold.lean ====
/- The program's result buffer read back through the fold of buffer contents at the boundaries between its host
   stretches and its launches, from the launch to the return: at each boundary, what each buffer the later steps read
   holds, as a function of the program's arguments. A host stretch leaves the buffers it does not write and
   computes the ones it writes from what it finds; a launch leaves every buffer but its output arrays, which end
   at the launch's whole-array function of its input arrays. -/
import proofs.«115009_j15960098472830_1_alg».proof.Proof.Gen.KernelIdeal.Frame
import proofs.«115009_j15960098472830_1_alg».proof.Proof.KSpecOut
import proofs.«115009_j15960098472830_1_alg».proof.Proof.KLin0V
import proofs.«115009_j15960098472830_1_alg».proof.Proof.KLin2V
import proofs.«115009_j15960098472830_1_alg».proof.Proof.KLin4V
import proofs.«115009_j15960098472830_1_alg».proof.Proof.KBnRelu1
import proofs.«115009_j15960098472830_1_alg».proof.Proof.KBnRelu3
import proofs.«115009_j15960098472830_1_alg».proof.Proof.KBnRelu5
import proofs.«115009_j15960098472830_1_alg».proof.Proof.KHead6
import Idealize.ShloMosaic.Lib.StableHlo

noncomputable section

namespace Cert.KernelIdeal.KFold

open Cert.KernelIdeal Cert.KernelIdeal.Gen Cert.KernelIdeal.KSpecOut
open Cert.KernelIdeal.KSpecBn Cert.KernelIdeal.KSpecHead Cert.KernelIdeal.KSpecLin
open Idealize.ShloMosaic Idealize.ShloMosaic.TcCoe Idealize.SL.Sem

/-- A stretch of host operations leaves every buffer that none of them writes: the operations' result buffers are
    listed and told apart from the buffer by deciding the references' inequality. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

/-! ## The arguments, typed -/

abbrev a0 (c : Dev nD) : S100000x6.Idx → EReal := m ((c : Thread nD τ).loc main_arg0)
abbrev a1 (c : Dev nD) : IVec S2x1600000 32 := m ((c : Thread nD τ).loc main_arg1)
abbrev a2 (c : Dev nD) : S6x64.Idx → EReal := m ((c : Thread nD τ).loc main_arg2)
abbrev a3 (c : Dev nD) : S6x64.Idx → EReal := m ((c : Thread nD τ).loc main_arg3)
abbrev a4 (c : Dev nD) : S64.Idx → EReal := m ((c : Thread nD τ).loc main_arg4)
abbrev a5 (c : Dev nD) : S64.Idx → EReal := m ((c : Thread nD τ).loc main_arg5)
abbrev a6 (c : Dev nD) : S64.Idx → EReal := m ((c : Thread nD τ).loc main_arg6)
abbrev a7 (c : Dev nD) : S64x128.Idx → EReal := m ((c : Thread nD τ).loc main_arg7)
abbrev a8 (c : Dev nD) : S64x128.Idx → EReal := m ((c : Thread nD τ).loc main_arg8)
abbrev a9 (c : Dev nD) : S128.Idx → EReal := m ((c : Thread nD τ).loc main_arg9)
abbrev a10 (c : Dev nD) : S128.Idx → EReal := m ((c : Thread nD τ).loc main_arg10)
abbrev a11 (c : Dev nD) : S128.Idx → EReal := m ((c : Thread nD τ).loc main_arg11)
abbrev a12 (c : Dev nD) : S128x256.Idx → EReal := m ((c : Thread nD τ).loc main_arg12)
abbrev a13 (c : Dev nD) : S128x256.Idx → EReal := m ((c : Thread nD τ).loc main_arg13)
abbrev a14 (c : Dev nD) : S256.Idx → EReal := m ((c : Thread nD τ).loc main_arg14)
abbrev a15 (c : Dev nD) : S256.Idx → EReal := m ((c : Thread nD τ).loc main_arg15)
abbrev a16 (c : Dev nD) : S256.Idx → EReal := m ((c : Thread nD τ).loc main_arg16)
abbrev a17 (c : Dev nD) : S256x128.Idx → EReal := m ((c : Thread nD τ).loc main_arg17)
abbrev a18 (c : Dev nD) : S128.Idx → EReal := m ((c : Thread nD τ).loc main_arg18)
abbrev a19 (c : Dev nD) : S128x1.Idx → EReal := m ((c : Thread nD τ).loc main_arg19)
abbrev a20 (c : Dev nD) : S1.Idx → EReal := m ((c : Thread nD τ).loc main_arg20)

/-! ## Layer 1

### The arguments the layer reads, at the boundaries where they are read -/

theorem W0_arg0 (c : Dev nD) : Gen.W0 m ρ c (Proc.devRef .tc main_arg0) = a0 m c := rfl
theorem W1_arg0 (c : Dev nD) : Gen.W1 m ρ c (Proc.devRef .tc main_arg0) = a0 m c :=
  (by host_keeps hostOps0 : Gen.W1 m ρ c (Proc.devRef .tc main_arg0) = Gen.W0 m ρ c (Proc.devRef .tc main_arg0)).trans (W0_arg0 m ρ c)
theorem W0_arg2 (c : Dev nD) : Gen.W0 m ρ c (Proc.devRef .tc main_arg2) = a2 m c := rfl
theorem W1_arg2 (c : Dev nD) : Gen.W1 m ρ c (Proc.devRef .tc main_arg2) = a2 m c :=
  (by host_keeps hostOps0 : Gen.W1 m ρ c (Proc.devRef .tc main_arg2) = Gen.W0 m ρ c (Proc.devRef .tc main_arg2)).trans (W0_arg2 m ρ c)
theorem W0_arg3 (c : Dev nD) : Gen.W0 m ρ c (Proc.devRef .tc main_arg3) = a3 m c := rfl
theorem W1_arg3 (c : Dev nD) : Gen.W1 m ρ c (Proc.devRef .tc main_arg3) = a3 m c :=
  (by host_keeps hostOps0 : Gen.W1 m ρ c (Proc.devRef .tc main_arg3) = Gen.W0 m ρ c (Proc.devRef .tc main_arg3)).trans (W0_arg3 m ρ c)
theorem W0_arg4 (c : Dev nD) : Gen.W0 m ρ c (Proc.devRef .tc main_arg4) = a4 m c := rfl
theorem W0_arg1 (c : Dev nD) : Gen.W0 m ρ c (Proc.devRef .tc main_arg1) = a1 m c := rfl
theorem W0_arg5 (c : Dev nD) : Gen.W0 m ρ c (Proc.devRef .tc main_arg5) = a5 m c := rfl
theorem W1_arg5 (c : Dev nD) : Gen.W1 m ρ c (Proc.devRef .tc main_arg5) = a5 m c :=
  (by host_keeps hostOps0 : Gen.W1 m ρ c (Proc.devRef .tc main_arg5) = Gen.W0 m ρ c (Proc.devRef .tc main_arg5)).trans (W0_arg5 m ρ c)
theorem W2_arg5 (c : Dev nD) : Gen.W2 m ρ c (Proc.devRef .tc main_arg5) = a5 m c :=
  (Gen.W2_of_ne m ρ c main_arg5 (by decide)).trans (W1_arg5 m ρ c)
theorem W0_arg6 (c : Dev nD) : Gen.W0 m ρ c (Proc.devRef .tc main_arg6) = a6 m c := rfl
theorem W1_arg6 (c : Dev nD) : Gen.W1 m ρ c (Proc.devRef .tc main_arg6) = a6 m c :=
  (by host_keeps hostOps0 : Gen.W1 m ρ c (Proc.devRef .tc main_arg6) = Gen.W0 m ρ c (Proc.devRef .tc main_arg6)).trans (W0_arg6 m ρ c)
theorem W2_arg6 (c : Dev nD) : Gen.W2 m ρ c (Proc.devRef .tc main_arg6) = a6 m c :=
  (Gen.W2_of_ne m ρ c main_arg6 (by decide)).trans (W1_arg6 m ρ c)

/-! ### After the first host stretch (the first linear launch's entry) -/

theorem W1_v1 (c : Dev nD) : Gen.W1 m ρ c (Proc.devRef .tc main_v1) = srcRow (a1 m c) := by
  show StableHlo.after hostOps0 (Gen.W0 m ρ c) (Proc.devRef .tc main_v1) = _
  after_results
  rw [W0_arg1 m ρ c]
  rfl
theorem W1_v3 (c : Dev nD) : Gen.W1 m ρ c (Proc.devRef .tc main_v3) = dstRow (a1 m c) := by
  show StableHlo.after hostOps0 (Gen.W0 m ρ c) (Proc.devRef .tc main_v3) = _
  after_results
  rw [W0_arg1 m ρ c]
  rfl
theorem W1_v14 (c : Dev nD) : Gen.W1 m ρ c (Proc.devRef .tc main_v14) = row64 (a4 m c) := by
  show StableHlo.after hostOps0 (Gen.W0 m ρ c) (Proc.devRef .tc main_v14) = _
  after_results
  rw [W0_arg4 m ρ c]
  rfl
theorem W1_v13 (c : Dev nD) : Gen.W1 m ρ c (Proc.devRef .tc main_v13) = kagg1 (a0 m c) (a1 m c) := by
  show StableHlo.after hostOps0 (Gen.W0 m ρ c) (Proc.devRef .tc main_v13) = _
  after_results_simp
  rw [W0_arg0 m ρ c, W0_arg1 m ρ c]
  rfl

/-! ### After the first linear launch -/

theorem W2_v15_0 (c : Dev nD) : Gen.W2 m ρ c (Proc.devRef .tc main_v15_0) = klin1 (a0 m c) (a1 m c) (a2 m c) (a3 m c) (a4 m c) :=
  (Gen.W2_arr m ρ c 5).trans ((KLin0V.final5 (Gen.V1 m ρ) c).trans (by
    show lin64 (Gen.W1 m ρ c (Proc.devRef .tc main_v13)) (Gen.W1 m ρ c (Proc.devRef .tc main_arg0)) (Gen.W1 m ρ c (Proc.devRef .tc main_arg2)) (Gen.W1 m ρ c (Proc.devRef .tc main_arg3)) (Gen.W1 m ρ c (Proc.devRef .tc main_v14)) = _
    rw [W1_v13 m ρ c, W1_arg0 m ρ c, W1_arg2 m ρ c, W1_arg3 m ρ c, W1_v14 m ρ c]
    rfl))
theorem W2_v15_1 (c : Dev nD) : Gen.W2 m ρ c (Proc.devRef .tc main_v15_1) = colSum64 (klin1 (a0 m c) (a1 m c) (a2 m c) (a3 m c) (a4 m c)) :=
  (Gen.W2_arr m ρ c 6).trans ((KLin0V.final6 (Gen.V1 m ρ) c).trans (by
    show colSum64 (lin64 (Gen.W1 m ρ c (Proc.devRef .tc main_v13)) (Gen.W1 m ρ c (Proc.devRef .tc main_arg0)) (Gen.W1 m ρ c (Proc.devRef .tc main_arg2)) (Gen.W1 m ρ c (Proc.devRef .tc main_arg3)) (Gen.W1 m ρ c (Proc.devRef .tc main_v14))) = _
    rw [W1_v13 m ρ c, W1_arg0 m ρ c, W1_arg2 m ρ c, W1_arg3 m ρ c, W1_v14 m ρ c]
    rfl))
theorem W2_v15_2 (c : Dev nD) : Gen.W2 m ρ c (Proc.devRef .tc main_v15_2) = colSq64 (klin1 (a0 m c) (a1 m c) (a2 m c) (a3 m c) (a4 m c)) :=
  (Gen.W2_arr m ρ c 7).trans ((KLin0V.final7 (Gen.V1 m ρ) c).trans (by
    show colSq64 (lin64 (Gen.W1 m ρ c (Proc.devRef .tc main_v13)) (Gen.W1 m ρ c (Proc.devRef .tc main_arg0)) (Gen.W1 m ρ c (Proc.devRef .tc main_arg2)) (Gen.W1 m ρ c (Proc.devRef .tc main_arg3)) (Gen.W1 m ρ c (Proc.devRef .tc main_v14))) = _
    rw [W1_v13 m ρ c, W1_arg0 m ρ c, W1_arg2 m ρ c, W1_arg3 m ρ c, W1_v14 m ρ c]
    rfl))
theorem W2_v1 (c : Dev nD) : Gen.W2 m ρ c (Proc.devRef .tc main_v1) = srcRow (a1 m c) :=
  (Gen.W2_of_ne m ρ c main_v1 (by decide)).trans (W1_v1 m ρ c)
theorem W2_v3 (c : Dev nD) : Gen.W2 m ρ c (Proc.devRef .tc main_v3) = dstRow (a1 m c) :=
  (Gen.W2_of_ne m ρ c main_v3 (by decide)).trans (W1_v3 m ρ c)

/-! ### After the second host stretch (the first normalise launch's entry) -/

theorem W3_v15_0 (c : Dev nD) : Gen.W3 m ρ c (Proc.devRef .tc main_v15_0) = klin1 (a0 m c) (a1 m c) (a2 m c) (a3 m c) (a4 m c) :=
  (by host_keeps hostOps1 : Gen.W3 m ρ c (Proc.devRef .tc main_v15_0) = Gen.W2 m ρ c (Proc.devRef .tc main_v15_0)).trans (W2_v15_0 m ρ c)
theorem W3_v17 (c : Dev nD) : Gen.W3 m ρ c (Proc.devRef .tc main_v17) = kmean64 (colSum64 (klin1 (a0 m c) (a1 m c) (a2 m c) (a3 m c) (a4 m c))) := by
  show StableHlo.after hostOps1 (Gen.W2 m ρ c) (Proc.devRef .tc main_v17) = _
  after_results
  rw [W2_v15_1 m ρ c]
  rfl
theorem W3_v21 (c : Dev nD) : Gen.W3 m ρ c (Proc.devRef .tc main_v21) = kvar64 (colSum64 (klin1 (a0 m c) (a1 m c) (a2 m c) (a3 m c) (a4 m c))) (colSq64 (klin1 (a0 m c) (a1 m c) (a2 m c) (a3 m c) (a4 m c))) := by
  show StableHlo.after hostOps1 (Gen.W2 m ρ c) (Proc.devRef .tc main_v21) = _
  after_results
  rw [W2_v15_1 m ρ c, W2_v15_2 m ρ c]
  rfl
theorem W3_v22 (c : Dev nD) : Gen.W3 m ρ c (Proc.devRef .tc main_v22) = row64 (a5 m c) := by
  show StableHlo.after hostOps1 (Gen.W2 m ρ c) (Proc.devRef .tc main_v22) = _
  after_results
  rw [W2_arg5 m ρ c]
  rfl
theorem W3_v23 (c : Dev nD) : Gen.W3 m ρ c (Proc.devRef .tc main_v23) = row64 (a6 m c) := by
  show StableHlo.after hostOps1 (Gen.W2 m ρ c) (Proc.devRef .tc main_v23) = _
  after_results
  rw [W2_arg6 m ρ c]
  rfl
theorem W3_v1 (c : Dev nD) : Gen.W3 m ρ c (Proc.devRef .tc main_v1) = srcRow (a1 m c) :=
  (by host_keeps hostOps1 : Gen.W3 m ρ c (Proc.devRef .tc main_v1) = Gen.W2 m ρ c (Proc.devRef .tc main_v1)).trans (W2_v1 m ρ c)
theorem W3_v3 (c : Dev nD) : Gen.W3 m ρ c (Proc.devRef .tc main_v3) = dstRow (a1 m c) :=
  (by host_keeps hostOps1 : Gen.W3 m ρ c (Proc.devRef .tc main_v3) = Gen.W2 m ρ c (Proc.devRef .tc main_v3)).trans (W2_v3 m ρ c)

/-! ### After the first normalise launch: layer 1's result -/

theorem W4_v24 (c : Dev nD) : Gen.W4 m ρ c (Proc.devRef .tc main_v24) = klayer1 (a0 m c) (a1 m c) (a2 m c) (a3 m c) (a4 m c) (a5 m c) (a6 m c) :=
  (Gen.W4_arr m ρ c 5).trans ((KBn1.final (Gen.V3 m ρ) c).trans (by
    show bnRelu64 (Gen.W3 m ρ c (Proc.devRef .tc main_v15_0)) (Gen.W3 m ρ c (Proc.devRef .tc main_v17)) (Gen.W3 m ρ c (Proc.devRef .tc main_v21)) (Gen.W3 m ρ c (Proc.devRef .tc main_v22)) (Gen.W3 m ρ c (Proc.devRef .tc main_v23)) = _
    rw [W3_v15_0 m ρ c, W3_v17 m ρ c, W3_v21 m ρ c, W3_v22 m ρ c, W3_v23 m ρ c]
    rfl))
theorem W4_v1 (c : Dev nD) : Gen.W4 m ρ c (Proc.devRef .tc main_v1) = srcRow (a1 m c) :=
  (Gen.W4_of_ne m ρ c main_v1 (by decide)).trans (W3_v1 m ρ c)
theorem W4_v3 (c : Dev nD) : Gen.W4 m ρ c (Proc.devRef .tc main_v3) = dstRow (a1 m c) :=
  (Gen.W4_of_ne m ρ c main_v3 (by decide)).trans (W3_v3 m ρ c)

/-! ## Layer 2

### The arguments the layer reads, at the boundaries where they are read -/

theorem W0_arg7 (c : Dev nD) : Gen.W0 m ρ c (Proc.devRef .tc main_arg7) = a7 m c := rfl
theorem W1_arg7 (c : Dev nD) : Gen.W1 m ρ c (Proc.devRef .tc main_arg7) = a7 m c :=
  (by host_keeps hostOps0 : Gen.W1 m ρ c (Proc.devRef .tc main_arg7) = Gen.W0 m ρ c (Proc.devRef .tc main_arg7)).trans (W0_arg7 m ρ c)
theorem W2_arg7 (c : Dev nD) : Gen.W2 m ρ c (Proc.devRef .tc main_arg7) = a7 m c :=
  (Gen.W2_of_ne m ρ c main_arg7 (by decide)).trans (W1_arg7 m ρ c)
theorem W3_arg7 (c : Dev nD) : Gen.W3 m ρ c (Proc.devRef .tc main_arg7) = a7 m c :=
  (by host_keeps hostOps1 : Gen.W3 m ρ c (Proc.devRef .tc main_arg7) = Gen.W2 m ρ c (Proc.devRef .tc main_arg7)).trans (W2_arg7 m ρ c)
theorem W4_arg7 (c : Dev nD) : Gen.W4 m ρ c (Proc.devRef .tc main_arg7) = a7 m c :=
  (Gen.W4_of_ne m ρ c main_arg7 (by decide)).trans (W3_arg7 m ρ c)
theorem W5_arg7 (c : Dev nD) : Gen.W5 m ρ c (Proc.devRef .tc main_arg7) = a7 m c :=
  (by host_keeps hostOps2 : Gen.W5 m ρ c (Proc.devRef .tc main_arg7) = Gen.W4 m ρ c (Proc.devRef .tc main_arg7)).trans (W4_arg7 m ρ c)
theorem W0_arg8 (c : Dev nD) : Gen.W0 m ρ c (Proc.devRef .tc main_arg8) = a8 m c := rfl
theorem W1_arg8 (c : Dev nD) : Gen.W1 m ρ c (Proc.devRef .tc main_arg8) = a8 m c :=
  (by host_keeps hostOps0 : Gen.W1 m ρ c (Proc.devRef .tc main_arg8) = Gen.W0 m ρ c (Proc.devRef .tc main_arg8)).trans (W0_arg8 m ρ c)
theorem W2_arg8 (c : Dev nD) : Gen.W2 m ρ c (Proc.devRef .tc main_arg8) = a8 m c :=
  (Gen.W2_of_ne m ρ c main_arg8 (by decide)).trans (W1_arg8 m ρ c)
theorem W3_arg8 (c : Dev nD) : Gen.W3 m ρ c (Proc.devRef .tc main_arg8) = a8 m c :=
  (by host_keeps hostOps1 : Gen.W3 m ρ c (Proc.devRef .tc main_arg8) = Gen.W2 m ρ c (Proc.devRef .tc main_arg8)).trans (W2_arg8 m ρ c)
theorem W4_arg8 (c : Dev nD) : Gen.W4 m ρ c (Proc.devRef .tc main_arg8) = a8 m c :=
  (Gen.W4_of_ne m ρ c main_arg8 (by decide)).trans (W3_arg8 m ρ c)
theorem W5_arg8 (c : Dev nD) : Gen.W5 m ρ c (Proc.devRef .tc main_arg8) = a8 m c :=
  (by host_keeps hostOps2 : Gen.W5 m ρ c (Proc.devRef .tc main_arg8) = Gen.W4 m ρ c (Proc.devRef .tc main_arg8)).trans (W4_arg8 m ρ c)
theorem W0_arg9 (c : Dev nD) : Gen.W0 m ρ c (Proc.devRef .tc main_arg9) = a9 m c := rfl
theorem W1_arg9 (c : Dev nD) : Gen.W1 m ρ c (Proc.devRef .tc main_arg9) = a9 m c :=
  (by host_keeps hostOps0 : Gen.W1 m ρ c (Proc.devRef .tc main_arg9) = Gen.W0 m ρ c (Proc.devRef .tc main_arg9)).trans (W0_arg9 m ρ c)
theorem W2_arg9 (c : Dev nD) : Gen.W2 m ρ c (Proc.devRef .tc main_arg9) = a9 m c :=
  (Gen.W2_of_ne m ρ c main_arg9 (by decide)).trans (W1_arg9 m ρ c)
theorem W3_arg9 (c : Dev nD) : Gen.W3 m ρ c (Proc.devRef .tc main_arg9) = a9 m c :=
  (by host_keeps hostOps1 : Gen.W3 m ρ c (Proc.devRef .tc main_arg9) = Gen.W2 m ρ c (Proc.devRef .tc main_arg9)).trans (W2_arg9 m ρ c)
theorem W4_arg9 (c : Dev nD) : Gen.W4 m ρ c (Proc.devRef .tc main_arg9) = a9 m c :=
  (Gen.W4_of_ne m ρ c main_arg9 (by decide)).trans (W3_arg9 m ρ c)
theorem W0_arg10 (c : Dev nD) : Gen.W0 m ρ c (Proc.devRef .tc main_arg10) = a10 m c := rfl
theorem W1_arg10 (c : Dev nD) : Gen.W1 m ρ c (Proc.devRef .tc main_arg10) = a10 m c :=
  (by host_keeps hostOps0 : Gen.W1 m ρ c (Proc.devRef .tc main_arg10) = Gen.W0 m ρ c (Proc.devRef .tc main_arg10)).trans (W0_arg10 m ρ c)
theorem W2_arg10 (c : Dev nD) : Gen.W2 m ρ c (Proc.devRef .tc main_arg10) = a10 m c :=
  (Gen.W2_of_ne m ρ c main_arg10 (by decide)).trans (W1_arg10 m ρ c)
theorem W3_arg10 (c : Dev nD) : Gen.W3 m ρ c (Proc.devRef .tc main_arg10) = a10 m c :=
  (by host_keeps hostOps1 : Gen.W3 m ρ c (Proc.devRef .tc main_arg10) = Gen.W2 m ρ c (Proc.devRef .tc main_arg10)).trans (W2_arg10 m ρ c)
theorem W4_arg10 (c : Dev nD) : Gen.W4 m ρ c (Proc.devRef .tc main_arg10) = a10 m c :=
  (Gen.W4_of_ne m ρ c main_arg10 (by decide)).trans (W3_arg10 m ρ c)
theorem W5_arg10 (c : Dev nD) : Gen.W5 m ρ c (Proc.devRef .tc main_arg10) = a10 m c :=
  (by host_keeps hostOps2 : Gen.W5 m ρ c (Proc.devRef .tc main_arg10) = Gen.W4 m ρ c (Proc.devRef .tc main_arg10)).trans (W4_arg10 m ρ c)
theorem W6_arg10 (c : Dev nD) : Gen.W6 m ρ c (Proc.devRef .tc main_arg10) = a10 m c :=
  (Gen.W6_of_ne m ρ c main_arg10 (by decide)).trans (W5_arg10 m ρ c)
theorem W0_arg11 (c : Dev nD) : Gen.W0 m ρ c (Proc.devRef .tc main_arg11) = a11 m c := rfl
theorem W1_arg11 (c : Dev nD) : Gen.W1 m ρ c (Proc.devRef .tc main_arg11) = a11 m c :=
  (by host_keeps hostOps0 : Gen.W1 m ρ c (Proc.devRef .tc main_arg11) = Gen.W0 m ρ c (Proc.devRef .tc main_arg11)).trans (W0_arg11 m ρ c)
theorem W2_arg11 (c : Dev nD) : Gen.W2 m ρ c (Proc.devRef .tc main_arg11) = a11 m c :=
  (Gen.W2_of_ne m ρ c main_arg11 (by decide)).trans (W1_arg11 m ρ c)
theorem W3_arg11 (c : Dev nD) : Gen.W3 m ρ c (Proc.devRef .tc main_arg11) = a11 m c :=
  (by host_keeps hostOps1 : Gen.W3 m ρ c (Proc.devRef .tc main_arg11) = Gen.W2 m ρ c (Proc.devRef .tc main_arg11)).trans (W2_arg11 m ρ c)
theorem W4_arg11 (c : Dev nD) : Gen.W4 m ρ c (Proc.devRef .tc main_arg11) = a11 m c :=
  (Gen.W4_of_ne m ρ c main_arg11 (by decide)).trans (W3_arg11 m ρ c)
theorem W5_arg11 (c : Dev nD) : Gen.W5 m ρ c (Proc.devRef .tc main_arg11) = a11 m c :=
  (by host_keeps hostOps2 : Gen.W5 m ρ c (Proc.devRef .tc main_arg11) = Gen.W4 m ρ c (Proc.devRef .tc main_arg11)).trans (W4_arg11 m ρ c)
theorem W6_arg11 (c : Dev nD) : Gen.W6 m ρ c (Proc.devRef .tc main_arg11) = a11 m c :=
  (Gen.W6_of_ne m ρ c main_arg11 (by decide)).trans (W5_arg11 m ρ c)

/-! ### After the third host stretch (the second linear launch's entry) -/

theorem W5_v34 (c : Dev nD) : Gen.W5 m ρ c (Proc.devRef .tc main_v34) = kagg2 (klayer1 (a0 m c) (a1 m c) (a2 m c) (a3 m c) (a4 m c) (a5 m c) (a6 m c)) (a1 m c) := by
  show StableHlo.after hostOps2 (Gen.W4 m ρ c) (Proc.devRef .tc main_v34) = _
  after_results_simp
  rw [W4_v24 m ρ c, W4_v1 m ρ c, W4_v3 m ρ c]
  rfl
theorem W5_v24 (c : Dev nD) : Gen.W5 m ρ c (Proc.devRef .tc main_v24) = klayer1 (a0 m c) (a1 m c) (a2 m c) (a3 m c) (a4 m c) (a5 m c) (a6 m c) :=
  (by host_keeps hostOps2 : Gen.W5 m ρ c (Proc.devRef .tc main_v24) = Gen.W4 m ρ c (Proc.devRef .tc main_v24)).trans (W4_v24 m ρ c)
theorem W5_v35 (c : Dev nD) : Gen.W5 m ρ c (Proc.devRef .tc main_v35) = row128 (a9 m c) := by
  show StableHlo.after hostOps2 (Gen.W4 m ρ c) (Proc.devRef .tc main_v35) = _
  after_results
  rw [W4_arg9 m ρ c]
  rfl
theorem W5_v1 (c : Dev nD) : Gen.W5 m ρ c (Proc.devRef .tc main_v1) = srcRow (a1 m c) :=
  (by host_keeps hostOps2 : Gen.W5 m ρ c (Proc.devRef .tc main_v1) = Gen.W4 m ρ c (Proc.devRef .tc main_v1)).trans (W4_v1 m ρ c)
theorem W5_v3 (c : Dev nD) : Gen.W5 m ρ c (Proc.devRef .tc main_v3) = dstRow (a1 m c) :=
  (by host_keeps hostOps2 : Gen.W5 m ρ c (Proc.devRef .tc main_v3) = Gen.W4 m ρ c (Proc.devRef .tc main_v3)).trans (W4_v3 m ρ c)

/-! ### After the second linear launch -/

theorem W6_v36_0 (c : Dev nD) : Gen.W6 m ρ c (Proc.devRef .tc main_v36_0) = klin2 (klayer1 (a0 m c) (a1 m c) (a2 m c) (a3 m c) (a4 m c) (a5 m c) (a6 m c)) (a1 m c) (a7 m c) (a8 m c) (a9 m c) :=
  (Gen.W6_arr m ρ c 5).trans ((KLin2V.final5 (Gen.V5 m ρ) c).trans (by
    show lin128 (Gen.W5 m ρ c (Proc.devRef .tc main_v34)) (Gen.W5 m ρ c (Proc.devRef .tc main_v24)) (Gen.W5 m ρ c (Proc.devRef .tc main_arg7)) (Gen.W5 m ρ c (Proc.devRef .tc main_arg8)) (Gen.W5 m ρ c (Proc.devRef .tc main_v35)) = _
    rw [W5_v34 m ρ c, W5_v24 m ρ c, W5_arg7 m ρ c, W5_arg8 m ρ c, W5_v35 m ρ c]
    rfl))
theorem W6_v36_1 (c : Dev nD) : Gen.W6 m ρ c (Proc.devRef .tc main_v36_1) = colSum128 (klin2 (klayer1 (a0 m c) (a1 m c) (a2 m c) (a3 m c) (a4 m c) (a5 m c) (a6 m c)) (a1 m c) (a7 m c) (a8 m c) (a9 m c)) :=
  (Gen.W6_arr m ρ c 6).trans ((KLin2V.final6 (Gen.V5 m ρ) c).trans (by
    show colSum128 (lin128 (Gen.W5 m ρ c (Proc.devRef .tc main_v34)) (Gen.W5 m ρ c (Proc.devRef .tc main_v24)) (Gen.W5 m ρ c (Proc.devRef .tc main_arg7)) (Gen.W5 m ρ c (Proc.devRef .tc main_arg8)) (Gen.W5 m ρ c (Proc.devRef .tc main_v35))) = _
    rw [W5_v34 m ρ c, W5_v24 m ρ c, W5_arg7 m ρ c, W5_arg8 m ρ c, W5_v35 m ρ c]
    rfl))
theorem W6_v36_2 (c : Dev nD) : Gen.W6 m ρ c (Proc.devRef .tc main_v36_2) = colSq128 (klin2 (klayer1 (a0 m c) (a1 m c) (a2 m c) (a3 m c) (a4 m c) (a5 m c) (a6 m c)) (a1 m c) (a7 m c) (a8 m c) (a9 m c)) :=
  (Gen.W6_arr m ρ c 7).trans ((KLin2V.final7 (Gen.V5 m ρ) c).trans (by
    show colSq128 (lin128 (Gen.W5 m ρ c (Proc.devRef .tc main_v34)) (Gen.W5 m ρ c (Proc.devRef .tc main_v24)) (Gen.W5 m ρ c (Proc.devRef .tc main_arg7)) (Gen.W5 m ρ c (Proc.devRef .tc main_arg8)) (Gen.W5 m ρ c (Proc.devRef .tc main_v35))) = _
    rw [W5_v34 m ρ c, W5_v24 m ρ c, W5_arg7 m ρ c, W5_arg8 m ρ c, W5_v35 m ρ c]
    rfl))
theorem W6_v1 (c : Dev nD) : Gen.W6 m ρ c (Proc.devRef .tc main_v1) = srcRow (a1 m c) :=
  (Gen.W6_of_ne m ρ c main_v1 (by decide)).trans (W5_v1 m ρ c)
theorem W6_v3 (c : Dev nD) : Gen.W6 m ρ c (Proc.devRef .tc main_v3) = dstRow (a1 m c) :=
  (Gen.W6_of_ne m ρ c main_v3 (by decide)).trans (W5_v3 m ρ c)

/-! ### After the fourth host stretch (the second normalise launch's entry) -/

theorem W7_v36_0 (c : Dev nD) : Gen.W7 m ρ c (Proc.devRef .tc main_v36_0) = klin2 (klayer1 (a0 m c) (a1 m c) (a2 m c) (a3 m c) (a4 m c) (a5 m c) (a6 m c)) (a1 m c) (a7 m c) (a8 m c) (a9 m c) :=
  (by host_keeps hostOps3 : Gen.W7 m ρ c (Proc.devRef .tc main_v36_0) = Gen.W6 m ρ c (Proc.devRef .tc main_v36_0)).trans (W6_v36_0 m ρ c)
theorem W7_v38 (c : Dev nD) : Gen.W7 m ρ c (Proc.devRef .tc main_v38) = kmean128 (colSum128 (klin2 (klayer1 (a0 m c) (a1 m c) (a2 m c) (a3 m c) (a4 m c) (a5 m c) (a6 m c)) (a1 m c) (a7 m c) (a8 m c) (a9 m c))) := by
  show StableHlo.after hostOps3 (Gen.W6 m ρ c) (Proc.devRef .tc main_v38) = _
  after_results
  rw [W6_v36_1 m ρ c]
  rfl
theorem W7_v42 (c : Dev nD) : Gen.W7 m ρ c (Proc.devRef .tc main_v42) = kvar128 (colSum128 (klin2 (klayer1 (a0 m c) (a1 m c) (a2 m c) (a3 m c) (a4 m c) (a5 m c) (a6 m c)) (a1 m c) (a7 m c) (a8 m c) (a9 m c))) (colSq128 (klin2 (klayer1 (a0 m c) (a1 m c) (a2 m c) (a3 m c) (a4 m c) (a5 m c) (a6 m c)) (a1 m c) (a7 m c) (a8 m c) (a9 m c))) := by
  show StableHlo.after hostOps3 (Gen.W6 m ρ c) (Proc.devRef .tc main_v42) = _
  after_results
  rw [W6_v36_1 m ρ c, W6_v36_2 m ρ c]
  rfl
theorem W7_v43 (c : Dev nD) : Gen.W7 m ρ c (Proc.devRef .tc main_v43) = row128 (a10 m c) := by
  show StableHlo.after hostOps3 (Gen.W6 m ρ c) (Proc.devRef .tc main_v43) = _
  after_results
  rw [W6_arg10 m ρ c]
  rfl
theorem W7_v44 (c : Dev nD) : Gen.W7 m ρ c (Proc.devRef .tc main_v44) = row128 (a11 m c) := by
  show StableHlo.after hostOps3 (Gen.W6 m ρ c) (Proc.devRef .tc main_v44) = _
  after_results
  rw [W6_arg11 m ρ c]
  rfl
theorem W7_v1 (c : Dev nD) : Gen.W7 m ρ c (Proc.devRef .tc main_v1) = srcRow (a1 m c) :=
  (by host_keeps hostOps3 : Gen.W7 m ρ c (Proc.devRef .tc main_v1) = Gen.W6 m ρ c (Proc.devRef .tc main_v1)).trans (W6_v1 m ρ c)
theorem W7_v3 (c : Dev nD) : Gen.W7 m ρ c (Proc.devRef .tc main_v3) = dstRow (a1 m c) :=
  (by host_keeps hostOps3 : Gen.W7 m ρ c (Proc.devRef .tc main_v3) = Gen.W6 m ρ c (Proc.devRef .tc main_v3)).trans (W6_v3 m ρ c)

/-! ### After the second normalise launch: layer 2's result, and the edge rows layer 3 reads again -/

theorem W8_v45 (c : Dev nD) : Gen.W8 m ρ c (Proc.devRef .tc main_v45) = klayer2 (klayer1 (a0 m c) (a1 m c) (a2 m c) (a3 m c) (a4 m c) (a5 m c) (a6 m c)) (a1 m c) (a7 m c) (a8 m c) (a9 m c) (a10 m c) (a11 m c) :=
  (Gen.W8_arr m ρ c 5).trans ((KBn3.final (Gen.V7 m ρ) c).trans (by
    show bnRelu128 (Gen.W7 m ρ c (Proc.devRef .tc main_v36_0)) (Gen.W7 m ρ c (Proc.devRef .tc main_v38)) (Gen.W7 m ρ c (Proc.devRef .tc main_v42)) (Gen.W7 m ρ c (Proc.devRef .tc main_v43)) (Gen.W7 m ρ c (Proc.devRef .tc main_v44)) = _
    rw [W7_v36_0 m ρ c, W7_v38 m ρ c, W7_v42 m ρ c, W7_v43 m ρ c, W7_v44 m ρ c]
    rfl))
theorem W8_v1 (c : Dev nD) : Gen.W8 m ρ c (Proc.devRef .tc main_v1) = srcRow (a1 m c) :=
  (Gen.W8_of_ne m ρ c main_v1 (by decide)).trans (W7_v1 m ρ c)
theorem W8_v3 (c : Dev nD) : Gen.W8 m ρ c (Proc.devRef .tc main_v3) = dstRow (a1 m c) :=
  (Gen.W8_of_ne m ρ c main_v3 (by decide)).trans (W7_v3 m ρ c)

/-! ## Layer 3

### The arguments the layer and the head read, at the boundaries where they are read -/

theorem W0_arg12 (c : Dev nD) : Gen.W0 m ρ c (Proc.devRef .tc main_arg12) = a12 m c := rfl
theorem W1_arg12 (c : Dev nD) : Gen.W1 m ρ c (Proc.devRef .tc main_arg12) = a12 m c :=
  (by host_keeps hostOps0 : Gen.W1 m ρ c (Proc.devRef .tc main_arg12) = Gen.W0 m ρ c (Proc.devRef .tc main_arg12)).trans (W0_arg12 m ρ c)
theorem W2_arg12 (c : Dev nD) : Gen.W2 m ρ c (Proc.devRef .tc main_arg12) = a12 m c :=
  (Gen.W2_of_ne m ρ c main_arg12 (by decide)).trans (W1_arg12 m ρ c)
theorem W3_arg12 (c : Dev nD) : Gen.W3 m ρ c (Proc.devRef .tc main_arg12) = a12 m c :=
  (by host_keeps hostOps1 : Gen.W3 m ρ c (Proc.devRef .tc main_arg12) = Gen.W2 m ρ c (Proc.devRef .tc main_arg12)).trans (W2_arg12 m ρ c)
theorem W4_arg12 (c : Dev nD) : Gen.W4 m ρ c (Proc.devRef .tc main_arg12) = a12 m c :=
  (Gen.W4_of_ne m ρ c main_arg12 (by decide)).trans (W3_arg12 m ρ c)
theorem W5_arg12 (c : Dev nD) : Gen.W5 m ρ c (Proc.devRef .tc main_arg12) = a12 m c :=
  (by host_keeps hostOps2 : Gen.W5 m ρ c (Proc.devRef .tc main_arg12) = Gen.W4 m ρ c (Proc.devRef .tc main_arg12)).trans (W4_arg12 m ρ c)
theorem W6_arg12 (c : Dev nD) : Gen.W6 m ρ c (Proc.devRef .tc main_arg12) = a12 m c :=
  (Gen.W6_of_ne m ρ c main_arg12 (by decide)).trans (W5_arg12 m ρ c)
theorem W7_arg12 (c : Dev nD) : Gen.W7 m ρ c (Proc.devRef .tc main_arg12) = a12 m c :=
  (by host_keeps hostOps3 : Gen.W7 m ρ c (Proc.devRef .tc main_arg12) = Gen.W6 m ρ c (Proc.devRef .tc main_arg12)).trans (W6_arg12 m ρ c)
theorem W8_arg12 (c : Dev nD) : Gen.W8 m ρ c (Proc.devRef .tc main_arg12) = a12 m c :=
  (Gen.W8_of_ne m ρ c main_arg12 (by decide)).trans (W7_arg12 m ρ c)
theorem W9_arg12 (c : Dev nD) : Gen.W9 m ρ c (Proc.devRef .tc main_arg12) = a12 m c :=
  (by host_keeps hostOps4 : Gen.W9 m ρ c (Proc.devRef .tc main_arg12) = Gen.W8 m ρ c (Proc.devRef .tc main_arg12)).trans (W8_arg12 m ρ c)
theorem W0_arg13 (c : Dev nD) : Gen.W0 m ρ c (Proc.devRef .tc main_arg13) = a13 m c := rfl
theorem W1_arg13 (c : Dev nD) : Gen.W1 m ρ c (Proc.devRef .tc main_arg13) = a13 m c :=
  (by host_keeps hostOps0 : Gen.W1 m ρ c (Proc.devRef .tc main_arg13) = Gen.W0 m ρ c (Proc.devRef .tc main_arg13)).trans (W0_arg13 m ρ c)
theorem W2_arg13 (c : Dev nD) : Gen.W2 m ρ c (Proc.devRef .tc main_arg13) = a13 m c :=
  (Gen.W2_of_ne m ρ c main_arg13 (by decide)).trans (W1_arg13 m ρ c)
theorem W3_arg13 (c : Dev nD) : Gen.W3 m ρ c (Proc.devRef .tc main_arg13) = a13 m c :=
  (by host_keeps hostOps1 : Gen.W3 m ρ c (Proc.devRef .tc main_arg13) = Gen.W2 m ρ c (Proc.devRef .tc main_arg13)).trans (W2_arg13 m ρ c)
theorem W4_arg13 (c : Dev nD) : Gen.W4 m ρ c (Proc.devRef .tc main_arg13) = a13 m c :=
  (Gen.W4_of_ne m ρ c main_arg13 (by decide)).trans (W3_arg13 m ρ c)
theorem W5_arg13 (c : Dev nD) : Gen.W5 m ρ c (Proc.devRef .tc main_arg13) = a13 m c :=
  (by host_keeps hostOps2 : Gen.W5 m ρ c (Proc.devRef .tc main_arg13) = Gen.W4 m ρ c (Proc.devRef .tc main_arg13)).trans (W4_arg13 m ρ c)
theorem W6_arg13 (c : Dev nD) : Gen.W6 m ρ c (Proc.devRef .tc main_arg13) = a13 m c :=
  (Gen.W6_of_ne m ρ c main_arg13 (by decide)).trans (W5_arg13 m ρ c)
theorem W7_arg13 (c : Dev nD) : Gen.W7 m ρ c (Proc.devRef .tc main_arg13) = a13 m c :=
  (by host_keeps hostOps3 : Gen.W7 m ρ c (Proc.devRef .tc main_arg13) = Gen.W6 m ρ c (Proc.devRef .tc main_arg13)).trans (W6_arg13 m ρ c)
theorem W8_arg13 (c : Dev nD) : Gen.W8 m ρ c (Proc.devRef .tc main_arg13) = a13 m c :=
  (Gen.W8_of_ne m ρ c main_arg13 (by decide)).trans (W7_arg13 m ρ c)
theorem W9_arg13 (c : Dev nD) : Gen.W9 m ρ c (Proc.devRef .tc main_arg13) = a13 m c :=
  (by host_keeps hostOps4 : Gen.W9 m ρ c (Proc.devRef .tc main_arg13) = Gen.W8 m ρ c (Proc.devRef .tc main_arg13)).trans (W8_arg13 m ρ c)
theorem W0_arg14 (c : Dev nD) : Gen.W0 m ρ c (Proc.devRef .tc main_arg14) = a14 m c := rfl
theorem W1_arg14 (c : Dev nD) : Gen.W1 m ρ c (Proc.devRef .tc main_arg14) = a14 m c :=
  (by host_keeps hostOps0 : Gen.W1 m ρ c (Proc.devRef .tc main_arg14) = Gen.W0 m ρ c (Proc.devRef .tc main_arg14)).trans (W0_arg14 m ρ c)
theorem W2_arg14 (c : Dev nD) : Gen.W2 m ρ c (Proc.devRef .tc main_arg14) = a14 m c :=
  (Gen.W2_of_ne m ρ c main_arg14 (by decide)).trans (W1_arg14 m ρ c)
theorem W3_arg14 (c : Dev nD) : Gen.W3 m ρ c (Proc.devRef .tc main_arg14) = a14 m c :=
  (by host_keeps hostOps1 : Gen.W3 m ρ c (Proc.devRef .tc main_arg14) = Gen.W2 m ρ c (Proc.devRef .tc main_arg14)).trans (W2_arg14 m ρ c)
theorem W4_arg14 (c : Dev nD) : Gen.W4 m ρ c (Proc.devRef .tc main_arg14) = a14 m c :=
  (Gen.W4_of_ne m ρ c main_arg14 (by decide)).trans (W3_arg14 m ρ c)
theorem W5_arg14 (c : Dev nD) : Gen.W5 m ρ c (Proc.devRef .tc main_arg14) = a14 m c :=
  (by host_keeps hostOps2 : Gen.W5 m ρ c (Proc.devRef .tc main_arg14) = Gen.W4 m ρ c (Proc.devRef .tc main_arg14)).trans (W4_arg14 m ρ c)
theorem W6_arg14 (c : Dev nD) : Gen.W6 m ρ c (Proc.devRef .tc main_arg14) = a14 m c :=
  (Gen.W6_of_ne m ρ c main_arg14 (by decide)).trans (W5_arg14 m ρ c)
theorem W7_arg14 (c : Dev nD) : Gen.W7 m ρ c (Proc.devRef .tc main_arg14) = a14 m c :=
  (by host_keeps hostOps3 : Gen.W7 m ρ c (Proc.devRef .tc main_arg14) = Gen.W6 m ρ c (Proc.devRef .tc main_arg14)).trans (W6_arg14 m ρ c)
theorem W8_arg14 (c : Dev nD) : Gen.W8 m ρ c (Proc.devRef .tc main_arg14) = a14 m c :=
  (Gen.W8_of_ne m ρ c main_arg14 (by decide)).trans (W7_arg14 m ρ c)
theorem W0_arg15 (c : Dev nD) : Gen.W0 m ρ c (Proc.devRef .tc main_arg15) = a15 m c := rfl
theorem W1_arg15 (c : Dev nD) : Gen.W1 m ρ c (Proc.devRef .tc main_arg15) = a15 m c :=
  (by host_keeps hostOps0 : Gen.W1 m ρ c (Proc.devRef .tc main_arg15) = Gen.W0 m ρ c (Proc.devRef .tc main_arg15)).trans (W0_arg15 m ρ c)
theorem W2_arg15 (c : Dev nD) : Gen.W2 m ρ c (Proc.devRef .tc main_arg15) = a15 m c :=
  (Gen.W2_of_ne m ρ c main_arg15 (by decide)).trans (W1_arg15 m ρ c)
theorem W3_arg15 (c : Dev nD) : Gen.W3 m ρ c (Proc.devRef .tc main_arg15) = a15 m c :=
  (by host_keeps hostOps1 : Gen.W3 m ρ c (Proc.devRef .tc main_arg15) = Gen.W2 m ρ c (Proc.devRef .tc main_arg15)).trans (W2_arg15 m ρ c)
theorem W4_arg15 (c : Dev nD) : Gen.W4 m ρ c (Proc.devRef .tc main_arg15) = a15 m c :=
  (Gen.W4_of_ne m ρ c main_arg15 (by decide)).trans (W3_arg15 m ρ c)
theorem W5_arg15 (c : Dev nD) : Gen.W5 m ρ c (Proc.devRef .tc main_arg15) = a15 m c :=
  (by host_keeps hostOps2 : Gen.W5 m ρ c (Proc.devRef .tc main_arg15) = Gen.W4 m ρ c (Proc.devRef .tc main_arg15)).trans (W4_arg15 m ρ c)
theorem W6_arg15 (c : Dev nD) : Gen.W6 m ρ c (Proc.devRef .tc main_arg15) = a15 m c :=
  (Gen.W6_of_ne m ρ c main_arg15 (by decide)).trans (W5_arg15 m ρ c)
theorem W7_arg15 (c : Dev nD) : Gen.W7 m ρ c (Proc.devRef .tc main_arg15) = a15 m c :=
  (by host_keeps hostOps3 : Gen.W7 m ρ c (Proc.devRef .tc main_arg15) = Gen.W6 m ρ c (Proc.devRef .tc main_arg15)).trans (W6_arg15 m ρ c)
theorem W8_arg15 (c : Dev nD) : Gen.W8 m ρ c (Proc.devRef .tc main_arg15) = a15 m c :=
  (Gen.W8_of_ne m ρ c main_arg15 (by decide)).trans (W7_arg15 m ρ c)
theorem W9_arg15 (c : Dev nD) : Gen.W9 m ρ c (Proc.devRef .tc main_arg15) = a15 m c :=
  (by host_keeps hostOps4 : Gen.W9 m ρ c (Proc.devRef .tc main_arg15) = Gen.W8 m ρ c (Proc.devRef .tc main_arg15)).trans (W8_arg15 m ρ c)
theorem W10_arg15 (c : Dev nD) : Gen.W10 m ρ c (Proc.devRef .tc main_arg15) = a15 m c :=
  (Gen.W10_of_ne m ρ c main_arg15 (by decide)).trans (W9_arg15 m ρ c)
theorem W0_arg16 (c : Dev nD) : Gen.W0 m ρ c (Proc.devRef .tc main_arg16) = a16 m c := rfl
theorem W1_arg16 (c : Dev nD) : Gen.W1 m ρ c (Proc.devRef .tc main_arg16) = a16 m c :=
  (by host_keeps hostOps0 : Gen.W1 m ρ c (Proc.devRef .tc main_arg16) = Gen.W0 m ρ c (Proc.devRef .tc main_arg16)).trans (W0_arg16 m ρ c)
theorem W2_arg16 (c : Dev nD) : Gen.W2 m ρ c (Proc.devRef .tc main_arg16) = a16 m c :=
  (Gen.W2_of_ne m ρ c main_arg16 (by decide)).trans (W1_arg16 m ρ c)
theorem W3_arg16 (c : Dev nD) : Gen.W3 m ρ c (Proc.devRef .tc main_arg16) = a16 m c :=
  (by host_keeps hostOps1 : Gen.W3 m ρ c (Proc.devRef .tc main_arg16) = Gen.W2 m ρ c (Proc.devRef .tc main_arg16)).trans (W2_arg16 m ρ c)
theorem W4_arg16 (c : Dev nD) : Gen.W4 m ρ c (Proc.devRef .tc main_arg16) = a16 m c :=
  (Gen.W4_of_ne m ρ c main_arg16 (by decide)).trans (W3_arg16 m ρ c)
theorem W5_arg16 (c : Dev nD) : Gen.W5 m ρ c (Proc.devRef .tc main_arg16) = a16 m c :=
  (by host_keeps hostOps2 : Gen.W5 m ρ c (Proc.devRef .tc main_arg16) = Gen.W4 m ρ c (Proc.devRef .tc main_arg16)).trans (W4_arg16 m ρ c)
theorem W6_arg16 (c : Dev nD) : Gen.W6 m ρ c (Proc.devRef .tc main_arg16) = a16 m c :=
  (Gen.W6_of_ne m ρ c main_arg16 (by decide)).trans (W5_arg16 m ρ c)
theorem W7_arg16 (c : Dev nD) : Gen.W7 m ρ c (Proc.devRef .tc main_arg16) = a16 m c :=
  (by host_keeps hostOps3 : Gen.W7 m ρ c (Proc.devRef .tc main_arg16) = Gen.W6 m ρ c (Proc.devRef .tc main_arg16)).trans (W6_arg16 m ρ c)
theorem W8_arg16 (c : Dev nD) : Gen.W8 m ρ c (Proc.devRef .tc main_arg16) = a16 m c :=
  (Gen.W8_of_ne m ρ c main_arg16 (by decide)).trans (W7_arg16 m ρ c)
theorem W9_arg16 (c : Dev nD) : Gen.W9 m ρ c (Proc.devRef .tc main_arg16) = a16 m c :=
  (by host_keeps hostOps4 : Gen.W9 m ρ c (Proc.devRef .tc main_arg16) = Gen.W8 m ρ c (Proc.devRef .tc main_arg16)).trans (W8_arg16 m ρ c)
theorem W10_arg16 (c : Dev nD) : Gen.W10 m ρ c (Proc.devRef .tc main_arg16) = a16 m c :=
  (Gen.W10_of_ne m ρ c main_arg16 (by decide)).trans (W9_arg16 m ρ c)
theorem W0_arg17 (c : Dev nD) : Gen.W0 m ρ c (Proc.devRef .tc main_arg17) = a17 m c := rfl
theorem W1_arg17 (c : Dev nD) : Gen.W1 m ρ c (Proc.devRef .tc main_arg17) = a17 m c :=
  (by host_keeps hostOps0 : Gen.W1 m ρ c (Proc.devRef .tc main_arg17) = Gen.W0 m ρ c (Proc.devRef .tc main_arg17)).trans (W0_arg17 m ρ c)
theorem W2_arg17 (c : Dev nD) : Gen.W2 m ρ c (Proc.devRef .tc main_arg17) = a17 m c :=
  (Gen.W2_of_ne m ρ c main_arg17 (by decide)).trans (W1_arg17 m ρ c)
theorem W3_arg17 (c : Dev nD) : Gen.W3 m ρ c (Proc.devRef .tc main_arg17) = a17 m c :=
  (by host_keeps hostOps1 : Gen.W3 m ρ c (Proc.devRef .tc main_arg17) = Gen.W2 m ρ c (Proc.devRef .tc main_arg17)).trans (W2_arg17 m ρ c)
theorem W4_arg17 (c : Dev nD) : Gen.W4 m ρ c (Proc.devRef .tc main_arg17) = a17 m c :=
  (Gen.W4_of_ne m ρ c main_arg17 (by decide)).trans (W3_arg17 m ρ c)
theorem W5_arg17 (c : Dev nD) : Gen.W5 m ρ c (Proc.devRef .tc main_arg17) = a17 m c :=
  (by host_keeps hostOps2 : Gen.W5 m ρ c (Proc.devRef .tc main_arg17) = Gen.W4 m ρ c (Proc.devRef .tc main_arg17)).trans (W4_arg17 m ρ c)
theorem W6_arg17 (c : Dev nD) : Gen.W6 m ρ c (Proc.devRef .tc main_arg17) = a17 m c :=
  (Gen.W6_of_ne m ρ c main_arg17 (by decide)).trans (W5_arg17 m ρ c)
theorem W7_arg17 (c : Dev nD) : Gen.W7 m ρ c (Proc.devRef .tc main_arg17) = a17 m c :=
  (by host_keeps hostOps3 : Gen.W7 m ρ c (Proc.devRef .tc main_arg17) = Gen.W6 m ρ c (Proc.devRef .tc main_arg17)).trans (W6_arg17 m ρ c)
theorem W8_arg17 (c : Dev nD) : Gen.W8 m ρ c (Proc.devRef .tc main_arg17) = a17 m c :=
  (Gen.W8_of_ne m ρ c main_arg17 (by decide)).trans (W7_arg17 m ρ c)
theorem W9_arg17 (c : Dev nD) : Gen.W9 m ρ c (Proc.devRef .tc main_arg17) = a17 m c :=
  (by host_keeps hostOps4 : Gen.W9 m ρ c (Proc.devRef .tc main_arg17) = Gen.W8 m ρ c (Proc.devRef .tc main_arg17)).trans (W8_arg17 m ρ c)
theorem W10_arg17 (c : Dev nD) : Gen.W10 m ρ c (Proc.devRef .tc main_arg17) = a17 m c :=
  (Gen.W10_of_ne m ρ c main_arg17 (by decide)).trans (W9_arg17 m ρ c)
theorem W11_arg17 (c : Dev nD) : Gen.W11 m ρ c (Proc.devRef .tc main_arg17) = a17 m c :=
  (by host_keeps hostOps5 : Gen.W11 m ρ c (Proc.devRef .tc main_arg17) = Gen.W10 m ρ c (Proc.devRef .tc main_arg17)).trans (W10_arg17 m ρ c)
theorem W12_arg17 (c : Dev nD) : Gen.W12 m ρ c (Proc.devRef .tc main_arg17) = a17 m c :=
  (Gen.W12_of_ne m ρ c main_arg17 (by decide)).trans (W11_arg17 m ρ c)
theorem W13_arg17 (c : Dev nD) : Gen.W13 m ρ c (Proc.devRef .tc main_arg17) = a17 m c :=
  (by host_keeps hostOps6 : Gen.W13 m ρ c (Proc.devRef .tc main_arg17) = Gen.W12 m ρ c (Proc.devRef .tc main_arg17)).trans (W12_arg17 m ρ c)
theorem W0_arg18 (c : Dev nD) : Gen.W0 m ρ c (Proc.devRef .tc main_arg18) = a18 m c := rfl
theorem W1_arg18 (c : Dev nD) : Gen.W1 m ρ c (Proc.devRef .tc main_arg18) = a18 m c :=
  (by host_keeps hostOps0 : Gen.W1 m ρ c (Proc.devRef .tc main_arg18) = Gen.W0 m ρ c (Proc.devRef .tc main_arg18)).trans (W0_arg18 m ρ c)
theorem W2_arg18 (c : Dev nD) : Gen.W2 m ρ c (Proc.devRef .tc main_arg18) = a18 m c :=
  (Gen.W2_of_ne m ρ c main_arg18 (by decide)).trans (W1_arg18 m ρ c)
theorem W3_arg18 (c : Dev nD) : Gen.W3 m ρ c (Proc.devRef .tc main_arg18) = a18 m c :=
  (by host_keeps hostOps1 : Gen.W3 m ρ c (Proc.devRef .tc main_arg18) = Gen.W2 m ρ c (Proc.devRef .tc main_arg18)).trans (W2_arg18 m ρ c)
theorem W4_arg18 (c : Dev nD) : Gen.W4 m ρ c (Proc.devRef .tc main_arg18) = a18 m c :=
  (Gen.W4_of_ne m ρ c main_arg18 (by decide)).trans (W3_arg18 m ρ c)
theorem W5_arg18 (c : Dev nD) : Gen.W5 m ρ c (Proc.devRef .tc main_arg18) = a18 m c :=
  (by host_keeps hostOps2 : Gen.W5 m ρ c (Proc.devRef .tc main_arg18) = Gen.W4 m ρ c (Proc.devRef .tc main_arg18)).trans (W4_arg18 m ρ c)
theorem W6_arg18 (c : Dev nD) : Gen.W6 m ρ c (Proc.devRef .tc main_arg18) = a18 m c :=
  (Gen.W6_of_ne m ρ c main_arg18 (by decide)).trans (W5_arg18 m ρ c)
theorem W7_arg18 (c : Dev nD) : Gen.W7 m ρ c (Proc.devRef .tc main_arg18) = a18 m c :=
  (by host_keeps hostOps3 : Gen.W7 m ρ c (Proc.devRef .tc main_arg18) = Gen.W6 m ρ c (Proc.devRef .tc main_arg18)).trans (W6_arg18 m ρ c)
theorem W8_arg18 (c : Dev nD) : Gen.W8 m ρ c (Proc.devRef .tc main_arg18) = a18 m c :=
  (Gen.W8_of_ne m ρ c main_arg18 (by decide)).trans (W7_arg18 m ρ c)
theorem W9_arg18 (c : Dev nD) : Gen.W9 m ρ c (Proc.devRef .tc main_arg18) = a18 m c :=
  (by host_keeps hostOps4 : Gen.W9 m ρ c (Proc.devRef .tc main_arg18) = Gen.W8 m ρ c (Proc.devRef .tc main_arg18)).trans (W8_arg18 m ρ c)
theorem W10_arg18 (c : Dev nD) : Gen.W10 m ρ c (Proc.devRef .tc main_arg18) = a18 m c :=
  (Gen.W10_of_ne m ρ c main_arg18 (by decide)).trans (W9_arg18 m ρ c)
theorem W11_arg18 (c : Dev nD) : Gen.W11 m ρ c (Proc.devRef .tc main_arg18) = a18 m c :=
  (by host_keeps hostOps5 : Gen.W11 m ρ c (Proc.devRef .tc main_arg18) = Gen.W10 m ρ c (Proc.devRef .tc main_arg18)).trans (W10_arg18 m ρ c)
theorem W12_arg18 (c : Dev nD) : Gen.W12 m ρ c (Proc.devRef .tc main_arg18) = a18 m c :=
  (Gen.W12_of_ne m ρ c main_arg18 (by decide)).trans (W11_arg18 m ρ c)
theorem W0_arg19 (c : Dev nD) : Gen.W0 m ρ c (Proc.devRef .tc main_arg19) = a19 m c := rfl
theorem W1_arg19 (c : Dev nD) : Gen.W1 m ρ c (Proc.devRef .tc main_arg19) = a19 m c :=
  (by host_keeps hostOps0 : Gen.W1 m ρ c (Proc.devRef .tc main_arg19) = Gen.W0 m ρ c (Proc.devRef .tc main_arg19)).trans (W0_arg19 m ρ c)
theorem W2_arg19 (c : Dev nD) : Gen.W2 m ρ c (Proc.devRef .tc main_arg19) = a19 m c :=
  (Gen.W2_of_ne m ρ c main_arg19 (by decide)).trans (W1_arg19 m ρ c)
theorem W3_arg19 (c : Dev nD) : Gen.W3 m ρ c (Proc.devRef .tc main_arg19) = a19 m c :=
  (by host_keeps hostOps1 : Gen.W3 m ρ c (Proc.devRef .tc main_arg19) = Gen.W2 m ρ c (Proc.devRef .tc main_arg19)).trans (W2_arg19 m ρ c)
theorem W4_arg19 (c : Dev nD) : Gen.W4 m ρ c (Proc.devRef .tc main_arg19) = a19 m c :=
  (Gen.W4_of_ne m ρ c main_arg19 (by decide)).trans (W3_arg19 m ρ c)
theorem W5_arg19 (c : Dev nD) : Gen.W5 m ρ c (Proc.devRef .tc main_arg19) = a19 m c :=
  (by host_keeps hostOps2 : Gen.W5 m ρ c (Proc.devRef .tc main_arg19) = Gen.W4 m ρ c (Proc.devRef .tc main_arg19)).trans (W4_arg19 m ρ c)
theorem W6_arg19 (c : Dev nD) : Gen.W6 m ρ c (Proc.devRef .tc main_arg19) = a19 m c :=
  (Gen.W6_of_ne m ρ c main_arg19 (by decide)).trans (W5_arg19 m ρ c)
theorem W7_arg19 (c : Dev nD) : Gen.W7 m ρ c (Proc.devRef .tc main_arg19) = a19 m c :=
  (by host_keeps hostOps3 : Gen.W7 m ρ c (Proc.devRef .tc main_arg19) = Gen.W6 m ρ c (Proc.devRef .tc main_arg19)).trans (W6_arg19 m ρ c)
theorem W8_arg19 (c : Dev nD) : Gen.W8 m ρ c (Proc.devRef .tc main_arg19) = a19 m c :=
  (Gen.W8_of_ne m ρ c main_arg19 (by decide)).trans (W7_arg19 m ρ c)
theorem W9_arg19 (c : Dev nD) : Gen.W9 m ρ c (Proc.devRef .tc main_arg19) = a19 m c :=
  (by host_keeps hostOps4 : Gen.W9 m ρ c (Proc.devRef .tc main_arg19) = Gen.W8 m ρ c (Proc.devRef .tc main_arg19)).trans (W8_arg19 m ρ c)
theorem W10_arg19 (c : Dev nD) : Gen.W10 m ρ c (Proc.devRef .tc main_arg19) = a19 m c :=
  (Gen.W10_of_ne m ρ c main_arg19 (by decide)).trans (W9_arg19 m ρ c)
theorem W11_arg19 (c : Dev nD) : Gen.W11 m ρ c (Proc.devRef .tc main_arg19) = a19 m c :=
  (by host_keeps hostOps5 : Gen.W11 m ρ c (Proc.devRef .tc main_arg19) = Gen.W10 m ρ c (Proc.devRef .tc main_arg19)).trans (W10_arg19 m ρ c)
theorem W12_arg19 (c : Dev nD) : Gen.W12 m ρ c (Proc.devRef .tc main_arg19) = a19 m c :=
  (Gen.W12_of_ne m ρ c main_arg19 (by decide)).trans (W11_arg19 m ρ c)
theorem W13_arg19 (c : Dev nD) : Gen.W13 m ρ c (Proc.devRef .tc main_arg19) = a19 m c :=
  (by host_keeps hostOps6 : Gen.W13 m ρ c (Proc.devRef .tc main_arg19) = Gen.W12 m ρ c (Proc.devRef .tc main_arg19)).trans (W12_arg19 m ρ c)
theorem W0_arg20 (c : Dev nD) : Gen.W0 m ρ c (Proc.devRef .tc main_arg20) = a20 m c := rfl
theorem W1_arg20 (c : Dev nD) : Gen.W1 m ρ c (Proc.devRef .tc main_arg20) = a20 m c :=
  (by host_keeps hostOps0 : Gen.W1 m ρ c (Proc.devRef .tc main_arg20) = Gen.W0 m ρ c (Proc.devRef .tc main_arg20)).trans (W0_arg20 m ρ c)
theorem W2_arg20 (c : Dev nD) : Gen.W2 m ρ c (Proc.devRef .tc main_arg20) = a20 m c :=
  (Gen.W2_of_ne m ρ c main_arg20 (by decide)).trans (W1_arg20 m ρ c)
theorem W3_arg20 (c : Dev nD) : Gen.W3 m ρ c (Proc.devRef .tc main_arg20) = a20 m c :=
  (by host_keeps hostOps1 : Gen.W3 m ρ c (Proc.devRef .tc main_arg20) = Gen.W2 m ρ c (Proc.devRef .tc main_arg20)).trans (W2_arg20 m ρ c)
theorem W4_arg20 (c : Dev nD) : Gen.W4 m ρ c (Proc.devRef .tc main_arg20) = a20 m c :=
  (Gen.W4_of_ne m ρ c main_arg20 (by decide)).trans (W3_arg20 m ρ c)
theorem W5_arg20 (c : Dev nD) : Gen.W5 m ρ c (Proc.devRef .tc main_arg20) = a20 m c :=
  (by host_keeps hostOps2 : Gen.W5 m ρ c (Proc.devRef .tc main_arg20) = Gen.W4 m ρ c (Proc.devRef .tc main_arg20)).trans (W4_arg20 m ρ c)
theorem W6_arg20 (c : Dev nD) : Gen.W6 m ρ c (Proc.devRef .tc main_arg20) = a20 m c :=
  (Gen.W6_of_ne m ρ c main_arg20 (by decide)).trans (W5_arg20 m ρ c)
theorem W7_arg20 (c : Dev nD) : Gen.W7 m ρ c (Proc.devRef .tc main_arg20) = a20 m c :=
  (by host_keeps hostOps3 : Gen.W7 m ρ c (Proc.devRef .tc main_arg20) = Gen.W6 m ρ c (Proc.devRef .tc main_arg20)).trans (W6_arg20 m ρ c)
theorem W8_arg20 (c : Dev nD) : Gen.W8 m ρ c (Proc.devRef .tc main_arg20) = a20 m c :=
  (Gen.W8_of_ne m ρ c main_arg20 (by decide)).trans (W7_arg20 m ρ c)
theorem W9_arg20 (c : Dev nD) : Gen.W9 m ρ c (Proc.devRef .tc main_arg20) = a20 m c :=
  (by host_keeps hostOps4 : Gen.W9 m ρ c (Proc.devRef .tc main_arg20) = Gen.W8 m ρ c (Proc.devRef .tc main_arg20)).trans (W8_arg20 m ρ c)
theorem W10_arg20 (c : Dev nD) : Gen.W10 m ρ c (Proc.devRef .tc main_arg20) = a20 m c :=
  (Gen.W10_of_ne m ρ c main_arg20 (by decide)).trans (W9_arg20 m ρ c)
theorem W11_arg20 (c : Dev nD) : Gen.W11 m ρ c (Proc.devRef .tc main_arg20) = a20 m c :=
  (by host_keeps hostOps5 : Gen.W11 m ρ c (Proc.devRef .tc main_arg20) = Gen.W10 m ρ c (Proc.devRef .tc main_arg20)).trans (W10_arg20 m ρ c)
theorem W12_arg20 (c : Dev nD) : Gen.W12 m ρ c (Proc.devRef .tc main_arg20) = a20 m c :=
  (Gen.W12_of_ne m ρ c main_arg20 (by decide)).trans (W11_arg20 m ρ c)

/-! ### After the fifth host stretch (the third linear launch's entry) -/

theorem W9_v55 (c : Dev nD) : Gen.W9 m ρ c (Proc.devRef .tc main_v55) = kagg3 (klayer2 (klayer1 (a0 m c) (a1 m c) (a2 m c) (a3 m c) (a4 m c) (a5 m c) (a6 m c)) (a1 m c) (a7 m c) (a8 m c) (a9 m c) (a10 m c) (a11 m c)) (a1 m c) := by
  show StableHlo.after hostOps4 (Gen.W8 m ρ c) (Proc.devRef .tc main_v55) = _
  after_results_simp
  rw [W8_v45 m ρ c, W8_v1 m ρ c, W8_v3 m ρ c]
  rfl
theorem W9_v45 (c : Dev nD) : Gen.W9 m ρ c (Proc.devRef .tc main_v45) = klayer2 (klayer1 (a0 m c) (a1 m c) (a2 m c) (a3 m c) (a4 m c) (a5 m c) (a6 m c)) (a1 m c) (a7 m c) (a8 m c) (a9 m c) (a10 m c) (a11 m c) :=
  (by host_keeps hostOps4 : Gen.W9 m ρ c (Proc.devRef .tc main_v45) = Gen.W8 m ρ c (Proc.devRef .tc main_v45)).trans (W8_v45 m ρ c)
theorem W9_v56 (c : Dev nD) : Gen.W9 m ρ c (Proc.devRef .tc main_v56) = row256 (a14 m c) := by
  show StableHlo.after hostOps4 (Gen.W8 m ρ c) (Proc.devRef .tc main_v56) = _
  after_results
  rw [W8_arg14 m ρ c]
  rfl

/-! ### After the third linear launch -/

theorem W10_v57_0 (c : Dev nD) : Gen.W10 m ρ c (Proc.devRef .tc main_v57_0) = klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c) :=
  (Gen.W10_arr m ρ c 5).trans ((KLin4V.final5 (Gen.V9 m ρ) c).trans (by
    show lin256 (Gen.W9 m ρ c (Proc.devRef .tc main_v55)) (Gen.W9 m ρ c (Proc.devRef .tc main_v45)) (Gen.W9 m ρ c (Proc.devRef .tc main_arg12)) (Gen.W9 m ρ c (Proc.devRef .tc main_arg13)) (Gen.W9 m ρ c (Proc.devRef .tc main_v56)) = _
    rw [W9_v55 m ρ c, W9_v45 m ρ c, W9_arg12 m ρ c, W9_arg13 m ρ c, W9_v56 m ρ c]
    rfl))
theorem W10_v57_1 (c : Dev nD) : Gen.W10 m ρ c (Proc.devRef .tc main_v57_1) = colSum256 (klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c)) :=
  (Gen.W10_arr m ρ c 6).trans ((KLin4V.final6 (Gen.V9 m ρ) c).trans (by
    show colSum256 (lin256 (Gen.W9 m ρ c (Proc.devRef .tc main_v55)) (Gen.W9 m ρ c (Proc.devRef .tc main_v45)) (Gen.W9 m ρ c (Proc.devRef .tc main_arg12)) (Gen.W9 m ρ c (Proc.devRef .tc main_arg13)) (Gen.W9 m ρ c (Proc.devRef .tc main_v56))) = _
    rw [W9_v55 m ρ c, W9_v45 m ρ c, W9_arg12 m ρ c, W9_arg13 m ρ c, W9_v56 m ρ c]
    rfl))
theorem W10_v57_2 (c : Dev nD) : Gen.W10 m ρ c (Proc.devRef .tc main_v57_2) = colSq256 (klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c)) :=
  (Gen.W10_arr m ρ c 7).trans ((KLin4V.final7 (Gen.V9 m ρ) c).trans (by
    show colSq256 (lin256 (Gen.W9 m ρ c (Proc.devRef .tc main_v55)) (Gen.W9 m ρ c (Proc.devRef .tc main_v45)) (Gen.W9 m ρ c (Proc.devRef .tc main_arg12)) (Gen.W9 m ρ c (Proc.devRef .tc main_arg13)) (Gen.W9 m ρ c (Proc.devRef .tc main_v56))) = _
    rw [W9_v55 m ρ c, W9_v45 m ρ c, W9_arg12 m ρ c, W9_arg13 m ρ c, W9_v56 m ρ c]
    rfl))

/-! ### After the sixth host stretch (the third normalise launch's entry) -/

theorem W11_v57_0 (c : Dev nD) : Gen.W11 m ρ c (Proc.devRef .tc main_v57_0) = klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c) :=
  (by host_keeps hostOps5 : Gen.W11 m ρ c (Proc.devRef .tc main_v57_0) = Gen.W10 m ρ c (Proc.devRef .tc main_v57_0)).trans (W10_v57_0 m ρ c)
theorem W11_v59 (c : Dev nD) : Gen.W11 m ρ c (Proc.devRef .tc main_v59) = kmean256 (colSum256 (klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c))) := by
  show StableHlo.after hostOps5 (Gen.W10 m ρ c) (Proc.devRef .tc main_v59) = _
  after_results
  rw [W10_v57_1 m ρ c]
  rfl
theorem W11_v63 (c : Dev nD) : Gen.W11 m ρ c (Proc.devRef .tc main_v63) = kvar256 (colSum256 (klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c))) (colSq256 (klin3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c))) := by
  show StableHlo.after hostOps5 (Gen.W10 m ρ c) (Proc.devRef .tc main_v63) = _
  after_results
  rw [W10_v57_1 m ρ c, W10_v57_2 m ρ c]
  rfl
theorem W11_v64 (c : Dev nD) : Gen.W11 m ρ c (Proc.devRef .tc main_v64) = row256 (a15 m c) := by
  show StableHlo.after hostOps5 (Gen.W10 m ρ c) (Proc.devRef .tc main_v64) = _
  after_results
  rw [W10_arg15 m ρ c]
  rfl
theorem W11_v65 (c : Dev nD) : Gen.W11 m ρ c (Proc.devRef .tc main_v65) = row256 (a16 m c) := by
  show StableHlo.after hostOps5 (Gen.W10 m ρ c) (Proc.devRef .tc main_v65) = _
  after_results
  rw [W10_arg16 m ρ c]
  rfl

/-! ### After the third normalise launch: layer 3's result -/

theorem W12_v66 (c : Dev nD) : Gen.W12 m ρ c (Proc.devRef .tc main_v66) = klayer3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c) (a15 m c) (a16 m c) :=
  (Gen.W12_arr m ρ c 5).trans ((KBn5.final (Gen.V11 m ρ) c).trans (by
    show bnRelu256 (Gen.W11 m ρ c (Proc.devRef .tc main_v57_0)) (Gen.W11 m ρ c (Proc.devRef .tc main_v59)) (Gen.W11 m ρ c (Proc.devRef .tc main_v63)) (Gen.W11 m ρ c (Proc.devRef .tc main_v64)) (Gen.W11 m ρ c (Proc.devRef .tc main_v65)) = _
    rw [W11_v57_0 m ρ c, W11_v59 m ρ c, W11_v63 m ρ c, W11_v64 m ρ c, W11_v65 m ρ c]
    rfl))

/-! ## The head

### After the seventh host stretch (the head launch's entry) -/

theorem W13_v66 (c : Dev nD) : Gen.W13 m ρ c (Proc.devRef .tc main_v66) = klayer3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c) (a15 m c) (a16 m c) :=
  (by host_keeps hostOps6 : Gen.W13 m ρ c (Proc.devRef .tc main_v66) = Gen.W12 m ρ c (Proc.devRef .tc main_v66)).trans (W12_v66 m ρ c)
theorem W13_v67 (c : Dev nD) : Gen.W13 m ρ c (Proc.devRef .tc main_v67) = row128 (a18 m c) := by
  show StableHlo.after hostOps6 (Gen.W12 m ρ c) (Proc.devRef .tc main_v67) = _
  after_results
  rw [W12_arg18 m ρ c]
  rfl
theorem W13_v68 (c : Dev nD) : Gen.W13 m ρ c (Proc.devRef .tc main_v68) = row1 (a20 m c) := by
  show StableHlo.after hostOps6 (Gen.W12 m ρ c) (Proc.devRef .tc main_v68) = _
  after_results
  rw [W12_arg20 m ρ c]
  rfl

/-! ### After the head launch, and the last host stretch: the result buffer -/

theorem W14_v69 (c : Dev nD) : Gen.W14 m ρ c (Proc.devRef .tc main_v69) = head (klayer3 (klayer2 (klayer1 (a0 m c) (a1 m c) (a2 m c) (a3 m c) (a4 m c) (a5 m c) (a6 m c)) (a1 m c) (a7 m c) (a8 m c) (a9 m c) (a10 m c) (a11 m c)) (a1 m c) (a12 m c) (a13 m c) (a14 m c) (a15 m c) (a16 m c)) (a17 m c) (row128 (a18 m c)) (a19 m c) (row1 (a20 m c)) :=
  (Gen.W14_arr m ρ c 5).trans ((KHead6.final (Gen.V13 m ρ) c).trans (by
    show head (Gen.W13 m ρ c (Proc.devRef .tc main_v66)) (Gen.W13 m ρ c (Proc.devRef .tc main_arg17)) (Gen.W13 m ρ c (Proc.devRef .tc main_v67)) (Gen.W13 m ρ c (Proc.devRef .tc main_arg19)) (Gen.W13 m ρ c (Proc.devRef .tc main_v68)) = _
    rw [W13_v66 m ρ c, W13_arg17 m ρ c, W13_v67 m ρ c, W13_arg19 m ρ c, W13_v68 m ρ c]))
theorem W15_v70 (c : Dev nD) : Gen.W15 m ρ c (Proc.devRef .tc main_v70) = kout (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) := by
  show StableHlo.after hostOps7 (Gen.W14 m ρ c) (Proc.devRef .tc main_v70) = _
  after_results
  rw [W14_v69 m ρ c]
  rfl

/-- THE PROGRAM'S RESULT BUFFER at the end of the fold is the result function of the twenty-one arguments as launched. -/
theorem kernel_value (c : Dev nD) :
    Gen.W15 m ρ c (Proc.devRef .tc main_v70)
      = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  W15_v70 m ρ c

end Cert.KernelIdeal.KFold

end
-- ==== Proof.LibRealClosure.lean ====
/-
  Extended reals that are reals, continued. The ideal float values are the extended reals `[-∞, +∞]`,
  where multiplication does not distribute over addition at the infinities; on the image of `ℝ` every
  ring identity of the reals holds. For the predicate `IsReal` ("is the image of a real") this file adds
  closure under negation, difference, maximum, the ideal quotient by a nonzero real and the ideal
  reciprocal square root of a positive real; the reals that three single-precision patterns denote; and
  the identity between the two usual formulas for a population variance — the mean of the squares minus
  the square of the mean, and the mean of the squared deviations from the mean — first over `ℝ`, then
  over extended reals that are reals, with the positivity of the variance plus a positive real.
-/
import Idealize.ShloMosaic.PureOps.Ideal
import proofs.«115009_j15960098472830_1_alg».proof.Proof.LibTileSum

noncomputable section

namespace Cert.LibRealClosure

open Idealize.ShloMosaic Cert.TileSum
open scoped BigOperators

/-! ## Closure of `IsReal` -/

/-- A real is the image of its real part. -/
theorem coe_toReal_of_isReal {x : EReal} (h : IsReal x) : ((x.toReal : ℝ) : EReal) = x :=
  EReal.coe_toReal (isReal_iff.mp h).1 (isReal_iff.mp h).2

/-- The negation of a real is a real. -/
theorem isReal_neg {x : EReal} (hx : IsReal x) : IsReal (-x) := by
  obtain ⟨a, rfl⟩ := hx; exact ⟨-a, (EReal.coe_neg a).symm⟩

/-- The difference of two reals is a real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- The maximum of the images of two reals is the image of their maximum. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum of two reals is a real. -/
theorem isReal_max {x y : EReal} (hx : IsReal x) (hy : IsReal y) : IsReal (max x y) := by
  obtain ⟨a, rfl⟩ := hx; obtain ⟨b, rfl⟩ := hy; exact ⟨max a b, (coe_max a b).symm⟩

/-- A sum of reals over a finite type is a real. -/
theorem isReal_sum_univ {ι : Type*} [Fintype ι] (f : ι → EReal) (h : ∀ i, IsReal (f i)) :
    IsReal (∑ i, f i) :=
  IsReal.sum Finset.univ f fun i _ => h i

/-- The ideal quotient of the images of two reals, the divisor not zero, is the image of the quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-- The ideal quotient of a real by a nonzero real is a real. -/
theorem isReal_div_coe {x : EReal} (hx : IsReal x) {c : ℝ} (hc : c ≠ 0) :
    IsReal (Ideal.div x (c : EReal)) := by
  obtain ⟨a, rfl⟩ := hx; exact ⟨a / c, div_coe_coe a hc⟩

/-- The ideal quotient by a nonzero real is the product with the inverse of its image. -/
theorem div_coe_eq_mul_inv {c : ℝ} (hc : c ≠ 0) (x : EReal) :
    Ideal.div x (c : EReal) = x * (c : EReal)⁻¹ := by
  rw [Ideal.div, if_neg (by exact_mod_cast hc)]

/-- The ideal quotient by a nonzero real is the product with the image of its inverse. -/
theorem div_coe_eq_mul_coe_inv {c : ℝ} (hc : c ≠ 0) (x : EReal) :
    Ideal.div x (c : EReal) = x * ((c⁻¹ : ℝ) : EReal) := by
  rw [div_coe_eq_mul_inv hc, EReal.coe_inv]

/-- The ideal reciprocal square root of the image of a positive real `r` is the image of `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The ideal reciprocal square root of a real above zero is a real. -/
theorem isReal_rsqrt_of_pos {x : EReal} (hx : IsReal x) (hpos : 0 < x) : IsReal (Ideal.rsqrt x) := by
  obtain ⟨r, rfl⟩ := hx
  exact ⟨(Real.sqrt r)⁻¹, rsqrt_coe_of_pos (EReal.coe_pos.mp hpos)⟩

/-! ## Three single-precision patterns -/

/-- The pattern `0x47C35000` denotes the real `100000`. -/
theorem ofBits_f32_100000 : Ideal.ofBits .f32 0x47C35000#32 = ((100000 : ℝ) : EReal) := by
  simp [Ideal.ofBits, Ideal.ieee, -EReal.coe_mul]; norm_num

/-- The pattern `0x00000000` denotes `0`. -/
theorem ofBits_f32_zero : Ideal.ofBits .f32 0x00000000#32 = 0 := by
  simp [Ideal.ofBits, Ideal.ieee]

/-- The pattern `0x3727C5AC` denotes the real `10995116 · 2⁻⁴⁰` (about `1.0e-5`). -/
theorem ofBits_f32_eps :
    Ideal.ofBits .f32 0x3727C5AC#32 = ((10995116 * (2 : ℝ) ^ (-40 : ℤ) : ℝ) : EReal) := by
  simp [Ideal.ofBits, Ideal.ieee, -EReal.coe_mul]

/-- The pattern `0x3727C5AC` denotes a real above zero. -/
theorem ofBits_f32_eps_pos : ∃ e : ℝ, 0 < e ∧ Ideal.ofBits .f32 0x3727C5AC#32 = (e : EReal) :=
  ⟨10995116 * (2 : ℝ) ^ (-40 : ℤ), by positivity, ofBits_f32_eps⟩

/-! ## The two formulas for a variance, over the reals -/

section RealVariance

variable {ι : Type*} [Fintype ι]

/-- Over `N` reals, `N ≠ 0`: the mean of the squared deviations from the mean is the mean of the squares
    minus the square of the mean (deviations squared written as products). -/
theorem variance_mul_eq (N : ℝ) (hcard : (Fintype.card ι : ℝ) = N) (hN : N ≠ 0) (x : ι → ℝ) :
    (∑ i, (x i - (∑ j, x j) / N) * (x i - (∑ j, x j) / N)) / N
      = (∑ i, x i * x i) / N - ((∑ j, x j) / N) * ((∑ j, x j) / N) := by
  have h1 : ∀ i, (x i - (∑ j, x j) / N) * (x i - (∑ j, x j) / N)
      = x i * x i - 2 * ((∑ j, x j) / N) * x i + ((∑ j, x j) / N) * ((∑ j, x j) / N) := fun i => by ring
  simp only [h1]
  rw [Finset.sum_add_distrib, Finset.sum_sub_distrib, ← Finset.mul_sum, Finset.sum_const, Finset.card_univ,
    nsmul_eq_mul, hcard]
  field_simp
  ring

/-- The same with the deviations squared written as second powers. -/
theorem variance_sq_eq (N : ℝ) (hcard : (Fintype.card ι : ℝ) = N) (hN : N ≠ 0) (x : ι → ℝ) :
    (∑ i, (x i - (∑ j, x j) / N) ^ 2) / N
      = (∑ i, x i * x i) / N - ((∑ j, x j) / N) * ((∑ j, x j) / N) := by
  simp only [sq]
  exact variance_mul_eq N hcard hN x

/-- The mean of the squared deviations is not negative. -/
theorem variance_mul_nonneg (N : ℝ) (hcard : (Fintype.card ι : ℝ) = N) (x : ι → ℝ) :
    0 ≤ (∑ i, (x i - (∑ j, x j) / N) * (x i - (∑ j, x j) / N)) / N :=
  div_nonneg (Finset.sum_nonneg fun i _ => mul_self_nonneg _) (hcard ▸ Nat.cast_nonneg _)

/-- The same with second powers. -/
theorem variance_sq_nonneg (N : ℝ) (hcard : (Fintype.card ι : ℝ) = N) (x : ι → ℝ) :
    0 ≤ (∑ i, (x i - (∑ j, x j) / N) ^ 2) / N :=
  div_nonneg (Finset.sum_nonneg fun i _ => sq_nonneg _) (hcard ▸ Nat.cast_nonneg _)

/-- Hence the mean of the squares minus the square of the mean is not negative. -/
theorem meansq_sub_sqmean_nonneg (N : ℝ) (hcard : (Fintype.card ι : ℝ) = N) (hN : N ≠ 0) (x : ι → ℝ) :
    0 ≤ (∑ i, x i * x i) / N - ((∑ j, x j) / N) * ((∑ j, x j) / N) :=
  variance_mul_eq N hcard hN x ▸ variance_mul_nonneg N hcard x

end RealVariance

/-! ## The same identity on extended reals that are reals -/

section ERealVariance

variable {ι : Type*} [Fintype ι]

/-- A family of extended reals each of which is a real is the image of a family of reals. -/
theorem exists_coe_of_isReal (X : ι → EReal) (hX : ∀ i, IsReal (X i)) :
    ∃ x : ι → ℝ, X = fun i => (x i : EReal) :=
  ⟨fun i => (X i).toReal, funext fun i => (coe_toReal_of_isReal (hX i)).symm⟩

/-- On `N` extended reals that are reals, `N ≠ 0`, with the ideal quotient: the mean of the squared deviations
    from the mean is the mean of the squares minus the square of the mean. -/
theorem variance_div_eq (N : ℝ) (hcard : (Fintype.card ι : ℝ) = N) (hN : N ≠ 0) (X : ι → EReal)
    (hX : ∀ i, IsReal (X i)) :
    Ideal.div (∑ i, (X i - Ideal.div (∑ j, X j) (N : EReal)) * (X i - Ideal.div (∑ j, X j) (N : EReal))) (N : EReal)
      = Ideal.div (∑ i, X i * X i) (N : EReal)
          - Ideal.div (∑ j, X j) (N : EReal) * Ideal.div (∑ j, X j) (N : EReal) := by
  obtain ⟨x, rfl⟩ := exists_coe_of_isReal X hX
  simp only [← coe_sum, div_coe_coe _ hN, ← EReal.coe_sub, ← EReal.coe_mul]
  rw [variance_mul_eq N hcard hN x]

/-- The same with every quotient written as the product with the inverse of `N`'s image. -/
theorem variance_mul_inv_eq (N : ℝ) (hcard : (Fintype.card ι : ℝ) = N) (hN : N ≠ 0) (X : ι → EReal)
    (hX : ∀ i, IsReal (X i)) :
    (∑ i, (X i - (∑ j, X j) * (N : EReal)⁻¹) * (X i - (∑ j, X j) * (N : EReal)⁻¹)) * (N : EReal)⁻¹
      = (∑ i, X i * X i) * (N : EReal)⁻¹
          - (∑ j, X j) * (N : EReal)⁻¹ * ((∑ j, X j) * (N : EReal)⁻¹) := by
  simp only [← div_coe_eq_mul_inv hN]
  exact variance_div_eq N hcard hN X hX

/-- The same with every quotient written as the product with the image of the real `1 / N`. -/
theorem variance_mul_one_div_eq (N : ℝ) (hcard : (Fintype.card ι : ℝ) = N) (hN : N ≠ 0) (X : ι → EReal)
    (hX : ∀ i, IsReal (X i)) :
    (∑ i, (X i - (∑ j, X j) * ((1 / N : ℝ) : EReal)) * (X i - (∑ j, X j) * ((1 / N : ℝ) : EReal)))
        * ((1 / N : ℝ) : EReal)
      = (∑ i, X i * X i) * ((1 / N : ℝ) : EReal)
          - (∑ j, X j) * ((1 / N : ℝ) : EReal) * ((∑ j, X j) * ((1 / N : ℝ) : EReal)) := by
  simp only [← Ideal.div_coe hN]
  exact variance_div_eq N hcard hN X hX

/-- The mean of the squared deviations of reals is the image of a real that is not negative. -/
theorem variance_div_eq_coe (N : ℝ) (hcard : (Fintype.card ι : ℝ) = N) (hN : N ≠ 0) (X : ι → EReal)
    (hX : ∀ i, IsReal (X i)) :
    ∃ v : ℝ, 0 ≤ v ∧
      Ideal.div (∑ i, (X i - Ideal.div (∑ j, X j) (N : EReal)) * (X i - Ideal.div (∑ j, X j) (N : EReal))) (N : EReal)
        = (v : EReal) := by
  obtain ⟨x, rfl⟩ := exists_coe_of_isReal X hX
  refine ⟨_, variance_mul_nonneg N hcard x, ?_⟩
  simp only [← coe_sum, div_coe_coe _ hN, ← EReal.coe_sub, ← EReal.coe_mul]

/-- The mean of the squares of reals minus the square of their mean is the image of a real that is not negative. -/
theorem meansq_sub_sqmean_eq_coe (N : ℝ) (hcard : (Fintype.card ι : ℝ) = N) (hN : N ≠ 0) (X : ι → EReal)
    (hX : ∀ i, IsReal (X i)) :
    ∃ v : ℝ, 0 ≤ v ∧
      Ideal.div (∑ i, X i * X i) (N : EReal) - Ideal.div (∑ j, X j) (N : EReal) * Ideal.div (∑ j, X j) (N : EReal)
        = (v : EReal) := by
  rw [← variance_div_eq N hcard hN X hX]
  exact variance_div_eq_coe N hcard hN X hX

/-- A real that is not negative plus a real above zero is a real above zero, and so is its ideal reciprocal
    square root a real. -/
theorem isReal_pos_rsqrt_of_nonneg_add_pos {V E : EReal} (hV : ∃ v : ℝ, 0 ≤ v ∧ V = (v : EReal))
    (hE : ∃ e : ℝ, 0 < e ∧ E = (e : EReal)) :
    IsReal (V + E) ∧ 0 < V + E ∧ IsReal (Ideal.rsqrt (V + E)) := by
  obtain ⟨v, hv, rfl⟩ := hV
  obtain ⟨e, he, rfl⟩ := hE
  have hr : IsReal ((v : EReal) + (e : EReal)) := (isReal_coe v).add (isReal_coe e)
  have hp : (0 : EReal) < (v : EReal) + (e : EReal) := by
    rw [← EReal.coe_add]; exact EReal.coe_pos.mpr (add_pos_of_nonneg_of_pos hv he)
  exact ⟨hr, hp, isReal_rsqrt_of_pos hr hp⟩

/-- For reals `X i` and a real `E` above zero: the mean of the squared deviations plus `E` is a real above zero,
    and its ideal reciprocal square root is a real. -/
theorem variance_div_add_pos (N : ℝ) (hcard : (Fintype.card ι : ℝ) = N) (hN : N ≠ 0) (X : ι → EReal)
    (hX : ∀ i, IsReal (X i)) {E : EReal} (hE : ∃ e : ℝ, 0 < e ∧ E = (e : EReal)) :
    IsReal (Ideal.div (∑ i, (X i - Ideal.div (∑ j, X j) (N : EReal)) * (X i - Ideal.div (∑ j, X j) (N : EReal))) (N : EReal) + E)
    ∧ 0 < Ideal.div (∑ i, (X i - Ideal.div (∑ j, X j) (N : EReal)) * (X i - Ideal.div (∑ j, X j) (N : EReal))) (N : EReal) + E
    ∧ IsReal (Ideal.rsqrt
        (Ideal.div (∑ i, (X i - Ideal.div (∑ j, X j) (N : EReal)) * (X i - Ideal.div (∑ j, X j) (N : EReal))) (N : EReal) + E)) :=
  isReal_pos_rsqrt_of_nonneg_add_pos (variance_div_eq_coe N hcard hN X hX) hE

/-- The same for the mean of the squares minus the square of the mean. -/
theorem meansq_sub_sqmean_add_pos (N : ℝ) (hcard : (Fintype.card ι : ℝ) = N) (hN : N ≠ 0) (X : ι → EReal)
    (hX : ∀ i, IsReal (X i)) {E : EReal} (hE : ∃ e : ℝ, 0 < e ∧ E = (e : EReal)) :
    IsReal (Ideal.div (∑ i, X i * X i) (N : EReal) - Ideal.div (∑ j, X j) (N : EReal) * Ideal.div (∑ j, X j) (N : EReal) + E)
    ∧ 0 < Ideal.div (∑ i, X i * X i) (N : EReal) - Ideal.div (∑ j, X j) (N : EReal) * Ideal.div (∑ j, X j) (N : EReal) + E
    ∧ IsReal (Ideal.rsqrt
        (Ideal.div (∑ i, X i * X i) (N : EReal) - Ideal.div (∑ j, X j) (N : EReal) * Ideal.div (∑ j, X j) (N : EReal) + E)) :=
  isReal_pos_rsqrt_of_nonneg_add_pos (meansq_sub_sqmean_eq_coe N hcard hN X hX) hE

end ERealVariance

end Cert.LibRealClosure

end
-- ==== Proof.RefRead.lean ====
/-
  The reference network's stages read at an index, as operations of the extended reals. Each stage of the
  reference is a composition of host operations on whole arrays; read at one index, an affine map is two sums of
  products over the contracted coordinate plus a bias entry, a column mean is the column's sum over the row count, a
  column variance the mean of the squared deviations from the column mean, the normalisation an expression in one
  entry and four column entries, and the head two nested sums of products. With these readings, an array every
  entry of which is a real goes to an array every entry of which is a real.
-/
import proofs.«115009_j15960098472830_1_alg».proof.Proof.RefStages
import proofs.«115009_j15960098472830_1_alg».proof.Proof.LibRealClosure
import proofs.«115009_j15960098472830_1_alg».proof.Proof.LibTileSum
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.RefRead

open Idealize.ShloMosaic Idealize.ShloMosaic.ValueIdx Cert.ReferenceIdeal Cert.ReferenceIdeal.RefStages
open Cert.TileSum Cert.LibRealClosure
open Cert.ReferenceIdeal.Facts₀
open scoped BigOperators

/-! ## Layout operations at an index, for any sizes -/

/-- A vector laid out as one row and repeated down `m` rows, read at row `r` and column `j`, is the vector at `j`. -/
theorem rowBroadcast_apply {α : Type} {m n : ℕ} (h2 : (⟨1, ![n]⟩ : Shape).BroadcastsInDim ⟨2, ![1, n]⟩ ![1])
    (h1 : (⟨2, ![1, n]⟩ : Shape).BroadcastsInDim ⟨2, ![m, n]⟩ ![0, 1]) (v : (⟨1, ![n]⟩ : Shape).Idx → α)
    (r : Fin m) (j : Fin n) :
    broadcastInDim ⟨2, ![m, n]⟩ ![0, 1] h1 (broadcastInDim ⟨2, ![1, n]⟩ ![1] h2 v) (ix2 r j) = v (ix1 j) := by
  refine (broadcastInDim_apply ![0, 1] h1 _ (ix2 r j) (ix2 (0 : Fin 1) j) ?_).trans
    (broadcastInDim_apply ![1] h2 v (ix2 (0 : Fin 1) j) (ix1 j) ?_)
  · intro a
    fin_cases a
    · show (0 : ℕ) = if (1 : ℕ) = 1 then 0 else _
      simp
    · show j.val = if n = 1 then 0 else j.val
      split_ifs with hn
      · have := j.isLt; omega
      · rfl
  · intro a
    fin_cases a
    show j.val = if n = 1 then 0 else j.val
    split_ifs with hn
    · have := j.isLt; omega
    · rfl

/-- A vector laid out as one row, read at row `0` and column `j`, is the vector at `j`. -/
theorem oneRow_apply {α : Type} {n : ℕ} (h2 : (⟨1, ![n]⟩ : Shape).BroadcastsInDim ⟨2, ![1, n]⟩ ![1])
    (v : (⟨1, ![n]⟩ : Shape).Idx → α) (j : Fin n) :
    broadcastInDim ⟨2, ![1, n]⟩ ![1] h2 v (ix2 (0 : Fin 1) j) = v (ix1 j) := by
  refine broadcastInDim_apply ![1] h2 v (ix2 (0 : Fin 1) j) (ix1 j) ?_
  intro a
  fin_cases a
  show j.val = if n = 1 then 0 else j.val
  split_ifs with hn
  · have := j.isLt; omega
  · rfl

/-- The host's sum down the rows of an `m × n` array, read at column `j`: the initial value plus the sum over the
    rows of the entries of column `j`. -/
theorem colSum_apply {m n : ℕ} (h' : (⟨2, ![m, n]⟩ : Shape).ReducesTo [0] ⟨1, ![n]⟩)
    (hu : 0 < (⟨0, ![]⟩ : Shape).numel) (x : FVec Ideal ⟨2, ![m, n]⟩ .f32) (init : FVec Ideal ⟨0, ![]⟩ .f32) (j : Fin n) :
    Host.reduceAdd x init h' hu (ix1 j) = init ix0 + ∑ r : Fin m, x (ix2 r j) := by
  have h : (⟨2, ![m, n]⟩ : Shape).Reduces [0] ⟨1, ![n]⟩ := ⟨h'.1, Nat.zero_lt_one, h'.2⟩
  rw [hostReduceAdd_apply, Ideal.hostReduceAdd_single h' h]
  refine congrArg₂ (· + ·) (congrArg init (funext fun a => a.elim0)) ?_
  refine Finset.sum_congr rfl fun r _ => congrArg x ?_
  funext c
  apply Fin.ext
  match c with
  | ⟨0, _⟩ => rfl
  | ⟨1, _⟩ => rfl

/-- A one-row array repeated down `m` rows, read at row `r` and column `j`, is the row at `j`. -/
theorem downRows_apply {α : Type} {m n : ℕ} (h1 : (⟨2, ![1, n]⟩ : Shape).BroadcastsInDim ⟨2, ![m, n]⟩ ![0, 1])
    (y : (⟨2, ![1, n]⟩ : Shape).Idx → α) (r : Fin m) (j : Fin n) :
    broadcastInDim ⟨2, ![m, n]⟩ ![0, 1] h1 y (ix2 r j) = y (ix2 (0 : Fin 1) j) := by
  refine broadcastInDim_apply ![0, 1] h1 y (ix2 r j) (ix2 (0 : Fin 1) j) ?_
  intro a
  fin_cases a
  · show (0 : ℕ) = if (1 : ℕ) = 1 then 0 else _
    simp
  · show j.val = if n = 1 then 0 else j.val
    split_ifs with hn
    · have := j.isLt; omega
    · rfl

/-- The host's accumulating scatter of reals into an array of reals is an array of reals: each entry is the
    operand's entry plus a finite sum of update entries. -/
theorem isReal_hostScatterAdd {s si su : Shape} (d : ScatterDims s si su) {w : ℕ} (x : s.Idx → EReal) (idx : IVec si w)
    (upd : su.Idx → EReal) (hx : ∀ i, IsReal (x i)) (hu : ∀ j, IsReal (upd j)) :
    ∀ i, IsReal (Ideal.hostScatterAdd d x idx upd i) := by
  intro i
  unfold Ideal.hostScatterAdd
  exact (hx i).add (IsReal.sum _ _ fun j _ => hu j)

/-- The host's gather from an array of reals is an array of reals: each entry is an entry of the operand. -/
theorem isReal_gather {s si t : Shape} {w : ℕ} (d : GatherDims s si t) (x : s.Idx → EReal) (idx : IVec si w)
    (hx : ∀ i, IsReal (x i)) : ∀ j, IsReal (Host.gather d x idx j) :=
  fun j => hx (d.operandIdx j idx)

/-- The zero constant repeated over any shape is an array of reals. -/
theorem isReal_zeroSplat {T : Shape} (h : (⟨0, ![]⟩ : Shape).BroadcastsInDim T ![]) :
    ∀ i, IsReal (broadcastInDim T ![] h (constant (F := Ideal) ⟨0, ![]⟩ .f32 0x00000000#32) i) := by
  intro i
  rw [broadcastInDim_scalar_apply]
  show IsReal (Ideal.ofBits .f32 0x00000000#32)
  rw [ofBits_f32_zero]; exact isReal_zero

variable [Facts₀]

/-! ## The five contractions at an index -/

/-- The host's product of a `100000 × 6` array by a `6 × 64` array, read at row `a` and column `b`: the sum over
    the contracted coordinate of the products of the entries. -/
theorem dot_6_64_apply (A : FVec Ideal S100000x6 .f32) (B : FVec Ideal S6x64 .f32) (a : Fin 100000) (b : Fin 64) :
    Host.dotGeneral (F := Ideal) (φ₁ := .f32) (φ₂ := .f32) dot_S100000x6_S6x64_S100000x64_1_0_0_1_n_n none A B (ix2 a b)
      = ∑ c : Fin 6, A (ix2 a c) * B (ix2 c b) := by
  show FloatOps.dotGeneral dot_S100000x6_S6x64_S100000x64_1_0_0_1_n_n none _ A B (ix2 a b) = _
  rw [Ideal.dotGeneral_apply, ← Equiv.sum_comp (contrEquiv1 dot_S100000x6_S6x64_S100000x64_1_0_0_1_n_n 6 rfl rfl).symm]
  refine Finset.sum_congr rfl fun c _ => ?_
  have cv := contrEquiv1_symm_val dot_S100000x6_S6x64_S100000x64_1_0_0_1_n_n 6 rfl rfl c
  have hl : (dot_S100000x6_S6x64_S100000x64_1_0_0_1_n_n).lhsIdx (ix2 a b) ((contrEquiv1 dot_S100000x6_S6x64_S100000x64_1_0_0_1_n_n 6 rfl rfl).symm c) = ix2 a c := by
    funext ax; apply Fin.ext
    match ax with
    | ⟨0, _⟩ => simp [DotDims.lhsIdx, dot_S100000x6_S6x64_S100000x64_1_0_0_1_n_n] <;> rfl
    | ⟨1, _⟩ => simp [DotDims.lhsIdx, dot_S100000x6_S6x64_S100000x64_1_0_0_1_n_n] <;> exact cv
  have hr : (dot_S100000x6_S6x64_S100000x64_1_0_0_1_n_n).rhsIdx (ix2 a b) ((contrEquiv1 dot_S100000x6_S6x64_S100000x64_1_0_0_1_n_n 6 rfl rfl).symm c) = ix2 c b := by
    funext ax; apply Fin.ext
    match ax with
    | ⟨0, _⟩ => simp [DotDims.rhsIdx, dot_S100000x6_S6x64_S100000x64_1_0_0_1_n_n] <;> exact cv
    | ⟨1, _⟩ => simp [DotDims.rhsIdx, dot_S100000x6_S6x64_S100000x64_1_0_0_1_n_n] <;> rfl
  rw [hl, hr]

/-- The host's product of a `100000 × 64` array by a `64 × 128` array, read at row `a` and column `b`: the sum over
    the contracted coordinate of the products of the entries. -/
theorem dot_64_128_apply (A : FVec Ideal S100000x64 .f32) (B : FVec Ideal S64x128 .f32) (a : Fin 100000) (b : Fin 128) :
    Host.dotGeneral (F := Ideal) (φ₁ := .f32) (φ₂ := .f32) dot_S100000x64_S64x128_S100000x128_1_0_0_1_n_n none A B (ix2 a b)
      = ∑ c : Fin 64, A (ix2 a c) * B (ix2 c b) := by
  show FloatOps.dotGeneral dot_S100000x64_S64x128_S100000x128_1_0_0_1_n_n none _ A B (ix2 a b) = _
  rw [Ideal.dotGeneral_apply, ← Equiv.sum_comp (contrEquiv1 dot_S100000x64_S64x128_S100000x128_1_0_0_1_n_n 64 rfl rfl).symm]
  refine Finset.sum_congr rfl fun c _ => ?_
  have cv := contrEquiv1_symm_val dot_S100000x64_S64x128_S100000x128_1_0_0_1_n_n 64 rfl rfl c
  have hl : (dot_S100000x64_S64x128_S100000x128_1_0_0_1_n_n).lhsIdx (ix2 a b) ((contrEquiv1 dot_S100000x64_S64x128_S100000x128_1_0_0_1_n_n 64 rfl rfl).symm c) = ix2 a c := by
    funext ax; apply Fin.ext
    match ax with
    | ⟨0, _⟩ => simp [DotDims.lhsIdx, dot_S100000x64_S64x128_S100000x128_1_0_0_1_n_n] <;> rfl
    | ⟨1, _⟩ => simp [DotDims.lhsIdx, dot_S100000x64_S64x128_S100000x128_1_0_0_1_n_n] <;> exact cv
  have hr : (dot_S100000x64_S64x128_S100000x128_1_0_0_1_n_n).rhsIdx (ix2 a b) ((contrEquiv1 dot_S100000x64_S64x128_S100000x128_1_0_0_1_n_n 64 rfl rfl).symm c) = ix2 c b := by
    funext ax; apply Fin.ext
    match ax with
    | ⟨0, _⟩ => simp [DotDims.rhsIdx, dot_S100000x64_S64x128_S100000x128_1_0_0_1_n_n] <;> exact cv
    | ⟨1, _⟩ => simp [DotDims.rhsIdx, dot_S100000x64_S64x128_S100000x128_1_0_0_1_n_n] <;> rfl
  rw [hl, hr]

/-- The host's product of a `100000 × 128` array by a `128 × 256` array, read at row `a` and column `b`: the sum over
    the contracted coordinate of the products of the entries. -/
theorem dot_128_256_apply (A : FVec Ideal S100000x128 .f32) (B : FVec Ideal S128x256 .f32) (a : Fin 100000) (b : Fin 256) :
    Host.dotGeneral (F := Ideal) (φ₁ := .f32) (φ₂ := .f32) dot_S100000x128_S128x256_S100000x256_1_0_0_1_n_n none A B (ix2 a b)
      = ∑ c : Fin 128, A (ix2 a c) * B (ix2 c b) := by
  show FloatOps.dotGeneral dot_S100000x128_S128x256_S100000x256_1_0_0_1_n_n none _ A B (ix2 a b) = _
  rw [Ideal.dotGeneral_apply, ← Equiv.sum_comp (contrEquiv1 dot_S100000x128_S128x256_S100000x256_1_0_0_1_n_n 128 rfl rfl).symm]
  refine Finset.sum_congr rfl fun c _ => ?_
  have cv := contrEquiv1_symm_val dot_S100000x128_S128x256_S100000x256_1_0_0_1_n_n 128 rfl rfl c
  have hl : (dot_S100000x128_S128x256_S100000x256_1_0_0_1_n_n).lhsIdx (ix2 a b) ((contrEquiv1 dot_S100000x128_S128x256_S100000x256_1_0_0_1_n_n 128 rfl rfl).symm c) = ix2 a c := by
    funext ax; apply Fin.ext
    match ax with
    | ⟨0, _⟩ => simp [DotDims.lhsIdx, dot_S100000x128_S128x256_S100000x256_1_0_0_1_n_n] <;> rfl
    | ⟨1, _⟩ => simp [DotDims.lhsIdx, dot_S100000x128_S128x256_S100000x256_1_0_0_1_n_n] <;> exact cv
  have hr : (dot_S100000x128_S128x256_S100000x256_1_0_0_1_n_n).rhsIdx (ix2 a b) ((contrEquiv1 dot_S100000x128_S128x256_S100000x256_1_0_0_1_n_n 128 rfl rfl).symm c) = ix2 c b := by
    funext ax; apply Fin.ext
    match ax with
    | ⟨0, _⟩ => simp [DotDims.rhsIdx, dot_S100000x128_S128x256_S100000x256_1_0_0_1_n_n] <;> exact cv
    | ⟨1, _⟩ => simp [DotDims.rhsIdx, dot_S100000x128_S128x256_S100000x256_1_0_0_1_n_n] <;> rfl
  rw [hl, hr]

/-- The host's product of a `100000 × 256` array by a `256 × 128` array, read at row `a` and column `b`: the sum over
    the contracted coordinate of the products of the entries. -/
theorem dot_256_128_apply (A : FVec Ideal S100000x256 .f32) (B : FVec Ideal S256x128 .f32) (a : Fin 100000) (b : Fin 128) :
    Host.dotGeneral (F := Ideal) (φ₁ := .f32) (φ₂ := .f32) dot_S100000x256_S256x128_S100000x128_1_0_0_1_n_n none A B (ix2 a b)
      = ∑ c : Fin 256, A (ix2 a c) * B (ix2 c b) := by
  show FloatOps.dotGeneral dot_S100000x256_S256x128_S100000x128_1_0_0_1_n_n none _ A B (ix2 a b) = _
  rw [Ideal.dotGeneral_apply, ← Equiv.sum_comp (contrEquiv1 dot_S100000x256_S256x128_S100000x128_1_0_0_1_n_n 256 rfl rfl).symm]
  refine Finset.sum_congr rfl fun c _ => ?_
  have cv := contrEquiv1_symm_val dot_S100000x256_S256x128_S100000x128_1_0_0_1_n_n 256 rfl rfl c
  have hl : (dot_S100000x256_S256x128_S100000x128_1_0_0_1_n_n).lhsIdx (ix2 a b) ((contrEquiv1 dot_S100000x256_S256x128_S100000x128_1_0_0_1_n_n 256 rfl rfl).symm c) = ix2 a c := by
    funext ax; apply Fin.ext
    match ax with
    | ⟨0, _⟩ => simp [DotDims.lhsIdx, dot_S100000x256_S256x128_S100000x128_1_0_0_1_n_n] <;> rfl
    | ⟨1, _⟩ => simp [DotDims.lhsIdx, dot_S100000x256_S256x128_S100000x128_1_0_0_1_n_n] <;> exact cv
  have hr : (dot_S100000x256_S256x128_S100000x128_1_0_0_1_n_n).rhsIdx (ix2 a b) ((contrEquiv1 dot_S100000x256_S256x128_S100000x128_1_0_0_1_n_n 256 rfl rfl).symm c) = ix2 c b := by
    funext ax; apply Fin.ext
    match ax with
    | ⟨0, _⟩ => simp [DotDims.rhsIdx, dot_S100000x256_S256x128_S100000x128_1_0_0_1_n_n] <;> exact cv
    | ⟨1, _⟩ => simp [DotDims.rhsIdx, dot_S100000x256_S256x128_S100000x128_1_0_0_1_n_n] <;> rfl
  rw [hl, hr]

/-- The host's product of a `100000 × 128` array by a `128 × 1` array, read at row `a` and column `b`: the sum over
    the contracted coordinate of the products of the entries. -/
theorem dot_128_1_apply (A : FVec Ideal S100000x128 .f32) (B : FVec Ideal S128x1 .f32) (a : Fin 100000) (b : Fin 1) :
    Host.dotGeneral (F := Ideal) (φ₁ := .f32) (φ₂ := .f32) dot_S100000x128_S128x1_S100000x1_1_0_0_1_n_n none A B (ix2 a b)
      = ∑ c : Fin 128, A (ix2 a c) * B (ix2 c b) := by
  show FloatOps.dotGeneral dot_S100000x128_S128x1_S100000x1_1_0_0_1_n_n none _ A B (ix2 a b) = _
  rw [Ideal.dotGeneral_apply, ← Equiv.sum_comp (contrEquiv1 dot_S100000x128_S128x1_S100000x1_1_0_0_1_n_n 128 rfl rfl).symm]
  refine Finset.sum_congr rfl fun c _ => ?_
  have cv := contrEquiv1_symm_val dot_S100000x128_S128x1_S100000x1_1_0_0_1_n_n 128 rfl rfl c
  have hl : (dot_S100000x128_S128x1_S100000x1_1_0_0_1_n_n).lhsIdx (ix2 a b) ((contrEquiv1 dot_S100000x128_S128x1_S100000x1_1_0_0_1_n_n 128 rfl rfl).symm c) = ix2 a c := by
    funext ax; apply Fin.ext
    match ax with
    | ⟨0, _⟩ => simp [DotDims.lhsIdx, dot_S100000x128_S128x1_S100000x1_1_0_0_1_n_n] <;> rfl
    | ⟨1, _⟩ => simp [DotDims.lhsIdx, dot_S100000x128_S128x1_S100000x1_1_0_0_1_n_n] <;> exact cv
  have hr : (dot_S100000x128_S128x1_S100000x1_1_0_0_1_n_n).rhsIdx (ix2 a b) ((contrEquiv1 dot_S100000x128_S128x1_S100000x1_1_0_0_1_n_n 128 rfl rfl).symm c) = ix2 c b := by
    funext ax; apply Fin.ext
    match ax with
    | ⟨0, _⟩ => simp [DotDims.rhsIdx, dot_S100000x128_S128x1_S100000x1_1_0_0_1_n_n] <;> exact cv
    | ⟨1, _⟩ => simp [DotDims.rhsIdx, dot_S100000x128_S128x1_S100000x1_1_0_0_1_n_n] <;> rfl
  rw [hl, hr]

/-! ## The variance's divisor -/

/-- The variance's divisor `100000 - 0` is the real `100000`. -/
theorem dof_apply : dof ix0 = ((100000 : ℝ) : EReal) := by
  unfold dof
  rw [subf_apply]
  show Ideal.ofBits .f32 0x47C35000#32 - ((((0#32 : BitVec 32).toInt : ℤ) : ℝ) : EReal) = _
  rw [ofBits_f32_100000]
  simp

/-- The test "the divisor is above zero" holds. -/
theorem dof_pos : cmpf (F := Ideal) (φ := .f32) .ogt dof (constant (F := Ideal) S_ .f32 0x00000000#32) ix0 = 1#1 := by
  show Ideal.cmp .ogt (dof ix0) (Ideal.ofBits .f32 0x00000000#32) = 1#1
  rw [dof_apply, ofBits_f32_zero]
  have hpos : (0 : EReal) < ((100000 : ℝ) : EReal) := EReal.coe_pos.mpr (by norm_num)
  simp [Ideal.cmp, hpos]

/-! ## Layer 1 -/

/-- Layer 1's affine map at row `r`, column `j`: the row of `g` against the column of `wl`, plus the row of `x` against
    the column of `wr`, plus the bias entry. -/
theorem lin_1_apply (g x : FVec Ideal S100000x6 .f32) (wl wr : FVec Ideal S6x64 .f32) (bias : FVec Ideal S64 .f32)
    (r : Fin 100000) (j : Fin 64) :
    lin_1 g x wl wr bias (ix2 r j)
      = (∑ c : Fin 6, g (ix2 r c) * wl (ix2 c j)) + (∑ c : Fin 6, x (ix2 r c) * wr (ix2 c j)) + bias (ix1 j) := by
  unfold lin_1
  rw [addf_apply, addf_apply, dot_6_64_apply, dot_6_64_apply, rowBroadcast_apply]

/-- Layer 1's column mean at column `j`, as the operations spell it. -/
theorem mean_1_apply_raw (h : FVec Ideal S100000x64 .f32) (j : Fin 64) :
    mean_1 h (ix1 j)
      = Ideal.div (Ideal.ofBits .f32 0x00000000#32 + ∑ r : Fin 100000, h (ix2 r j)) (Ideal.ofBits .f32 0x47C35000#32) := by
  unfold mean_1
  rw [hostDivf_apply, colSum_apply, broadcastInDim_scalar_apply]
  rfl

/-- Layer 1's column mean at column `j`: the column's sum over `100000`. -/
theorem mean_1_apply (h : FVec Ideal S100000x64 .f32) (j : Fin 64) :
    mean_1 h (ix1 j) = Ideal.div (∑ r : Fin 100000, h (ix2 r j)) ((100000 : ℝ) : EReal) := by
  rw [mean_1_apply_raw, ofBits_f32_zero, zero_add, ofBits_f32_100000]

/-- Layer 1's deviations at row `r`, column `j`: the entry less the column mean. -/
theorem dev_1_apply (h : FVec Ideal S100000x64 .f32) (r : Fin 100000) (j : Fin 64) :
    dev_1 h (ix2 r j) = h (ix2 r j) - mean_1 h (ix1 j) := by
  unfold dev_1
  rw [subf_apply, downRows_apply, hostDivf_apply, oneRow_apply, colSum_apply, broadcastInDim_scalar_apply,
    mean_1_apply_raw]
  rfl

/-- Layer 1's column variance at column `j`: the mean over the `100000` rows of the squared deviations from the
    column mean (the divisor `100000 - 0` is above zero, so the quotient is taken). -/
theorem var_1_apply (h : FVec Ideal S100000x64 .f32) (j : Fin 64) :
    var_1 h (ix1 j)
      = Ideal.div (∑ r : Fin 100000, (h (ix2 r j) - mean_1 h (ix1 j)) * (h (ix2 r j) - mean_1 h (ix1 j)))
          ((100000 : ℝ) : EReal) := by
  unfold var_1
  rw [select_apply, broadcastInDim_scalar_apply, dof_pos, select_one, hostDivf_apply, colSum_apply,
    broadcastInDim_scalar_apply, dof_apply]
  simp only [mulf_apply, dev_1_apply]
  rw [show (constant (F := Ideal) S_ .f32 0x00000000#32) ix0 = Ideal.ofBits .f32 0x00000000#32 from rfl,
    ofBits_f32_zero, zero_add]

/-- Layer 1's normalisation at row `r`, column `j`. -/
theorem bn_1_apply (h : FVec Ideal S100000x64 .f32) (mu v gamma beta : FVec Ideal S64 .f32) (r : Fin 100000) (j : Fin 64) :
    bn_1 h mu v gamma beta (ix2 r j)
      = max ((h (ix2 r j) - mu (ix1 j)) * Ideal.rsqrt (v (ix1 j) + Ideal.ofBits .f32 0x3727C5AC#32) * gamma (ix1 j)
          + beta (ix1 j)) (Ideal.ofBits .f32 0x00000000#32) := by
  unfold bn_1
  rw [maximumf_apply, addf_apply, mulf_apply, mulf_apply, subf_apply, rowBroadcast_apply, rowBroadcast_apply,
    rowBroadcast_apply, rowBroadcast_apply, broadcastInDim_scalar_apply]
  rfl

/-- Layer 1's aggregation is the accumulating scatter, into a zero array at the destinations, of the rows gathered
    at the sources. -/
theorem agg_1_eq (x : FVec Ideal S100000x6 .f32) (e : IVec S2x1600000 32) :
    agg_1 x e = Ideal.hostScatterAdd scatter_S100000x6_S1600000x1_S1600000x6_1_0_0_1
      (broadcastInDim S100000x6 ![] bcast_S_S100000x6 (constant (F := Ideal) S_ .f32 0x00000000#32)) (dstIdx e)
      (Host.gather gather_S100000x6_S1600000x1_S1600000x6_1_0_n_n_0_1_16 x (srcIdx e)) := rfl

/-- Layer 1's aggregation of an array of reals is an array of reals. -/
theorem isReal_agg_1 (x : FVec Ideal S100000x6 .f32) (e : IVec S2x1600000 32) (hx : ∀ i, IsReal (x i)) :
    ∀ i, IsReal (agg_1 x e i) := by
  rw [agg_1_eq]
  exact isReal_hostScatterAdd _ _ _ _ (isReal_zeroSplat _) (isReal_gather _ _ _ hx)

/-- Layer 1's affine map of arrays of reals is an array of reals. -/
theorem isReal_lin_1 (g x : FVec Ideal S100000x6 .f32) (wl wr : FVec Ideal S6x64 .f32) (bias : FVec Ideal S64 .f32)
    (hg : ∀ i, IsReal (g i)) (hx : ∀ i, IsReal (x i)) (hwl : ∀ i, IsReal (wl i)) (hwr : ∀ i, IsReal (wr i))
    (hb : ∀ i, IsReal (bias i)) : ∀ i, IsReal (lin_1 g x wl wr bias i) := by
  intro i
  obtain ⟨r, j, rfl⟩ : ∃ r j, i = ix2 r j := ⟨i 0, i 1, eq_ix2 i⟩
  rw [lin_1_apply]
  exact ((isReal_sum_univ _ fun c => (hg _).mul (hwl _)).add (isReal_sum_univ _ fun c => (hx _).mul (hwr _))).add (hb _)

/-- Layer 1's column means of an array of reals are reals. -/
theorem isReal_mean_1 (h : FVec Ideal S100000x64 .f32) (hh : ∀ i, IsReal (h i)) : ∀ i, IsReal (mean_1 h i) := by
  intro i
  obtain ⟨j, rfl⟩ : ∃ j, i = ix1 j := ⟨i 0, eq_ix1 i⟩
  rw [mean_1_apply]
  exact isReal_div_coe (isReal_sum_univ _ fun r => hh _) (by norm_num)

/-- On an array of reals layer 1's column variance is the mean of the squares less the square of the mean. -/
theorem var_1_eq_meansq_sub_sqmean (h : FVec Ideal S100000x64 .f32) (hh : ∀ i, IsReal (h i)) (j : Fin 64) :
    var_1 h (ix1 j)
      = Ideal.div (∑ r : Fin 100000, h (ix2 r j) * h (ix2 r j)) ((100000 : ℝ) : EReal)
          - mean_1 h (ix1 j) * mean_1 h (ix1 j) := by
  rw [var_1_apply, mean_1_apply]
  exact variance_div_eq 100000 (by simp) (by norm_num) (fun r => h (ix2 r j)) fun r => hh _

/-- On an array of reals layer 1's column variance plus the `ε` of the normalisation is a real above zero, and
    its reciprocal square root is a real. -/
theorem var_1_add_eps_pos (h : FVec Ideal S100000x64 .f32) (hh : ∀ i, IsReal (h i)) (j : Fin 64) :
    IsReal (var_1 h (ix1 j) + Ideal.ofBits .f32 0x3727C5AC#32)
    ∧ 0 < var_1 h (ix1 j) + Ideal.ofBits .f32 0x3727C5AC#32
    ∧ IsReal (Ideal.rsqrt (var_1 h (ix1 j) + Ideal.ofBits .f32 0x3727C5AC#32)) := by
  rw [var_1_apply, mean_1_apply]
  exact variance_div_add_pos 100000 (by simp) (by norm_num) (fun r => h (ix2 r j)) (fun r => hh _) ofBits_f32_eps_pos

/-- Layer 1's normalisation of reals, the reciprocal square roots reals, is an array of reals. -/
theorem isReal_bn_1 (h : FVec Ideal S100000x64 .f32) (mu v gamma beta : FVec Ideal S64 .f32)
    (hh : ∀ i, IsReal (h i)) (hmu : ∀ i, IsReal (mu i))
    (hrs : ∀ j, IsReal (Ideal.rsqrt (v (ix1 j) + Ideal.ofBits .f32 0x3727C5AC#32)))
    (hgamma : ∀ i, IsReal (gamma i)) (hbeta : ∀ i, IsReal (beta i)) : ∀ i, IsReal (bn_1 h mu v gamma beta i) := by
  intro i
  obtain ⟨r, j, rfl⟩ : ∃ r j, i = ix2 r j := ⟨i 0, i 1, eq_ix2 i⟩
  rw [bn_1_apply]
  refine isReal_max ((((isReal_sub (hh _) (hmu _)).mul (hrs j)).mul (hgamma _)).add (hbeta _)) ?_
  rw [ofBits_f32_zero]; exact isReal_zero

/-- Layer 1 whole, on reals, is an array of reals. -/
theorem isReal_layer_1 (x : FVec Ideal S100000x6 .f32) (e : IVec S2x1600000 32) (wl wr : FVec Ideal S6x64 .f32)
    (bias gamma beta : FVec Ideal S64 .f32) (hx : ∀ i, IsReal (x i)) (hwl : ∀ i, IsReal (wl i))
    (hwr : ∀ i, IsReal (wr i)) (hb : ∀ i, IsReal (bias i)) (hgamma : ∀ i, IsReal (gamma i))
    (hbeta : ∀ i, IsReal (beta i)) : ∀ i, IsReal (layer_1 x e wl wr bias gamma beta i) := by
  have hp : ∀ i, IsReal (pre_1 x e wl wr bias i) :=
    isReal_lin_1 _ _ _ _ _ (isReal_agg_1 x e hx) hx hwl hwr hb
  exact isReal_bn_1 _ _ _ _ _ hp (isReal_mean_1 _ hp) (fun j => (var_1_add_eps_pos _ hp j).2.2) hgamma hbeta

/-! ## Layer 2 -/

/-- Layer 2's affine map at row `r`, column `j`: the row of `g` against the column of `wl`, plus the row of `x` against
    the column of `wr`, plus the bias entry. -/
theorem lin_2_apply (g x : FVec Ideal S100000x64 .f32) (wl wr : FVec Ideal S64x128 .f32) (bias : FVec Ideal S128 .f32)
    (r : Fin 100000) (j : Fin 128) :
    lin_2 g x wl wr bias (ix2 r j)
      = (∑ c : Fin 64, g (ix2 r c) * wl (ix2 c j)) + (∑ c : Fin 64, x (ix2 r c) * wr (ix2 c j)) + bias (ix1 j) := by
  unfold lin_2
  rw [addf_apply, addf_apply, dot_64_128_apply, dot_64_128_apply, rowBroadcast_apply]

/-- Layer 2's column mean at column `j`, as the operations spell it. -/
theorem mean_2_apply_raw (h : FVec Ideal S100000x128 .f32) (j : Fin 128) :
    mean_2 h (ix1 j)
      = Ideal.div (Ideal.ofBits .f32 0x00000000#32 + ∑ r : Fin 100000, h (ix2 r j)) (Ideal.ofBits .f32 0x47C35000#32) := by
  unfold mean_2
  rw [hostDivf_apply, colSum_apply, broadcastInDim_scalar_apply]
  rfl

/-- Layer 2's column mean at column `j`: the column's sum over `100000`. -/
theorem mean_2_apply (h : FVec Ideal S100000x128 .f32) (j : Fin 128) :
    mean_2 h (ix1 j) = Ideal.div (∑ r : Fin 100000, h (ix2 r j)) ((100000 : ℝ) : EReal) := by
  rw [mean_2_apply_raw, ofBits_f32_zero, zero_add, ofBits_f32_100000]

/-- Layer 2's deviations at row `r`, column `j`: the entry less the column mean. -/
theorem dev_2_apply (h : FVec Ideal S100000x128 .f32) (r : Fin 100000) (j : Fin 128) :
    dev_2 h (ix2 r j) = h (ix2 r j) - mean_2 h (ix1 j) := by
  unfold dev_2
  rw [subf_apply, downRows_apply, hostDivf_apply, oneRow_apply, colSum_apply, broadcastInDim_scalar_apply,
    mean_2_apply_raw]
  rfl

/-- Layer 2's column variance at column `j`: the mean over the `100000` rows of the squared deviations from the
    column mean (the divisor `100000 - 0` is above zero, so the quotient is taken). -/
theorem var_2_apply (h : FVec Ideal S100000x128 .f32) (j : Fin 128) :
    var_2 h (ix1 j)
      = Ideal.div (∑ r : Fin 100000, (h (ix2 r j) - mean_2 h (ix1 j)) * (h (ix2 r j) - mean_2 h (ix1 j)))
          ((100000 : ℝ) : EReal) := by
  unfold var_2
  rw [select_apply, broadcastInDim_scalar_apply, dof_pos, select_one, hostDivf_apply, colSum_apply,
    broadcastInDim_scalar_apply, dof_apply]
  simp only [mulf_apply, dev_2_apply]
  rw [show (constant (F := Ideal) S_ .f32 0x00000000#32) ix0 = Ideal.ofBits .f32 0x00000000#32 from rfl,
    ofBits_f32_zero, zero_add]

/-- Layer 2's normalisation at row `r`, column `j`. -/
theorem bn_2_apply (h : FVec Ideal S100000x128 .f32) (mu v gamma beta : FVec Ideal S128 .f32) (r : Fin 100000) (j : Fin 128) :
    bn_2 h mu v gamma beta (ix2 r j)
      = max ((h (ix2 r j) - mu (ix1 j)) * Ideal.rsqrt (v (ix1 j) + Ideal.ofBits .f32 0x3727C5AC#32) * gamma (ix1 j)
          + beta (ix1 j)) (Ideal.ofBits .f32 0x00000000#32) := by
  unfold bn_2
  rw [maximumf_apply, addf_apply, mulf_apply, mulf_apply, subf_apply, rowBroadcast_apply, rowBroadcast_apply,
    rowBroadcast_apply, rowBroadcast_apply, broadcastInDim_scalar_apply]
  rfl

/-- Layer 2's aggregation is the accumulating scatter, into a zero array at the destinations, of the rows gathered
    at the sources. -/
theorem agg_2_eq (x : FVec Ideal S100000x64 .f32) (e : IVec S2x1600000 32) :
    agg_2 x e = Ideal.hostScatterAdd scatter_S100000x64_S1600000x1_S1600000x64_1_0_0_1
      (broadcastInDim S100000x64 ![] bcast_S_S100000x64 (constant (F := Ideal) S_ .f32 0x00000000#32)) (dstIdx e)
      (Host.gather gather_S100000x64_S1600000x1_S1600000x64_1_0_n_n_0_1_164 x (srcIdx e)) := rfl

/-- Layer 2's aggregation of an array of reals is an array of reals. -/
theorem isReal_agg_2 (x : FVec Ideal S100000x64 .f32) (e : IVec S2x1600000 32) (hx : ∀ i, IsReal (x i)) :
    ∀ i, IsReal (agg_2 x e i) := by
  rw [agg_2_eq]
  exact isReal_hostScatterAdd _ _ _ _ (isReal_zeroSplat _) (isReal_gather _ _ _ hx)

/-- Layer 2's affine map of arrays of reals is an array of reals. -/
theorem isReal_lin_2 (g x : FVec Ideal S100000x64 .f32) (wl wr : FVec Ideal S64x128 .f32) (bias : FVec Ideal S128 .f32)
    (hg : ∀ i, IsReal (g i)) (hx : ∀ i, IsReal (x i)) (hwl : ∀ i, IsReal (wl i)) (hwr : ∀ i, IsReal (wr i))
    (hb : ∀ i, IsReal (bias i)) : ∀ i, IsReal (lin_2 g x wl wr bias i) := by
  intro i
  obtain ⟨r, j, rfl⟩ : ∃ r j, i = ix2 r j := ⟨i 0, i 1, eq_ix2 i⟩
  rw [lin_2_apply]
  exact ((isReal_sum_univ _ fun c => (hg _).mul (hwl _)).add (isReal_sum_univ _ fun c => (hx _).mul (hwr _))).add (hb _)

/-- Layer 2's column means of an array of reals are reals. -/
theorem isReal_mean_2 (h : FVec Ideal S100000x128 .f32) (hh : ∀ i, IsReal (h i)) : ∀ i, IsReal (mean_2 h i) := by
  intro i
  obtain ⟨j, rfl⟩ : ∃ j, i = ix1 j := ⟨i 0, eq_ix1 i⟩
  rw [mean_2_apply]
  exact isReal_div_coe (isReal_sum_univ _ fun r => hh _) (by norm_num)

/-- On an array of reals layer 2's column variance is the mean of the squares less the square of the mean. -/
theorem var_2_eq_meansq_sub_sqmean (h : FVec Ideal S100000x128 .f32) (hh : ∀ i, IsReal (h i)) (j : Fin 128) :
    var_2 h (ix1 j)
      = Ideal.div (∑ r : Fin 100000, h (ix2 r j) * h (ix2 r j)) ((100000 : ℝ) : EReal)
          - mean_2 h (ix1 j) * mean_2 h (ix1 j) := by
  rw [var_2_apply, mean_2_apply]
  exact variance_div_eq 100000 (by simp) (by norm_num) (fun r => h (ix2 r j)) fun r => hh _

/-- On an array of reals layer 2's column variance plus the `ε` of the normalisation is a real above zero, and
    its reciprocal square root is a real. -/
theorem var_2_add_eps_pos (h : FVec Ideal S100000x128 .f32) (hh : ∀ i, IsReal (h i)) (j : Fin 128) :
    IsReal (var_2 h (ix1 j) + Ideal.ofBits .f32 0x3727C5AC#32)
    ∧ 0 < var_2 h (ix1 j) + Ideal.ofBits .f32 0x3727C5AC#32
    ∧ IsReal (Ideal.rsqrt (var_2 h (ix1 j) + Ideal.ofBits .f32 0x3727C5AC#32)) := by
  rw [var_2_apply, mean_2_apply]
  exact variance_div_add_pos 100000 (by simp) (by norm_num) (fun r => h (ix2 r j)) (fun r => hh _) ofBits_f32_eps_pos

/-- Layer 2's normalisation of reals, the reciprocal square roots reals, is an array of reals. -/
theorem isReal_bn_2 (h : FVec Ideal S100000x128 .f32) (mu v gamma beta : FVec Ideal S128 .f32)
    (hh : ∀ i, IsReal (h i)) (hmu : ∀ i, IsReal (mu i))
    (hrs : ∀ j, IsReal (Ideal.rsqrt (v (ix1 j) + Ideal.ofBits .f32 0x3727C5AC#32)))
    (hgamma : ∀ i, IsReal (gamma i)) (hbeta : ∀ i, IsReal (beta i)) : ∀ i, IsReal (bn_2 h mu v gamma beta i) := by
  intro i
  obtain ⟨r, j, rfl⟩ : ∃ r j, i = ix2 r j := ⟨i 0, i 1, eq_ix2 i⟩
  rw [bn_2_apply]
  refine isReal_max ((((isReal_sub (hh _) (hmu _)).mul (hrs j)).mul (hgamma _)).add (hbeta _)) ?_
  rw [ofBits_f32_zero]; exact isReal_zero

/-- Layer 2 whole, on reals, is an array of reals. -/
theorem isReal_layer_2 (x : FVec Ideal S100000x64 .f32) (e : IVec S2x1600000 32) (wl wr : FVec Ideal S64x128 .f32)
    (bias gamma beta : FVec Ideal S128 .f32) (hx : ∀ i, IsReal (x i)) (hwl : ∀ i, IsReal (wl i))
    (hwr : ∀ i, IsReal (wr i)) (hb : ∀ i, IsReal (bias i)) (hgamma : ∀ i, IsReal (gamma i))
    (hbeta : ∀ i, IsReal (beta i)) : ∀ i, IsReal (layer_2 x e wl wr bias gamma beta i) := by
  have hp : ∀ i, IsReal (pre_2 x e wl wr bias i) :=
    isReal_lin_2 _ _ _ _ _ (isReal_agg_2 x e hx) hx hwl hwr hb
  exact isReal_bn_2 _ _ _ _ _ hp (isReal_mean_2 _ hp) (fun j => (var_2_add_eps_pos _ hp j).2.2) hgamma hbeta

/-! ## Layer 3 -/

/-- Layer 3's affine map at row `r`, column `j`: the row of `g` against the column of `wl`, plus the row of `x` against
    the column of `wr`, plus the bias entry. -/
theorem lin_3_apply (g x : FVec Ideal S100000x128 .f32) (wl wr : FVec Ideal S128x256 .f32) (bias : FVec Ideal S256 .f32)
    (r : Fin 100000) (j : Fin 256) :
    lin_3 g x wl wr bias (ix2 r j)
      = (∑ c : Fin 128, g (ix2 r c) * wl (ix2 c j)) + (∑ c : Fin 128, x (ix2 r c) * wr (ix2 c j)) + bias (ix1 j) := by
  unfold lin_3
  rw [addf_apply, addf_apply, dot_128_256_apply, dot_128_256_apply, rowBroadcast_apply]

/-- Layer 3's column mean at column `j`, as the operations spell it. -/
theorem mean_3_apply_raw (h : FVec Ideal S100000x256 .f32) (j : Fin 256) :
    mean_3 h (ix1 j)
      = Ideal.div (Ideal.ofBits .f32 0x00000000#32 + ∑ r : Fin 100000, h (ix2 r j)) (Ideal.ofBits .f32 0x47C35000#32) := by
  unfold mean_3
  rw [hostDivf_apply, colSum_apply, broadcastInDim_scalar_apply]
  rfl

/-- Layer 3's column mean at column `j`: the column's sum over `100000`. -/
theorem mean_3_apply (h : FVec Ideal S100000x256 .f32) (j : Fin 256) :
    mean_3 h (ix1 j) = Ideal.div (∑ r : Fin 100000, h (ix2 r j)) ((100000 : ℝ) : EReal) := by
  rw [mean_3_apply_raw, ofBits_f32_zero, zero_add, ofBits_f32_100000]

/-- Layer 3's deviations at row `r`, column `j`: the entry less the column mean. -/
theorem dev_3_apply (h : FVec Ideal S100000x256 .f32) (r : Fin 100000) (j : Fin 256) :
    dev_3 h (ix2 r j) = h (ix2 r j) - mean_3 h (ix1 j) := by
  unfold dev_3
  rw [subf_apply, downRows_apply, hostDivf_apply, oneRow_apply, colSum_apply, broadcastInDim_scalar_apply,
    mean_3_apply_raw]
  rfl

/-- Layer 3's column variance at column `j`: the mean over the `100000` rows of the squared deviations from the
    column mean (the divisor `100000 - 0` is above zero, so the quotient is taken). -/
theorem var_3_apply (h : FVec Ideal S100000x256 .f32) (j : Fin 256) :
    var_3 h (ix1 j)
      = Ideal.div (∑ r : Fin 100000, (h (ix2 r j) - mean_3 h (ix1 j)) * (h (ix2 r j) - mean_3 h (ix1 j)))
          ((100000 : ℝ) : EReal) := by
  unfold var_3
  rw [select_apply, broadcastInDim_scalar_apply, dof_pos, select_one, hostDivf_apply, colSum_apply,
    broadcastInDim_scalar_apply, dof_apply]
  simp only [mulf_apply, dev_3_apply]
  rw [show (constant (F := Ideal) S_ .f32 0x00000000#32) ix0 = Ideal.ofBits .f32 0x00000000#32 from rfl,
    ofBits_f32_zero, zero_add]

/-- Layer 3's normalisation at row `r`, column `j`. -/
theorem bn_3_apply (h : FVec Ideal S100000x256 .f32) (mu v gamma beta : FVec Ideal S256 .f32) (r : Fin 100000) (j : Fin 256) :
    bn_3 h mu v gamma beta (ix2 r j)
      = max ((h (ix2 r j) - mu (ix1 j)) * Ideal.rsqrt (v (ix1 j) + Ideal.ofBits .f32 0x3727C5AC#32) * gamma (ix1 j)
          + beta (ix1 j)) (Ideal.ofBits .f32 0x00000000#32) := by
  unfold bn_3
  rw [maximumf_apply, addf_apply, mulf_apply, mulf_apply, subf_apply, rowBroadcast_apply, rowBroadcast_apply,
    rowBroadcast_apply, rowBroadcast_apply, broadcastInDim_scalar_apply]
  rfl

/-- Layer 3's aggregation is the accumulating scatter, into a zero array at the destinations, of the rows gathered
    at the sources. -/
theorem agg_3_eq (x : FVec Ideal S100000x128 .f32) (e : IVec S2x1600000 32) :
    agg_3 x e = Ideal.hostScatterAdd scatter_S100000x128_S1600000x1_S1600000x128_1_0_0_1
      (broadcastInDim S100000x128 ![] bcast_S_S100000x128 (constant (F := Ideal) S_ .f32 0x00000000#32)) (dstIdx e)
      (Host.gather gather_S100000x128_S1600000x1_S1600000x128_1_0_n_n_0_1_1128 x (srcIdx e)) := rfl

/-- Layer 3's aggregation of an array of reals is an array of reals. -/
theorem isReal_agg_3 (x : FVec Ideal S100000x128 .f32) (e : IVec S2x1600000 32) (hx : ∀ i, IsReal (x i)) :
    ∀ i, IsReal (agg_3 x e i) := by
  rw [agg_3_eq]
  exact isReal_hostScatterAdd _ _ _ _ (isReal_zeroSplat _) (isReal_gather _ _ _ hx)

/-- Layer 3's affine map of arrays of reals is an array of reals. -/
theorem isReal_lin_3 (g x : FVec Ideal S100000x128 .f32) (wl wr : FVec Ideal S128x256 .f32) (bias : FVec Ideal S256 .f32)
    (hg : ∀ i, IsReal (g i)) (hx : ∀ i, IsReal (x i)) (hwl : ∀ i, IsReal (wl i)) (hwr : ∀ i, IsReal (wr i))
    (hb : ∀ i, IsReal (bias i)) : ∀ i, IsReal (lin_3 g x wl wr bias i) := by
  intro i
  obtain ⟨r, j, rfl⟩ : ∃ r j, i = ix2 r j := ⟨i 0, i 1, eq_ix2 i⟩
  rw [lin_3_apply]
  exact ((isReal_sum_univ _ fun c => (hg _).mul (hwl _)).add (isReal_sum_univ _ fun c => (hx _).mul (hwr _))).add (hb _)

/-- Layer 3's column means of an array of reals are reals. -/
theorem isReal_mean_3 (h : FVec Ideal S100000x256 .f32) (hh : ∀ i, IsReal (h i)) : ∀ i, IsReal (mean_3 h i) := by
  intro i
  obtain ⟨j, rfl⟩ : ∃ j, i = ix1 j := ⟨i 0, eq_ix1 i⟩
  rw [mean_3_apply]
  exact isReal_div_coe (isReal_sum_univ _ fun r => hh _) (by norm_num)

/-- On an array of reals layer 3's column variance is the mean of the squares less the square of the mean. -/
theorem var_3_eq_meansq_sub_sqmean (h : FVec Ideal S100000x256 .f32) (hh : ∀ i, IsReal (h i)) (j : Fin 256) :
    var_3 h (ix1 j)
      = Ideal.div (∑ r : Fin 100000, h (ix2 r j) * h (ix2 r j)) ((100000 : ℝ) : EReal)
          - mean_3 h (ix1 j) * mean_3 h (ix1 j) := by
  rw [var_3_apply, mean_3_apply]
  exact variance_div_eq 100000 (by simp) (by norm_num) (fun r => h (ix2 r j)) fun r => hh _

/-- On an array of reals layer 3's column variance plus the `ε` of the normalisation is a real above zero, and
    its reciprocal square root is a real. -/
theorem var_3_add_eps_pos (h : FVec Ideal S100000x256 .f32) (hh : ∀ i, IsReal (h i)) (j : Fin 256) :
    IsReal (var_3 h (ix1 j) + Ideal.ofBits .f32 0x3727C5AC#32)
    ∧ 0 < var_3 h (ix1 j) + Ideal.ofBits .f32 0x3727C5AC#32
    ∧ IsReal (Ideal.rsqrt (var_3 h (ix1 j) + Ideal.ofBits .f32 0x3727C5AC#32)) := by
  rw [var_3_apply, mean_3_apply]
  exact variance_div_add_pos 100000 (by simp) (by norm_num) (fun r => h (ix2 r j)) (fun r => hh _) ofBits_f32_eps_pos

/-- Layer 3's normalisation of reals, the reciprocal square roots reals, is an array of reals. -/
theorem isReal_bn_3 (h : FVec Ideal S100000x256 .f32) (mu v gamma beta : FVec Ideal S256 .f32)
    (hh : ∀ i, IsReal (h i)) (hmu : ∀ i, IsReal (mu i))
    (hrs : ∀ j, IsReal (Ideal.rsqrt (v (ix1 j) + Ideal.ofBits .f32 0x3727C5AC#32)))
    (hgamma : ∀ i, IsReal (gamma i)) (hbeta : ∀ i, IsReal (beta i)) : ∀ i, IsReal (bn_3 h mu v gamma beta i) := by
  intro i
  obtain ⟨r, j, rfl⟩ : ∃ r j, i = ix2 r j := ⟨i 0, i 1, eq_ix2 i⟩
  rw [bn_3_apply]
  refine isReal_max ((((isReal_sub (hh _) (hmu _)).mul (hrs j)).mul (hgamma _)).add (hbeta _)) ?_
  rw [ofBits_f32_zero]; exact isReal_zero

/-- Layer 3 whole, on reals, is an array of reals. -/
theorem isReal_layer_3 (x : FVec Ideal S100000x128 .f32) (e : IVec S2x1600000 32) (wl wr : FVec Ideal S128x256 .f32)
    (bias gamma beta : FVec Ideal S256 .f32) (hx : ∀ i, IsReal (x i)) (hwl : ∀ i, IsReal (wl i))
    (hwr : ∀ i, IsReal (wr i)) (hb : ∀ i, IsReal (bias i)) (hgamma : ∀ i, IsReal (gamma i))
    (hbeta : ∀ i, IsReal (beta i)) : ∀ i, IsReal (layer_3 x e wl wr bias gamma beta i) := by
  have hp : ∀ i, IsReal (pre_3 x e wl wr bias i) :=
    isReal_lin_3 _ _ _ _ _ (isReal_agg_3 x e hx) hx hwl hwr hb
  exact isReal_bn_3 _ _ _ _ _ hp (isReal_mean_3 _ hp) (fun j => (var_3_add_eps_pos _ hp j).2.2) hgamma hbeta

/-! ## The head -/

/-- The head at node `r`: the row of `x` through the first dense layer, each of the 128 entries clamped below at zero,
    the result against the one column of `w2`, plus the one entry of `b2`. -/
theorem head_apply (x : FVec Ideal S100000x256 .f32) (w1 : FVec Ideal S256x128 .f32) (b1 : FVec Ideal S128 .f32)
    (w2 : FVec Ideal S128x1 .f32) (b2 : FVec Ideal S1 .f32) (r : Fin 100000) :
    head x w1 b1 w2 b2 (ix1 r)
      = (∑ n : Fin 128,
          max ((∑ c : Fin 256, x (ix2 r c) * w1 (ix2 c n)) + b1 (ix1 n)) (Ideal.ofBits .f32 0x00000000#32)
            * w2 (ix2 n (0 : Fin 1)))
        + b2 (ix1 (0 : Fin 1)) := by
  unfold head
  rw [shapeCast_apply _ shapeCasts_S100000x1_S100000 (ix1 r) (ix2 r (0 : Fin 1)) (by
      rw [Shape.rowMajor_val_two, Shape.rowMajor_val_one]; show r.val * 1 + 0 = r.val; omega),
    addf_apply, dot_128_1_apply, rowBroadcast_apply]
  refine congrArg (· + b2 (ix1 (0 : Fin 1))) (Finset.sum_congr rfl fun n _ => ?_)
  rw [maximumf_apply, addf_apply, dot_256_128_apply, rowBroadcast_apply, broadcastInDim_scalar_apply]
  rfl

/-- The head of arrays of reals is an array of reals. -/
theorem isReal_head (x : FVec Ideal S100000x256 .f32) (w1 : FVec Ideal S256x128 .f32) (b1 : FVec Ideal S128 .f32)
    (w2 : FVec Ideal S128x1 .f32) (b2 : FVec Ideal S1 .f32) (hx : ∀ i, IsReal (x i)) (hw1 : ∀ i, IsReal (w1 i))
    (hb1 : ∀ i, IsReal (b1 i)) (hw2 : ∀ i, IsReal (w2 i)) (hb2 : ∀ i, IsReal (b2 i)) :
    ∀ i, IsReal (head x w1 b1 w2 b2 i) := by
  intro i
  obtain ⟨r, rfl⟩ : ∃ r, i = ix1 r := ⟨i 0, eq_ix1 i⟩
  rw [head_apply]
  refine (isReal_sum_univ _ fun n => (isReal_max ((isReal_sum_univ _ fun c => (hx _).mul (hw1 _)).add (hb1 _)) ?_).mul (hw2 _)).add (hb2 _)
  rw [ofBits_f32_zero]; exact isReal_zero

end Cert.ReferenceIdeal.RefRead

end
-- ==== Proof.Bridge.lean ====
/-
  The kernel's result and the reference's result are one function of the twenty-one arguments, on arguments every
  float entry of which is a real. Layer by layer the two spell the same neighbour sum, the same affine map and the
  same normalisation; they differ in one place, the column variance, which the kernel takes as the mean of the
  squares less the square of the mean and the reference as the mean of the squared deviations from the mean. These
  agree on reals, and every layer sends reals to reals, so the agreement carries through the three layers; the
  head is the same two dense layers on both sides.
-/
import proofs.«115009_j15960098472830_1_alg».proof.Proof.KSpecOut
import proofs.«115009_j15960098472830_1_alg».proof.Proof.RefRead

noncomputable section

namespace Cert.Bridge

open Idealize.ShloMosaic Idealize.ShloMosaic.ValueIdx
open Cert.TileSum Cert.LibRealClosure
open Cert.ReferenceIdeal Cert.ReferenceIdeal.RefStages Cert.ReferenceIdeal.RefRead
open Cert.KernelIdeal.KSpecOut (kagg1 kagg2 kagg3 klin1 klin2 klin3 klayer1 klayer2 klayer3 kout row64 row128 row256 row1
  kmean64 kmean128 kmean256 kvar64 kvar128 kvar256 bnStat64 bnStat128 bnStat256)
open Cert.KernelIdeal.KSpecLin (lin64 lin128 lin256 lin64At lin128At lin256At lin64_ix2 lin128_ix2 lin256_ix2
  colSum64 colSum128 colSum256 colSq64 colSq128 colSq256)
open Cert.KernelIdeal.KSpecBn (bnRelu64 bnRelu128 bnRelu256 bnRelu64At bnRelu128At bnRelu256At bnRelu64_ix2 bnRelu128_ix2
  bnRelu256_ix2)
open scoped BigOperators

variable [Facts₀]

/-! ## Layer 1 -/

/-- The two programs' neighbour sums of a `100000 × 6` array are the same function. -/
theorem kagg1_eq (x : FVec Ideal S100000x6 .f32) (e : IVec S2x1600000 32) : kagg1 x e = agg_1 x e := rfl

/-- A length-64 vector laid out as a row, read at row `0`, column `j`, is the vector at `j`. -/
theorem row64_apply (v : FVec Ideal S64 .f32) (j : Fin 64) : row64 v (ix2 (0 : Fin 1) j) = v (ix1 j) := by
  unfold row64
  exact shapeCast_a_1a_apply v _ 0 j

/-- The kernel's division of a row by the row count, at column `j`: the entry over `100000`. -/
theorem kmean64_apply (s : FVec Ideal S1x64 .f32) (j : Fin 64) :
    kmean64 s (ix2 (0 : Fin 1) j) = Ideal.div (s (ix2 (0 : Fin 1) j)) ((100000 : ℝ) : EReal) := by
  unfold kmean64
  rw [hostDivf_apply, broadcastInDim_scalar_apply]
  show Ideal.div _ (Ideal.ofBits .f32 0x47C35000#32) = _
  rw [ofBits_f32_100000]

/-- The row of column sums at column `j`. -/
theorem colSum64_apply (L : FVec Ideal S100000x64 .f32) (j : Fin 64) :
    colSum64 L (ix2 (0 : Fin 1) j) = ∑ r : Fin 100000, L (ix2 r j) := rfl

/-- The row of column sums of squares at column `j`. -/
theorem colSq64_apply (L : FVec Ideal S100000x64 .f32) (j : Fin 64) :
    colSq64 L (ix2 (0 : Fin 1) j) = ∑ r : Fin 100000, L (ix2 r j) * L (ix2 r j) := rfl

/-- The two programs' affine maps of layer 1 are the same function. -/
theorem klin1_eq (x : FVec Ideal S100000x6 .f32) (e : IVec S2x1600000 32) (wl wr : FVec Ideal S6x64 .f32)
    (bias : FVec Ideal S64 .f32) : klin1 x e wl wr bias = lin_1 (agg_1 x e) x wl wr bias := by
  funext i
  obtain ⟨r, j, rfl⟩ : ∃ r j, i = ix2 r j := ⟨i 0, i 1, eq_ix2 i⟩
  rw [lin_1_apply]
  unfold klin1
  rw [lin64_ix2]
  unfold lin64At
  rw [kagg1_eq, row64_apply]

/-- The kernel's column mean of layer 1 is the reference's. -/
theorem kmean64_eq (P : FVec Ideal S100000x64 .f32) (j : Fin 64) :
    kmean64 (colSum64 P) (ix2 (0 : Fin 1) j) = mean_1 P (ix1 j) := by
  rw [mean_1_apply, kmean64_apply, colSum64_apply]

/-- On an array of reals the kernel's column variance of layer 1 — the mean of the squares less the square of the
    mean — is the reference's, the mean of the squared deviations. -/
theorem kvar64_eq (P : FVec Ideal S100000x64 .f32) (hP : ∀ i, IsReal (P i)) (j : Fin 64) :
    kvar64 (colSum64 P) (colSq64 P) (ix2 (0 : Fin 1) j) = var_1 P (ix1 j) := by
  rw [var_1_eq_meansq_sub_sqmean P hP j]
  unfold kvar64
  rw [subf_apply, mulf_apply, kmean64_eq, kmean64_apply, colSq64_apply]

/-- Layer 1 of the two programs is the same function on reals, and its result is an array of reals. -/
theorem layer1_eq (x : FVec Ideal S100000x6 .f32) (e : IVec S2x1600000 32) (wl wr : FVec Ideal S6x64 .f32)
    (bias gamma beta : FVec Ideal S64 .f32) (hx : ∀ i, IsReal (x i)) (hwl : ∀ i, IsReal (wl i))
    (hwr : ∀ i, IsReal (wr i)) (hb : ∀ i, IsReal (bias i)) (hgamma : ∀ i, IsReal (gamma i))
    (hbeta : ∀ i, IsReal (beta i)) :
    klayer1 x e wl wr bias gamma beta = layer_1 x e wl wr bias gamma beta
    ∧ ∀ i, IsReal (layer_1 x e wl wr bias gamma beta i) := by
  refine ⟨?_, isReal_layer_1 x e wl wr bias gamma beta hx hwl hwr hb hgamma hbeta⟩
  have hP : ∀ i, IsReal (lin_1 (agg_1 x e) x wl wr bias i) :=
    isReal_lin_1 _ _ _ _ _ (isReal_agg_1 x e hx) hx hwl hwr hb
  funext i
  obtain ⟨r, j, rfl⟩ : ∃ r j, i = ix2 r j := ⟨i 0, i 1, eq_ix2 i⟩
  unfold klayer1 bnStat64 layer_1 pre_1
  rw [bn_1_apply, bnRelu64_ix2]
  unfold bnRelu64At
  rw [klin1_eq, kmean64_eq, kvar64_eq _ hP, row64_apply, row64_apply]

/-! ## Layer 2 -/

/-- The two programs' neighbour sums of a `100000 × 64` array are the same function. -/
theorem kagg2_eq (x : FVec Ideal S100000x64 .f32) (e : IVec S2x1600000 32) : kagg2 x e = agg_2 x e := rfl

/-- A length-128 vector laid out as a row, read at row `0`, column `j`, is the vector at `j`. -/
theorem row128_apply (v : FVec Ideal S128 .f32) (j : Fin 128) : row128 v (ix2 (0 : Fin 1) j) = v (ix1 j) := by
  unfold row128
  exact shapeCast_a_1a_apply v _ 0 j

/-- The kernel's division of a row by the row count, at column `j`: the entry over `100000`. -/
theorem kmean128_apply (s : FVec Ideal S1x128 .f32) (j : Fin 128) :
    kmean128 s (ix2 (0 : Fin 1) j) = Ideal.div (s (ix2 (0 : Fin 1) j)) ((100000 : ℝ) : EReal) := by
  unfold kmean128
  rw [hostDivf_apply, broadcastInDim_scalar_apply]
  show Ideal.div _ (Ideal.ofBits .f32 0x47C35000#32) = _
  rw [ofBits_f32_100000]

/-- The row of column sums at column `j`. -/
theorem colSum128_apply (L : FVec Ideal S100000x128 .f32) (j : Fin 128) :
    colSum128 L (ix2 (0 : Fin 1) j) = ∑ r : Fin 100000, L (ix2 r j) := rfl

/-- The row of column sums of squares at column `j`. -/
theorem colSq128_apply (L : FVec Ideal S100000x128 .f32) (j : Fin 128) :
    colSq128 L (ix2 (0 : Fin 1) j) = ∑ r : Fin 100000, L (ix2 r j) * L (ix2 r j) := rfl

/-- The two programs' affine maps of layer 2 are the same function. -/
theorem klin2_eq (x : FVec Ideal S100000x64 .f32) (e : IVec S2x1600000 32) (wl wr : FVec Ideal S64x128 .f32)
    (bias : FVec Ideal S128 .f32) : klin2 x e wl wr bias = lin_2 (agg_2 x e) x wl wr bias := by
  funext i
  obtain ⟨r, j, rfl⟩ : ∃ r j, i = ix2 r j := ⟨i 0, i 1, eq_ix2 i⟩
  rw [lin_2_apply]
  unfold klin2
  rw [lin128_ix2]
  unfold lin128At
  rw [kagg2_eq, row128_apply]

/-- The kernel's column mean of layer 2 is the reference's. -/
theorem kmean128_eq (P : FVec Ideal S100000x128 .f32) (j : Fin 128) :
    kmean128 (colSum128 P) (ix2 (0 : Fin 1) j) = mean_2 P (ix1 j) := by
  rw [mean_2_apply, kmean128_apply, colSum128_apply]

/-- On an array of reals the kernel's column variance of layer 2 — the mean of the squares less the square of the
    mean — is the reference's, the mean of the squared deviations. -/
theorem kvar128_eq (P : FVec Ideal S100000x128 .f32) (hP : ∀ i, IsReal (P i)) (j : Fin 128) :
    kvar128 (colSum128 P) (colSq128 P) (ix2 (0 : Fin 1) j) = var_2 P (ix1 j) := by
  rw [var_2_eq_meansq_sub_sqmean P hP j]
  unfold kvar128
  rw [subf_apply, mulf_apply, kmean128_eq, kmean128_apply, colSq128_apply]

/-- Layer 2 of the two programs is the same function on reals, and its result is an array of reals. -/
theorem layer2_eq (x : FVec Ideal S100000x64 .f32) (e : IVec S2x1600000 32) (wl wr : FVec Ideal S64x128 .f32)
    (bias gamma beta : FVec Ideal S128 .f32) (hx : ∀ i, IsReal (x i)) (hwl : ∀ i, IsReal (wl i))
    (hwr : ∀ i, IsReal (wr i)) (hb : ∀ i, IsReal (bias i)) (hgamma : ∀ i, IsReal (gamma i))
    (hbeta : ∀ i, IsReal (beta i)) :
    klayer2 x e wl wr bias gamma beta = layer_2 x e wl wr bias gamma beta
    ∧ ∀ i, IsReal (layer_2 x e wl wr bias gamma beta i) := by
  refine ⟨?_, isReal_layer_2 x e wl wr bias gamma beta hx hwl hwr hb hgamma hbeta⟩
  have hP : ∀ i, IsReal (lin_2 (agg_2 x e) x wl wr bias i) :=
    isReal_lin_2 _ _ _ _ _ (isReal_agg_2 x e hx) hx hwl hwr hb
  funext i
  obtain ⟨r, j, rfl⟩ : ∃ r j, i = ix2 r j := ⟨i 0, i 1, eq_ix2 i⟩
  unfold klayer2 bnStat128 layer_2 pre_2
  rw [bn_2_apply, bnRelu128_ix2]
  unfold bnRelu128At
  rw [klin2_eq, kmean128_eq, kvar128_eq _ hP, row128_apply, row128_apply]

/-! ## Layer 3 -/

/-- The two programs' neighbour sums of a `100000 × 128` array are the same function. -/
theorem kagg3_eq (x : FVec Ideal S100000x128 .f32) (e : IVec S2x1600000 32) : kagg3 x e = agg_3 x e := rfl

/-- A length-256 vector laid out as a row, read at row `0`, column `j`, is the vector at `j`. -/
theorem row256_apply (v : FVec Ideal S256 .f32) (j : Fin 256) : row256 v (ix2 (0 : Fin 1) j) = v (ix1 j) := by
  unfold row256
  exact shapeCast_a_1a_apply v _ 0 j

/-- The kernel's division of a row by the row count, at column `j`: the entry over `100000`. -/
theorem kmean256_apply (s : FVec Ideal S1x256 .f32) (j : Fin 256) :
    kmean256 s (ix2 (0 : Fin 1) j) = Ideal.div (s (ix2 (0 : Fin 1) j)) ((100000 : ℝ) : EReal) := by
  unfold kmean256
  rw [hostDivf_apply, broadcastInDim_scalar_apply]
  show Ideal.div _ (Ideal.ofBits .f32 0x47C35000#32) = _
  rw [ofBits_f32_100000]

/-- The row of column sums at column `j`. -/
theorem colSum256_apply (L : FVec Ideal S100000x256 .f32) (j : Fin 256) :
    colSum256 L (ix2 (0 : Fin 1) j) = ∑ r : Fin 100000, L (ix2 r j) := rfl

/-- The row of column sums of squares at column `j`. -/
theorem colSq256_apply (L : FVec Ideal S100000x256 .f32) (j : Fin 256) :
    colSq256 L (ix2 (0 : Fin 1) j) = ∑ r : Fin 100000, L (ix2 r j) * L (ix2 r j) := rfl

/-- The two programs' affine maps of layer 3 are the same function. -/
theorem klin3_eq (x : FVec Ideal S100000x128 .f32) (e : IVec S2x1600000 32) (wl wr : FVec Ideal S128x256 .f32)
    (bias : FVec Ideal S256 .f32) : klin3 x e wl wr bias = lin_3 (agg_3 x e) x wl wr bias := by
  funext i
  obtain ⟨r, j, rfl⟩ : ∃ r j, i = ix2 r j := ⟨i 0, i 1, eq_ix2 i⟩
  rw [lin_3_apply]
  unfold klin3
  rw [lin256_ix2]
  unfold lin256At
  rw [kagg3_eq, row256_apply]

/-- The kernel's column mean of layer 3 is the reference's. -/
theorem kmean256_eq (P : FVec Ideal S100000x256 .f32) (j : Fin 256) :
    kmean256 (colSum256 P) (ix2 (0 : Fin 1) j) = mean_3 P (ix1 j) := by
  rw [mean_3_apply, kmean256_apply, colSum256_apply]

/-- On an array of reals the kernel's column variance of layer 3 — the mean of the squares less the square of the
    mean — is the reference's, the mean of the squared deviations. -/
theorem kvar256_eq (P : FVec Ideal S100000x256 .f32) (hP : ∀ i, IsReal (P i)) (j : Fin 256) :
    kvar256 (colSum256 P) (colSq256 P) (ix2 (0 : Fin 1) j) = var_3 P (ix1 j) := by
  rw [var_3_eq_meansq_sub_sqmean P hP j]
  unfold kvar256
  rw [subf_apply, mulf_apply, kmean256_eq, kmean256_apply, colSq256_apply]

/-- Layer 3 of the two programs is the same function on reals, and its result is an array of reals. -/
theorem layer3_eq (x : FVec Ideal S100000x128 .f32) (e : IVec S2x1600000 32) (wl wr : FVec Ideal S128x256 .f32)
    (bias gamma beta : FVec Ideal S256 .f32) (hx : ∀ i, IsReal (x i)) (hwl : ∀ i, IsReal (wl i))
    (hwr : ∀ i, IsReal (wr i)) (hb : ∀ i, IsReal (bias i)) (hgamma : ∀ i, IsReal (gamma i))
    (hbeta : ∀ i, IsReal (beta i)) :
    klayer3 x e wl wr bias gamma beta = layer_3 x e wl wr bias gamma beta
    ∧ ∀ i, IsReal (layer_3 x e wl wr bias gamma beta i) := by
  refine ⟨?_, isReal_layer_3 x e wl wr bias gamma beta hx hwl hwr hb hgamma hbeta⟩
  have hP : ∀ i, IsReal (lin_3 (agg_3 x e) x wl wr bias i) :=
    isReal_lin_3 _ _ _ _ _ (isReal_agg_3 x e hx) hx hwl hwr hb
  funext i
  obtain ⟨r, j, rfl⟩ : ∃ r j, i = ix2 r j := ⟨i 0, i 1, eq_ix2 i⟩
  unfold klayer3 bnStat256 layer_3 pre_3
  rw [bn_3_apply, bnRelu256_ix2]
  unfold bnRelu256At
  rw [klin3_eq, kmean256_eq, kvar256_eq _ hP, row256_apply, row256_apply]

/-! ## The head and the result -/

/-- A length-1 vector laid out as a `1 × 1` array, read at its one index, is the vector's one entry. -/
theorem row1_apply (v : FVec Ideal S1 .f32) (j : Fin 1) : row1 v (ix2 (0 : Fin 1) j) = v (ix1 j) := by
  unfold row1
  exact shapeCast_a_1a_apply v _ 0 j

/-- The two programs' heads are the same function: the kernel's `100000 × 1` column flattened is the reference's vector. -/
theorem khead_eq (x : FVec Ideal S100000x256 .f32) (w1 : FVec Ideal S256x128 .f32) (b1 : FVec Ideal S128 .f32)
    (w2 : FVec Ideal S128x1 .f32) (b2 : FVec Ideal S1 .f32) :
    shapeCast S100000 (Cert.KernelIdeal.KSpecHead.head x w1 (row128 b1) w2 (row1 b2))
        Cert.KernelIdeal.Facts₀.shapeCasts_S100000x1_S100000
      = head x w1 b1 w2 b2 := by
  funext i
  obtain ⟨r, rfl⟩ : ∃ r, i = ix1 r := ⟨i 0, eq_ix1 i⟩
  rw [head_apply, shapeCast_apply _ _ (ix1 r) (ix2 r (0 : Fin 1)) (by
      rw [Shape.rowMajor_val_two, Shape.rowMajor_val_one]; show r.val * 1 + 0 = r.val; omega),
    Cert.KernelIdeal.KSpecHead.head_ix2]
  unfold Cert.KernelIdeal.KSpecHead.headAt
  rw [row1_apply]
  refine congrArg (· + b2 (ix1 (0 : Fin 1))) (Finset.sum_congr rfl fun n _ => ?_)
  rw [row128_apply]

/-- On arguments every float entry of which is a real, the kernel's result is the reference's. -/
theorem kout_eq_refOut (a0 : FVec Ideal S100000x6 .f32) (a1 : IVec S2x1600000 32) (a2 a3 : FVec Ideal S6x64 .f32)
    (a4 a5 a6 : FVec Ideal S64 .f32) (a7 a8 : FVec Ideal S64x128 .f32) (a9 a10 a11 : FVec Ideal S128 .f32)
    (a12 a13 : FVec Ideal S128x256 .f32) (a14 a15 a16 : FVec Ideal S256 .f32) (a17 : FVec Ideal S256x128 .f32)
    (a18 : FVec Ideal S128 .f32) (a19 : FVec Ideal S128x1 .f32) (a20 : FVec Ideal S1 .f32)
    (h0 : ∀ i, IsReal (a0 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (h11 : ∀ i, IsReal (a11 i)) (h12 : ∀ i, IsReal (a12 i))
    (h13 : ∀ i, IsReal (a13 i)) (h14 : ∀ i, IsReal (a14 i)) (h15 : ∀ i, IsReal (a15 i)) (h16 : ∀ i, IsReal (a16 i))
    (h17 : ∀ i, IsReal (a17 i)) (h18 : ∀ i, IsReal (a18 i)) (h19 : ∀ i, IsReal (a19 i)) (h20 : ∀ i, IsReal (a20 i)) :
    kout a0 a1 a2 a3 a4 a5 a6 a7 a8 a9 a10 a11 a12 a13 a14 a15 a16 a17 a18 a19 a20
      = refOut a0 a1 a2 a3 a4 a5 a6 a7 a8 a9 a10 a11 a12 a13 a14 a15 a16 a17 a18 a19 a20 := by
  obtain ⟨e1, r1⟩ := layer1_eq a0 a1 a2 a3 a4 a5 a6 h0 h2 h3 h4 h5 h6
  obtain ⟨e2, r2⟩ := layer2_eq _ a1 a7 a8 a9 a10 a11 r1 h7 h8 h9 h10 h11
  obtain ⟨e3, _⟩ := layer3_eq _ a1 a12 a13 a14 a15 a16 r2 h12 h13 h14 h15 h16
  unfold kout refOut
  rw [e1, e2, e3]
  exact khead_eq _ a17 a18 a19 a20

/-- The same from the conjunction of the twenty realness facts, in the order of the arguments. -/
theorem kout_eq_refOut_of_and (a0 : FVec Ideal S100000x6 .f32) (a1 : IVec S2x1600000 32) (a2 a3 : FVec Ideal S6x64 .f32)
    (a4 a5 a6 : FVec Ideal S64 .f32) (a7 a8 : FVec Ideal S64x128 .f32) (a9 a10 a11 : FVec Ideal S128 .f32)
    (a12 a13 : FVec Ideal S128x256 .f32) (a14 a15 a16 : FVec Ideal S256 .f32) (a17 : FVec Ideal S256x128 .f32)
    (a18 : FVec Ideal S128 .f32) (a19 : FVec Ideal S128x1 .f32) (a20 : FVec Ideal S1 .f32)
    (h : (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i)) ∧ (∀ i, IsReal (a15 i))
      ∧ (∀ i, IsReal (a16 i)) ∧ (∀ i, IsReal (a17 i)) ∧ (∀ i, IsReal (a18 i)) ∧ (∀ i, IsReal (a19 i)) ∧ (∀ i, IsReal (a20 i))) :
    kout a0 a1 a2 a3 a4 a5 a6 a7 a8 a9 a10 a11 a12 a13 a14 a15 a16 a17 a18 a19 a20
      = refOut a0 a1 a2 a3 a4 a5 a6 a7 a8 a9 a10 a11 a12 a13 a14 a15 a16 a17 a18 a19 a20 := by
  obtain ⟨h0, h2, h3, h4, h5, h6, h7, h8, h9, h10, h11, h12, h13, h14, h15, h16, h17, h18, h19, h20⟩ := h
  exact kout_eq_refOut a0 a1 a2 a3 a4 a5 a6 a7 a8 a9 a10 a11 a12 a13 a14 a15 a16 a17 a18 a19 a20
    h0 h2 h3 h4 h5 h6 h7 h8 h9 h10 h11 h12 h13 h14 h15 h16 h17 h18 h19 h20

end Cert.Bridge

end
-- ==== Proof.PreReal.lean ====
/-
  From the certificate's precondition to "every float argument is a real". The precondition tests each float
  array entry by entry, `|x| < +∞`, takes the conjunction over each array, and the conjunction of the twenty
  results; on the extended reals `|x| = max x (-x) < ⊤` holds exactly when `x` is neither `⊤` nor `⊥`, that is,
  when `x` is the image of a real.
-/
import Idealize.ShloMosaic.Lib.ReduceAll
import Idealize.ShloMosaic.PureOps.Ideal
import proofs.«115009_j15960098472830_1_alg».proof.Pre_finite_inputs
import proofs.«115009_j15960098472830_1_alg».proof.Proof.LibTileSum

noncomputable section

namespace Cert.PreReal

open Idealize.ShloMosaic Cert.TileSum Cert.Pre_finite_inputs

/-- The shape of rank zero has one index. -/
instance : Subsingleton S_.Idx := ⟨fun _ _ => funext fun d => d.elim0⟩

/-- An extended real whose absolute value `max x (-x)` is below `⊤` is a real. -/
theorem isReal_of_abs_lt_top (x : EReal) (h : max x (-x) < ⊤) : IsReal x := by
  induction x using EReal.rec with
  | bot => simp at h
  | top => simp at h
  | coe r => exact isReal_coe r

/-- The pattern `0x7F800000` denotes `⊤`. -/
theorem ofBits_f32_inf : Ideal.ofBits .f32 0x7F800000#32 = ⊤ := by simp [Ideal.ofBits, Ideal.ieee]

/-- If the comparison `|x| < +∞`, read as a one-bit word, is `1`, then `x` is a real. -/
theorem isReal_of_abs_olt_inf (x : Ideal .f32)
    (h : FloatOps.cmpf .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [ofBits_f32_inf] at h
  unfold Ideal.cmp at h
  by_cases hlt : max (x : EReal) (-(x : EReal)) < ⊤
  · exact isReal_of_abs_lt_top x hlt
  · simp [hlt] at h

/-- If the conjunction over a whole array of the comparisons `|x| < +∞` is `1`, every entry of the array is a real. -/
theorem isReal_of_all {s : Shape} {axes : List (Fin s.rank)} (a : FVec Ideal s .f32)
    (hb : S_.BroadcastsInDim s (![] : Fin 0 → Fin s.rank)) (hr : s.ReducesTo axes S_) (hu : 0 < S_.numel) (j : S_.Idx)
    (h : Host.reduce IntOp.andi
        (cmpf .olt (Host.absf a) (broadcastInDim s ![] hb (constant S_ .f32 0x7F800000#32)))
        (constantI S_ 1 1#1) hr hu j = 1#1) :
    ∀ i, IsReal (a i) := fun i =>
  isReal_of_abs_olt_inf (a i) (Host.reduce_andi_all _ _ hr hu j h i)

/-- A conjunction of two one-bit arrays of rank zero is `1` exactly when both are. -/
theorem andi_apply_eq_one (x y : IVec S_ 1) (j : S_.Idx) : andi x y j = 1#1 ↔ x j = 1#1 ∧ y j = 1#1 :=
  IntOp.andi_eq_one

variable [Facts]

/-- Under the precondition every entry of every float argument is a real. -/
theorem isReal_of_pre
    (a0 : FVec Ideal S100000x6 .f32) (a1 : IVec S2x1600000 32) (a2 : FVec Ideal S6x64 .f32) (a3 : FVec Ideal S6x64 .f32)
    (a4 : FVec Ideal S64 .f32) (a5 : FVec Ideal S64 .f32) (a6 : FVec Ideal S64 .f32) (a7 : FVec Ideal S64x128 .f32)
    (a8 : FVec Ideal S64x128 .f32) (a9 : FVec Ideal S128 .f32) (a10 : FVec Ideal S128 .f32) (a11 : FVec Ideal S128 .f32)
    (a12 : FVec Ideal S128x256 .f32) (a13 : FVec Ideal S128x256 .f32) (a14 : FVec Ideal S256 .f32)
    (a15 : FVec Ideal S256 .f32) (a16 : FVec Ideal S256 .f32) (a17 : FVec Ideal S256x128 .f32)
    (a18 : FVec Ideal S128 .f32) (a19 : FVec Ideal S128x1 .f32) (a20 : FVec Ideal S1 .f32)
    (h : fn (F := Ideal) a0 a1 a2 a3 a4 a5 a6 a7 a8 a9 a10 a11 a12 a13 a14 a15 a16 a17 a18 a19 a20 = fun _ => 1#1) :
    (∀ i, IsReal (a0 i)) ∧ (∀ i, IsReal (a2 i)) ∧ (∀ i, IsReal (a3 i)) ∧ (∀ i, IsReal (a4 i)) ∧ (∀ i, IsReal (a5 i))
    ∧ (∀ i, IsReal (a6 i)) ∧ (∀ i, IsReal (a7 i)) ∧ (∀ i, IsReal (a8 i)) ∧ (∀ i, IsReal (a9 i)) ∧ (∀ i, IsReal (a10 i))
    ∧ (∀ i, IsReal (a11 i)) ∧ (∀ i, IsReal (a12 i)) ∧ (∀ i, IsReal (a13 i)) ∧ (∀ i, IsReal (a14 i)) ∧ (∀ i, IsReal (a15 i))
    ∧ (∀ i, IsReal (a16 i)) ∧ (∀ i, IsReal (a17 i)) ∧ (∀ i, IsReal (a18 i)) ∧ (∀ i, IsReal (a19 i)) ∧ (∀ i, IsReal (a20 i)) := by
  have h0 := congrFun h (fun d => d.elim0)
  dsimp only [fn, fn_part1, fn_part2, fn_part3, fn_part4, fn_part5] at h0
  simp only [andi_apply_eq_one] at h0
  obtain ⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩ := h0
  exact ⟨isReal_of_all a0 _ _ _ _ h0, isReal_of_all a2 _ _ _ _ h2, isReal_of_all a3 _ _ _ _ h3, isReal_of_all a4 _ _ _ _ h4,
    isReal_of_all a5 _ _ _ _ h5, isReal_of_all a6 _ _ _ _ h6, isReal_of_all a7 _ _ _ _ h7, isReal_of_all a8 _ _ _ _ h8,
    isReal_of_all a9 _ _ _ _ h9, isReal_of_all a10 _ _ _ _ h10, isReal_of_all a11 _ _ _ _ h11, isReal_of_all a12 _ _ _ _ h12,
    isReal_of_all a13 _ _ _ _ h13, isReal_of_all a14 _ _ _ _ h14, isReal_of_all a15 _ _ _ _ h15, isReal_of_all a16 _ _ _ _ h16,
    isReal_of_all a17 _ _ _ _ h17, isReal_of_all a18 _ _ _ _ h18, isReal_of_all a19 _ _ _ _ h19, isReal_of_all a20 _ _ _ _ h20⟩

end Cert.PreReal

end
-- ==== Proof.lean ====
/-
  The certificate of the graph network: three layers of "sum each node's in-neighbours' features, apply two weight matrices
  and a bias, normalise every column by its mean and variance over the 100000 nodes, scale, shift and cut off below at
  zero", followed by a two-matrix head, computed once by a program of seven grid launches among host operations and once
  by a plain host program.

  Both programs run to completion without a fault and leave their argument arrays unchanged: for the launched program this
  is its generated frame, for the host program its run read operation by operation. The idealisation rewrote nothing, so
  "preserves" has nothing to state. For the value claim, the launched program's result is read off its run: the contents
  of every buffer at each boundary between launches and host stretches form a fold from the launch memory, each launch's
  output arrays being whole-array functions of its input arrays (the 50 row blocks of 2000 rows tile the arrays; the two
  carried rows of column sums add up block by block to the sums over all rows). Unfolding the fold gives the result as a
  composition of those functions of the arguments. The host program's result is the composition of its own stages.

  The two compositions differ in ONE place per layer: the variance of a column is computed as the mean of the squares minus
  the square of the mean on one side and as the mean of the squared deviations from the mean on the other. These agree on
  real numbers by distributivity, which fails at the infinities of the extended reals; so the precondition (every float
  input finite) is used, and realness is carried through each layer: gathers re-index, scatter-adds and matrix products
  are finite sums of products, the variance is a nonnegative real so its sum with the positive offset has a real
  reciprocal square root, and the maximum of two reals is real.
-/
import proofs.«115009_j15960098472830_1_alg».proof.Proof.Assembly
import proofs.«115009_j15960098472830_1_alg».proof.Proof.KFold
import proofs.«115009_j15960098472830_1_alg».proof.Proof.Bridge
import proofs.«115009_j15960098472830_1_alg».proof.Proof.PreReal

noncomputable section

namespace Cert.Proof

open Idealize.ShloMosaic Idealize.SL.Sem

/-- Under the precondition the launched program's result buffer ends at the host program's function of the arguments:
    the boundary fold unfolded to the composition of the launches' whole-array functions, and that composition equal to
    the host program's on arguments whose every entry is a real. -/
theorem value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_KernelIdeal (hPre_finite_inputs := Cert.Pre_finite_inputs.Gen.facts) m) :
    Cert.KernelIdeal.Gen.W15 (F := Ideal) m ρ c (Proc.devRef .tc Cert.KernelIdeal.main_v70)
      = Cert.ReferenceIdeal.RefStages.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  haveI : Cert.Pre_finite_inputs.Facts := Cert.Pre_finite_inputs.Gen.facts
  exact (Cert.KernelIdeal.KFold.kernel_value m ρ c).trans
    (Cert.Bridge.kout_eq_refOut_of_and (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      (Cert.PreReal.isReal_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)))

theorem claim : Cert.Claim := Cert.Assembly.claim_of_value value

end Cert.Proof

end
